-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)) (v2 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_v56) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v71) = v1 c
          ∧ r.2.mem ((c.tc : Thread Cert.ReferenceIdeal.nD Cert.ReferenceIdeal.τ).loc Cert.ReferenceIdeal.main_v72) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S32768x512 : Shape := ⟨2, ![32768, 512]⟩
abbrev S32768x1024 : Shape := ⟨2, ![32768, 1024]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S131072 : Shape := ⟨1, ![131072]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S32768x512 : S_.BroadcastsInDim S32768x512 (![] : Fin 0 → Fin S32768x512.rank)
  reducesTo_S32768x512_S_d0_1 : S32768x512.ReducesTo [0, 1] S_
  bcast_S_S32768x1024 : S_.BroadcastsInDim S32768x1024 (![] : Fin 0 → Fin S32768x1024.rank)
  reducesTo_S32768x1024_S_d0_1 : S32768x1024.ReducesTo [0, 1] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S512x512 : S_.BroadcastsInDim S512x512 (![] : Fin 0 → Fin S512x512.rank)
  reducesTo_S512x512_S_d0_1 : S512x512.ReducesTo [0, 1] S_
  bcast_S_S1024x512 : S_.BroadcastsInDim S1024x512 (![] : Fin 0 → Fin S1024x512.rank)
  reducesTo_S1024x512_S_d0_1 : S1024x512.ReducesTo [0, 1] S_

variable [Facts]

def fn_part3 {F : FTy → Type} [FloatOps F] (main_arg11 : FVec F S512 .f32) (main_v48 : IVec S_ 1) (main_v49 : FVec F S512x512 .f32) (main_v50 : FVec F S512x512 .f32) : IVec S_ 1 :=
  let main_v51 : IVec S512x512 1 := cmpf .olt main_v49 main_v50
  let main_c_19 : IVec S_ 1 := constantI S_ 1 1#1
  let main_v52 : IVec S_ 1 := (fun x v => Host.reduce IntOp.andi x v reducesTo_S512x512_S_d0_1 h_S_) main_v51 main_c_19
  let main_v53 : IVec S_ 1 := andi main_v48 main_v52
  let main_v54 : FVec F S512 .f32 := Host.absf main_arg11
  let main_cst_20 : FVec F S_ .f32 := constant S_ .f32 0x7F800000#32
  let main_v55 : FVec F S512 .f32 := broadcastInDim S512 ![] bcast_S_S512 main_cst_20
  let main_v56 : IVec S512 1 := cmpf .olt main_v54 main_v55
  let main_c_21 : IVec S_ 1 := constantI S_ 1 1#1
  let main_v57 : IVec S_ 1 := (fun x v => Host.reduce IntOp.andi x v reducesTo_S512_S_d0 h_S_) main_v56 main_c_21
  let main_v58 : IVec S_ 1 := andi main_v53 main_v57
  main_v58

def fn_part2 {F : FTy → Type} [FloatOps F] (main_arg7 : FVec F S1024x512 .f32) (main_arg8 : FVec F S512 .f32) (main_arg9 : FVec F S512 .f32) (main_arg10 : FVec F S512x512 .f32) (main_arg11 : FVec F S512 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512 .f32 := Host.absf main_arg9
  let main_cst_16 : FVec F S_ .f32 := constant S_ .f32 0x7F800000#32
  let main_v45 : FVec F S512 .f32 := broadcastInDim S512 ![] bcast_S_S512 main_cst_16
  let main_v46 : IVec S512 1 := cmpf .olt main_v44 main_v45
  let main_c_17 : IVec S_ 1 := constantI S_ 1 1#1
  let main_v47 : IVec S_ 1 := (fun x v => Host.reduce IntOp.andi x v reducesTo_S512_S_d0 h_S_) main_v46 main_c_17
  let main_v48 : IVec S_ 1 := andi main_v43 main_v47
  let main_v49 : FVec F S512x512 .f32 := Host.absf main_arg10
  let main_cst_18 : FVec F S_ .f32 := constant S_ .f32 0x7F800000#32
  let main_v50 : FVec F S512x512 .f32 := broadcastInDim S512x512 ![] bcast_S_S512x512 main_cst_18
  fn_part3 (F := F) main_arg11 main_v48 main_v49 main_v50

def fn_part1 {F : FTy → Type} [FloatOps F] (main_arg4 : FVec F S512 .f32) (main_arg5 : FVec F S512x512 .f32) (main_arg6 : FVec F S512 .f32) (main_arg7 : FVec F S1024x512 .f32) (main_arg8 : FVec F S512 .f32) (main_arg9 : FVec F S512 .f32) (main_arg10 : FVec F S512x512 .f32) (main_arg11 : FVec F S512 .f32) (main_v13 : IVec S_ 1) (main_v16 : IVec S256x512 1) : IVec S_ 1 :=
  let main_c_5 : IVec S_ 1 := constantI S_ 1 1#1
  let main_v17 : IVec S_ 1 := (fun x v => Host.reduce IntOp.andi x v reducesTo_S256x512_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg5
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S65536x256 .f32) (main_arg1 : FVec F S32768x512 .f32) (main_arg2 : FVec F S32768x1024 .f32) (main_arg3 : FVec F S256x512 .f32) (main_arg4 : FVec F S512 .f32) (main_arg5 : FVec F S512x512 .f32) (main_arg6 : FVec F S512 .f32) (main_arg7 : FVec F S1024x512 .f32) (main_arg8 : FVec F S512 .f32) (main_arg9 : FVec F S512 .f32) (main_arg10 : FVec F S512x512 .f32) (main_arg11 : FVec F S512 .f32) (main_arg12 : IVec S131072 32) (main_arg13 : IVec S131072 32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S32768x512 .f32 := Host.absf main_arg1
  let main_cst_0 : FVec F S_ .f32 := constant S_ .f32 0x7F800000#32
  let main_v5 : FVec F S32768x512 .f32 := broadcastInDim S32768x512 ![] bcast_S_S32768x512 main_cst_0
  let main_v6 : IVec S32768x512 1 := cmpf .olt main_v4 main_v5
  let main_c_1 : IVec S_ 1 := constantI S_ 1 1#1
  let main_v7 : IVec S_ 1 := (fun x v => Host.reduce IntOp.andi x v reducesTo_S32768x512_S_d0_1 h_S_) main_v6 main_c_1
  let main_v8 : IVec S_ 1 := andi main_v3 main_v7
  let main_v9 : FVec F S32768x1024 .f32 := Host.absf main_arg2
  let main_cst_2 : FVec F S_ .f32 := constant S_ .f32 0x7F800000#32
  let main_v10 : FVec F S32768x1024 .f32 := broadcastInDim S32768x1024 ![] bcast_S_S32768x1024 main_cst_2
  let main_v11 : IVec S32768x1024 1 := cmpf .olt main_v9 main_v10
  let main_c_3 : IVec S_ 1 := constantI S_ 1 1#1
  let main_v12 : IVec S_ 1 := (fun x v => Host.reduce IntOp.andi x v reducesTo_S32768x1024_S_d0_1 h_S_) main_v11 main_c_3
  let main_v13 : IVec S_ 1 := andi main_v8 main_v12
  let main_v14 : FVec F S256x512 .f32 := Host.absf main_arg3
  let main_cst_4 : FVec F S_ .f32 := constant S_ .f32 0x7F800000#32
  let main_v15 : FVec F S256x512 .f32 := broadcastInDim S256x512 ![] bcast_S_S256x512 main_cst_4
  let main_v16 : IVec S256x512 1 := cmpf .olt main_v14 main_v15
  fn_part1 (F := F) main_arg4 main_arg5 main_arg6 main_arg7 main_arg8 main_arg9 main_arg10 main_arg11 main_v13 main_v16
-- ==== Kernel.lean ====
abbrev S65536x256 : Shape := ⟨2, ![65536, 256]⟩
abbrev S32768x512 : Shape := ⟨2, ![32768, 512]⟩
abbrev S32768x1024 : Shape := ⟨2, ![32768, 1024]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S131072 : Shape := ⟨1, ![131072]⟩
abbrev S65536x512 : Shape := ⟨2, ![65536, 512]⟩
abbrev S1024x256 : Shape := ⟨2, ![1024, 256]⟩
abbrev S1x512 : Shape := ⟨2, ![1, 512]⟩
abbrev S1024x1024 : Shape := ⟨2, ![1024, 1024]⟩
abbrev S131072x512 : Shape := ⟨2, ![131072, 512]⟩
abbrev S262144 : Shape := ⟨1, ![262144]⟩
abbrev S_ : Shape := ⟨0, ![]⟩
abbrev S262144x1 : Shape := ⟨2, ![262144, 1]⟩
abbrev S131072x1 : Shape := ⟨2, ![131072, 1]⟩
abbrev S262144x512 : Shape := ⟨2, ![262144, 512]⟩
abbrev S2048x512 : Shape := ⟨2, ![2048, 512]⟩

abbrev nBuf : Space → Nat
  | .hbm => 88
  | .vmem => 29
  | .smem => 0
  | _ => 0

abbrev bufTy : (tb : Table) → Fin (tcTables nBuf tb) → BufTy
  | .hbm, ⟨0, _⟩ => ⟨S65536x256, .f32⟩
  | .hbm, ⟨1, _⟩ => ⟨S32768x512, .f32⟩
  | .hbm, ⟨2, _⟩ => ⟨S32768x1024, .f32⟩
  | .hbm, ⟨3, _⟩ => ⟨S256x512, .f32⟩
  | .hbm, ⟨4, _⟩ => ⟨S512, .f32⟩
  | .hbm, ⟨5, _⟩ => ⟨S512x512, .f32⟩
  | .hbm, ⟨6, _⟩ => ⟨S512, .f32⟩
  | .hbm, ⟨7, _⟩ => ⟨S1024x512, .f32⟩
  | .hbm, ⟨8, _⟩ => ⟨S512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S131072, .i32⟩
  | .hbm, ⟨13, _⟩ => ⟨S131072, .i32⟩
  | .hbm, ⟨14, _⟩ => ⟨S65536x512, .f32⟩
  | .hbm, ⟨15, _⟩ => ⟨S32768x512, .f32⟩
  | .hbm, ⟨16, _⟩ => ⟨S32768x512, .f32⟩
  | .hbm, ⟨17, _⟩ => ⟨S131072x512, .f32⟩
  | .hbm, ⟨18, _⟩ => ⟨S131072, .i32⟩
  | .hbm, ⟨19, _⟩ => ⟨S262144, .i32⟩
  | .hbm, ⟨20, _⟩ => ⟨S262144, .i32⟩
  | .hbm, ⟨21, _⟩ => ⟨S_, .f32⟩
  | .hbm, ⟨22, _⟩ => ⟨S262144, .f32⟩
  | .hbm, ⟨23, _⟩ => ⟨S_, .f32⟩
  | .hbm, ⟨24, _⟩ => ⟨S131072, .f32⟩
  | .hbm, ⟨25, _⟩ => ⟨S262144x1, .i32⟩
  | .hbm, ⟨26, _⟩ => ⟨S131072, .f32⟩
  | .hbm, ⟨27, _⟩ => ⟨S_, .f32⟩
  | .hbm, ⟨28, _⟩ => ⟨S131072, .f32⟩
  | .hbm, ⟨29, _⟩ => ⟨S262144x1, .i32⟩
  | .hbm, ⟨30, _⟩ => ⟨S131072, .f32⟩
  | .hbm, ⟨31, _⟩ => ⟨S_, .f32⟩
  | .hbm, ⟨32, _⟩ => ⟨S_, .f32⟩
  | .hbm, ⟨33, _⟩ => ⟨S131072, .f32⟩
  | .hbm, ⟨34, _⟩ => ⟨S131072, .f32⟩
  | .hbm, ⟨35, _⟩ => ⟨S_, .f32⟩
  | .hbm, ⟨36, _⟩ => ⟨S131072, .f32⟩
  | .hbm, ⟨37, _⟩ => ⟨S131072, .f32⟩
  | .hbm, ⟨38, _⟩ => ⟨S_, .f32⟩
  | .hbm, ⟨39, _⟩ => ⟨S_, .f32⟩
  | .hbm, ⟨40, _⟩ => ⟨S131072, .f32⟩
  | .hbm, ⟨41, _⟩ => ⟨S131072, .f32⟩
  | .hbm, ⟨42, _⟩ => ⟨S_, .f32⟩
  | .hbm, ⟨43, _⟩ => ⟨S131072, .f32⟩
  | .hbm, ⟨44, _⟩ => ⟨S131072, .f32⟩
  | .hbm, ⟨45, _⟩ => ⟨S131072x1, .f32⟩
  | .hbm, ⟨46, _⟩ => ⟨S131072x512, .f32⟩
  | .hbm, ⟨47, _⟩ => ⟨S131072x512, .f32⟩
  | .hbm, ⟨48, _⟩ => ⟨S_, .i32⟩
  | .hbm, ⟨49, _⟩ => ⟨S262144, .i32⟩
  | .hbm, ⟨50, _⟩ => ⟨S262144, .i1⟩
  | .hbm, ⟨51, _⟩ => ⟨S_, .i32⟩
  | .hbm, ⟨52, _⟩ => ⟨S262144, .i32⟩
  | .hbm, ⟨53, _⟩ => ⟨S262144, .i32⟩
  | .hbm, ⟨54, _⟩ => ⟨S262144, .i32⟩
  | .hbm, ⟨55, _⟩ => ⟨S262144x1, .i32⟩
  | .hbm, ⟨56, _⟩ => ⟨S262144x512, .f32⟩
  | .hbm, ⟨57, _⟩ => ⟨S_, .f32⟩
  | .hbm, ⟨58, _⟩ => ⟨S131072x512, .f32⟩
  | .hbm, ⟨59, _⟩ => ⟨S262144x1, .i32⟩
  | .hbm, ⟨60, _⟩ => ⟨S131072x512, .f32⟩
  | .hbm, ⟨61, _⟩ => ⟨S131072x1, .f32⟩
  | .hbm, ⟨62, _⟩ => ⟨S131072x512, .f32⟩
  | .hbm, ⟨63, _⟩ => ⟨S131072x512, .f32⟩
  | .hbm, ⟨64, _⟩ => ⟨S131072x512, .f32⟩
  | .hbm, ⟨65, _⟩ => ⟨S131072x1, .f32⟩
  | .hbm, ⟨66, _⟩ => ⟨S131072x512, .f32⟩
  | .hbm, ⟨67, _⟩ => ⟨S131072x512, .f32⟩
  | .hbm, ⟨68, _⟩ => ⟨S_, .i32⟩
  | .hbm, ⟨69, _⟩ => ⟨S262144, .i32⟩
  | .hbm, ⟨70, _⟩ => ⟨S262144, .i1⟩
  | .hbm, ⟨71, _⟩ => ⟨S_, .i32⟩
  | .hbm, ⟨72, _⟩ => ⟨S262144, .i32⟩
  | .hbm, ⟨73, _⟩ => ⟨S262144, .i32⟩
  | .hbm, ⟨74, _⟩ => ⟨S262144, .i32⟩
  | .hbm, ⟨75, _⟩ => ⟨S262144x1, .i32⟩
  | .hbm, ⟨76, _⟩ => ⟨S262144x512, .f32⟩
  | .hbm, ⟨77, _⟩ => ⟨S_, .f32⟩
  | .hbm, ⟨78, _⟩ => ⟨S131072x512, .f32⟩
  | .hbm, ⟨79, _⟩ => ⟨S262144x1, .i32⟩
  | .hbm, ⟨80, _⟩ => ⟨S131072x512, .f32⟩
  | .hbm, ⟨81, _⟩ => ⟨S131072x1, .f32⟩
  | .hbm, ⟨82, _⟩ => ⟨S131072x512, .f32⟩
  | .hbm, ⟨83, _⟩ => ⟨S131072x512, .f32⟩
  | .hbm, ⟨84, _⟩ => ⟨S131072x512, .f32⟩
  | .hbm, ⟨85, _⟩ => ⟨S65536x512, .f32⟩
  | .hbm, ⟨86, _⟩ => ⟨S32768x512, .f32⟩
  | .hbm, ⟨87, _⟩ => ⟨S32768x512, .f32⟩
  | .local _ .vmem, ⟨0, _⟩ => ⟨S1024x256, .f32⟩
  | .local _ .vmem, ⟨1, _⟩ => ⟨S1024x256, .f32⟩
  | .local _ .vmem, ⟨2, _⟩ => ⟨S256x512, .f32⟩
  | .local _ .vmem, ⟨3, _⟩ => ⟨S512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S512x512, .f32⟩
  | .local _ .vmem, ⟨9, _⟩ => ⟨S512, .f32⟩
  | .local _ .vmem, ⟨10, _⟩ => ⟨S1024x512, .f32⟩
  | .local _ .vmem, ⟨11, _⟩ => ⟨S1024x512, .f32⟩
  | .local _ .vmem, ⟨12, _⟩ => ⟨S1024x1024, .f32⟩
  | .local _ .vmem, ⟨13, _⟩ => ⟨S1024x1024, .f32⟩
  | .local _ .vmem, ⟨14, _⟩ => ⟨S1024x512, .f32⟩
  | .local _ .vmem, ⟨15, _⟩ => ⟨S512, .f32⟩
  | .local _ .vmem, ⟨16, _⟩ => ⟨S1024x512, .f32⟩
  | .local _ .vmem, ⟨17, _⟩ => ⟨S1024x512, .f32⟩
  | .local _ .vmem, ⟨18, _⟩ => ⟨S2048x512, .f32⟩
  | .local _ .vmem, ⟨19, _⟩ => ⟨S2048x512, .f32⟩
  | .local _ .vmem, ⟨20, _⟩ => ⟨S512, .f32⟩
  | .local _ .vmem, ⟨21, _⟩ => ⟨S2048x512, .f32⟩
  | .local _ .vmem, ⟨22, _⟩ => ⟨S2048x512, .f32⟩
  | .local _ .vmem, ⟨23, _⟩ => ⟨S1024x512, .f32⟩
  | .local _ .vmem, ⟨24, _⟩ => ⟨S1024x512, .f32⟩
  | .local _ .vmem, ⟨25, _⟩ => ⟨S512x512, .f32⟩
  | .local _ .vmem, ⟨26, _⟩ => ⟨S512, .f32⟩
  | .local _ .vmem, ⟨27, _⟩ => ⟨S1024x512, .f32⟩
  | .local _ .vmem, ⟨28, _⟩ => ⟨S1024x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_cst_5 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_8 : Ref sig .tc := ⟨.hbm, 68, rfl⟩
abbrev main_v40 : Ref sig .tc := ⟨.hbm, 69, rfl⟩
abbrev main_v41 : Ref sig .tc := ⟨.hbm, 70, rfl⟩
abbrev main_c_9 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_10 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![64], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x512 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2048x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![128], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x512 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x512 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512_S512_0 : ∀ a, (![0] : Fin 1 → Nat) a + S512.size a ≤ S512.size a
  h_S512 : 0 < S512.numel
  shapeCasts_S512_S1x512 : S512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  inb_S1024x1024_S1024x1024_0_0 : ∀ a, (![0, 0] : Fin 2 → Nat) a + S1024x1024.size a ≤ S1024x1024.size a
  h_S1024x1024 : 0 < S1024x1024.numel
  concatenates_S65536x512_S32768x512_S32768x512_S131072x512_d0 : Shape.Concatenates [S65536x512, S32768x512, S32768x512] S131072x512 0
  concatenates_S131072_S131072_S262144_d0 : Shape.Concatenates [S131072, S131072] S262144 0
  bcast_S_S262144 : S_.BroadcastsInDim S262144 (![] : Fin 0 → Fin S262144.rank)
  bcast_S_S131072 : S_.BroadcastsInDim S131072 (![] : Fin 0 → Fin S131072.rank)
  bcast_S262144_S262144x1_0 : S262144.BroadcastsInDim S262144x1 (![0] : Fin 1 → Fin S262144x1.rank)
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S_S131072x512 : S_.BroadcastsInDim S131072x512 (![] : Fin 0 → Fin S131072x512.rank)
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  broadcasts_S1x512_S2048x512 : S1x512.Broadcasts S2048x512
  shapeCasts_S1024x512_S1024x512 : S1024x512.ShapeCasts S1024x512
  slices_S131072x512_S65536x512_0_0 : S131072x512.Slices ![0, 0] S65536x512
  slices_S131072x512_S32768x512_65536_0 : S131072x512.Slices ![65536, 0] S32768x512
  slices_S131072x512_S32768x512_98304_0 : S131072x512.Slices ![98304, 0] S32768x512
  dot_S1024x256_S256x512_S1024x512_1_0_0_1_n_n_wf : DotDims.WF S1024x256 S256x512 S1024x512 [1] [0] [0] [1] [] []
  dot_S1024x512_S512x512_S1024x512_1_0_0_1_n_n_wf : DotDims.WF S1024x512 S512x512 S1024x512 [1] [0] [0] [1] [] []
  dot_S1024x1024_S1024x512_S1024x512_1_0_0_1_n_n_wf : DotDims.WF S1024x1024 S1024x512 S1024x512 [1] [0] [0] [1] [] []
  scatter_S131072_S262144x1_S262144_n_0_0_1_wf : ScatterDims.WF S131072 S262144x1 S262144 [] [0] [0] 1
  gather_S131072x512_S262144x1_S262144x512_1_0_n_n_0_1_1512_wf : GatherDims.WF S131072x512 S262144x1 S262144x512 [1] [0] [] [0] [] 1 ![1, 512]
  scatter_S131072x512_S262144x1_S262144x512_1_0_0_1_wf : ScatterDims.WF S131072x512 S262144x1 S262144x512 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512.size a ≤ S512.size a
  hwx0_2 : ∀ i : grid0.Coords, EltTy.bits .f32 = 32 ∨ (Rect.block (s := S512) S512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S65536x512.size a
  hwx0_3 : ∀ i : grid0.Coords, EltTy.bits .f32 = 32 ∨ (Rect.block (s := S65536x512) S1024x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S32768x512.size a
  hwx1_0 : ∀ i : grid1.Coords, EltTy.bits .f32 = 32 ∨ (Rect.block (s := S32768x512) S1024x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x512.size a ≤ S512x512.size a
  hwx1_1 : ∀ i : grid1.Coords, EltTy.bits .f32 = 32 ∨ (Rect.block (s := S512x512) S512x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x512.size a
  hwx1_3 : ∀ i : grid1.Coords, EltTy.bits .f32 = 32 ∨ (Rect.block (s := S32768x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S32768x1024.size a
  hwx2_0 : ∀ i : grid2.Coords, EltTy.bits .f32 = 32 ∨ (Rect.block (s := S32768x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x512.size a ≤ S1024x512.size a
  hwx2_1 : ∀ i : grid2.Coords, EltTy.bits .f32 = 32 ∨ (Rect.block (s := S1024x512) S1024x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512.size a ≤ S512.size a
  hwx2_2 : ∀ i : grid2.Coords, EltTy.bits .f32 = 32 ∨ (Rect.block (s := S512) S512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S32768x512.size a
  hwx2_3 : ∀ i : grid2.Coords, EltTy.bits .f32 = 32 ∨ (Rect.block (s := S32768x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x512.size a ≤ S131072x512.size a
  hwx3_0 : ∀ i : grid3.Coords, EltTy.bits .f32 = 32 ∨ (Rect.block (s := S131072x512) S2048x512.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512.size a ≤ S512.size a
  hwx3_1 : ∀ i : grid3.Coords, EltTy.bits .f32 = 32 ∨ (Rect.block (s := S512) S512.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x512.size a ≤ S131072x512.size a
  hwx3_2 : ∀ i : grid3.Coords, EltTy.bits .f32 = 32 ∨ (Rect.block (s := S131072x512) S2048x512.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S131072x512.size a
  hwx4_0 : ∀ i : grid4.Coords, EltTy.bits .f32 = 32 ∨ (Rect.block (s := S131072x512) S1024x512.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S512x512.size a
  hwx4_1 : ∀ i : grid4.Coords, EltTy.bits .f32 = 32 ∨ (Rect.block (s := S512x512) S512x512.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S512.size a ≤ S512.size a
  hwx4_2 : ∀ i : grid4.Coords, EltTy.bits .f32 = 32 ∨ (Rect.block (s := S512) S512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S131072x512.size a
  hwx4_3 : ∀ i : grid4.Coords, EltTy.bits .f32 = 32 ∨ (Rect.block (s := S131072x512) S1024x512.size (cc4_transform_3 i) (hinb4_3 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def scatter_S131072_S262144x1_S262144_n_0_0_1 : ScatterDims S131072 S262144x1 S262144 where
  updateWindowDims := []
  insertedWindowDims := [0]
  scatterDimsToOperandDims := [0]
  indexVectorDim := 1
  wf := scatter_S131072_S262144x1_S262144_n_0_0_1_wf
def gather_S131072x512_S262144x1_S262144x512_1_0_n_n_0_1_1512 : GatherDims S131072x512 S262144x1 S262144x512 where
  offsetDims := [1]
  collapsedSliceDims := [0]
  operandBatchingDims := []
  startIndicesBatchingDims := []
  startIndexMap := [0]
  indexVectorDim := 1
  sliceSizes := ![1, 512]
  wf := gather_S131072x512_S262144x1_S262144x512_1_0_n_n_0_1_1512_wf
def scatter_S131072x512_S262144x1_S262144x512_1_0_0_1 : ScatterDims S131072x512 S262144x1 S262144x512 where
  updateWindowDims := [1]
  insertedWindowDims := [0]
  scatterDimsToOperandDims := [0]
  indexVectorDim := 1
  wf := scatter_S131072x512_S262144x1_S262144x512_1_0_0_1_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S512x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v2) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S2048x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg9) S512.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S2048x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S512x512.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v53) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S65536x256 : Shape := ⟨2, ![65536, 256]⟩
abbrev S32768x512 : Shape := ⟨2, ![32768, 512]⟩
abbrev S32768x1024 : Shape := ⟨2, ![32768, 1024]⟩
abbrev S256x512 : Shape := ⟨2, ![256, 512]⟩
abbrev S512 : Shape := ⟨1, ![512]⟩
abbrev S512x512 : Shape := ⟨2, ![512, 512]⟩
abbrev S1024x512 : Shape := ⟨2, ![1024, 512]⟩
abbrev S131072 : Shape := ⟨1, ![131072]⟩
abbrev S65536x512 : Shape := ⟨2, ![65536, 512]⟩
abbrev S1x512 : Shape := ⟨2, ![1, 512]⟩
abbrev S131072x512 : Shape := ⟨2, ![131072, 512]⟩
abbrev S262144 : Shape := ⟨1, ![262144]⟩
abbrev S_ : Shape := ⟨0, ![]⟩
abbrev S262144x1 : Shape := ⟨2, ![262144, 1]⟩
abbrev S131072x1 : Shape := ⟨2, ![131072, 1]⟩
abbrev S262144x512 : Shape := ⟨2, ![262144, 512]⟩

abbrev nBuf : Space → Nat
  | .hbm => 132
  | .vmem => 0
  | .smem => 0
  | _ => 0

abbrev hbmTy0_0 (i : Nat) : BufTy := match i % 128 with
  | 0 => ⟨S65536x256, .f32⟩
  | 1 => ⟨S32768x512, .f32⟩
  | 2 => ⟨S32768x1024, .f32⟩
  | 3 => ⟨S256x512, .f32⟩
  | 4 => ⟨S512, .f32⟩
  | 5 => ⟨S512x512, .f32⟩
  | 6 => ⟨S512, .f32⟩
  | 7 => ⟨S1024x512, .f32⟩
  | 8 => ⟨S512, .f32⟩
  | 9 => ⟨S512, .f32⟩
  | 10 => ⟨S512x512, .f32⟩
  | 11 => ⟨S512, .f32⟩
  | 12 => ⟨S131072, .i32⟩
  | 13 => ⟨S131072, .i32⟩
  | 14 => ⟨S65536x512, .f32⟩
  | 15 => ⟨S1x512, .f32⟩
  | 16 => ⟨S65536x512, .f32⟩
  | 17 => ⟨S65536x512, .f32⟩
  | 18 => ⟨S32768x512, .f32⟩
  | 19 => ⟨S1x512, .f32⟩
  | 20 => ⟨S32768x512, .f32⟩
  | 21 => ⟨S32768x512, .f32⟩
  | 22 => ⟨S32768x512, .f32⟩
  | 23 => ⟨S1x512, .f32⟩
  | 24 => ⟨S32768x512, .f32⟩
  | 25 => ⟨S32768x512, .f32⟩
  | 26 => ⟨S131072x512, .f32⟩
  | 27 => ⟨S131072, .i32⟩
  | 28 => ⟨S262144, .i32⟩
  | 29 => ⟨S262144, .i32⟩
  | 30 => ⟨S_, .f32⟩
  | 31 => ⟨S262144, .f32⟩
  | 32 => ⟨S_, .f32⟩
  | 33 => ⟨S131072, .f32⟩
  | 34 => ⟨S262144x1, .i32⟩
  | 35 => ⟨S131072, .f32⟩
  | 36 => ⟨S_, .f32⟩
  | 37 => ⟨S131072, .f32⟩
  | 38 => ⟨S262144x1, .i32⟩
  | 39 => ⟨S131072, .f32⟩
  | 40 => ⟨S_, .f32⟩
  | 41 => ⟨S_, .f32⟩
  | 42 => ⟨S131072, .f32⟩
  | 43 => ⟨S131072, .f32⟩
  | 44 => ⟨S_, .f32⟩
  | 45 => ⟨S131072, .f32⟩
  | 46 => ⟨S131072, .f32⟩
  | 47 => ⟨S_, .f32⟩
  | 48 => ⟨S_, .f32⟩
  | 49 => ⟨S131072, .f32⟩
  | 50 => ⟨S131072, .f32⟩
  | 51 => ⟨S_, .f32⟩
  | 52 => ⟨S131072, .f32⟩
  | 53 => ⟨S131072, .f32⟩
  | 54 => ⟨S131072x1, .f32⟩
  | 55 => ⟨S131072x512, .f32⟩
  | 56 => ⟨S131072x512, .f32⟩
  | 57 => ⟨S_, .i32⟩
  | 58 => ⟨S262144, .i32⟩
  | 59 => ⟨S262144, .i1⟩
  | 60 => ⟨S_, .i32⟩
  | 61 => ⟨S262144, .i32⟩
  | 62 => ⟨S262144, .i32⟩
  | 63 => ⟨S262144, .i32⟩
  | 64 => ⟨S262144x1, .i32⟩
  | 65 => ⟨S262144x512, .f32⟩
  | 66 => ⟨S_, .f32⟩
  | 67 => ⟨S131072x512, .f32⟩
  | 68 => ⟨S262144x1, .i32⟩
  | 69 => ⟨S131072x512, .f32⟩
  | 70 => ⟨S131072x1, .f32⟩
  | 71 => ⟨S131072x512, .f32⟩
  | 72 => ⟨S131072x512, .f32⟩
  | 73 => ⟨S1x512, .f32⟩
  | 74 => ⟨S131072x512, .f32⟩
  | 75 => ⟨S131072x512, .f32⟩
  | 76 => ⟨S_, .f32⟩
  | 77 => ⟨S131072x512, .f32⟩
  | 78 => ⟨S131072x512, .i1⟩
  | 79 => ⟨S_, .f32⟩
  | 80 => ⟨S131072x512, .f32⟩
  | 81 => ⟨S131072x512, .i1⟩
  | 82 => ⟨S_, .f32⟩
  | 83 => ⟨S_, .f32⟩
  | 84 => ⟨S131072x512, .f32⟩
  | 85 => ⟨S131072x512, .f32⟩
  | 86 => ⟨S131072x512, .f32⟩
  | 87 => ⟨S_, .f32⟩
  | 88 => ⟨S131072x512, .f32⟩
  | 89 => ⟨S131072x512, .f32⟩
  | 90 => ⟨S131072x512, .f32⟩
  | 91 => ⟨S131072x1, .f32⟩
  | 92 => ⟨S131072x512, .f32⟩
  | 93 => ⟨S131072x512, .f32⟩
  | 94 => ⟨S_, .i32⟩
  | 95 => ⟨S262144, .i32⟩
  | 96 => ⟨S262144, .i1⟩
  | 97 => ⟨S_, .i32⟩
  | 98 => ⟨S262144, .i32⟩
  | 99 => ⟨S262144, .i32⟩
  | 100 => ⟨S262144, .i32⟩
  | 101 => ⟨S262144x1, .i32⟩
  | 102 => ⟨S262144x512, .f32⟩
  | 103 => ⟨S_, .f32⟩
  | 104 => ⟨S131072x512, .f32⟩
  | 105 => ⟨S262144x1, .i32⟩
  | 106 => ⟨S131072x512, .f32⟩
  | 107 => ⟨S131072x1, .f32⟩
  | 108 => ⟨S131072x512, .f32⟩
  | 109 => ⟨S131072x512, .f32⟩
  | 110 => ⟨S131072x512, .f32⟩
  | 111 => ⟨S1x512, .f32⟩
  | 112 => ⟨S131072x512, .f32⟩
  | 113 => ⟨S131072x512, .f32⟩
  | 114 => ⟨S_, .f32⟩
  | 115 => ⟨S131072x512, .f32⟩
  | 116 => ⟨S131072x512, .i1⟩
  | 117 => ⟨S_, .f32⟩
  | 118 => ⟨S131072x512, .f32⟩
  | 119 => ⟨S131072x512, .i1⟩
  | 120 => ⟨S_, .f32⟩
  | 121 => ⟨S_, .f32⟩
  | 122 => ⟨S131072x512, .f32⟩
  | 123 => ⟨S131072x512, .f32⟩
  | 124 => ⟨S131072x512, .f32⟩
  | 125 => ⟨S_, .f32⟩
  | 126 => ⟨S131072x512, .f32⟩
  | 127 => ⟨S131072x512, .f32⟩
  | _ => ⟨S65536x256, .f32⟩

abbrev hbmTy0_1 (i : Nat) : BufTy := match i % 128 with
  | 0 => ⟨S131072x512, .f32⟩
  | 1 => ⟨S65536x512, .f32⟩
  | 2 => ⟨S32768x512, .f32⟩
  | 3 => ⟨S32768x512, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_cst_0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_1 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_call0_v0 : Ref sig .tc := ⟨.hbm, 41, rfl⟩
abbrev main_call0_v1 : Ref sig .tc := ⟨.hbm, 42, rfl⟩
abbrev main_v23 : Ref sig .tc := ⟨.hbm, 43, rfl⟩
abbrev main_cst_3 : Ref sig .tc := ⟨.hbm, 44, rfl⟩
abbrev main_v24 : Ref sig .tc := ⟨.hbm, 45, rfl⟩
abbrev main_v25 : Ref sig .tc := ⟨.hbm, 46, rfl⟩
abbrev main_cst_4 : Ref sig .tc := ⟨.hbm, 47, rfl⟩
abbrev main_call1_v0 : Ref sig .tc := ⟨.hbm, 48, rfl⟩
abbrev main_call1_v1 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_7 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call2_cst : Ref sig .tc := ⟨.hbm, 76, rfl⟩
abbrev main_call2_v0 : Ref sig .tc := ⟨.hbm, 77, rfl⟩
abbrev main_call2_v1 : Ref sig .tc := ⟨.hbm, 78, rfl⟩
abbrev main_call2_cst_0 : Ref sig .tc := ⟨.hbm, 79, rfl⟩
abbrev main_call2_v2 : Ref sig .tc := ⟨.hbm, 80, rfl⟩
abbrev main_call2_v3 : Ref sig .tc := ⟨.hbm, 81, rfl⟩
abbrev main_call2_cst_1 : Ref sig .tc := ⟨.hbm, 82, rfl⟩
abbrev main_call2_call0_v0 : Ref sig .tc := ⟨.hbm, 83, rfl⟩
abbrev main_call2_call0_v1 : Ref sig .tc := ⟨.hbm, 84, rfl⟩
abbrev main_call2_v4 : Ref sig .tc := ⟨.hbm, 85, rfl⟩
abbrev main_call2_v5 : Ref sig .tc := ⟨.hbm, 86, rfl⟩
abbrev main_call2_cst_2 : Ref sig .tc := ⟨.hbm, 87, rfl⟩
abbrev main_call2_v6 : Ref sig .tc := ⟨.hbm, 88, rfl⟩
abbrev main_call2_v7 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_c_8 : Ref sig .tc := ⟨.hbm, 94, rfl⟩
abbrev main_v52 : Ref sig .tc := ⟨.hbm, 95, rfl⟩
abbrev main_v53 : Ref sig .tc := ⟨.hbm, 96, rfl⟩
abbrev main_c_9 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_v58 : Ref sig .tc := ⟨.hbm, 102, rfl⟩
abbrev main_cst_10 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_call3_cst : Ref sig .tc := ⟨.hbm, 114, rfl⟩
abbrev main_call3_v0 : Ref sig .tc := ⟨.hbm, 115, rfl⟩
abbrev main_call3_v1 : Ref sig .tc := ⟨.hbm, 116, rfl⟩
abbrev main_call3_cst_0 : Ref sig .tc := ⟨.hbm, 117, rfl⟩
abbrev main_call3_v2 : Ref sig .tc := ⟨.hbm, 118, rfl⟩
abbrev main_call3_v3 : Ref sig .tc := ⟨.hbm, 119, rfl⟩
abbrev main_call3_cst_1 : Ref sig .tc := ⟨.hbm, 120, rfl⟩
abbrev main_call3_call0_v0 : Ref sig .tc := ⟨.hbm, 121, rfl⟩
abbrev main_call3_call0_v1 : Ref sig .tc := ⟨.hbm, 122, rfl⟩
abbrev main_call3_v4 : Ref sig .tc := ⟨.hbm, 123, rfl⟩
abbrev main_call3_v5 : Ref sig .tc := ⟨.hbm, 124, rfl⟩
abbrev main_call3_cst_2 : Ref sig .tc := ⟨.hbm, 125, rfl⟩
abbrev main_call3_v6 : Ref sig .tc := ⟨.hbm, 126, rfl⟩
abbrev main_call3_v7 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S1x512_S32768x512_0_1 : S1x512.BroadcastsInDim S32768x512 (![0, 1] : Fin 2 → Fin S32768x512.rank)
  concatenates_S65536x512_S32768x512_S32768x512_S131072x512_d0 : Shape.Concatenates [S65536x512, S32768x512, S32768x512] S131072x512 0
  concatenates_S131072_S131072_S262144_d0 : Shape.Concatenates [S131072, S131072] S262144 0
  bcast_S_S262144 : S_.BroadcastsInDim S262144 (![] : Fin 0 → Fin S262144.rank)
  bcast_S_S131072 : S_.BroadcastsInDim S131072 (![] : Fin 0 → Fin S131072.rank)
  bcast_S262144_S262144x1_0 : S262144.BroadcastsInDim S262144x1 (![0] : Fin 1 → Fin S262144x1.rank)
  bcast_S131072_S131072x1_0 : S131072.BroadcastsInDim S131072x1 (![0] : Fin 1 → Fin S131072x1.rank)
  bcast_S131072x1_S131072x512_0_1 : S131072x1.BroadcastsInDim S131072x512 (![0, 1] : Fin 2 → Fin S131072x512.rank)
  bcast_S_S131072x512 : S_.BroadcastsInDim S131072x512 (![] : Fin 0 → Fin S131072x512.rank)
  bcast_S1x512_S131072x512_0_1 : S1x512.BroadcastsInDim S131072x512 (![0, 1] : Fin 2 → Fin S131072x512.rank)
  slices_S131072x512_S65536x512_0_0 : S131072x512.Slices ![0, 0] S65536x512
  slices_S131072x512_S32768x512_65536_0 : S131072x512.Slices ![65536, 0] S32768x512
  slices_S131072x512_S32768x512_98304_0 : S131072x512.Slices ![98304, 0] S32768x512
  dot_S65536x256_S256x512_S65536x512_1_0_0_1_n_n_wf : DotDims.WF S65536x256 S256x512 S65536x512 [1] [0] [0] [1] [] []
  dot_S32768x512_S512x512_S32768x512_1_0_0_1_n_n_wf : DotDims.WF S32768x512 S512x512 S32768x512 [1] [0] [0] [1] [] []
  dot_S32768x1024_S1024x512_S32768x512_1_0_0_1_n_n_wf : DotDims.WF S32768x1024 S1024x512 S32768x512 [1] [0] [0] [1] [] []
  scatter_S131072_S262144x1_S262144_n_0_0_1_wf : ScatterDims.WF S131072 S262144x1 S262144 [] [0] [0] 1
  gather_S131072x512_S262144x1_S262144x512_1_0_n_n_0_1_1512_wf : GatherDims.WF S131072x512 S262144x1 S262144x512 [1] [0] [] [0] [] 1 ![1, 512]
  scatter_S131072x512_S262144x1_S262144x512_1_0_0_1_wf : ScatterDims.WF S131072x512 S262144x1 S262144x512 [1] [0] [0] 1
  dot_S131072x512_S512x512_S131072x512_1_0_0_1_n_n_wf : DotDims.WF S131072x512 S512x512 S131072x512 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S32768x512_S512x512_S32768x512_1_0_0_1_n_n : DotDims S32768x512 S512x512 S32768x512 where
  lhsContracting := [1]
  rhsContracting := [0]
  lhsNonContracting := [0]
  rhsNonContracting := [1]
  lhsBatch := []
  rhsBatch := []
  wf := dot_S32768x512_S512x512_S32768x512_1_0_0_1_n_n_wf
def dot_S32768x1024_S1024x512_S32768x512_1_0_0_1_n_n : DotDims S32768x1024 S1024x512 S32768x512 where
  lhsContracting := [1]
  rhsContracting := [0]
  lhsNonContracting := [0]
  rhsNonContracting := [1]
  lhsBatch := []
  rhsBatch := []
  wf := dot_S32768x1024_S1024x512_S32768x512_1_0_0_1_n_n_wf
def scatter_S131072_S262144x1_S262144_n_0_0_1 : ScatterDims S131072 S262144x1 S262144 where
  updateWindowDims := []
  insertedWindowDims := [0]
  scatterDimsToOperandDims := [0]
  indexVectorDim := 1
  wf := scatter_S131072_S262144x1_S262144_n_0_0_1_wf
def gather_S131072x512_S262144x1_S262144x512_1_0_n_n_0_1_1512 : GatherDims S131072x512 S262144x1 S262144x512 where
  offsetDims := [1]
  collapsedSliceDims := [0]
  operandBatchingDims := []
  startIndicesBatchingDims := []
  startIndexMap := [0]
  indexVectorDim := 1
  sliceSizes := ![1, 512]
  wf := gather_S131072x512_S262144x1_S262144x512_1_0_n_n_0_1_1512_wf
def scatter_S131072x512_S262144x1_S262144x512_1_0_0_1 : ScatterDims S131072x512 S262144x1 S262144x512 where
  updateWindowDims := [1]
  insertedWindowDims := [0]
  scatterDimsToOperandDims := [0]
  indexVectorDim := 1
  wf := scatter_S131072x512_S262144x1_S262144x512_1_0_0_1_wf
def dot_S131072x512_S512x512_S131072x512_1_0_0_1_n_n : DotDims S131072x512 S512x512 S131072x512 where
  lhsContracting := [1]
  rhsContracting := [0]
  lhsNonContracting := [0]
  rhsNonContracting := [1]
  lhsBatch := []
  rhsBatch := []
  wf := dot_S131072x512_S512x512_S131072x512_1_0_0_1_n_n_wf

class Facts : Prop extends Facts₀ where

variable [Facts]
-- ==== Proof.K.Data.lean ====
/-
  The five kernel regions of the program, each at a parameter `V` (the buffer contents when the region is entered):
  the block of each window at a grid point, what the body leaves in the output window's staging buffer as a function
  of the input blocks, and the pipeline's proof data built from these. Regions 0, 1, 2 and 4 multiply a block of rows
  by a resident weight matrix and add a resident bias row (region 4 then applies the exponential linear unit);
  region 3 adds a bias row to a block of rows and applies the exponential linear unit.
-/
import proofs.«139939_j23055384445693_1_alg».proof.Proof.Gen.Kernel.Launch
import proofs.«139939_j23055384445693_1_alg».proof.Proof.Gen.Kernel.Skeleton
import proofs.«139939_j23055384445693_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every definition below is stated at this parameter
variable (V : (c : Dev nD) → (b : Ref sig .tc) → Buf (Elt F) ((c : Thread nD τ).loc b))

/-! # Region 0: the windows' blocks, what the body leaves in the output window's buffer, the proof data -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x512 := Rect.unit (s := S256x512) ![0, 0] S256x512.size inb_S256x512_S256x512_0_0
abbrev r0_2 : Rect S512 := Rect.unit (s := S512) ![0] S512.size inb_S512_S512_0
abbrev r0_3 : Rect S1024x512 := Rect.unit (s := S1024x512) ![0, 0] S1024x512.size inb_S1024x512_S1024x512_0_0

/-- The output window's staging buffer after the body, as a function of the input windows' blocks: the body's one
    store of the whole block, its value the body's arithmetic on the loaded blocks. -/
def out0_3 (x0 : Vec F S1024x256 .f32) (x1 : Vec F S256x512 .f32) (x2 : Vec F S512 .f32) : Vec F S1024x512 .f32 :=
  View.canon [⟨r0_3, k0_pay1 (View.ld x0 r0_0) (View.ld x1 r0_1) (View.ld x2 r0_2)⟩]

/-- The proof data of the region's pipeline on core `c`: the arrays as the region finds them; after the body at point
    `t` each input's buffer still at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-! # Region 1: the windows' blocks, what the body leaves in the output window's buffer, the proof data -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x512 := Rect.unit (s := S1024x512) ![0, 0] S1024x512.size inb_S1024x512_S1024x512_0_0
abbrev r1_1 : Rect S512x512 := Rect.unit (s := S512x512) ![0, 0] S512x512.size inb_S512x512_S512x512_0_0
abbrev r1_2 : Rect S512 := Rect.unit (s := S512) ![0] S512.size inb_S512_S512_0
abbrev r1_3 : Rect S1024x512 := Rect.unit (s := S1024x512) ![0, 0] S1024x512.size inb_S1024x512_S1024x512_0_0

/-- The output window's staging buffer after the body, as a function of the input windows' blocks: the body's one
    store of the whole block, its value the body's arithmetic on the loaded blocks. -/
def out1_3 (x0 : Vec F S1024x512 .f32) (x1 : Vec F S512x512 .f32) (x2 : Vec F S512 .f32) : Vec F S1024x512 .f32 :=
  View.canon [⟨r1_3, k1_pay1 (View.ld x0 r1_0) (View.ld x1 r1_1) (View.ld x2 r1_2)⟩]

/-- The proof data of the region's pipeline on core `c`: the arrays as the region finds them; after the body at point
    `t` each input's buffer still at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! # Region 2: the windows' blocks, what the body leaves in the output window's buffer, the proof data -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x1024 := Rect.unit (s := S1024x1024) ![0, 0] S1024x1024.size inb_S1024x1024_S1024x1024_0_0
abbrev r2_1 : Rect S1024x512 := Rect.unit (s := S1024x512) ![0, 0] S1024x512.size inb_S1024x512_S1024x512_0_0
abbrev r2_2 : Rect S512 := Rect.unit (s := S512) ![0] S512.size inb_S512_S512_0
abbrev r2_3 : Rect S1024x512 := Rect.unit (s := S1024x512) ![0, 0] S1024x512.size inb_S1024x512_S1024x512_0_0

/-- The output window's staging buffer after the body, as a function of the input windows' blocks: the body's one
    store of the whole block, its value the body's arithmetic on the loaded blocks. -/
def out2_3 (x0 : Vec F S1024x1024 .f32) (x1 : Vec F S1024x512 .f32) (x2 : Vec F S512 .f32) : Vec F S1024x512 .f32 :=
  View.canon [⟨r2_3, k2_pay1 (View.ld x0 r2_0) (View.ld x1 r2_1) (View.ld x2 r2_2)⟩]

/-- The proof data of the region's pipeline on core `c`: the arrays as the region finds them; after the body at point
    `t` each input's buffer still at its block and the output's at `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-! # Region 3: the windows' blocks, what the body leaves in the output window's buffer, the proof data -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2048x512 := Rect.unit (s := S2048x512) ![0, 0] S2048x512.size inb_S2048x512_S2048x512_0_0
abbrev r3_1 : Rect S512 := Rect.unit (s := S512) ![0] S512.size inb_S512_S512_0
abbrev r3_2 : Rect S2048x512 := Rect.unit (s := S2048x512) ![0, 0] S2048x512.size inb_S2048x512_S2048x512_0_0

/-- The output window's staging buffer after the body, as a function of the input windows' blocks: the body's one
    store of the whole block, its value the body's arithmetic on the loaded blocks. -/
def out3_2 (x0 : Vec F S2048x512 .f32) (x1 : Vec F S512 .f32) : Vec F S2048x512 .f32 :=
  View.canon [⟨r3_2, k3_pay1 (View.ld x0 r3_0) (View.ld x1 r3_1)⟩]

/-- The proof data of the region's pipeline on core `c`: the arrays as the region finds them; after the body at point
    `t` each input's buffer still at its block and the output's at `out3_2` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-! # Region 4: the windows' blocks, what the body leaves in the output window's buffer, the proof data -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x512 := Rect.unit (s := S1024x512) ![0, 0] S1024x512.size inb_S1024x512_S1024x512_0_0
abbrev r4_1 : Rect S512x512 := Rect.unit (s := S512x512) ![0, 0] S512x512.size inb_S512x512_S512x512_0_0
abbrev r4_2 : Rect S512 := Rect.unit (s := S512) ![0] S512.size inb_S512_S512_0
abbrev r4_3 : Rect S1024x512 := Rect.unit (s := S1024x512) ![0, 0] S1024x512.size inb_S1024x512_S1024x512_0_0

/-- The output window's staging buffer after the body, as a function of the input windows' blocks: the body's one
    store of the whole block, its value the body's arithmetic on the loaded blocks. -/
def out4_3 (x0 : Vec F S1024x512 .f32) (x1 : Vec F S512x512 .f32) (x2 : Vec F S512 .f32) : Vec F S1024x512 .f32 :=
  View.canon [⟨r4_3, k4_pay1 (View.ld x0 r4_0) (View.ld x1 r4_1) (View.ld x2 r4_2)⟩]

/-- The proof data of the region's pipeline on core `c`: the arrays as the region finds them; after the body at point
    `t` each input's buffer still at its block and the output's at `out4_3` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

end Cert.Kernel.Hand

end
-- ==== Proof.K.Body0.lean ====
/-
  Region 0's body obligation. The body loads the three input windows' whole blocks, loads the output window's block
  once (a value nothing reads), and stores the whole output block once, its value the body's arithmetic on the three
  loaded blocks. So, whatever the output's staging buffer held, after the body it holds `out0_3` of the input
  blocks, and the inputs' buffers are as they were.
-/
import proofs.«139939_j23055384445693_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the weight matrix, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2 (the bias row, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store covers the output block -/

/-- The one store is of the whole block, so it covers it. -/
theorem cover0_3 (p0 : Vec F S1024x512 .f32) (y : S1024x512.Idx) :
    ∃ pc ∈ ([⟨r0_3, p0⟩] : List (View.Piece (Elt F) S1024x512 .f32)), y ∈ pc.1.set :=
  View.cover_of_tiled [⟨r0_3, p0⟩] S1024x512.size (by rfl) y

/-! ## The body's triple -/

set_option maxHeartbeats 1000000 in
/-- The body on whole staging memrefs, the inputs' at contents `x0`, `x1`, `x2` and the output's at anything, runs
    to the continuation holding the inputs' as they were and the output's at `out0_3 x0 x1 x2`: the three loads return
    the inputs' contents, the load of the output block returns a value that is dropped, and the store of the whole
    block overwrites whatever was there. -/
theorem sound_kernel0 (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S512 .f32) (harg3 : arg3.IsWhole) (arg4 : Memref sig .tc .vmem S1024x512 .f32) (harg4 : arg4.IsWhole)
    (x0 : Vec F S1024x256 .f32) (x1 : Vec F S256x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers before the body, for this region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
/-
  Region 1's body obligation. The body loads the three input windows' whole blocks, loads the output window's block
  once (a value nothing reads), and stores the whole output block once, its value the body's arithmetic on the three
  loaded blocks. So, whatever the output's staging buffer held, after the body it holds `out1_3` of the input
  blocks, and the inputs' buffers are as they were.
-/
import proofs.«139939_j23055384445693_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1 (the weight matrix, fetched at the first point only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2 (the bias row, fetched at the first point only). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store covers the output block -/

/-- The one store is of the whole block, so it covers it. -/
theorem cover1_3 (p0 : Vec F S1024x512 .f32) (y : S1024x512.Idx) :
    ∃ pc ∈ ([⟨r1_3, p0⟩] : List (View.Piece (Elt F) S1024x512 .f32)), y ∈ pc.1.set :=
  View.cover_of_tiled [⟨r1_3, p0⟩] S1024x512.size (by rfl) y

/-! ## The body's triple -/

set_option maxHeartbeats 1000000 in
/-- The body on whole staging memrefs, the inputs' at contents `x0`, `x1`, `x2` and the output's at anything, runs
    to the continuation holding the inputs' as they were and the output's at `out1_3 x0 x1 x2`: the three loads return
    the inputs' contents, the load of the output block returns a value that is dropped, and the store of the whole
    block overwrites whatever was there. -/
theorem sound_kernel1 (c : Dev nD) (E : Set ℕ) (i : grid1.Coords) (arg1 : Memref sig .tc .vmem S1024x512 .f32) (harg1 : arg1.IsWhole) (arg2 : Memref sig .tc .vmem S512x512 .f32) (harg2 : arg2.IsWhole) (arg3 : Memref sig .tc .vmem S512 .f32) (harg3 : arg3.IsWhole) (arg4 : Memref sig .tc .vmem S1024x512 .f32) (harg4 : arg4.IsWhole)
    (x0 : Vec F S1024x512 .f32) (x1 : Vec F S512x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers before the body, for this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
/-
  Region 2's body obligation. The body loads the three input windows' whole blocks, loads the output window's block
  once (a value nothing reads), and stores the whole output block once, its value the body's arithmetic on the three
  loaded blocks. So, whatever the output's staging buffer held, after the body it holds `out2_3` of the input
  blocks, and the inputs' buffers are as they were.
-/
import proofs.«139939_j23055384445693_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1 (the weight matrix, fetched at the first point only). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2 (the bias row, fetched at the first point only). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store covers the output block -/

/-- The one store is of the whole block, so it covers it. -/
theorem cover2_3 (p0 : Vec F S1024x512 .f32) (y : S1024x512.Idx) :
    ∃ pc ∈ ([⟨r2_3, p0⟩] : List (View.Piece (Elt F) S1024x512 .f32)), y ∈ pc.1.set :=
  View.cover_of_tiled [⟨r2_3, p0⟩] S1024x512.size (by rfl) y

/-! ## The body's triple -/

set_option maxHeartbeats 1000000 in
/-- The body on whole staging memrefs, the inputs' at contents `x0`, `x1`, `x2` and the output's at anything, runs
    to the continuation holding the inputs' as they were and the output's at `out2_3 x0 x1 x2`: the three loads return
    the inputs' contents, the load of the output block returns a value that is dropped, and the store of the whole
    block overwrites whatever was there. -/
theorem sound_kernel2 (c : Dev nD) (E : Set ℕ) (i : grid2.Coords) (arg1 : Memref sig .tc .vmem S1024x1024 .f32) (harg1 : arg1.IsWhole) (arg2 : Memref sig .tc .vmem S1024x512 .f32) (harg2 : arg2.IsWhole) (arg3 : Memref sig .tc .vmem S512 .f32) (harg3 : arg3.IsWhole) (arg4 : Memref sig .tc .vmem S1024x512 .f32) (harg4 : arg4.IsWhole)
    (x0 : Vec F S1024x1024 .f32) (x1 : Vec F S1024x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The inputs' buffers before the body, for this region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
/-
  Region 3's body obligation. The body loads the two input windows' whole blocks (the rows and the bias row), loads
  the output window's block once (a value nothing reads), and stores the whole output block once, its value the body's
  arithmetic on the two loaded blocks (the rows plus the bias row, then the exponential linear unit). So, whatever the
  output's staging buffer held, after the body it holds `out3_2` of the input blocks, and the inputs' buffers are as
  they were.
-/
import proofs.«139939_j23055384445693_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1 (the bias row, fetched at the first point only). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's one store covers the output block -/

/-- The one store is of the whole block, so it covers it. -/
theorem cover3_2 (p0 : Vec F S2048x512 .f32) (y : S2048x512.Idx) :
    ∃ pc ∈ ([⟨r3_2, p0⟩] : List (View.Piece (Elt F) S2048x512 .f32)), y ∈ pc.1.set :=
  View.cover_of_tiled [⟨r3_2, p0⟩] S2048x512.size (by rfl) y

/-! ## The body's triple -/

set_option maxHeartbeats 1000000 in
/-- The body on whole staging memrefs, the inputs' at contents `x0`, `x1` and the output's at anything, runs to the
    continuation holding the inputs' as they were and the output's at `out3_2 x0 x1`: the two loads return the inputs'
    contents, the load of the output block returns a value that is dropped, and the store of the whole block
    overwrites whatever was there. -/
theorem sound_kernel3 (c : Dev nD) (E : Set ℕ) (i : grid3.Coords) (arg1 : Memref sig .tc .vmem S2048x512 .f32) (harg1 : arg1.IsWhole) (arg2 : Memref sig .tc .vmem S512 .f32) (harg2 : arg2.IsWhole) (arg3 : Memref sig .tc .vmem S2048x512 .f32) (harg3 : arg3.IsWhole)
    (x0 : Vec F S2048x512 .f32) (x1 : Vec F S512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_elu_kernel i arg1 harg1 arg2 harg2 arg3 harg3) K := by
  simp only [cc3__bias_elu_kernel_eq_skeleton]; unfold cc3__bias_elu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The inputs' buffers before the body, for this region's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Body4.lean ====
/-
  Region 4's body obligation. The body loads the three input windows' whole blocks, loads the output window's block
  once (a value nothing reads), and stores the whole output block once, its value the body's arithmetic on the three
  loaded blocks (the product plus the bias row, then the exponential linear unit). So, whatever the output's staging buffer held, after the body it holds `out4_3` of the input
  blocks, and the inputs' buffers are as they were.
-/
import proofs.«139939_j23055384445693_1_alg».proof.Proof.K.Data

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1 (the weight matrix, fetched at the first point only). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for input window 2 (the bias row, fetched at the first point only). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store covers the output block -/

/-- The one store is of the whole block, so it covers it. -/
theorem cover4_3 (p0 : Vec F S1024x512 .f32) (y : S1024x512.Idx) :
    ∃ pc ∈ ([⟨r4_3, p0⟩] : List (View.Piece (Elt F) S1024x512 .f32)), y ∈ pc.1.set :=
  View.cover_of_tiled [⟨r4_3, p0⟩] S1024x512.size (by rfl) y

/-! ## The body's triple -/

set_option maxHeartbeats 1000000 in
/-- The body on whole staging memrefs, the inputs' at contents `x0`, `x1`, `x2` and the output's at anything, runs
    to the continuation holding the inputs' as they were and the output's at `out4_3 x0 x1 x2`: the three loads return
    the inputs' contents, the load of the output block returns a value that is dropped, and the store of the whole
    block overwrites whatever was there. -/
theorem sound_kernel4 (c : Dev nD) (E : Set ℕ) (i : grid4.Coords) (arg1 : Memref sig .tc .vmem S1024x512 .f32) (harg1 : arg1.IsWhole) (arg2 : Memref sig .tc .vmem S512x512 .f32) (harg2 : arg2.IsWhole) (arg3 : Memref sig .tc .vmem S512 .f32) (harg3 : arg3.IsWhole) (arg4 : Memref sig .tc .vmem S1024x512 .f32) (harg4 : arg4.IsWhole)
    (x0 : Vec F S1024x512 .f32) (x1 : Vec F S512x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The inputs' buffers before the body, for this region's proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.K.Run.lean ====
/-
  The run of the program's entry function: five kernel regions among seven stretches of host operations, from the
  launch memory to the return. The buffer contents at every boundary between two items are written as a fold from the
  launch memory (a host stretch applies its operations to the contents before it; a kernel region replaces its windows'
  arrays by what its pipeline leaves and keeps every other buffer), every region's proof data is taken at the contents
  the region is entered from, and the library's theorem for a list of segments gives: every weakly fair execution
  terminates and every unscoped buffer of every core ends holding the last contents of the fold. The argument buffers
  are then read back through the fold to the launch memory: no host operation writes one, and a region only reads
  one through an input window.
-/
import proofs.«139939_j23055384445693_1_alg».proof.Proof.Gen.Kernel.Launch
import proofs.«139939_j23055384445693_1_alg».proof.Proof.Gen.Kernel.Skeleton
import proofs.«139939_j23055384445693_1_alg».proof.Proof.Gen.Kernel.Points
import proofs.«139939_j23055384445693_1_alg».proof.Proof.Gen.Kernel.Regions
import proofs.«139939_j23055384445693_1_alg».proof.Proof.K.Data
import proofs.«139939_j23055384445693_1_alg».proof.Proof.K.Body0
import proofs.«139939_j23055384445693_1_alg».proof.Proof.K.Body1
import proofs.«139939_j23055384445693_1_alg».proof.Proof.K.Body2
import proofs.«139939_j23055384445693_1_alg».proof.Proof.K.Body3
import proofs.«139939_j23055384445693_1_alg».proof.Proof.K.Body4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary: a fold through the entry function -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its windows' arrays at what the pipeline leaves (an input's as entered, the output's with every
    write-back folded in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At region 0's exit each of its arrays holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its windows' arrays at what the pipeline leaves (an input's as entered, the output's with every
    write-back folded in), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At region 1's exit each of its arrays holds what the pipeline leaves, and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its windows' arrays at what the pipeline leaves (an input's as entered, the output's with every
    write-back folded in), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
/-- At region 2's exit each of its arrays holds what the pipeline leaves, and every other buffer what it held at entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After the host stretch `hostOps3`. -/
abbrev W4 : Dev nD → Valuation τ sig (Elt F) := fun c => StableHlo.after hostOps3 (W3 m ρ c)
/-- The same read at the TensorCore's references. -/
abbrev V4 : (c : Dev nD) → (b : Ref sig .tc) → Buf (Elt F) ((c : Thread nD τ).loc b) := fun c b => W4 m ρ c b

/-- After the host stretch `hostOps3_1`. -/
abbrev W5 : Dev nD → Valuation τ sig (Elt F) := fun c => StableHlo.after hostOps3_1 (W4 m ρ c)
/-- The same read at the TensorCore's references. -/
abbrev V5 : (c : Dev nD) → (b : Ref sig .tc) → Buf (Elt F) ((c : Thread nD τ).loc b) := fun c b => W5 m ρ c b

/-- After the host stretch `hostOps3_2`. -/
abbrev W6 : Dev nD → Valuation τ sig (Elt F) := fun c => StableHlo.after hostOps3_2 (W5 m ρ c)
/-- The same read at the TensorCore's references. -/
abbrev V6 : (c : Dev nD) → (b : Ref sig .tc) → Buf (Elt F) ((c : Thread nD τ).loc b) := fun c b => W6 m ρ c b

/-- After the host stretch `hostOps3_3`. -/
abbrev W7 : Dev nD → Valuation τ sig (Elt F) := fun c => StableHlo.after hostOps3_3 (W6 m ρ c)
/-- The same read at the TensorCore's references. -/
abbrev V7 : (c : Dev nD) → (b : Ref sig .tc) → Buf (Elt F) ((c : Thread nD τ).loc b) := fun c b => W7 m ρ c b

/-- After the host stretch `hostOps3_4`. -/
abbrev W8 : Dev nD → Valuation τ sig (Elt F) := fun c => StableHlo.after hostOps3_4 (W7 m ρ c)
/-- The same read at the TensorCore's references. -/
abbrev V8 : (c : Dev nD) → (b : Ref sig .tc) → Buf (Elt F) ((c : Thread nD τ).loc b) := fun c b => W8 m ρ c b

/-- At region 3's exit: its windows' arrays at what the pipeline leaves (an input's as entered, the output's with every
    write-back folded in), every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same read at the TensorCore's references. -/
abbrev V9 : (c : Dev nD) → (b : Ref sig .tc) → Buf (Elt F) ((c : Thread nD τ).loc b) := fun c b => W9 m ρ c b
/-- At region 3's exit each of its arrays holds what the pipeline leaves, and every other buffer what it held at entry. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the host stretch `hostOps4`. -/
abbrev W10 : Dev nD → Valuation τ sig (Elt F) := fun c => StableHlo.after hostOps4 (W9 m ρ c)
/-- The same read at the TensorCore's references. -/
abbrev V10 : (c : Dev nD) → (b : Ref sig .tc) → Buf (Elt F) ((c : Thread nD τ).loc b) := fun c b => W10 m ρ c b

/-- At region 4's exit: its windows' arrays at what the pipeline leaves (an input's as entered, the output's with every
    write-back folded in), every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- The same read at the TensorCore's references. -/
abbrev V11 : (c : Dev nD) → (b : Ref sig .tc) → Buf (Elt F) ((c : Thread nD τ).loc b) := fun c b => W11 m ρ c b
/-- At region 4's exit each of its arrays holds what the pipeline leaves, and every other buffer what it held at entry. -/
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- After the host stretch `hostOps5`. -/
abbrev W12 : Dev nD → Valuation τ sig (Elt F) := fun c => StableHlo.after hostOps5 (W11 m ρ c)
/-- The same read at the TensorCore's references. -/
abbrev V12 : (c : Dev nD) → (b : Ref sig .tc) → Buf (Elt F) ((c : Thread nD τ).loc b) := fun c b => W12 m ρ c b

/-! # What each item leaves unchanged

A region changes only its output window's array (an input window's array is never written back, every other buffer
bypasses the region); a host stretch changes only the buffers its operations write. -/

theorem W1_of (c : Dev nD) (r : Ref sig .tc) (h : r ∉ ([main_v0] : List (Ref sig .tc))) :
    W1 m ρ c (Proc.devRef .tc r) = W0 m ρ c (Proc.devRef .tc r) := by
  have key : ∀ w : Fin cfg0.W, Pipeline.arrRef spec0 w ∉ ([main_v0] : List (Ref sig .tc)) → (cfg0.win w).isOut = false := by decide
  by_cases hr : ∃ w, Pipeline.arrRef spec0 w = r
  · obtain ⟨w, rfl⟩ := hr
    exact (W1_arr m ρ c w).trans (((dat0 (V0 m ρ) c).arrAt_in w (key w h) _).trans (A_eq0 (V0 m ρ) c w))
  · exact W1_of_ne m ρ c r fun w e => hr ⟨w, e⟩

theorem W2_of (c : Dev nD) (r : Ref sig .tc) (h : r ∉ ([main_v1] : List (Ref sig .tc))) :
    W2 m ρ c (Proc.devRef .tc r) = W1 m ρ c (Proc.devRef .tc r) := by
  have key : ∀ w : Fin cfg1.W, Pipeline.arrRef spec1 w ∉ ([main_v1] : List (Ref sig .tc)) → (cfg1.win w).isOut = false := by decide
  by_cases hr : ∃ w, Pipeline.arrRef spec1 w = r
  · obtain ⟨w, rfl⟩ := hr
    exact (W2_arr m ρ c w).trans (((dat1 (V1 m ρ) c).arrAt_in w (key w h) _).trans (A_eq1 (V1 m ρ) c w))
  · exact W2_of_ne m ρ c r fun w e => hr ⟨w, e⟩

theorem W3_of (c : Dev nD) (r : Ref sig .tc) (h : r ∉ ([main_v2] : List (Ref sig .tc))) :
    W3 m ρ c (Proc.devRef .tc r) = W2 m ρ c (Proc.devRef .tc r) := by
  have key : ∀ w : Fin cfg2.W, Pipeline.arrRef spec2 w ∉ ([main_v2] : List (Ref sig .tc)) → (cfg2.win w).isOut = false := by decide
  by_cases hr : ∃ w, Pipeline.arrRef spec2 w = r
  · obtain ⟨w, rfl⟩ := hr
    exact (W3_arr m ρ c w).trans (((dat2 (V2 m ρ) c).arrAt_in w (key w h) _).trans (A_eq2 (V2 m ρ) c w))
  · exact W3_of_ne m ρ c r fun w e => hr ⟨w, e⟩

theorem W9_of (c : Dev nD) (r : Ref sig .tc) (h : r ∉ ([main_v36] : List (Ref sig .tc))) :
    W9 m ρ c (Proc.devRef .tc r) = W8 m ρ c (Proc.devRef .tc r) := by
  have key : ∀ w : Fin cfg3.W, Pipeline.arrRef spec3 w ∉ ([main_v36] : List (Ref sig .tc)) → (cfg3.win w).isOut = false := by decide
  by_cases hr : ∃ w, Pipeline.arrRef spec3 w = r
  · obtain ⟨w, rfl⟩ := hr
    exact (W9_arr m ρ c w).trans (((dat3 (V8 m ρ) c).arrAt_in w (key w h) _).trans (A_eq3 (V8 m ρ) c w))
  · exact W9_of_ne m ρ c r fun w e => hr ⟨w, e⟩

theorem W11_of (c : Dev nD) (r : Ref sig .tc) (h : r ∉ ([main_v53] : List (Ref sig .tc))) :
    W11 m ρ c (Proc.devRef .tc r) = W10 m ρ c (Proc.devRef .tc r) := by
  have key : ∀ w : Fin cfg4.W, Pipeline.arrRef spec4 w ∉ ([main_v53] : List (Ref sig .tc)) → (cfg4.win w).isOut = false := by decide
  by_cases hr : ∃ w, Pipeline.arrRef spec4 w = r
  · obtain ⟨w, rfl⟩ := hr
    exact (W11_arr m ρ c w).trans (((dat4 (V10 m ρ) c).arrAt_in w (key w h) _).trans (A_eq4 (V10 m ρ) c w))
  · exact W11_of_ne m ρ c r fun w e => hr ⟨w, e⟩

theorem W4_of (c : Dev nD) (r : Ref sig .tc) (h : r ∉ hostOps3_W) :
    W4 m ρ c (Proc.devRef .tc r) = W3 m ρ c (Proc.devRef .tc r) :=
  StableHlo.after_of_writes_sub hostOps3 _ hostOps3_writes h

theorem W5_of (c : Dev nD) (r : Ref sig .tc) (h : r ∉ hostOps3_1_W) :
    W5 m ρ c (Proc.devRef .tc r) = W4 m ρ c (Proc.devRef .tc r) :=
  StableHlo.after_of_writes_sub hostOps3_1 _ hostOps3_1_writes h

theorem W6_of (c : Dev nD) (r : Ref sig .tc) (h : r ∉ hostOps3_2_W) :
    W6 m ρ c (Proc.devRef .tc r) = W5 m ρ c (Proc.devRef .tc r) :=
  StableHlo.after_of_writes_sub hostOps3_2 _ hostOps3_2_writes h

theorem W7_of (c : Dev nD) (r : Ref sig .tc) (h : r ∉ hostOps3_3_W) :
    W7 m ρ c (Proc.devRef .tc r) = W6 m ρ c (Proc.devRef .tc r) :=
  StableHlo.after_of_writes_sub hostOps3_3 _ hostOps3_3_writes h

theorem W8_of (c : Dev nD) (r : Ref sig .tc) (h : r ∉ hostOps3_4_W) :
    W8 m ρ c (Proc.devRef .tc r) = W7 m ρ c (Proc.devRef .tc r) :=
  StableHlo.after_of_writes_sub hostOps3_4 _ hostOps3_4_writes h

theorem W10_of (c : Dev nD) (r : Ref sig .tc) (h : r ∉ hostOps4_W) :
    W10 m ρ c (Proc.devRef .tc r) = W9 m ρ c (Proc.devRef .tc r) :=
  StableHlo.after_of_writes_sub hostOps4 _ hostOps4_writes h

theorem W12_of (c : Dev nD) (r : Ref sig .tc) (h : r ∉ hostOps5_W) :
    W12 m ρ c (Proc.devRef .tc r) = W11 m ρ c (Proc.devRef .tc r) :=
  StableHlo.after_of_writes_sub hostOps5 _ hostOps5_writes h

/-! # The arguments end as launched

No host operation writes an argument's buffer and no region changes one (a region reads it through an input window, whose
array is never written back, or does not touch it), so the fold at an argument's buffer walks back to the launch memory. -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := StableHlo.after_of_writes_sub hostOps5 _ hostOps5_writes (by decide)
    _ = W10 m ρ c (Proc.devRef .tc main_arg0) := W11_of_ne m ρ c main_arg0 (by decide)
    _ = W9 m ρ c (Proc.devRef .tc main_arg0) := StableHlo.after_of_writes_sub hostOps4 _ hostOps4_writes (by decide)
    _ = W8 m ρ c (Proc.devRef .tc main_arg0) := W9_of_ne m ρ c main_arg0 (by decide)
    _ = W7 m ρ c (Proc.devRef .tc main_arg0) := StableHlo.after_of_writes_sub hostOps3_4 _ hostOps3_4_writes (by decide)
    _ = W6 m ρ c (Proc.devRef .tc main_arg0) := StableHlo.after_of_writes_sub hostOps3_3 _ hostOps3_3_writes (by decide)
    _ = W5 m ρ c (Proc.devRef .tc main_arg0) := StableHlo.after_of_writes_sub hostOps3_2 _ hostOps3_2_writes (by decide)
    _ = W4 m ρ c (Proc.devRef .tc main_arg0) := StableHlo.after_of_writes_sub hostOps3_1 _ hostOps3_1_writes (by decide)
    _ = W3 m ρ c (Proc.devRef .tc main_arg0) := StableHlo.after_of_writes_sub hostOps3 _ hostOps3_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := StableHlo.after_of_writes_sub hostOps5 _ hostOps5_writes (by decide)
    _ = W10 m ρ c (Proc.devRef .tc main_arg1) := W11_of_ne m ρ c main_arg1 (by decide)
    _ = W9 m ρ c (Proc.devRef .tc main_arg1) := StableHlo.after_of_writes_sub hostOps4 _ hostOps4_writes (by decide)
    _ = W8 m ρ c (Proc.devRef .tc main_arg1) := W9_of_ne m ρ c main_arg1 (by decide)
    _ = W7 m ρ c (Proc.devRef .tc main_arg1) := StableHlo.after_of_writes_sub hostOps3_4 _ hostOps3_4_writes (by decide)
    _ = W6 m ρ c (Proc.devRef .tc main_arg1) := StableHlo.after_of_writes_sub hostOps3_3 _ hostOps3_3_writes (by decide)
    _ = W5 m ρ c (Proc.devRef .tc main_arg1) := StableHlo.after_of_writes_sub hostOps3_2 _ hostOps3_2_writes (by decide)
    _ = W4 m ρ c (Proc.devRef .tc main_arg1) := StableHlo.after_of_writes_sub hostOps3_1 _ hostOps3_1_writes (by decide)
    _ = W3 m ρ c (Proc.devRef .tc main_arg1) := StableHlo.after_of_writes_sub hostOps3 _ hostOps3_writes (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := StableHlo.after_of_writes_sub hostOps5 _ hostOps5_writes (by decide)
    _ = W10 m ρ c (Proc.devRef .tc main_arg2) := W11_of_ne m ρ c main_arg2 (by decide)
    _ = W9 m ρ c (Proc.devRef .tc main_arg2) := StableHlo.after_of_writes_sub hostOps4 _ hostOps4_writes (by decide)
    _ = W8 m ρ c (Proc.devRef .tc main_arg2) := W9_of_ne m ρ c main_arg2 (by decide)
    _ = W7 m ρ c (Proc.devRef .tc main_arg2) := StableHlo.after_of_writes_sub hostOps3_4 _ hostOps3_4_writes (by decide)
    _ = W6 m ρ c (Proc.devRef .tc main_arg2) := StableHlo.after_of_writes_sub hostOps3_3 _ hostOps3_3_writes (by decide)
    _ = W5 m ρ c (Proc.devRef .tc main_arg2) := StableHlo.after_of_writes_sub hostOps3_2 _ hostOps3_2_writes (by decide)
    _ = W4 m ρ c (Proc.devRef .tc main_arg2) := StableHlo.after_of_writes_sub hostOps3_1 _ hostOps3_1_writes (by decide)
    _ = W3 m ρ c (Proc.devRef .tc main_arg2) := StableHlo.after_of_writes_sub hostOps3 _ hostOps3_writes (by decide)
    _ = W2 m ρ c (Proc.devRef .tc main_arg2) := (W3_arr m ρ c 0).trans (((dat2 (V2 m ρ) c).arrAt_in 0 rfl _).trans (A_eq2 (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := StableHlo.after_of_writes_sub hostOps5 _ hostOps5_writes (by decide)
    _ = W10 m ρ c (Proc.devRef .tc main_arg3) := W11_of_ne m ρ c main_arg3 (by decide)
    _ = W9 m ρ c (Proc.devRef .tc main_arg3) := StableHlo.after_of_writes_sub hostOps4 _ hostOps4_writes (by decide)
    _ = W8 m ρ c (Proc.devRef .tc main_arg3) := W9_of_ne m ρ c main_arg3 (by decide)
    _ = W7 m ρ c (Proc.devRef .tc main_arg3) := StableHlo.after_of_writes_sub hostOps3_4 _ hostOps3_4_writes (by decide)
    _ = W6 m ρ c (Proc.devRef .tc main_arg3) := StableHlo.after_of_writes_sub hostOps3_3 _ hostOps3_3_writes (by decide)
    _ = W5 m ρ c (Proc.devRef .tc main_arg3) := StableHlo.after_of_writes_sub hostOps3_2 _ hostOps3_2_writes (by decide)
    _ = W4 m ρ c (Proc.devRef .tc main_arg3) := StableHlo.after_of_writes_sub hostOps3_1 _ hostOps3_1_writes (by decide)
    _ = W3 m ρ c (Proc.devRef .tc main_arg3) := StableHlo.after_of_writes_sub hostOps3 _ hostOps3_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := StableHlo.after_of_writes_sub hostOps5 _ hostOps5_writes (by decide)
    _ = W10 m ρ c (Proc.devRef .tc main_arg4) := W11_of_ne m ρ c main_arg4 (by decide)
    _ = W9 m ρ c (Proc.devRef .tc main_arg4) := StableHlo.after_of_writes_sub hostOps4 _ hostOps4_writes (by decide)
    _ = W8 m ρ c (Proc.devRef .tc main_arg4) := W9_of_ne m ρ c main_arg4 (by decide)
    _ = W7 m ρ c (Proc.devRef .tc main_arg4) := StableHlo.after_of_writes_sub hostOps3_4 _ hostOps3_4_writes (by decide)
    _ = W6 m ρ c (Proc.devRef .tc main_arg4) := StableHlo.after_of_writes_sub hostOps3_3 _ hostOps3_3_writes (by decide)
    _ = W5 m ρ c (Proc.devRef .tc main_arg4) := StableHlo.after_of_writes_sub hostOps3_2 _ hostOps3_2_writes (by decide)
    _ = W4 m ρ c (Proc.devRef .tc main_arg4) := StableHlo.after_of_writes_sub hostOps3_1 _ hostOps3_1_writes (by decide)
    _ = W3 m ρ c (Proc.devRef .tc main_arg4) := StableHlo.after_of_writes_sub hostOps3 _ hostOps3_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := StableHlo.after_of_writes_sub hostOps5 _ hostOps5_writes (by decide)
    _ = W10 m ρ c (Proc.devRef .tc main_arg5) := W11_of_ne m ρ c main_arg5 (by decide)
    _ = W9 m ρ c (Proc.devRef .tc main_arg5) := StableHlo.after_of_writes_sub hostOps4 _ hostOps4_writes (by decide)
    _ = W8 m ρ c (Proc.devRef .tc main_arg5) := W9_of_ne m ρ c main_arg5 (by decide)
    _ = W7 m ρ c (Proc.devRef .tc main_arg5) := StableHlo.after_of_writes_sub hostOps3_4 _ hostOps3_4_writes (by decide)
    _ = W6 m ρ c (Proc.devRef .tc main_arg5) := StableHlo.after_of_writes_sub hostOps3_3 _ hostOps3_3_writes (by decide)
    _ = W5 m ρ c (Proc.devRef .tc main_arg5) := StableHlo.after_of_writes_sub hostOps3_2 _ hostOps3_2_writes (by decide)
    _ = W4 m ρ c (Proc.devRef .tc main_arg5) := StableHlo.after_of_writes_sub hostOps3_1 _ hostOps3_1_writes (by decide)
    _ = W3 m ρ c (Proc.devRef .tc main_arg5) := StableHlo.after_of_writes_sub hostOps3 _ hostOps3_writes (by decide)
    _ = W2 m ρ c (Proc.devRef .tc main_arg5) := W3_of_ne m ρ c main_arg5 (by decide)
    _ = W1 m ρ c (Proc.devRef .tc main_arg5) := (W2_arr m ρ c 1).trans (((dat1 (V1 m ρ) c).arrAt_in 1 rfl _).trans (A_eq1 (V1 m ρ) c 1))
    _ = W0 m ρ c (Proc.devRef .tc main_arg5) := W1_of_ne m ρ c main_arg5 (by decide)
    _ = m ((c : Thread nD τ).loc main_arg5) := rfl

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := StableHlo.after_of_writes_sub hostOps5 _ hostOps5_writes (by decide)
    _ = W10 m ρ c (Proc.devRef .tc main_arg6) := W11_of_ne m ρ c main_arg6 (by decide)
    _ = W9 m ρ c (Proc.devRef .tc main_arg6) := StableHlo.after_of_writes_sub hostOps4 _ hostOps4_writes (by decide)
    _ = W8 m ρ c (Proc.devRef .tc main_arg6) := W9_of_ne m ρ c main_arg6 (by decide)
    _ = W7 m ρ c (Proc.devRef .tc main_arg6) := StableHlo.after_of_writes_sub hostOps3_4 _ hostOps3_4_writes (by decide)
    _ = W6 m ρ c (Proc.devRef .tc main_arg6) := StableHlo.after_of_writes_sub hostOps3_3 _ hostOps3_3_writes (by decide)
    _ = W5 m ρ c (Proc.devRef .tc main_arg6) := StableHlo.after_of_writes_sub hostOps3_2 _ hostOps3_2_writes (by decide)
    _ = W4 m ρ c (Proc.devRef .tc main_arg6) := StableHlo.after_of_writes_sub hostOps3_1 _ hostOps3_1_writes (by decide)
    _ = W3 m ρ c (Proc.devRef .tc main_arg6) := StableHlo.after_of_writes_sub hostOps3 _ hostOps3_writes (by decide)
    _ = W2 m ρ c (Proc.devRef .tc main_arg6) := W3_of_ne m ρ c main_arg6 (by decide)
    _ = W1 m ρ c (Proc.devRef .tc main_arg6) := (W2_arr m ρ c 2).trans (((dat1 (V1 m ρ) c).arrAt_in 2 rfl _).trans (A_eq1 (V1 m ρ) c 2))
    _ = W0 m ρ c (Proc.devRef .tc main_arg6) := W1_of_ne m ρ c main_arg6 (by decide)
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := StableHlo.after_of_writes_sub hostOps5 _ hostOps5_writes (by decide)
    _ = W10 m ρ c (Proc.devRef .tc main_arg7) := W11_of_ne m ρ c main_arg7 (by decide)
    _ = W9 m ρ c (Proc.devRef .tc main_arg7) := StableHlo.after_of_writes_sub hostOps4 _ hostOps4_writes (by decide)
    _ = W8 m ρ c (Proc.devRef .tc main_arg7) := W9_of_ne m ρ c main_arg7 (by decide)
    _ = W7 m ρ c (Proc.devRef .tc main_arg7) := StableHlo.after_of_writes_sub hostOps3_4 _ hostOps3_4_writes (by decide)
    _ = W6 m ρ c (Proc.devRef .tc main_arg7) := StableHlo.after_of_writes_sub hostOps3_3 _ hostOps3_3_writes (by decide)
    _ = W5 m ρ c (Proc.devRef .tc main_arg7) := StableHlo.after_of_writes_sub hostOps3_2 _ hostOps3_2_writes (by decide)
    _ = W4 m ρ c (Proc.devRef .tc main_arg7) := StableHlo.after_of_writes_sub hostOps3_1 _ hostOps3_1_writes (by decide)
    _ = W3 m ρ c (Proc.devRef .tc main_arg7) := StableHlo.after_of_writes_sub hostOps3 _ hostOps3_writes (by decide)
    _ = W2 m ρ c (Proc.devRef .tc main_arg7) := (W3_arr m ρ c 1).trans (((dat2 (V2 m ρ) c).arrAt_in 1 rfl _).trans (A_eq2 (V2 m ρ) c 1))
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := StableHlo.after_of_writes_sub hostOps5 _ hostOps5_writes (by decide)
    _ = W10 m ρ c (Proc.devRef .tc main_arg8) := W11_of_ne m ρ c main_arg8 (by decide)
    _ = W9 m ρ c (Proc.devRef .tc main_arg8) := StableHlo.after_of_writes_sub hostOps4 _ hostOps4_writes (by decide)
    _ = W8 m ρ c (Proc.devRef .tc main_arg8) := W9_of_ne m ρ c main_arg8 (by decide)
    _ = W7 m ρ c (Proc.devRef .tc main_arg8) := StableHlo.after_of_writes_sub hostOps3_4 _ hostOps3_4_writes (by decide)
    _ = W6 m ρ c (Proc.devRef .tc main_arg8) := StableHlo.after_of_writes_sub hostOps3_3 _ hostOps3_3_writes (by decide)
    _ = W5 m ρ c (Proc.devRef .tc main_arg8) := StableHlo.after_of_writes_sub hostOps3_2 _ hostOps3_2_writes (by decide)
    _ = W4 m ρ c (Proc.devRef .tc main_arg8) := StableHlo.after_of_writes_sub hostOps3_1 _ hostOps3_1_writes (by decide)
    _ = W3 m ρ c (Proc.devRef .tc main_arg8) := StableHlo.after_of_writes_sub hostOps3 _ hostOps3_writes (by decide)
    _ = W2 m ρ c (Proc.devRef .tc main_arg8) := (W3_arr m ρ c 2).trans (((dat2 (V2 m ρ) c).arrAt_in 2 rfl _).trans (A_eq2 (V2 m ρ) c 2))
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := StableHlo.after_of_writes_sub hostOps5 _ hostOps5_writes (by decide)
    _ = W10 m ρ c (Proc.devRef .tc main_arg9) := W11_of_ne m ρ c main_arg9 (by decide)
    _ = W9 m ρ c (Proc.devRef .tc main_arg9) := StableHlo.after_of_writes_sub hostOps4 _ hostOps4_writes (by decide)
    _ = W8 m ρ c (Proc.devRef .tc main_arg9) := (W9_arr m ρ c 1).trans (((dat3 (V8 m ρ) c).arrAt_in 1 rfl _).trans (A_eq3 (V8 m ρ) c 1))
    _ = W7 m ρ c (Proc.devRef .tc main_arg9) := StableHlo.after_of_writes_sub hostOps3_4 _ hostOps3_4_writes (by decide)
    _ = W6 m ρ c (Proc.devRef .tc main_arg9) := StableHlo.after_of_writes_sub hostOps3_3 _ hostOps3_3_writes (by decide)
    _ = W5 m ρ c (Proc.devRef .tc main_arg9) := StableHlo.after_of_writes_sub hostOps3_2 _ hostOps3_2_writes (by decide)
    _ = W4 m ρ c (Proc.devRef .tc main_arg9) := StableHlo.after_of_writes_sub hostOps3_1 _ hostOps3_1_writes (by decide)
    _ = W3 m ρ c (Proc.devRef .tc main_arg9) := StableHlo.after_of_writes_sub hostOps3 _ hostOps3_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := StableHlo.after_of_writes_sub hostOps5 _ hostOps5_writes (by decide)
    _ = W10 m ρ c (Proc.devRef .tc main_arg10) := (W11_arr m ρ c 1).trans (((dat4 (V10 m ρ) c).arrAt_in 1 rfl _).trans (A_eq4 (V10 m ρ) c 1))
    _ = W9 m ρ c (Proc.devRef .tc main_arg10) := StableHlo.after_of_writes_sub hostOps4 _ hostOps4_writes (by decide)
    _ = W8 m ρ c (Proc.devRef .tc main_arg10) := W9_of_ne m ρ c main_arg10 (by decide)
    _ = W7 m ρ c (Proc.devRef .tc main_arg10) := StableHlo.after_of_writes_sub hostOps3_4 _ hostOps3_4_writes (by decide)
    _ = W6 m ρ c (Proc.devRef .tc main_arg10) := StableHlo.after_of_writes_sub hostOps3_3 _ hostOps3_3_writes (by decide)
    _ = W5 m ρ c (Proc.devRef .tc main_arg10) := StableHlo.after_of_writes_sub hostOps3_2 _ hostOps3_2_writes (by decide)
    _ = W4 m ρ c (Proc.devRef .tc main_arg10) := StableHlo.after_of_writes_sub hostOps3_1 _ hostOps3_1_writes (by decide)
    _ = W3 m ρ c (Proc.devRef .tc main_arg10) := StableHlo.after_of_writes_sub hostOps3 _ hostOps3_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := StableHlo.after_of_writes_sub hostOps5 _ hostOps5_writes (by decide)
    _ = W10 m ρ c (Proc.devRef .tc main_arg11) := (W11_arr m ρ c 2).trans (((dat4 (V10 m ρ) c).arrAt_in 2 rfl _).trans (A_eq4 (V10 m ρ) c 2))
    _ = W9 m ρ c (Proc.devRef .tc main_arg11) := StableHlo.after_of_writes_sub hostOps4 _ hostOps4_writes (by decide)
    _ = W8 m ρ c (Proc.devRef .tc main_arg11) := W9_of_ne m ρ c main_arg11 (by decide)
    _ = W7 m ρ c (Proc.devRef .tc main_arg11) := StableHlo.after_of_writes_sub hostOps3_4 _ hostOps3_4_writes (by decide)
    _ = W6 m ρ c (Proc.devRef .tc main_arg11) := StableHlo.after_of_writes_sub hostOps3_3 _ hostOps3_3_writes (by decide)
    _ = W5 m ρ c (Proc.devRef .tc main_arg11) := StableHlo.after_of_writes_sub hostOps3_2 _ hostOps3_2_writes (by decide)
    _ = W4 m ρ c (Proc.devRef .tc main_arg11) := StableHlo.after_of_writes_sub hostOps3_1 _ hostOps3_1_writes (by decide)
    _ = W3 m ρ c (Proc.devRef .tc main_arg11) := StableHlo.after_of_writes_sub hostOps3 _ hostOps3_writes (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := StableHlo.after_of_writes_sub hostOps5 _ hostOps5_writes (by decide)
    _ = W10 m ρ c (Proc.devRef .tc main_arg12) := W11_of_ne m ρ c main_arg12 (by decide)
    _ = W9 m ρ c (Proc.devRef .tc main_arg12) := StableHlo.after_of_writes_sub hostOps4 _ hostOps4_writes (by decide)
    _ = W8 m ρ c (Proc.devRef .tc main_arg12) := W9_of_ne m ρ c main_arg12 (by decide)
    _ = W7 m ρ c (Proc.devRef .tc main_arg12) := StableHlo.after_of_writes_sub hostOps3_4 _ hostOps3_4_writes (by decide)
    _ = W6 m ρ c (Proc.devRef .tc main_arg12) := StableHlo.after_of_writes_sub hostOps3_3 _ hostOps3_3_writes (by decide)
    _ = W5 m ρ c (Proc.devRef .tc main_arg12) := StableHlo.after_of_writes_sub hostOps3_2 _ hostOps3_2_writes (by decide)
    _ = W4 m ρ c (Proc.devRef .tc main_arg12) := StableHlo.after_of_writes_sub hostOps3_1 _ hostOps3_1_writes (by decide)
    _ = W3 m ρ c (Proc.devRef .tc main_arg12) := StableHlo.after_of_writes_sub hostOps3 _ hostOps3_writes (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := StableHlo.after_of_writes_sub hostOps5 _ hostOps5_writes (by decide)
    _ = W10 m ρ c (Proc.devRef .tc main_arg13) := W11_of_ne m ρ c main_arg13 (by decide)
    _ = W9 m ρ c (Proc.devRef .tc main_arg13) := StableHlo.after_of_writes_sub hostOps4 _ hostOps4_writes (by decide)
    _ = W8 m ρ c (Proc.devRef .tc main_arg13) := W9_of_ne m ρ c main_arg13 (by decide)
    _ = W7 m ρ c (Proc.devRef .tc main_arg13) := StableHlo.after_of_writes_sub hostOps3_4 _ hostOps3_4_writes (by decide)
    _ = W6 m ρ c (Proc.devRef .tc main_arg13) := StableHlo.after_of_writes_sub hostOps3_3 _ hostOps3_3_writes (by decide)
    _ = W5 m ρ c (Proc.devRef .tc main_arg13) := StableHlo.after_of_writes_sub hostOps3_2 _ hostOps3_2_writes (by decide)
    _ = W4 m ρ c (Proc.devRef .tc main_arg13) := StableHlo.after_of_writes_sub hostOps3_1 _ hostOps3_1_writes (by decide)
    _ = W3 m ρ c (Proc.devRef .tc main_arg13) := StableHlo.after_of_writes_sub hostOps3 _ hostOps3_writes (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

/-! # The proof data family and the thread state -/

/-- The prefetched tables' admissible contents: no pipeline has a table. -/
abbrev adm : (p : Fin 5) → (pcfgs (F := F) p).Adm := fun p => (cfgs p).toPCfg_adm
/-- Every pipeline's proof data, each at the contents its region is entered from. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V8 m ρ) c
  | ⟨4, _⟩ => fun c => dat4 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to those
    references at the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents of the fold, the generator
    register at some state. -/
abbrev Tₙ (c : Dev nD) : sProp 𝕄 := iprop(StableHlo.held (c : Thread nD τ) (Pipeline.ucRefs τ sig) (W12 m ρ c) ∗ ∃ r, prngReg c r)

/-- The last host stretch leaves the last thread state beside the core's dues at nothing (the same resources, regrouped). -/
theorem last_chain (c : Dev nD) :
    iprop(StableHlo.held (c : Thread nD τ) (Pipeline.ucRefs τ sig) (W12 m ρ c) ∗ R (F := F) c)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

/-! # The regions as segments -/

section Run

-- the body obligations of the five pipelines, each at the contents its region is entered from
variable
  (hb0 : ∀ c : Dev nD, BodyObligation (dat0 (F := F) (V0 m ρ) c) (defs₀ (F := F)) Variants.none () Set.univ)
  (hb1 : ∀ c : Dev nD, BodyObligation (dat1 (F := F) (V1 m ρ) c) (defs₀ (F := F)) Variants.none () Set.univ)
  (hb2 : ∀ c : Dev nD, BodyObligation (dat2 (F := F) (V2 m ρ) c) (defs₀ (F := F)) Variants.none () Set.univ)
  (hb3 : ∀ c : Dev nD, BodyObligation (dat3 (F := F) (V8 m ρ) c) (defs₀ (F := F)) Variants.none () Set.univ)
  (hb4 : ∀ c : Dev nD, BodyObligation (dat4 (F := F) (V10 m ρ) c) (defs₀ (F := F)) Variants.none () Set.univ)

set_option backward.isDefEq.respectTransparency.types false in
/-- Region 0 over the thread state: entered from every unscoped buffer at `W0`, left at `W1`. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W2`, left at `W3`. Its arrays are split
    out of the unscoped buffers and put back at the exit contents; the generator register goes into the pipeline's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. Its arrays are split
    out of the unscoped buffers and put back at the exit contents; the generator register goes into the pipeline's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W10`, left at `W11`. Its arrays are split
    out of the unscoped buffers and put back at the exit contents; the generator register goes into the pipeline's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The entry function as segments, and the launch -/

/-- The entry function's 12 segments in order: a region per kernel call, a host segment per stretch from its boundary's contents. -/
abbrev segs : List (Pipeline.Seg (pcfgs (F := F)) adm (pdats m ρ) () defs₀ 𝒱₀ L lv) :=
  [ .region (reg0 m ρ hb0),
    .region (reg1 m ρ hb1),
    .region (reg2 m ρ hb2),
    .host (hseg hostOps3 hostOps3_sub hostOps3_fresh (W3 m ρ)),
    .host (hseg hostOps3_1 hostOps3_1_sub hostOps3_1_fresh (W4 m ρ)),
    .host (hseg hostOps3_2 hostOps3_2_sub hostOps3_2_fresh (W5 m ρ)),
    .host (hseg hostOps3_3 hostOps3_3_sub hostOps3_3_fresh (W6 m ρ)),
    .host (hseg hostOps3_4 hostOps3_4_sub hostOps3_4_fresh (W7 m ρ)),
    .region (reg3 m ρ hb3),
    .host (hseg hostOps4 hostOps4_sub hostOps4_fresh (W9 m ρ)),
    .region (reg4 m ρ hb4),
    .host (hseg hostOps5 hostOps5_sub hostOps5_fresh (W11 m ρ)) ]

/-- The entry function is the run of the segments: it is the chain of its items, and the segments' run is the chain of
    their programs, which are those items. -/
theorem main_run (c : Dev nD) : main (F := F) c = Pipeline.Seg.run (segs m ρ hb0 hb1 hb2 hb3 hb4) := by
  rw [main_chain c, Pipeline.Seg.run_eq_chain]
  rfl

include hb0 hb1 hb2 hb3 hb4

set_option backward.isDefEq.respectTransparency.types false in
/-- The run, at any post that follows from the last contents: at the compiled mesh, from any memory with zero counters,
    every weakly fair execution of the entry function on the TensorCores terminates, nothing faulting, and every final
    memory holds every unscoped buffer of every core at the last contents of the fold. -/
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ hb0 hb1 hb2 hb3 hb4)
    (fun c Q => by rw [main_run m ρ hb0 hb1 hb2 hb3 hb4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- The run: every unscoped buffer of every core is read back at the end. -/
theorem run_all_of : θ_run defs (onTc (τ := τ) (main (F := F))) ⟨m, fun _ => 0, ρ⟩
    (fun r => ∀ c : Dev nD, ∀ b ∈ Pipeline.ucRefs τ sig, r.2.mem ((c : Thread nD τ).1, b) = W12 m ρ c b) :=
  run_post m ρ hb0 hb1 hb2 hb3 hb4 fun _ h => h

/-- The frame: every argument's buffer ends as launched. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_post m ρ hb0 hb1 hb2 hb3 hb4 fun s h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c)⟩

end Run

/-! # The run and the frame, the body obligations discharged -/

/-- The run: at the compiled mesh, from any memory with zero counters, every weakly fair execution of the entry function
    terminates, nothing faulting, and every final memory holds every unscoped buffer of every core at `W12`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W12 m ρ c b) :=
  run_all_of m ρ (body_obligation0 (V0 m ρ)) (body_obligation1 (V1 m ρ)) (body_obligation2 (V2 m ρ)) (body_obligation3 (V8 m ρ)) (body_obligation4 (V10 m ρ))

/-- The frame: every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (body_obligation0 (V0 m ρ)) (body_obligation1 (V1 m ρ)) (body_obligation2 (V2 m ρ)) (body_obligation3 (V8 m ρ)) (body_obligation4 (V10 m ρ))

end Cert.Kernel.Hand

end
-- ==== Proof.KI.Data.lean ====
/-
  The five kernel regions of the program, each at a parameter `V` (the buffer contents when the region is entered):
  the block of each window at a grid point, what the body leaves in the output window's staging buffer as a function
  of the input blocks, and the pipeline's proof data built from these. Regions 0, 1, 2 and 4 multiply a block of rows
  by a resident weight matrix and add a resident bias row (region 4 then applies the exponential linear unit);
  region 3 adds a bias row to a block of rows and applies the exponential linear unit.
-/
import proofs.«139939_j23055384445693_1_alg».proof.Proof.Gen.KernelIdeal.Launch
import proofs.«139939_j23055384445693_1_alg».proof.Proof.Gen.KernelIdeal.Skeleton
import proofs.«139939_j23055384445693_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when a region is entered: every definition below is stated at this parameter
variable (V : (c : Dev nD) → (b : Ref sig .tc) → Buf (Elt F) ((c : Thread nD τ).loc b))

/-! # Region 0: the windows' blocks, what the body leaves in the output window's buffer, the proof data -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S1024x256 := Rect.unit (s := S1024x256) ![0, 0] S1024x256.size inb_S1024x256_S1024x256_0_0
abbrev r0_1 : Rect S256x512 := Rect.unit (s := S256x512) ![0, 0] S256x512.size inb_S256x512_S256x512_0_0
abbrev r0_2 : Rect S512 := Rect.unit (s := S512) ![0] S512.size inb_S512_S512_0
abbrev r0_3 : Rect S1024x512 := Rect.unit (s := S1024x512) ![0, 0] S1024x512.size inb_S1024x512_S1024x512_0_0

/-- The output window's staging buffer after the body, as a function of the input windows' blocks: the body's one
    store of the whole block, its value the body's arithmetic on the loaded blocks. -/
def out0_3 (x0 : Vec F S1024x256 .f32) (x1 : Vec F S256x512 .f32) (x2 : Vec F S512 .f32) : Vec F S1024x512 .f32 :=
  View.canon [⟨r0_3, k0_pay1 (View.ld x0 r0_0) (View.ld x1 r0_1) (View.ld x2 r0_2)⟩]

/-- The proof data of the region's pipeline on core `c`: the arrays as the region finds them; after the body at point
    `t` each input's buffer still at its block and the output's at `out0_3` of the input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-! # Region 1: the windows' blocks, what the body leaves in the output window's buffer, the proof data -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S1024x512 := Rect.unit (s := S1024x512) ![0, 0] S1024x512.size inb_S1024x512_S1024x512_0_0
abbrev r1_1 : Rect S512x512 := Rect.unit (s := S512x512) ![0, 0] S512x512.size inb_S512x512_S512x512_0_0
abbrev r1_2 : Rect S512 := Rect.unit (s := S512) ![0] S512.size inb_S512_S512_0
abbrev r1_3 : Rect S1024x512 := Rect.unit (s := S1024x512) ![0, 0] S1024x512.size inb_S1024x512_S1024x512_0_0

/-- The output window's staging buffer after the body, as a function of the input windows' blocks: the body's one
    store of the whole block, its value the body's arithmetic on the loaded blocks. -/
def out1_3 (x0 : Vec F S1024x512 .f32) (x1 : Vec F S512x512 .f32) (x2 : Vec F S512 .f32) : Vec F S1024x512 .f32 :=
  View.canon [⟨r1_3, k1_pay1 (View.ld x0 r1_0) (View.ld x1 r1_1) (View.ld x2 r1_2)⟩]

/-- The proof data of the region's pipeline on core `c`: the arrays as the region finds them; after the body at point
    `t` each input's buffer still at its block and the output's at `out1_3` of the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-! # Region 2: the windows' blocks, what the body leaves in the output window's buffer, the proof data -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S1024x1024 := Rect.unit (s := S1024x1024) ![0, 0] S1024x1024.size inb_S1024x1024_S1024x1024_0_0
abbrev r2_1 : Rect S1024x512 := Rect.unit (s := S1024x512) ![0, 0] S1024x512.size inb_S1024x512_S1024x512_0_0
abbrev r2_2 : Rect S512 := Rect.unit (s := S512) ![0] S512.size inb_S512_S512_0
abbrev r2_3 : Rect S1024x512 := Rect.unit (s := S1024x512) ![0, 0] S1024x512.size inb_S1024x512_S1024x512_0_0

/-- The output window's staging buffer after the body, as a function of the input windows' blocks: the body's one
    store of the whole block, its value the body's arithmetic on the loaded blocks. -/
def out2_3 (x0 : Vec F S1024x1024 .f32) (x1 : Vec F S1024x512 .f32) (x2 : Vec F S512 .f32) : Vec F S1024x512 .f32 :=
  View.canon [⟨r2_3, k2_pay1 (View.ld x0 r2_0) (View.ld x1 r2_1) (View.ld x2 r2_2)⟩]

/-- The proof data of the region's pipeline on core `c`: the arrays as the region finds them; after the body at point
    `t` each input's buffer still at its block and the output's at `out2_3` of the input blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-! # Region 3: the windows' blocks, what the body leaves in the output window's buffer, the proof data -/

/-- Window `w`'s block at grid point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S2048x512 := Rect.unit (s := S2048x512) ![0, 0] S2048x512.size inb_S2048x512_S2048x512_0_0
abbrev r3_1 : Rect S512 := Rect.unit (s := S512) ![0] S512.size inb_S512_S512_0
abbrev r3_2 : Rect S2048x512 := Rect.unit (s := S2048x512) ![0, 0] S2048x512.size inb_S2048x512_S2048x512_0_0

/-- The output window's staging buffer after the body, as a function of the input windows' blocks: the body's one
    store of the whole block, its value the body's arithmetic on the loaded blocks. -/
def out3_2 (x0 : Vec F S2048x512 .f32) (x1 : Vec F S512 .f32) : Vec F S2048x512 .f32 :=
  View.canon [⟨r3_2, k3_pay1 (View.ld x0 r3_0) (View.ld x1 r3_1)⟩]

/-- The proof data of the region's pipeline on core `c`: the arrays as the region finds them; after the body at point
    `t` each input's buffer still at its block and the output's at `out3_2` of the input blocks. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-! # Region 4: the windows' blocks, what the body leaves in the output window's buffer, the proof data -/

/-- Window `w`'s block at grid point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S1024x512 := Rect.unit (s := S1024x512) ![0, 0] S1024x512.size inb_S1024x512_S1024x512_0_0
abbrev r4_1 : Rect S512x512 := Rect.unit (s := S512x512) ![0, 0] S512x512.size inb_S512x512_S512x512_0_0
abbrev r4_2 : Rect S512 := Rect.unit (s := S512) ![0] S512.size inb_S512_S512_0
abbrev r4_3 : Rect S1024x512 := Rect.unit (s := S1024x512) ![0, 0] S1024x512.size inb_S1024x512_S1024x512_0_0

/-- The output window's staging buffer after the body, as a function of the input windows' blocks: the body's one
    store of the whole block, its value the body's arithmetic on the loaded blocks. -/
def out4_3 (x0 : Vec F S1024x512 .f32) (x1 : Vec F S512x512 .f32) (x2 : Vec F S512 .f32) : Vec F S1024x512 .f32 :=
  View.canon [⟨r4_3, k4_pay1 (View.ld x0 r4_0) (View.ld x1 r4_1) (View.ld x2 r4_2)⟩]

/-- The proof data of the region's pipeline on core `c`: the arrays as the region finds them; after the body at point
    `t` each input's buffer still at its block and the output's at `out4_3` of the input blocks. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = out4_3 (iblk4 V c 0 t) (iblk4 V c 1 t) (iblk4 V c 2 t) := by dsimp only [dat4]

end Cert.KernelIdeal.Hand

end
-- ==== Proof.KI.Body0.lean ====
/-
  Region 0's body obligation. The body loads the three input windows' whole blocks, loads the output window's block
  once (a value nothing reads), and stores the whole output block once, its value the body's arithmetic on the three
  loaded blocks. So, whatever the output's staging buffer held, after the body it holds `out0_3` of the input
  blocks, and the inputs' buffers are as they were.
-/
import proofs.«139939_j23055384445693_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The same for input window 1 (the weight matrix, fetched at the first point only). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The same for input window 2 (the bias row, fetched at the first point only). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's one store covers the output block -/

/-- The one store is of the whole block, so it covers it. -/
theorem cover0_3 (p0 : Vec F S1024x512 .f32) (y : S1024x512.Idx) :
    ∃ pc ∈ ([⟨r0_3, p0⟩] : List (View.Piece (Elt F) S1024x512 .f32)), y ∈ pc.1.set :=
  View.cover_of_tiled [⟨r0_3, p0⟩] S1024x512.size (by rfl) y

/-! ## The body's triple -/

set_option maxHeartbeats 1000000 in
/-- The body on whole staging memrefs, the inputs' at contents `x0`, `x1`, `x2` and the output's at anything, runs
    to the continuation holding the inputs' as they were and the output's at `out0_3 x0 x1 x2`: the three loads return
    the inputs' contents, the load of the output block returns a value that is dropped, and the store of the whole
    block overwrites whatever was there. -/
theorem sound_kernel0 (c : Dev nD) (E : Set ℕ) (i : grid0.Coords) (arg1 : Memref sig .tc .vmem S1024x256 .f32) (harg1 : arg1.IsWhole) (arg2 : Memref sig .tc .vmem S256x512 .f32) (harg2 : arg2.IsWhole) (arg3 : Memref sig .tc .vmem S512 .f32) (harg3 : arg3.IsWhole) (arg4 : Memref sig .tc .vmem S1024x512 .f32) (harg4 : arg4.IsWhole)
    (x0 : Vec F S1024x256 .f32) (x1 : Vec F S256x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The inputs' buffers before the body, for this region's proof data -/

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
/-
  Region 1's body obligation. The body loads the three input windows' whole blocks, loads the output window's block
  once (a value nothing reads), and stores the whole output block once, its value the body's arithmetic on the three
  loaded blocks. So, whatever the output's staging buffer held, after the body it holds `out1_3` of the input
  blocks, and the inputs' buffers are as they were.
-/
import proofs.«139939_j23055384445693_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The same for input window 1 (the weight matrix, fetched at the first point only). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The same for input window 2 (the bias row, fetched at the first point only). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's one store covers the output block -/

/-- The one store is of the whole block, so it covers it. -/
theorem cover1_3 (p0 : Vec F S1024x512 .f32) (y : S1024x512.Idx) :
    ∃ pc ∈ ([⟨r1_3, p0⟩] : List (View.Piece (Elt F) S1024x512 .f32)), y ∈ pc.1.set :=
  View.cover_of_tiled [⟨r1_3, p0⟩] S1024x512.size (by rfl) y

/-! ## The body's triple -/

set_option maxHeartbeats 1000000 in
/-- The body on whole staging memrefs, the inputs' at contents `x0`, `x1`, `x2` and the output's at anything, runs
    to the continuation holding the inputs' as they were and the output's at `out1_3 x0 x1 x2`: the three loads return
    the inputs' contents, the load of the output block returns a value that is dropped, and the store of the whole
    block overwrites whatever was there. -/
theorem sound_kernel1 (c : Dev nD) (E : Set ℕ) (i : grid1.Coords) (arg1 : Memref sig .tc .vmem S1024x512 .f32) (harg1 : arg1.IsWhole) (arg2 : Memref sig .tc .vmem S512x512 .f32) (harg2 : arg2.IsWhole) (arg3 : Memref sig .tc .vmem S512 .f32) (harg3 : arg3.IsWhole) (arg4 : Memref sig .tc .vmem S1024x512 .f32) (harg4 : arg4.IsWhole)
    (x0 : Vec F S1024x512 .f32) (x1 : Vec F S512x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1__linear_kernel i arg1 harg1 arg2 harg2 arg3 harg3 arg4 harg4) K := by
  simp only [cc1__linear_kernel_eq_skeleton]; unfold cc1__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The inputs' buffers before the body, for this region's proof data -/

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so the body's triple applies; the invariant and
    the core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
/-
  Region 2's body obligation. The body loads the three input windows' whole blocks, loads the output window's block
  once (a value nothing reads), and stores the whole output block once, its value the body's arithmetic on the three
  loaded blocks. So, whatever the output's staging buffer held, after the body it holds `out2_3` of the input
  blocks, and the inputs' buffers are as they were.
-/
import proofs.«139939_j23055384445693_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1 (the weight matrix, fetched at the first point only). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2 (the bias row, fetched at the first point only). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's one store covers the output block -/

/-- The one store is of the whole block, so it covers it. -/
theorem cover2_3 (p0 : Vec F S1024x512 .f32) (y : S1024x512.Idx) :
    ∃ pc ∈ ([⟨r2_3, p0⟩] : List (View.Piece (Elt F) S1024x512 .f32)), y ∈ pc.1.set :=
  View.cover_of_tiled [⟨r2_3, p0⟩] S1024x512.size (by rfl) y

/-! ## The body's triple -/

set_option maxHeartbeats 1000000 in
/-- The body on whole staging memrefs, the inputs' at contents `x0`, `x1`, `x2` and the output's at anything, runs
    to the continuation holding the inputs' as they were and the output's at `out2_3 x0 x1 x2`: the three loads return
    the inputs' contents, the load of the output block returns a value that is dropped, and the store of the whole
    block overwrites whatever was there. -/
theorem sound_kernel2 (c : Dev nD) (E : Set ℕ) (i : grid2.Coords) (arg1 : Memref sig .tc .vmem S1024x1024 .f32) (harg1 : arg1.IsWhole) (arg2 : Memref sig .tc .vmem S1024x512 .f32) (harg2 : arg2.IsWhole) (arg3 : Memref sig .tc .vmem S512 .f32) (harg3 : arg3.IsWhole) (arg4 : Memref sig .tc .vmem S1024x512 .f32) (harg4 : arg4.IsWhole)
    (x0 : Vec F S1024x1024 .f32) (x1 : Vec F S1024x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out2_3 x0 x1 x2)) -∗ K ⟨⟩))
      ⊢ wp frame (wpE (defs₀ (F := F)) Variants.none c none) E (cc2__linear_kernel i arg1 harg1 arg2 harg2 arg3 harg3 arg4 harg4) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The inputs' buffers before the body, for this region's proof data -/

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the body's triple applies; the invariant and
    the core's obligations pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
/-
  Region 3's body obligation. The body loads the two input windows' whole blocks (the rows and the bias row), loads
  the output window's block once (a value nothing reads), and stores the whole output block once, its value the body's
  arithmetic on the two loaded blocks (the rows plus the bias row, then the exponential linear unit). So, whatever the
  output's staging buffer held, after the body it holds `out3_2` of the input blocks, and the inputs' buffers are as
  they were.
-/
import proofs.«139939_j23055384445693_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- The same for input window 1 (the bias row, fetched at the first point only). -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's one store covers the output block -/

/-- The one store is of the whole block, so it covers it. -/
theorem cover3_2 (p0 : Vec F S2048x512 .f32) (y : S2048x512.Idx) :
    ∃ pc ∈ ([⟨r3_2, p0⟩] : List (View.Piece (Elt F) S2048x512 .f32)), y ∈ pc.1.set :=
  View.cover_of_tiled [⟨r3_2, p0⟩] S2048x512.size (by rfl) y

/-! ## The body's triple -/

set_option maxHeartbeats 1000000 in
/-- The body on whole staging memrefs, the inputs' at contents `x0`, `x1` and the output's at anything, runs to the
    continuation holding the inputs' as they were and the output's at `out3_2 x0 x1`: the two loads return the inputs'
    contents, the load of the output block returns a value that is dropped, and the store of the whole block
    overwrites whatever was there. -/
theorem sound_kernel3 (c : Dev nD) (E : Set ℕ) (i : grid3.Coords) (arg1 : Memref sig .tc .vmem S2048x512 .f32) (harg1 : arg1.IsWhole) (arg2 : Memref sig .tc .vmem S512 .f32) (harg2 : arg2.IsWhole) (arg3 : Memref sig .tc .vmem S2048x512 .f32) (harg3 : arg3.IsWhole)
    (x0 : Vec F S2048x512 .f32) (x1 : Vec F S512 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out3_2 x0 x1)) -∗ K ⟨⟩))
      ⊢ wp frame (wpE (defs₀ (F := F)) Variants.none c none) E (cc3__bias_elu_kernel i arg1 harg1 arg2 harg2 arg3 harg3) K := by
  simp only [cc3__bias_elu_kernel_eq_skeleton]; unfold cc3__bias_elu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The inputs' buffers before the body, for this region's proof data -/

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the body's triple applies; the invariant and
    the core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The pipeline library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Body4.lean ====
/-
  Region 4's body obligation. The body loads the three input windows' whole blocks, loads the output window's block
  once (a value nothing reads), and stores the whole output block once, its value the body's arithmetic on the three
  loaded blocks (the product plus the bias row, then the exponential linear unit). So, whatever the output's staging buffer held, after the body it holds `out4_3` of the input
  blocks, and the inputs' buffers are as they were.
-/
import proofs.«139939_j23055384445693_1_alg».proof.Proof.KI.Data

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The inputs' staging buffers before the body -/

/-- Input window 0's current staging buffer holds its block at every point, for any proof data whose array is `V`'s
    and whose body leaves the block in place: where the window is fetched the buffer is the fetched block, and where
    it is not the block's index has not moved since the last fetch. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The same for input window 1 (the weight matrix, fetched at the first point only). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
/-- The same for input window 2 (the bias row, fetched at the first point only). -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's one store covers the output block -/

/-- The one store is of the whole block, so it covers it. -/
theorem cover4_3 (p0 : Vec F S1024x512 .f32) (y : S1024x512.Idx) :
    ∃ pc ∈ ([⟨r4_3, p0⟩] : List (View.Piece (Elt F) S1024x512 .f32)), y ∈ pc.1.set :=
  View.cover_of_tiled [⟨r4_3, p0⟩] S1024x512.size (by rfl) y

/-! ## The body's triple -/

set_option maxHeartbeats 1000000 in
/-- The body on whole staging memrefs, the inputs' at contents `x0`, `x1`, `x2` and the output's at anything, runs
    to the continuation holding the inputs' as they were and the output's at `out4_3 x0 x1 x2`: the three loads return
    the inputs' contents, the load of the output block returns a value that is dropped, and the store of the whole
    block overwrites whatever was there. -/
theorem sound_kernel4 (c : Dev nD) (E : Set ℕ) (i : grid4.Coords) (arg1 : Memref sig .tc .vmem S1024x512 .f32) (harg1 : arg1.IsWhole) (arg2 : Memref sig .tc .vmem S512x512 .f32) (harg2 : arg2.IsWhole) (arg3 : Memref sig .tc .vmem S512 .f32) (harg3 : arg3.IsWhole) (arg4 : Memref sig .tc .vmem S1024x512 .f32) (harg4 : arg4.IsWhole)
    (x0 : Vec F S1024x512 .f32) (x1 : Vec F S512x512 .f32) (x2 : Vec F S512 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out4_3 x0 x1 x2)) -∗ K ⟨⟩))
      ⊢ wp frame (wpE (defs₀ (F := F)) Variants.none c none) E (cc4__linear_kernel i arg1 harg1 arg2 harg2 arg3 harg3 arg4 harg4) K := by
  simp only [cc4__linear_kernel_eq_skeleton]; unfold cc4__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover4_3 _)

/-! ## The inputs' buffers before the body, for this region's proof data -/

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t))

/-- The body at any point: the inputs' memrefs hold their blocks, so the body's triple applies; the invariant and
    the core's obligations pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).Φ t.succ = (dat4 V c).Φ t.castSucc from rfl,
    show (dat4 V c).owesAt () t.succ = (dat4 V c).owesAt () t.castSucc from rfl,
    after4_0, after4_1, after4_2, after4_3]
  iintro ⟨HΦ, Ho, ⟨%d0, H0⟩, ⟨%d1, H1⟩, ⟨%d2, H2⟩, ⟨%d3, H3⟩⟩
  iapply (sound_kernel4 c Set.univ _ _ _ _ _ _ _ _ _ (iblk4 V c 0 t) (iblk4 V c 1 t) (iblk4 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KI.Run.lean ====
/-
  The run of the program's entry function: five kernel regions among seven stretches of host operations, from the
  launch memory to the return. The buffer contents at every boundary between two items are written as a fold from the
  launch memory (a host stretch applies its operations to the contents before it; a kernel region replaces its windows'
  arrays by what its pipeline leaves and keeps every other buffer), every region's proof data is taken at the contents
  the region is entered from, and the library's theorem for a list of segments gives: every weakly fair execution
  terminates and every unscoped buffer of every core ends holding the last contents of the fold. The argument buffers
  are then read back through the fold to the launch memory: no host operation writes one, and a region only reads
  one through an input window.
-/
import proofs.«139939_j23055384445693_1_alg».proof.Proof.Gen.KernelIdeal.Launch
import proofs.«139939_j23055384445693_1_alg».proof.Proof.Gen.KernelIdeal.Skeleton
import proofs.«139939_j23055384445693_1_alg».proof.Proof.Gen.KernelIdeal.Points
import proofs.«139939_j23055384445693_1_alg».proof.Proof.Gen.KernelIdeal.Regions
import proofs.«139939_j23055384445693_1_alg».proof.Proof.KI.Data
import proofs.«139939_j23055384445693_1_alg».proof.Proof.KI.Body0
import proofs.«139939_j23055384445693_1_alg».proof.Proof.KI.Body1
import proofs.«139939_j23055384445693_1_alg».proof.Proof.KI.Body2
import proofs.«139939_j23055384445693_1_alg».proof.Proof.KI.Body3
import proofs.«139939_j23055384445693_1_alg».proof.Proof.KI.Body4
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffer contents at each boundary: a fold through the entry function -/

/-- Core `c`'s buffers at launch. -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- At region 0's exit: its windows' arrays at what the pipeline leaves (an input's as entered, the output's with every
    write-back folded in), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m ρ c b
/-- At region 0's exit each of its arrays holds what the pipeline leaves, and every other buffer what it held at entry. -/
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- At region 1's exit: its windows' arrays at what the pipeline leaves (an input's as entered, the output's with every
    write-back folded in), every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- The same read at the TensorCore's references. -/
abbrev V2 : (c : Dev nD) → (b : Ref sig .tc) → Buf (Elt F) ((c : Thread nD τ).loc b) := fun c b => W2 m ρ c b
/-- At region 1's exit each of its arrays holds what the pipeline leaves, and every other buffer what it held at entry. -/
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- At region 2's exit: its windows' arrays at what the pipeline leaves (an input's as entered, the output's with every
    write-back folded in), every other buffer as entered. -/
def W3 (c : Dev nD) : Valuation τ sig (Elt F) :=
  Pipeline.withArrays spec2 c (W2 m ρ c) fun w => (dat2 (V2 m ρ) c).arrAt w cfg2.N
theorem W3_arr (c : Dev nD) (w : Fin cfg2.W) :
    W3 m ρ c (Proc.devRef .tc (Pipeline.arrRef spec2 w)) = (dat2 (V2 m ρ) c).arrAt w cfg2.N := by
  unfold W3; exact Pipeline.withArrays_arr spec2 launch2.win.arr_inj c _ _ w
theorem W3_of_ne (c : Dev nD) (b : Ref sig .tc) (hb : ∀ w, Pipeline.arrRef spec2 w ≠ b) :
    W3 m ρ c (Proc.devRef .tc b) = W2 m ρ c (Proc.devRef .tc b) := by
  unfold W3; exact Pipeline.withArrays_of_ne spec2 c _ _ b hb
/-- The same read at the TensorCore's references. -/
abbrev V3 : (c : Dev nD) → (b : Ref sig .tc) → Buf (Elt F) ((c : Thread nD τ).loc b) := fun c b => W3 m ρ c b
/-- At region 2's exit each of its arrays holds what the pipeline leaves, and every other buffer what it held at entry. -/
theorem hF2 (c : Dev nD) (w : Fin cfg2.W) : (dat2 (V2 m ρ) c).arrAt w cfg2.N = V3 m ρ c (Pipeline.arrRef spec2 w) :=
  (W3_arr m ρ c w).symm
theorem hrest2 (c : Dev nD) : ∀ b, b ∉ Finset.univ.image (Pipeline.arrRef spec2) → V3 m ρ c b = V2 m ρ c b :=
  fun b hb => W3_of_ne m ρ c b fun w e => hb (Finset.mem_image.mpr ⟨w, Finset.mem_univ _, e⟩)

/-- After the host stretch `hostOps3`. -/
abbrev W4 : Dev nD → Valuation τ sig (Elt F) := fun c => StableHlo.after hostOps3 (W3 m ρ c)
/-- The same read at the TensorCore's references. -/
abbrev V4 : (c : Dev nD) → (b : Ref sig .tc) → Buf (Elt F) ((c : Thread nD τ).loc b) := fun c b => W4 m ρ c b

/-- After the host stretch `hostOps3_1`. -/
abbrev W5 : Dev nD → Valuation τ sig (Elt F) := fun c => StableHlo.after hostOps3_1 (W4 m ρ c)
/-- The same read at the TensorCore's references. -/
abbrev V5 : (c : Dev nD) → (b : Ref sig .tc) → Buf (Elt F) ((c : Thread nD τ).loc b) := fun c b => W5 m ρ c b

/-- After the host stretch `hostOps3_2`. -/
abbrev W6 : Dev nD → Valuation τ sig (Elt F) := fun c => StableHlo.after hostOps3_2 (W5 m ρ c)
/-- The same read at the TensorCore's references. -/
abbrev V6 : (c : Dev nD) → (b : Ref sig .tc) → Buf (Elt F) ((c : Thread nD τ).loc b) := fun c b => W6 m ρ c b

/-- After the host stretch `hostOps3_3`. -/
abbrev W7 : Dev nD → Valuation τ sig (Elt F) := fun c => StableHlo.after hostOps3_3 (W6 m ρ c)
/-- The same read at the TensorCore's references. -/
abbrev V7 : (c : Dev nD) → (b : Ref sig .tc) → Buf (Elt F) ((c : Thread nD τ).loc b) := fun c b => W7 m ρ c b

/-- After the host stretch `hostOps3_4`. -/
abbrev W8 : Dev nD → Valuation τ sig (Elt F) := fun c => StableHlo.after hostOps3_4 (W7 m ρ c)
/-- The same read at the TensorCore's references. -/
abbrev V8 : (c : Dev nD) → (b : Ref sig .tc) → Buf (Elt F) ((c : Thread nD τ).loc b) := fun c b => W8 m ρ c b

/-- At region 3's exit: its windows' arrays at what the pipeline leaves (an input's as entered, the output's with every
    write-back folded in), every other buffer as entered. -/
def W9 (c : Dev nD) : Valuation τ sig (Elt F) :=
  Pipeline.withArrays spec3 c (W8 m ρ c) fun w => (dat3 (V8 m ρ) c).arrAt w cfg3.N
theorem W9_arr (c : Dev nD) (w : Fin cfg3.W) :
    W9 m ρ c (Proc.devRef .tc (Pipeline.arrRef spec3 w)) = (dat3 (V8 m ρ) c).arrAt w cfg3.N := by
  unfold W9; exact Pipeline.withArrays_arr spec3 launch3.win.arr_inj c _ _ w
theorem W9_of_ne (c : Dev nD) (b : Ref sig .tc) (hb : ∀ w, Pipeline.arrRef spec3 w ≠ b) :
    W9 m ρ c (Proc.devRef .tc b) = W8 m ρ c (Proc.devRef .tc b) := by
  unfold W9; exact Pipeline.withArrays_of_ne spec3 c _ _ b hb
/-- The same read at the TensorCore's references. -/
abbrev V9 : (c : Dev nD) → (b : Ref sig .tc) → Buf (Elt F) ((c : Thread nD τ).loc b) := fun c b => W9 m ρ c b
/-- At region 3's exit each of its arrays holds what the pipeline leaves, and every other buffer what it held at entry. -/
theorem hF3 (c : Dev nD) (w : Fin cfg3.W) : (dat3 (V8 m ρ) c).arrAt w cfg3.N = V9 m ρ c (Pipeline.arrRef spec3 w) :=
  (W9_arr m ρ c w).symm
theorem hrest3 (c : Dev nD) : ∀ b, b ∉ Finset.univ.image (Pipeline.arrRef spec3) → V9 m ρ c b = V8 m ρ c b :=
  fun b hb => W9_of_ne m ρ c b fun w e => hb (Finset.mem_image.mpr ⟨w, Finset.mem_univ _, e⟩)

/-- After the host stretch `hostOps4`. -/
abbrev W10 : Dev nD → Valuation τ sig (Elt F) := fun c => StableHlo.after hostOps4 (W9 m ρ c)
/-- The same read at the TensorCore's references. -/
abbrev V10 : (c : Dev nD) → (b : Ref sig .tc) → Buf (Elt F) ((c : Thread nD τ).loc b) := fun c b => W10 m ρ c b

/-- At region 4's exit: its windows' arrays at what the pipeline leaves (an input's as entered, the output's with every
    write-back folded in), every other buffer as entered. -/
def W11 (c : Dev nD) : Valuation τ sig (Elt F) :=
  Pipeline.withArrays spec4 c (W10 m ρ c) fun w => (dat4 (V10 m ρ) c).arrAt w cfg4.N
theorem W11_arr (c : Dev nD) (w : Fin cfg4.W) :
    W11 m ρ c (Proc.devRef .tc (Pipeline.arrRef spec4 w)) = (dat4 (V10 m ρ) c).arrAt w cfg4.N := by
  unfold W11; exact Pipeline.withArrays_arr spec4 launch4.win.arr_inj c _ _ w
theorem W11_of_ne (c : Dev nD) (b : Ref sig .tc) (hb : ∀ w, Pipeline.arrRef spec4 w ≠ b) :
    W11 m ρ c (Proc.devRef .tc b) = W10 m ρ c (Proc.devRef .tc b) := by
  unfold W11; exact Pipeline.withArrays_of_ne spec4 c _ _ b hb
/-- The same read at the TensorCore's references. -/
abbrev V11 : (c : Dev nD) → (b : Ref sig .tc) → Buf (Elt F) ((c : Thread nD τ).loc b) := fun c b => W11 m ρ c b
/-- At region 4's exit each of its arrays holds what the pipeline leaves, and every other buffer what it held at entry. -/
theorem hF4 (c : Dev nD) (w : Fin cfg4.W) : (dat4 (V10 m ρ) c).arrAt w cfg4.N = V11 m ρ c (Pipeline.arrRef spec4 w) :=
  (W11_arr m ρ c w).symm
theorem hrest4 (c : Dev nD) : ∀ b, b ∉ Finset.univ.image (Pipeline.arrRef spec4) → V11 m ρ c b = V10 m ρ c b :=
  fun b hb => W11_of_ne m ρ c b fun w e => hb (Finset.mem_image.mpr ⟨w, Finset.mem_univ _, e⟩)

/-- After the host stretch `hostOps5`. -/
abbrev W12 : Dev nD → Valuation τ sig (Elt F) := fun c => StableHlo.after hostOps5 (W11 m ρ c)
/-- The same read at the TensorCore's references. -/
abbrev V12 : (c : Dev nD) → (b : Ref sig .tc) → Buf (Elt F) ((c : Thread nD τ).loc b) := fun c b => W12 m ρ c b

/-! # What each item leaves unchanged

A region changes only its output window's array (an input window's array is never written back, every other buffer
bypasses the region); a host stretch changes only the buffers its operations write. -/

theorem W1_of (c : Dev nD) (r : Ref sig .tc) (h : r ∉ ([main_v0] : List (Ref sig .tc))) :
    W1 m ρ c (Proc.devRef .tc r) = W0 m ρ c (Proc.devRef .tc r) := by
  have key : ∀ w : Fin cfg0.W, Pipeline.arrRef spec0 w ∉ ([main_v0] : List (Ref sig .tc)) → (cfg0.win w).isOut = false := by decide
  by_cases hr : ∃ w, Pipeline.arrRef spec0 w = r
  · obtain ⟨w, rfl⟩ := hr
    exact (W1_arr m ρ c w).trans (((dat0 (V0 m ρ) c).arrAt_in w (key w h) _).trans (A_eq0 (V0 m ρ) c w))
  · exact W1_of_ne m ρ c r fun w e => hr ⟨w, e⟩

theorem W2_of (c : Dev nD) (r : Ref sig .tc) (h : r ∉ ([main_v1] : List (Ref sig .tc))) :
    W2 m ρ c (Proc.devRef .tc r) = W1 m ρ c (Proc.devRef .tc r) := by
  have key : ∀ w : Fin cfg1.W, Pipeline.arrRef spec1 w ∉ ([main_v1] : List (Ref sig .tc)) → (cfg1.win w).isOut = false := by decide
  by_cases hr : ∃ w, Pipeline.arrRef spec1 w = r
  · obtain ⟨w, rfl⟩ := hr
    exact (W2_arr m ρ c w).trans (((dat1 (V1 m ρ) c).arrAt_in w (key w h) _).trans (A_eq1 (V1 m ρ) c w))
  · exact W2_of_ne m ρ c r fun w e => hr ⟨w, e⟩

theorem W3_of (c : Dev nD) (r : Ref sig .tc) (h : r ∉ ([main_v2] : List (Ref sig .tc))) :
    W3 m ρ c (Proc.devRef .tc r) = W2 m ρ c (Proc.devRef .tc r) := by
  have key : ∀ w : Fin cfg2.W, Pipeline.arrRef spec2 w ∉ ([main_v2] : List (Ref sig .tc)) → (cfg2.win w).isOut = false := by decide
  by_cases hr : ∃ w, Pipeline.arrRef spec2 w = r
  · obtain ⟨w, rfl⟩ := hr
    exact (W3_arr m ρ c w).trans (((dat2 (V2 m ρ) c).arrAt_in w (key w h) _).trans (A_eq2 (V2 m ρ) c w))
  · exact W3_of_ne m ρ c r fun w e => hr ⟨w, e⟩

theorem W9_of (c : Dev nD) (r : Ref sig .tc) (h : r ∉ ([main_v36] : List (Ref sig .tc))) :
    W9 m ρ c (Proc.devRef .tc r) = W8 m ρ c (Proc.devRef .tc r) := by
  have key : ∀ w : Fin cfg3.W, Pipeline.arrRef spec3 w ∉ ([main_v36] : List (Ref sig .tc)) → (cfg3.win w).isOut = false := by decide
  by_cases hr : ∃ w, Pipeline.arrRef spec3 w = r
  · obtain ⟨w, rfl⟩ := hr
    exact (W9_arr m ρ c w).trans (((dat3 (V8 m ρ) c).arrAt_in w (key w h) _).trans (A_eq3 (V8 m ρ) c w))
  · exact W9_of_ne m ρ c r fun w e => hr ⟨w, e⟩

theorem W11_of (c : Dev nD) (r : Ref sig .tc) (h : r ∉ ([main_v53] : List (Ref sig .tc))) :
    W11 m ρ c (Proc.devRef .tc r) = W10 m ρ c (Proc.devRef .tc r) := by
  have key : ∀ w : Fin cfg4.W, Pipeline.arrRef spec4 w ∉ ([main_v53] : List (Ref sig .tc)) → (cfg4.win w).isOut = false := by decide
  by_cases hr : ∃ w, Pipeline.arrRef spec4 w = r
  · obtain ⟨w, rfl⟩ := hr
    exact (W11_arr m ρ c w).trans (((dat4 (V10 m ρ) c).arrAt_in w (key w h) _).trans (A_eq4 (V10 m ρ) c w))
  · exact W11_of_ne m ρ c r fun w e => hr ⟨w, e⟩

theorem W4_of (c : Dev nD) (r : Ref sig .tc) (h : r ∉ hostOps3_W) :
    W4 m ρ c (Proc.devRef .tc r) = W3 m ρ c (Proc.devRef .tc r) :=
  StableHlo.after_of_writes_sub hostOps3 _ hostOps3_writes h

theorem W5_of (c : Dev nD) (r : Ref sig .tc) (h : r ∉ hostOps3_1_W) :
    W5 m ρ c (Proc.devRef .tc r) = W4 m ρ c (Proc.devRef .tc r) :=
  StableHlo.after_of_writes_sub hostOps3_1 _ hostOps3_1_writes h

theorem W6_of (c : Dev nD) (r : Ref sig .tc) (h : r ∉ hostOps3_2_W) :
    W6 m ρ c (Proc.devRef .tc r) = W5 m ρ c (Proc.devRef .tc r) :=
  StableHlo.after_of_writes_sub hostOps3_2 _ hostOps3_2_writes h

theorem W7_of (c : Dev nD) (r : Ref sig .tc) (h : r ∉ hostOps3_3_W) :
    W7 m ρ c (Proc.devRef .tc r) = W6 m ρ c (Proc.devRef .tc r) :=
  StableHlo.after_of_writes_sub hostOps3_3 _ hostOps3_3_writes h

theorem W8_of (c : Dev nD) (r : Ref sig .tc) (h : r ∉ hostOps3_4_W) :
    W8 m ρ c (Proc.devRef .tc r) = W7 m ρ c (Proc.devRef .tc r) :=
  StableHlo.after_of_writes_sub hostOps3_4 _ hostOps3_4_writes h

theorem W10_of (c : Dev nD) (r : Ref sig .tc) (h : r ∉ hostOps4_W) :
    W10 m ρ c (Proc.devRef .tc r) = W9 m ρ c (Proc.devRef .tc r) :=
  StableHlo.after_of_writes_sub hostOps4 _ hostOps4_writes h

theorem W12_of (c : Dev nD) (r : Ref sig .tc) (h : r ∉ hostOps5_W) :
    W12 m ρ c (Proc.devRef .tc r) = W11 m ρ c (Proc.devRef .tc r) :=
  StableHlo.after_of_writes_sub hostOps5 _ hostOps5_writes h

/-! # The arguments end as launched

No host operation writes an argument's buffer and no region changes one (a region reads it through an input window, whose
array is never written back, or does not touch it), so the fold at an argument's buffer walks back to the launch memory. -/

theorem W12_main_arg0 (c : Dev nD) : W12 m ρ c (Proc.devRef .tc main_arg0) = m ((c : Thread nD τ).loc main_arg0) :=
  calc W12 m ρ c (Proc.devRef .tc main_arg0)
    _ = W11 m ρ c (Proc.devRef .tc main_arg0) := StableHlo.after_of_writes_sub hostOps5 _ hostOps5_writes (by decide)
    _ = W10 m ρ c (Proc.devRef .tc main_arg0) := W11_of_ne m ρ c main_arg0 (by decide)
    _ = W9 m ρ c (Proc.devRef .tc main_arg0) := StableHlo.after_of_writes_sub hostOps4 _ hostOps4_writes (by decide)
    _ = W8 m ρ c (Proc.devRef .tc main_arg0) := W9_of_ne m ρ c main_arg0 (by decide)
    _ = W7 m ρ c (Proc.devRef .tc main_arg0) := StableHlo.after_of_writes_sub hostOps3_4 _ hostOps3_4_writes (by decide)
    _ = W6 m ρ c (Proc.devRef .tc main_arg0) := StableHlo.after_of_writes_sub hostOps3_3 _ hostOps3_3_writes (by decide)
    _ = W5 m ρ c (Proc.devRef .tc main_arg0) := StableHlo.after_of_writes_sub hostOps3_2 _ hostOps3_2_writes (by decide)
    _ = W4 m ρ c (Proc.devRef .tc main_arg0) := StableHlo.after_of_writes_sub hostOps3_1 _ hostOps3_1_writes (by decide)
    _ = W3 m ρ c (Proc.devRef .tc main_arg0) := StableHlo.after_of_writes_sub hostOps3 _ hostOps3_writes (by decide)
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := (W1_arr m ρ c 0).trans (((dat0 (V0 m ρ) c).arrAt_in 0 rfl _).trans (A_eq0 (V0 m ρ) c 0))
    _ = m ((c : Thread nD τ).loc main_arg0) := rfl

theorem W12_main_arg1 (c : Dev nD) : W12 m ρ c (Proc.devRef .tc main_arg1) = m ((c : Thread nD τ).loc main_arg1) :=
  calc W12 m ρ c (Proc.devRef .tc main_arg1)
    _ = W11 m ρ c (Proc.devRef .tc main_arg1) := StableHlo.after_of_writes_sub hostOps5 _ hostOps5_writes (by decide)
    _ = W10 m ρ c (Proc.devRef .tc main_arg1) := W11_of_ne m ρ c main_arg1 (by decide)
    _ = W9 m ρ c (Proc.devRef .tc main_arg1) := StableHlo.after_of_writes_sub hostOps4 _ hostOps4_writes (by decide)
    _ = W8 m ρ c (Proc.devRef .tc main_arg1) := W9_of_ne m ρ c main_arg1 (by decide)
    _ = W7 m ρ c (Proc.devRef .tc main_arg1) := StableHlo.after_of_writes_sub hostOps3_4 _ hostOps3_4_writes (by decide)
    _ = W6 m ρ c (Proc.devRef .tc main_arg1) := StableHlo.after_of_writes_sub hostOps3_3 _ hostOps3_3_writes (by decide)
    _ = W5 m ρ c (Proc.devRef .tc main_arg1) := StableHlo.after_of_writes_sub hostOps3_2 _ hostOps3_2_writes (by decide)
    _ = W4 m ρ c (Proc.devRef .tc main_arg1) := StableHlo.after_of_writes_sub hostOps3_1 _ hostOps3_1_writes (by decide)
    _ = W3 m ρ c (Proc.devRef .tc main_arg1) := StableHlo.after_of_writes_sub hostOps3 _ hostOps3_writes (by decide)
    _ = W2 m ρ c (Proc.devRef .tc main_arg1) := W3_of_ne m ρ c main_arg1 (by decide)
    _ = W1 m ρ c (Proc.devRef .tc main_arg1) := (W2_arr m ρ c 0).trans (((dat1 (V1 m ρ) c).arrAt_in 0 rfl _).trans (A_eq1 (V1 m ρ) c 0))
    _ = W0 m ρ c (Proc.devRef .tc main_arg1) := W1_of_ne m ρ c main_arg1 (by decide)
    _ = m ((c : Thread nD τ).loc main_arg1) := rfl

theorem W12_main_arg2 (c : Dev nD) : W12 m ρ c (Proc.devRef .tc main_arg2) = m ((c : Thread nD τ).loc main_arg2) :=
  calc W12 m ρ c (Proc.devRef .tc main_arg2)
    _ = W11 m ρ c (Proc.devRef .tc main_arg2) := StableHlo.after_of_writes_sub hostOps5 _ hostOps5_writes (by decide)
    _ = W10 m ρ c (Proc.devRef .tc main_arg2) := W11_of_ne m ρ c main_arg2 (by decide)
    _ = W9 m ρ c (Proc.devRef .tc main_arg2) := StableHlo.after_of_writes_sub hostOps4 _ hostOps4_writes (by decide)
    _ = W8 m ρ c (Proc.devRef .tc main_arg2) := W9_of_ne m ρ c main_arg2 (by decide)
    _ = W7 m ρ c (Proc.devRef .tc main_arg2) := StableHlo.after_of_writes_sub hostOps3_4 _ hostOps3_4_writes (by decide)
    _ = W6 m ρ c (Proc.devRef .tc main_arg2) := StableHlo.after_of_writes_sub hostOps3_3 _ hostOps3_3_writes (by decide)
    _ = W5 m ρ c (Proc.devRef .tc main_arg2) := StableHlo.after_of_writes_sub hostOps3_2 _ hostOps3_2_writes (by decide)
    _ = W4 m ρ c (Proc.devRef .tc main_arg2) := StableHlo.after_of_writes_sub hostOps3_1 _ hostOps3_1_writes (by decide)
    _ = W3 m ρ c (Proc.devRef .tc main_arg2) := StableHlo.after_of_writes_sub hostOps3 _ hostOps3_writes (by decide)
    _ = W2 m ρ c (Proc.devRef .tc main_arg2) := (W3_arr m ρ c 0).trans (((dat2 (V2 m ρ) c).arrAt_in 0 rfl _).trans (A_eq2 (V2 m ρ) c 0))
    _ = W1 m ρ c (Proc.devRef .tc main_arg2) := W2_of_ne m ρ c main_arg2 (by decide)
    _ = W0 m ρ c (Proc.devRef .tc main_arg2) := W1_of_ne m ρ c main_arg2 (by decide)
    _ = m ((c : Thread nD τ).loc main_arg2) := rfl

theorem W12_main_arg3 (c : Dev nD) : W12 m ρ c (Proc.devRef .tc main_arg3) = m ((c : Thread nD τ).loc main_arg3) :=
  calc W12 m ρ c (Proc.devRef .tc main_arg3)
    _ = W11 m ρ c (Proc.devRef .tc main_arg3) := StableHlo.after_of_writes_sub hostOps5 _ hostOps5_writes (by decide)
    _ = W10 m ρ c (Proc.devRef .tc main_arg3) := W11_of_ne m ρ c main_arg3 (by decide)
    _ = W9 m ρ c (Proc.devRef .tc main_arg3) := StableHlo.after_of_writes_sub hostOps4 _ hostOps4_writes (by decide)
    _ = W8 m ρ c (Proc.devRef .tc main_arg3) := W9_of_ne m ρ c main_arg3 (by decide)
    _ = W7 m ρ c (Proc.devRef .tc main_arg3) := StableHlo.after_of_writes_sub hostOps3_4 _ hostOps3_4_writes (by decide)
    _ = W6 m ρ c (Proc.devRef .tc main_arg3) := StableHlo.after_of_writes_sub hostOps3_3 _ hostOps3_3_writes (by decide)
    _ = W5 m ρ c (Proc.devRef .tc main_arg3) := StableHlo.after_of_writes_sub hostOps3_2 _ hostOps3_2_writes (by decide)
    _ = W4 m ρ c (Proc.devRef .tc main_arg3) := StableHlo.after_of_writes_sub hostOps3_1 _ hostOps3_1_writes (by decide)
    _ = W3 m ρ c (Proc.devRef .tc main_arg3) := StableHlo.after_of_writes_sub hostOps3 _ hostOps3_writes (by decide)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := (W1_arr m ρ c 1).trans (((dat0 (V0 m ρ) c).arrAt_in 1 rfl _).trans (A_eq0 (V0 m ρ) c 1))
    _ = m ((c : Thread nD τ).loc main_arg3) := rfl

theorem W12_main_arg4 (c : Dev nD) : W12 m ρ c (Proc.devRef .tc main_arg4) = m ((c : Thread nD τ).loc main_arg4) :=
  calc W12 m ρ c (Proc.devRef .tc main_arg4)
    _ = W11 m ρ c (Proc.devRef .tc main_arg4) := StableHlo.after_of_writes_sub hostOps5 _ hostOps5_writes (by decide)
    _ = W10 m ρ c (Proc.devRef .tc main_arg4) := W11_of_ne m ρ c main_arg4 (by decide)
    _ = W9 m ρ c (Proc.devRef .tc main_arg4) := StableHlo.after_of_writes_sub hostOps4 _ hostOps4_writes (by decide)
    _ = W8 m ρ c (Proc.devRef .tc main_arg4) := W9_of_ne m ρ c main_arg4 (by decide)
    _ = W7 m ρ c (Proc.devRef .tc main_arg4) := StableHlo.after_of_writes_sub hostOps3_4 _ hostOps3_4_writes (by decide)
    _ = W6 m ρ c (Proc.devRef .tc main_arg4) := StableHlo.after_of_writes_sub hostOps3_3 _ hostOps3_3_writes (by decide)
    _ = W5 m ρ c (Proc.devRef .tc main_arg4) := StableHlo.after_of_writes_sub hostOps3_2 _ hostOps3_2_writes (by decide)
    _ = W4 m ρ c (Proc.devRef .tc main_arg4) := StableHlo.after_of_writes_sub hostOps3_1 _ hostOps3_1_writes (by decide)
    _ = W3 m ρ c (Proc.devRef .tc main_arg4) := StableHlo.after_of_writes_sub hostOps3 _ hostOps3_writes (by decide)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := (W1_arr m ρ c 2).trans (((dat0 (V0 m ρ) c).arrAt_in 2 rfl _).trans (A_eq0 (V0 m ρ) c 2))
    _ = m ((c : Thread nD τ).loc main_arg4) := rfl

theorem W12_main_arg5 (c : Dev nD) : W12 m ρ c (Proc.devRef .tc main_arg5) = m ((c : Thread nD τ).loc main_arg5) :=
  calc W12 m ρ c (Proc.devRef .tc main_arg5)
    _ = W11 m ρ c (Proc.devRef .tc main_arg5) := StableHlo.after_of_writes_sub hostOps5 _ hostOps5_writes (by decide)
    _ = W10 m ρ c (Proc.devRef .tc main_arg5) := W11_of_ne m ρ c main_arg5 (by decide)
    _ = W9 m ρ c (Proc.devRef .tc main_arg5) := StableHlo.after_of_writes_sub hostOps4 _ hostOps4_writes (by decide)
    _ = W8 m ρ c (Proc.devRef .tc main_arg5) := W9_of_ne m ρ c main_arg5 (by decide)
    _ = W7 m ρ c (Proc.devRef .tc main_arg5) := StableHlo.after_of_writes_sub hostOps3_4 _ hostOps3_4_writes (by decide)
    _ = W6 m ρ c (Proc.devRef .tc main_arg5) := StableHlo.after_of_writes_sub hostOps3_3 _ hostOps3_3_writes (by decide)
    _ = W5 m ρ c (Proc.devRef .tc main_arg5) := StableHlo.after_of_writes_sub hostOps3_2 _ hostOps3_2_writes (by decide)
    _ = W4 m ρ c (Proc.devRef .tc main_arg5) := StableHlo.after_of_writes_sub hostOps3_1 _ hostOps3_1_writes (by decide)
    _ = W3 m ρ c (Proc.devRef .tc main_arg5) := StableHlo.after_of_writes_sub hostOps3 _ hostOps3_writes (by decide)
    _ = W2 m ρ c (Proc.devRef .tc main_arg5) := W3_of_ne m ρ c main_arg5 (by decide)
    _ = W1 m ρ c (Proc.devRef .tc main_arg5) := (W2_arr m ρ c 1).trans (((dat1 (V1 m ρ) c).arrAt_in 1 rfl _).trans (A_eq1 (V1 m ρ) c 1))
    _ = W0 m ρ c (Proc.devRef .tc main_arg5) := W1_of_ne m ρ c main_arg5 (by decide)
    _ = m ((c : Thread nD τ).loc main_arg5) := rfl

theorem W12_main_arg6 (c : Dev nD) : W12 m ρ c (Proc.devRef .tc main_arg6) = m ((c : Thread nD τ).loc main_arg6) :=
  calc W12 m ρ c (Proc.devRef .tc main_arg6)
    _ = W11 m ρ c (Proc.devRef .tc main_arg6) := StableHlo.after_of_writes_sub hostOps5 _ hostOps5_writes (by decide)
    _ = W10 m ρ c (Proc.devRef .tc main_arg6) := W11_of_ne m ρ c main_arg6 (by decide)
    _ = W9 m ρ c (Proc.devRef .tc main_arg6) := StableHlo.after_of_writes_sub hostOps4 _ hostOps4_writes (by decide)
    _ = W8 m ρ c (Proc.devRef .tc main_arg6) := W9_of_ne m ρ c main_arg6 (by decide)
    _ = W7 m ρ c (Proc.devRef .tc main_arg6) := StableHlo.after_of_writes_sub hostOps3_4 _ hostOps3_4_writes (by decide)
    _ = W6 m ρ c (Proc.devRef .tc main_arg6) := StableHlo.after_of_writes_sub hostOps3_3 _ hostOps3_3_writes (by decide)
    _ = W5 m ρ c (Proc.devRef .tc main_arg6) := StableHlo.after_of_writes_sub hostOps3_2 _ hostOps3_2_writes (by decide)
    _ = W4 m ρ c (Proc.devRef .tc main_arg6) := StableHlo.after_of_writes_sub hostOps3_1 _ hostOps3_1_writes (by decide)
    _ = W3 m ρ c (Proc.devRef .tc main_arg6) := StableHlo.after_of_writes_sub hostOps3 _ hostOps3_writes (by decide)
    _ = W2 m ρ c (Proc.devRef .tc main_arg6) := W3_of_ne m ρ c main_arg6 (by decide)
    _ = W1 m ρ c (Proc.devRef .tc main_arg6) := (W2_arr m ρ c 2).trans (((dat1 (V1 m ρ) c).arrAt_in 2 rfl _).trans (A_eq1 (V1 m ρ) c 2))
    _ = W0 m ρ c (Proc.devRef .tc main_arg6) := W1_of_ne m ρ c main_arg6 (by decide)
    _ = m ((c : Thread nD τ).loc main_arg6) := rfl

theorem W12_main_arg7 (c : Dev nD) : W12 m ρ c (Proc.devRef .tc main_arg7) = m ((c : Thread nD τ).loc main_arg7) :=
  calc W12 m ρ c (Proc.devRef .tc main_arg7)
    _ = W11 m ρ c (Proc.devRef .tc main_arg7) := StableHlo.after_of_writes_sub hostOps5 _ hostOps5_writes (by decide)
    _ = W10 m ρ c (Proc.devRef .tc main_arg7) := W11_of_ne m ρ c main_arg7 (by decide)
    _ = W9 m ρ c (Proc.devRef .tc main_arg7) := StableHlo.after_of_writes_sub hostOps4 _ hostOps4_writes (by decide)
    _ = W8 m ρ c (Proc.devRef .tc main_arg7) := W9_of_ne m ρ c main_arg7 (by decide)
    _ = W7 m ρ c (Proc.devRef .tc main_arg7) := StableHlo.after_of_writes_sub hostOps3_4 _ hostOps3_4_writes (by decide)
    _ = W6 m ρ c (Proc.devRef .tc main_arg7) := StableHlo.after_of_writes_sub hostOps3_3 _ hostOps3_3_writes (by decide)
    _ = W5 m ρ c (Proc.devRef .tc main_arg7) := StableHlo.after_of_writes_sub hostOps3_2 _ hostOps3_2_writes (by decide)
    _ = W4 m ρ c (Proc.devRef .tc main_arg7) := StableHlo.after_of_writes_sub hostOps3_1 _ hostOps3_1_writes (by decide)
    _ = W3 m ρ c (Proc.devRef .tc main_arg7) := StableHlo.after_of_writes_sub hostOps3 _ hostOps3_writes (by decide)
    _ = W2 m ρ c (Proc.devRef .tc main_arg7) := (W3_arr m ρ c 1).trans (((dat2 (V2 m ρ) c).arrAt_in 1 rfl _).trans (A_eq2 (V2 m ρ) c 1))
    _ = W1 m ρ c (Proc.devRef .tc main_arg7) := W2_of_ne m ρ c main_arg7 (by decide)
    _ = W0 m ρ c (Proc.devRef .tc main_arg7) := W1_of_ne m ρ c main_arg7 (by decide)
    _ = m ((c : Thread nD τ).loc main_arg7) := rfl

theorem W12_main_arg8 (c : Dev nD) : W12 m ρ c (Proc.devRef .tc main_arg8) = m ((c : Thread nD τ).loc main_arg8) :=
  calc W12 m ρ c (Proc.devRef .tc main_arg8)
    _ = W11 m ρ c (Proc.devRef .tc main_arg8) := StableHlo.after_of_writes_sub hostOps5 _ hostOps5_writes (by decide)
    _ = W10 m ρ c (Proc.devRef .tc main_arg8) := W11_of_ne m ρ c main_arg8 (by decide)
    _ = W9 m ρ c (Proc.devRef .tc main_arg8) := StableHlo.after_of_writes_sub hostOps4 _ hostOps4_writes (by decide)
    _ = W8 m ρ c (Proc.devRef .tc main_arg8) := W9_of_ne m ρ c main_arg8 (by decide)
    _ = W7 m ρ c (Proc.devRef .tc main_arg8) := StableHlo.after_of_writes_sub hostOps3_4 _ hostOps3_4_writes (by decide)
    _ = W6 m ρ c (Proc.devRef .tc main_arg8) := StableHlo.after_of_writes_sub hostOps3_3 _ hostOps3_3_writes (by decide)
    _ = W5 m ρ c (Proc.devRef .tc main_arg8) := StableHlo.after_of_writes_sub hostOps3_2 _ hostOps3_2_writes (by decide)
    _ = W4 m ρ c (Proc.devRef .tc main_arg8) := StableHlo.after_of_writes_sub hostOps3_1 _ hostOps3_1_writes (by decide)
    _ = W3 m ρ c (Proc.devRef .tc main_arg8) := StableHlo.after_of_writes_sub hostOps3 _ hostOps3_writes (by decide)
    _ = W2 m ρ c (Proc.devRef .tc main_arg8) := (W3_arr m ρ c 2).trans (((dat2 (V2 m ρ) c).arrAt_in 2 rfl _).trans (A_eq2 (V2 m ρ) c 2))
    _ = W1 m ρ c (Proc.devRef .tc main_arg8) := W2_of_ne m ρ c main_arg8 (by decide)
    _ = W0 m ρ c (Proc.devRef .tc main_arg8) := W1_of_ne m ρ c main_arg8 (by decide)
    _ = m ((c : Thread nD τ).loc main_arg8) := rfl

theorem W12_main_arg9 (c : Dev nD) : W12 m ρ c (Proc.devRef .tc main_arg9) = m ((c : Thread nD τ).loc main_arg9) :=
  calc W12 m ρ c (Proc.devRef .tc main_arg9)
    _ = W11 m ρ c (Proc.devRef .tc main_arg9) := StableHlo.after_of_writes_sub hostOps5 _ hostOps5_writes (by decide)
    _ = W10 m ρ c (Proc.devRef .tc main_arg9) := W11_of_ne m ρ c main_arg9 (by decide)
    _ = W9 m ρ c (Proc.devRef .tc main_arg9) := StableHlo.after_of_writes_sub hostOps4 _ hostOps4_writes (by decide)
    _ = W8 m ρ c (Proc.devRef .tc main_arg9) := (W9_arr m ρ c 1).trans (((dat3 (V8 m ρ) c).arrAt_in 1 rfl _).trans (A_eq3 (V8 m ρ) c 1))
    _ = W7 m ρ c (Proc.devRef .tc main_arg9) := StableHlo.after_of_writes_sub hostOps3_4 _ hostOps3_4_writes (by decide)
    _ = W6 m ρ c (Proc.devRef .tc main_arg9) := StableHlo.after_of_writes_sub hostOps3_3 _ hostOps3_3_writes (by decide)
    _ = W5 m ρ c (Proc.devRef .tc main_arg9) := StableHlo.after_of_writes_sub hostOps3_2 _ hostOps3_2_writes (by decide)
    _ = W4 m ρ c (Proc.devRef .tc main_arg9) := StableHlo.after_of_writes_sub hostOps3_1 _ hostOps3_1_writes (by decide)
    _ = W3 m ρ c (Proc.devRef .tc main_arg9) := StableHlo.after_of_writes_sub hostOps3 _ hostOps3_writes (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := W1_of_ne m ρ c main_arg9 (by decide)
    _ = m ((c : Thread nD τ).loc main_arg9) := rfl

theorem W12_main_arg10 (c : Dev nD) : W12 m ρ c (Proc.devRef .tc main_arg10) = m ((c : Thread nD τ).loc main_arg10) :=
  calc W12 m ρ c (Proc.devRef .tc main_arg10)
    _ = W11 m ρ c (Proc.devRef .tc main_arg10) := StableHlo.after_of_writes_sub hostOps5 _ hostOps5_writes (by decide)
    _ = W10 m ρ c (Proc.devRef .tc main_arg10) := (W11_arr m ρ c 1).trans (((dat4 (V10 m ρ) c).arrAt_in 1 rfl _).trans (A_eq4 (V10 m ρ) c 1))
    _ = W9 m ρ c (Proc.devRef .tc main_arg10) := StableHlo.after_of_writes_sub hostOps4 _ hostOps4_writes (by decide)
    _ = W8 m ρ c (Proc.devRef .tc main_arg10) := W9_of_ne m ρ c main_arg10 (by decide)
    _ = W7 m ρ c (Proc.devRef .tc main_arg10) := StableHlo.after_of_writes_sub hostOps3_4 _ hostOps3_4_writes (by decide)
    _ = W6 m ρ c (Proc.devRef .tc main_arg10) := StableHlo.after_of_writes_sub hostOps3_3 _ hostOps3_3_writes (by decide)
    _ = W5 m ρ c (Proc.devRef .tc main_arg10) := StableHlo.after_of_writes_sub hostOps3_2 _ hostOps3_2_writes (by decide)
    _ = W4 m ρ c (Proc.devRef .tc main_arg10) := StableHlo.after_of_writes_sub hostOps3_1 _ hostOps3_1_writes (by decide)
    _ = W3 m ρ c (Proc.devRef .tc main_arg10) := StableHlo.after_of_writes_sub hostOps3 _ hostOps3_writes (by decide)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := W1_of_ne m ρ c main_arg10 (by decide)
    _ = m ((c : Thread nD τ).loc main_arg10) := rfl

theorem W12_main_arg11 (c : Dev nD) : W12 m ρ c (Proc.devRef .tc main_arg11) = m ((c : Thread nD τ).loc main_arg11) :=
  calc W12 m ρ c (Proc.devRef .tc main_arg11)
    _ = W11 m ρ c (Proc.devRef .tc main_arg11) := StableHlo.after_of_writes_sub hostOps5 _ hostOps5_writes (by decide)
    _ = W10 m ρ c (Proc.devRef .tc main_arg11) := (W11_arr m ρ c 2).trans (((dat4 (V10 m ρ) c).arrAt_in 2 rfl _).trans (A_eq4 (V10 m ρ) c 2))
    _ = W9 m ρ c (Proc.devRef .tc main_arg11) := StableHlo.after_of_writes_sub hostOps4 _ hostOps4_writes (by decide)
    _ = W8 m ρ c (Proc.devRef .tc main_arg11) := W9_of_ne m ρ c main_arg11 (by decide)
    _ = W7 m ρ c (Proc.devRef .tc main_arg11) := StableHlo.after_of_writes_sub hostOps3_4 _ hostOps3_4_writes (by decide)
    _ = W6 m ρ c (Proc.devRef .tc main_arg11) := StableHlo.after_of_writes_sub hostOps3_3 _ hostOps3_3_writes (by decide)
    _ = W5 m ρ c (Proc.devRef .tc main_arg11) := StableHlo.after_of_writes_sub hostOps3_2 _ hostOps3_2_writes (by decide)
    _ = W4 m ρ c (Proc.devRef .tc main_arg11) := StableHlo.after_of_writes_sub hostOps3_1 _ hostOps3_1_writes (by decide)
    _ = W3 m ρ c (Proc.devRef .tc main_arg11) := StableHlo.after_of_writes_sub hostOps3 _ hostOps3_writes (by decide)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := W1_of_ne m ρ c main_arg11 (by decide)
    _ = m ((c : Thread nD τ).loc main_arg11) := rfl

theorem W12_main_arg12 (c : Dev nD) : W12 m ρ c (Proc.devRef .tc main_arg12) = m ((c : Thread nD τ).loc main_arg12) :=
  calc W12 m ρ c (Proc.devRef .tc main_arg12)
    _ = W11 m ρ c (Proc.devRef .tc main_arg12) := StableHlo.after_of_writes_sub hostOps5 _ hostOps5_writes (by decide)
    _ = W10 m ρ c (Proc.devRef .tc main_arg12) := W11_of_ne m ρ c main_arg12 (by decide)
    _ = W9 m ρ c (Proc.devRef .tc main_arg12) := StableHlo.after_of_writes_sub hostOps4 _ hostOps4_writes (by decide)
    _ = W8 m ρ c (Proc.devRef .tc main_arg12) := W9_of_ne m ρ c main_arg12 (by decide)
    _ = W7 m ρ c (Proc.devRef .tc main_arg12) := StableHlo.after_of_writes_sub hostOps3_4 _ hostOps3_4_writes (by decide)
    _ = W6 m ρ c (Proc.devRef .tc main_arg12) := StableHlo.after_of_writes_sub hostOps3_3 _ hostOps3_3_writes (by decide)
    _ = W5 m ρ c (Proc.devRef .tc main_arg12) := StableHlo.after_of_writes_sub hostOps3_2 _ hostOps3_2_writes (by decide)
    _ = W4 m ρ c (Proc.devRef .tc main_arg12) := StableHlo.after_of_writes_sub hostOps3_1 _ hostOps3_1_writes (by decide)
    _ = W3 m ρ c (Proc.devRef .tc main_arg12) := StableHlo.after_of_writes_sub hostOps3 _ hostOps3_writes (by decide)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := W1_of_ne m ρ c main_arg12 (by decide)
    _ = m ((c : Thread nD τ).loc main_arg12) := rfl

theorem W12_main_arg13 (c : Dev nD) : W12 m ρ c (Proc.devRef .tc main_arg13) = m ((c : Thread nD τ).loc main_arg13) :=
  calc W12 m ρ c (Proc.devRef .tc main_arg13)
    _ = W11 m ρ c (Proc.devRef .tc main_arg13) := StableHlo.after_of_writes_sub hostOps5 _ hostOps5_writes (by decide)
    _ = W10 m ρ c (Proc.devRef .tc main_arg13) := W11_of_ne m ρ c main_arg13 (by decide)
    _ = W9 m ρ c (Proc.devRef .tc main_arg13) := StableHlo.after_of_writes_sub hostOps4 _ hostOps4_writes (by decide)
    _ = W8 m ρ c (Proc.devRef .tc main_arg13) := W9_of_ne m ρ c main_arg13 (by decide)
    _ = W7 m ρ c (Proc.devRef .tc main_arg13) := StableHlo.after_of_writes_sub hostOps3_4 _ hostOps3_4_writes (by decide)
    _ = W6 m ρ c (Proc.devRef .tc main_arg13) := StableHlo.after_of_writes_sub hostOps3_3 _ hostOps3_3_writes (by decide)
    _ = W5 m ρ c (Proc.devRef .tc main_arg13) := StableHlo.after_of_writes_sub hostOps3_2 _ hostOps3_2_writes (by decide)
    _ = W4 m ρ c (Proc.devRef .tc main_arg13) := StableHlo.after_of_writes_sub hostOps3_1 _ hostOps3_1_writes (by decide)
    _ = W3 m ρ c (Proc.devRef .tc main_arg13) := StableHlo.after_of_writes_sub hostOps3 _ hostOps3_writes (by decide)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := W1_of_ne m ρ c main_arg13 (by decide)
    _ = m ((c : Thread nD τ).loc main_arg13) := rfl

/-! # The proof data family and the thread state -/

/-- The prefetched tables' admissible contents: no pipeline has a table. -/
abbrev adm : (p : Fin 5) → (pcfgs (F := F) p).Adm := fun p => (cfgs p).toPCfg_adm
/-- Every pipeline's proof data, each at the contents its region is entered from. -/
def pdats : (p : Fin 5) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
  | ⟨2, _⟩ => fun c => dat2 (V2 m ρ) c
  | ⟨3, _⟩ => fun c => dat3 (V8 m ρ) c
  | ⟨4, _⟩ => fun c => dat4 (V10 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it runs to those
    references at the stretch's operations applied to `W c`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents of the fold, the generator
    register at some state. -/
abbrev Tₙ (c : Dev nD) : sProp 𝕄 := iprop(StableHlo.held (c : Thread nD τ) (Pipeline.ucRefs τ sig) (W12 m ρ c) ∗ ∃ r, prngReg c r)

/-- The last host stretch leaves the last thread state beside the core's dues at nothing (the same resources, regrouped). -/
theorem last_chain (c : Dev nD) :
    iprop(StableHlo.held (c : Thread nD τ) (Pipeline.ucRefs τ sig) (W12 m ρ c) ∗ R (F := F) c)
      ⊢ iprop(Tₙ m ρ c ∗ ∃ W, owes (c : Thread nD τ) (0 : CellTallies nD τ sig Unit) W) := by
  iintro ⟨Hh, Hp, HO⟩
  isplitr [HO]
  · isplitl [Hh]; · iexact Hh
    iexact Hp
  iexact HO

/-! # The regions as segments -/

section Run

-- the body obligations of the five pipelines, each at the contents its region is entered from
variable
  (hb0 : ∀ c : Dev nD, BodyObligation (dat0 (F := F) (V0 m ρ) c) (defs₀ (F := F)) Variants.none () Set.univ)
  (hb1 : ∀ c : Dev nD, BodyObligation (dat1 (F := F) (V1 m ρ) c) (defs₀ (F := F)) Variants.none () Set.univ)
  (hb2 : ∀ c : Dev nD, BodyObligation (dat2 (F := F) (V2 m ρ) c) (defs₀ (F := F)) Variants.none () Set.univ)
  (hb3 : ∀ c : Dev nD, BodyObligation (dat3 (F := F) (V8 m ρ) c) (defs₀ (F := F)) Variants.none () Set.univ)
  (hb4 : ∀ c : Dev nD, BodyObligation (dat4 (F := F) (V10 m ρ) c) (defs₀ (F := F)) Variants.none () Set.univ)

set_option backward.isDefEq.respectTransparency.types false in
/-- Region 0 over the thread state: entered from every unscoped buffer at `W0`, left at `W1`. Its arrays are split
    out of the unscoped buffers and put back at the exit contents; the generator register goes into the pipeline's
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W1`, left at `W2`. Its arrays are split
    out of the unscoped buffers and put back at the exit contents; the generator register goes into the pipeline's
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W2`, left at `W3`. Its arrays are split
    out of the unscoped buffers and put back at the exit contents; the generator register goes into the pipeline's
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (hb2 c).loose
  hwaits := Pipeline.hwaits_of_owed_zero _ _ _ _ L lv 2 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec2 c (V2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V2 m ρ c) (V3 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `W8`, left at `W9`. Its arrays are split
    out of the unscoped buffers and put back at the exit contents; the generator register goes into the pipeline's
    invariant and comes out; nothing is owed; the kernel has no semaphore of its own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (hb3 c).loose
  hwaits := Pipeline.hwaits_of_owed_zero _ _ _ _ L lv 3 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec3 c (V8 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V8 m ρ c) (V9 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `W10`, left at `W11`. Its arrays are split
    out of the unscoped buffers and put back at the exit contents; the generator register goes into the pipeline's
    invariant and comes out; nothing is owed; the kernel has no semaphore of its own. -/
def reg4 : Pipeline.RegionSeg (pcfgs (F := F)) adm (pdats m ρ) () defs₀ 𝒱₀ L lv 4 where
  win := launch4.win.to₀
  block_pos := launch4.block_pos
  stage_whole := launch4.stage_whole
  K := PEmpty
  osem k := k.elim
  ho := Pipeline.OwnSemFacts.none _
  hbody c := (hb4 c).loose
  hwaits := Pipeline.hwaits_of_owed_zero _ _ _ _ L lv 4 fun _ _ => rfl
  pre c := iprop(StableHlo.held (c : Thread nD τ) (Pipeline.ucRefs τ sig) (W10 m ρ c) ∗ R c)
  post c := iprop(StableHlo.held (c : Thread nD τ) (Pipeline.ucRefs τ sig) (W11 m ρ c) ∗ R c)
  X c := iprop(∃ r, prngReg c r)
  Y c := iprop(∃ r, prngReg c r)
  Z c := Pipeline.unscopedRest (Ix := Unit) (Name := ℕ) (U := UR sig nD τ) (Lvl := ℕ) spec4 c (V10 m ρ c)
  hentry c := by
    rw [Pipeline.ownSems0_none]
    have hsplit := Pipeline.arrays_of_unscopedBufs (p := 4) (pcfgs (F := F)) adm (pdats m ρ) launch4.win launch4.arr_whole c
      ((pdats m ρ 4 c).share_full fun _ => rfl) (V10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m ρ 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m ρ) ((pdats m ρ 4 c).share_full fun _ => rfl)
      (V10 m ρ c) (V11 m ρ c) ((pdats m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The entry function as segments, and the launch -/

/-- The entry function's 12 segments in order: a region per kernel call, a host segment per stretch from its boundary's contents. -/
abbrev segs : List (Pipeline.Seg (pcfgs (F := F)) adm (pdats m ρ) () defs₀ 𝒱₀ L lv) :=
  [ .region (reg0 m ρ hb0),
    .region (reg1 m ρ hb1),
    .region (reg2 m ρ hb2),
    .host (hseg hostOps3 hostOps3_sub hostOps3_fresh (W3 m ρ)),
    .host (hseg hostOps3_1 hostOps3_1_sub hostOps3_1_fresh (W4 m ρ)),
    .host (hseg hostOps3_2 hostOps3_2_sub hostOps3_2_fresh (W5 m ρ)),
    .host (hseg hostOps3_3 hostOps3_3_sub hostOps3_3_fresh (W6 m ρ)),
    .host (hseg hostOps3_4 hostOps3_4_sub hostOps3_4_fresh (W7 m ρ)),
    .region (reg3 m ρ hb3),
    .host (hseg hostOps4 hostOps4_sub hostOps4_fresh (W9 m ρ)),
    .region (reg4 m ρ hb4),
    .host (hseg hostOps5 hostOps5_sub hostOps5_fresh (W11 m ρ)) ]

/-- The entry function is the run of the segments: it is the chain of its items, and the segments' run is the chain of
    their programs, which are those items. -/
theorem main_run (c : Dev nD) : main (F := F) c = Pipeline.Seg.run (segs m ρ hb0 hb1 hb2 hb3 hb4) := by
  rw [main_chain c, Pipeline.Seg.run_eq_chain]
  rfl

include hb0 hb1 hb2 hb3 hb4

set_option backward.isDefEq.respectTransparency.types false in
/-- The run, at any post that follows from the last contents: at the compiled mesh, from any memory with zero counters,
    every weakly fair execution of the entry function on the TensorCores terminates, nothing faulting, and every final
    memory holds every unscoped buffer of every core at the last contents of the fold. -/
theorem run_post {Q : PUnit × MemSt nD τ sig (Elt F) → Prop}
    (hQ : ∀ s : MemSt nD τ sig (Elt F), (∀ c : Dev nD, ∀ b ∈ Pipeline.ucRefs τ sig, s.mem ((c : Thread nD τ).1, b) = W12 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ hb0 hb1 hb2 hb3 hb4)
    (fun c Q => by rw [main_run m ρ hb0 hb1 hb2 hb3 hb4 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun c => last_chain m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := hQ)

/-- The run: every unscoped buffer of every core is read back at the end. -/
theorem run_all_of : θ_run defs (onTc (τ := τ) (main (F := F))) ⟨m, fun _ => 0, ρ⟩
    (fun r => ∀ c : Dev nD, ∀ b ∈ Pipeline.ucRefs τ sig, r.2.mem ((c : Thread nD τ).1, b) = W12 m ρ c b) :=
  run_post m ρ hb0 hb1 hb2 hb3 hb4 fun _ h => h

/-- The frame: every argument's buffer ends as launched. -/
theorem frame_of : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  run_post m ρ hb0 hb1 hb2 hb3 hb4 fun s h c =>
    ⟨(h c _ (mem_uc main_arg0 (by decide))).trans (W12_main_arg0 m ρ c),
     (h c _ (mem_uc main_arg1 (by decide))).trans (W12_main_arg1 m ρ c),
     (h c _ (mem_uc main_arg2 (by decide))).trans (W12_main_arg2 m ρ c),
     (h c _ (mem_uc main_arg3 (by decide))).trans (W12_main_arg3 m ρ c),
     (h c _ (mem_uc main_arg4 (by decide))).trans (W12_main_arg4 m ρ c),
     (h c _ (mem_uc main_arg5 (by decide))).trans (W12_main_arg5 m ρ c),
     (h c _ (mem_uc main_arg6 (by decide))).trans (W12_main_arg6 m ρ c),
     (h c _ (mem_uc main_arg7 (by decide))).trans (W12_main_arg7 m ρ c),
     (h c _ (mem_uc main_arg8 (by decide))).trans (W12_main_arg8 m ρ c),
     (h c _ (mem_uc main_arg9 (by decide))).trans (W12_main_arg9 m ρ c),
     (h c _ (mem_uc main_arg10 (by decide))).trans (W12_main_arg10 m ρ c),
     (h c _ (mem_uc main_arg11 (by decide))).trans (W12_main_arg11 m ρ c),
     (h c _ (mem_uc main_arg12 (by decide))).trans (W12_main_arg12 m ρ c),
     (h c _ (mem_uc main_arg13 (by decide))).trans (W12_main_arg13 m ρ c)⟩

end Run

/-! # The run and the frame, the body obligations discharged -/

/-- The run: at the compiled mesh, from any memory with zero counters, every weakly fair execution of the entry function
    terminates, nothing faulting, and every final memory holds every unscoped buffer of every core at `W12`. -/
theorem run_all : θ_run defs (onTc (τ := τ) (main (F := F))) ⟨m, fun _ => 0, ρ⟩
    (fun r => ∀ c : Dev nD, ∀ b ∈ Pipeline.ucRefs τ sig, r.2.mem ((c : Thread nD τ).1, b) = W12 m ρ c b) :=
  run_all_of m ρ (body_obligation0 (V0 m ρ)) (body_obligation1 (V1 m ρ)) (body_obligation2 (V2 m ρ)) (body_obligation3 (V8 m ρ)) (body_obligation4 (V10 m ρ))

/-- The frame: every argument's buffer ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (body_obligation0 (V0 m ρ)) (body_obligation1 (V1 m ρ)) (body_obligation2 (V2 m ρ)) (body_obligation3 (V8 m ρ)) (body_obligation4 (V10 m ρ))

end Cert.KernelIdeal.Hand

end
-- ==== Proof.HostSpec.lean ====
/-
  The host-side steps the two programs share, each as one function of its operands (any float instance).

  * `cat3`: the three per-type feature blocks stacked along the rows.
  * `withLoops`: an edge-endpoint list followed by one self-loop per node (the node numbers 0, 1, …).
  * `degNorm`: from an endpoint list, the degree of every node (a scatter-add of ones), bounded below by one, raised to
    the power -1/2.
  * `agg`: one round of normalised neighbourhood aggregation: the rows scaled by the source normalisation, gathered along
    the source list (a negative entry counted from the end), summed into the destination rows, scaled by the
    destination normalisation.
  * `slice0`, `slice1`, `slice2`: the rows of the three node types cut back out.
-/
import proofs.«139939_j23055384445693_1_alg».proof.KernelIdeal
import proofs.«139939_j23055384445693_1_alg».proof.Proof.Gen.KernelIdeal

noncomputable section

namespace Cert.HostSpec

open Cert.KernelIdeal Cert.KernelIdeal.Gen Idealize.ShloMosaic

variable {F : FTy → Type} [FloatOps F]

def cat3 (a : (⟨S65536x512, .f32⟩ : BufTy).Contents (Elt F)) (b c : (⟨S32768x512, .f32⟩ : BufTy).Contents (Elt F)) : (⟨S131072x512, .f32⟩ : BufTy).Contents (Elt F) :=
  concatenate S131072x512 0 [⟨S65536x512, a⟩, ⟨S32768x512, b⟩, ⟨S32768x512, c⟩] concatenates_S65536x512_S32768x512_S32768x512_S131072x512_d0

def withLoops (x : (⟨S131072, .i32⟩ : BufTy).Contents (Elt F)) : (⟨S262144, .i32⟩ : BufTy).Contents (Elt F) :=
  concatenate S262144 0 [⟨S131072, x⟩, ⟨S131072, (iotaInDim S131072 32 0 : (⟨S131072, .i32⟩ : BufTy).Contents (Elt F))⟩] concatenates_S131072_S131072_S262144_d0

def degNorm (e : (⟨S262144, .i32⟩ : BufTy).Contents (Elt F)) : (⟨S131072, .f32⟩ : BufTy).Contents (Elt F) :=
  Host.powf
    (maximumf (broadcastInDim S131072 ![] bcast_S_S131072 (id (constant S_ .f32 0x3F800000#32 : (⟨S_, .f32⟩ : BufTy).Contents (Elt F)) : (⟨S_, .f32⟩ : BufTy).Contents (Elt F)) : (⟨S131072, .f32⟩ : BufTy).Contents (Elt F))
      (Host.scatterAdd scatter_S131072_S262144x1_S262144_n_0_0_1
        (broadcastInDim S131072 ![] bcast_S_S131072 (constant S_ .f32 0x00000000#32 : (⟨S_, .f32⟩ : BufTy).Contents (Elt F)) : (⟨S131072, .f32⟩ : BufTy).Contents (Elt F))
        (broadcastInDim S262144x1 ![0] bcast_S262144_S262144x1_0 e : (⟨S262144x1, .i32⟩ : BufTy).Contents (Elt F))
        (broadcastInDim S262144 ![] bcast_S_S262144 (constant S_ .f32 0x3F800000#32 : (⟨S_, .f32⟩ : BufTy).Contents (Elt F)) : (⟨S262144, .f32⟩ : BufTy).Contents (Elt F)) : (⟨S131072, .f32⟩ : BufTy).Contents (Elt F)) : (⟨S131072, .f32⟩ : BufTy).Contents (Elt F))
    (broadcastInDim S131072 ![] bcast_S_S131072 (constant S_ .f32 0xBF000000#32 : (⟨S_, .f32⟩ : BufTy).Contents (Elt F)) : (⟨S131072, .f32⟩ : BufTy).Contents (Elt F))

def agg (h : (⟨S131072x512, .f32⟩ : BufTy).Contents (Elt F)) (nout nin : (⟨S131072, .f32⟩ : BufTy).Contents (Elt F)) (s d : (⟨S262144, .i32⟩ : BufTy).Contents (Elt F)) : (⟨S131072x512, .f32⟩ : BufTy).Contents (Elt F) :=
  mulf
    (Host.scatterAdd scatter_S131072x512_S262144x1_S262144x512_1_0_0_1
      (broadcastInDim S131072x512 ![] bcast_S_S131072x512 (constant S_ .f32 0x00000000#32 : (⟨S_, .f32⟩ : BufTy).Contents (Elt F)) : (⟨S131072x512, .f32⟩ : BufTy).Contents (Elt F))
      (broadcastInDim S262144x1 ![0] bcast_S262144_S262144x1_0 d : (⟨S262144x1, .i32⟩ : BufTy).Contents (Elt F))
      (Host.gather gather_S131072x512_S262144x1_S262144x512_1_0_n_n_0_1_1512
        (mulf h (broadcastInDim S131072x512 ![0, 1] bcast_S131072x1_S131072x512_0_1 (broadcastInDim S131072x1 ![0] bcast_S131072_S131072x1_0 nout : (⟨S131072x1, .f32⟩ : BufTy).Contents (Elt F)) : (⟨S131072x512, .f32⟩ : BufTy).Contents (Elt F)) : (⟨S131072x512, .f32⟩ : BufTy).Contents (Elt F))
        (broadcastInDim S262144x1 ![0] bcast_S262144_S262144x1_0
          (select (cmpi .slt s (broadcastInDim S262144 ![] bcast_S_S262144 (constantI S_ 32 0#32 : (⟨S_, .i32⟩ : BufTy).Contents (Elt F)) : (⟨S262144, .i32⟩ : BufTy).Contents (Elt F)) : (⟨S262144, .i1⟩ : BufTy).Contents (Elt F))
            (addi s (broadcastInDim S262144 ![] bcast_S_S262144 (constantI S_ 32 131072#32 : (⟨S_, .i32⟩ : BufTy).Contents (Elt F)) : (⟨S262144, .i32⟩ : BufTy).Contents (Elt F)) : (⟨S262144, .i32⟩ : BufTy).Contents (Elt F))
            s : (⟨S262144, .i32⟩ : BufTy).Contents (Elt F)) : (⟨S262144x1, .i32⟩ : BufTy).Contents (Elt F)) : (⟨S262144x512, .f32⟩ : BufTy).Contents (Elt F)) : (⟨S131072x512, .f32⟩ : BufTy).Contents (Elt F))
    (broadcastInDim S131072x512 ![0, 1] bcast_S131072x1_S131072x512_0_1 (broadcastInDim S131072x1 ![0] bcast_S131072_S131072x1_0 nin : (⟨S131072x1, .f32⟩ : BufTy).Contents (Elt F)) : (⟨S131072x512, .f32⟩ : BufTy).Contents (Elt F))

def slice0 (x : (⟨S131072x512, .f32⟩ : BufTy).Contents (Elt F)) : (⟨S65536x512, .f32⟩ : BufTy).Contents (Elt F) :=
  extractStridedSlice S65536x512 ![0, 0] x slices_S131072x512_S65536x512_0_0
def slice1 (x : (⟨S131072x512, .f32⟩ : BufTy).Contents (Elt F)) : (⟨S32768x512, .f32⟩ : BufTy).Contents (Elt F) :=
  extractStridedSlice S32768x512 ![65536, 0] x slices_S131072x512_S32768x512_65536_0
def slice2 (x : (⟨S131072x512, .f32⟩ : BufTy).Contents (Elt F)) : (⟨S32768x512, .f32⟩ : BufTy).Contents (Elt F) :=
  extractStridedSlice S32768x512 ![98304, 0] x slices_S131072x512_S32768x512_98304_0

end Cert.HostSpec

end
-- ==== Proof.KI.HostRead.lean ====
/-
  The host stretches of the entry function read back as values. Each stretch is a straight line of host operations;
  what a buffer holds after it is the operations' functions composed, applied to what the stretch found in the buffers
  it reads. The compositions are stated against the shared host-side functions (the stacking of the feature blocks,
  the self-loop extension of an endpoint list, the degree normalisation, one round of normalised aggregation, the three
  row slices), first for a stretch run from any buffer contents, then along the fold of contents through the entry
  function: a value an item does not write is carried across it unchanged.
-/
import proofs.«139939_j23055384445693_1_alg».proof.Proof.KI.Run
import proofs.«139939_j23055384445693_1_alg».proof.Proof.HostSpec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after_cons after_nil nullary_result unary_result binary_result ternary_result quaternary_result
  reshape_result binaryIndexed_result nary4_result nary_result unaryIndexed_result nullary_result_ne unary_result_ne binary_result_ne
  ternary_result_ne quaternary_result_ne reshape_result_ne binaryIndexed_result_ne nary_result_ne unaryIndexed_result_ne)

variable {F : FTy → Type} [FloatOps F]

/-! # Each stretch, run from any buffer contents -/

section Stretch
variable (X : Valuation τ sig (Elt F))

/-- The degree count of an endpoint list: ones summed into zeros at the list's entries. -/
def degCount (e : (⟨S262144, .i32⟩ : BufTy).Contents (Elt F)) : (⟨S131072, .f32⟩ : BufTy).Contents (Elt F) :=
  Host.scatterAdd scatter_S131072_S262144x1_S262144_n_0_0_1
    (broadcastInDim S131072 ![] bcast_S_S131072 (constant S_ .f32 0x00000000#32 : (⟨S_, .f32⟩ : BufTy).Contents (Elt F)) : (⟨S131072, .f32⟩ : BufTy).Contents (Elt F))
    (broadcastInDim S262144x1 ![0] bcast_S262144_S262144x1_0 e : (⟨S262144x1, .i32⟩ : BufTy).Contents (Elt F))
    (broadcastInDim S262144 ![] bcast_S_S262144 (constant S_ .f32 0x3F800000#32 : (⟨S_, .f32⟩ : BufTy).Contents (Elt F)) : (⟨S262144, .f32⟩ : BufTy).Contents (Elt F))

/-- A count bounded below by the scalar `one` (broadcast), the bound passed through the identity conversion. -/
def clipBelow (one : (⟨S_, .f32⟩ : BufTy).Contents (Elt F)) (x : (⟨S131072, .f32⟩ : BufTy).Contents (Elt F)) : (⟨S131072, .f32⟩ : BufTy).Contents (Elt F) :=
  maximumf (broadcastInDim S131072 ![] bcast_S_S131072 (id one : (⟨S_, .f32⟩ : BufTy).Contents (Elt F)) : (⟨S131072, .f32⟩ : BufTy).Contents (Elt F)) x

/-- The power -1/2, entrywise. -/
def invSqrt (x : (⟨S131072, .f32⟩ : BufTy).Contents (Elt F)) : (⟨S131072, .f32⟩ : BufTy).Contents (Elt F) :=
  Host.powf x (broadcastInDim S131072 ![] bcast_S_S131072 (constant S_ .f32 0xBF000000#32 : (⟨S_, .f32⟩ : BufTy).Contents (Elt F)) : (⟨S131072, .f32⟩ : BufTy).Contents (Elt F))

/-- The degree normalisation is the count, bounded below by one, raised to the power -1/2. -/
theorem degNorm_eq (e : (⟨S262144, .i32⟩ : BufTy).Contents (Elt F)) :
    Cert.HostSpec.degNorm e = invSqrt (clipBelow (constant S_ .f32 0x3F800000#32 : (⟨S_, .f32⟩ : BufTy).Contents (Elt F)) (degCount e)) := rfl

/-! ## The first stretch: the stacked features, the two endpoint lists with self-loops, their degree counts -/

theorem s3_v3 : StableHlo.after hostOps3 X (Proc.devRef .tc main_v3)
    = Cert.HostSpec.cat3 (X (Proc.devRef .tc main_v0)) (X (Proc.devRef .tc main_v1)) (X (Proc.devRef .tc main_v2)) := by
  after_results; rfl
theorem s3_v5 : StableHlo.after hostOps3 X (Proc.devRef .tc main_v5) = Cert.HostSpec.withLoops (X (Proc.devRef .tc main_arg12)) := by
  after_results; rfl
theorem s3_v6 : StableHlo.after hostOps3 X (Proc.devRef .tc main_v6) = Cert.HostSpec.withLoops (X (Proc.devRef .tc main_arg13)) := by
  after_results; rfl
theorem s3_v10 : StableHlo.after hostOps3 X (Proc.devRef .tc main_v10) = degCount (StableHlo.after hostOps3 X (Proc.devRef .tc main_v5)) := by
  after_results; rfl
theorem s3_v13 : StableHlo.after hostOps3 X (Proc.devRef .tc main_v13) = degCount (StableHlo.after hostOps3 X (Proc.devRef .tc main_v6)) := by
  after_results; rfl
theorem s3_cst_2 : StableHlo.after hostOps3 X (Proc.devRef .tc main_cst_2) = (constant S_ .f32 0x3F800000#32 : (⟨S_, .f32⟩ : BufTy).Contents (Elt F)) := by
  after_results

/-! ## The bound from below, the power, and the same for the second list -/

theorem s31_v14 : StableHlo.after hostOps3_1 X (Proc.devRef .tc main_v14) = clipBelow (X (Proc.devRef .tc main_cst_2)) (X (Proc.devRef .tc main_v10)) := by
  after_results; rfl
theorem s32_v16 : StableHlo.after hostOps3_2 X (Proc.devRef .tc main_v16) = invSqrt (X (Proc.devRef .tc main_v14)) := by
  after_results; rfl
theorem s32_cst_4 : StableHlo.after hostOps3_2 X (Proc.devRef .tc main_cst_4) = (constant S_ .f32 0x3F800000#32 : (⟨S_, .f32⟩ : BufTy).Contents (Elt F)) := by
  after_results
theorem s33_v17 : StableHlo.after hostOps3_3 X (Proc.devRef .tc main_v17) = clipBelow (X (Proc.devRef .tc main_cst_4)) (X (Proc.devRef .tc main_v13)) := by
  after_results; rfl
theorem s34_v19 : StableHlo.after hostOps3_4 X (Proc.devRef .tc main_v19) = invSqrt (X (Proc.devRef .tc main_v17)) := by
  after_results; rfl

/-! ## The two aggregation rounds and the slices -/

set_option maxHeartbeats 1000000 in
theorem s34_v35 : StableHlo.after hostOps3_4 X (Proc.devRef .tc main_v35)
    = Cert.HostSpec.agg (X (Proc.devRef .tc main_v3)) (X (Proc.devRef .tc main_v16)) (StableHlo.after hostOps3_4 X (Proc.devRef .tc main_v19))
        (X (Proc.devRef .tc main_v5)) (X (Proc.devRef .tc main_v6)) := by
  after_results_simp; rfl
set_option maxHeartbeats 1000000 in
theorem s4_v52 : StableHlo.after hostOps4 X (Proc.devRef .tc main_v52)
    = Cert.HostSpec.agg (X (Proc.devRef .tc main_v36)) (X (Proc.devRef .tc main_v16)) (X (Proc.devRef .tc main_v19))
        (X (Proc.devRef .tc main_v5)) (X (Proc.devRef .tc main_v6)) := by
  after_results_simp; rfl
theorem s5_v54 : StableHlo.after hostOps5 X (Proc.devRef .tc main_v54) = Cert.HostSpec.slice0 (X (Proc.devRef .tc main_v53)) := by
  after_results; rfl
theorem s5_v55 : StableHlo.after hostOps5 X (Proc.devRef .tc main_v55) = Cert.HostSpec.slice1 (X (Proc.devRef .tc main_v53)) := by
  after_results; rfl
theorem s5_v56 : StableHlo.after hostOps5 X (Proc.devRef .tc main_v56) = Cert.HostSpec.slice2 (X (Proc.devRef .tc main_v53)) := by
  after_results; rfl

end Stretch

/-! # Along the fold of buffer contents through the entry function -/

section Fold
variable (m : (ℓ : Loc nD τ sig) → Buf (Elt F) ℓ) (ρ : Dev nD → PrngReg) (c : Dev nD)

/-! ## Values carried unchanged across items that do not write them -/

/-- A buffer none of the first three regions writes holds at region 2's exit what it held at launch. -/
theorem W3_eq_W0 (r : Ref sig .tc) (h1 : r ∉ ([main_v0] : List (Ref sig .tc))) (h2 : r ∉ ([main_v1] : List (Ref sig .tc)))
    (h3 : r ∉ ([main_v2] : List (Ref sig .tc))) : W3 m ρ c (Proc.devRef .tc r) = W0 m ρ c (Proc.devRef .tc r) :=
  (W3_of m ρ c r h3).trans ((W2_of m ρ c r h2).trans (W1_of m ρ c r h1))

/-- A buffer the three stretches after the first do not write holds after them what it held after the first. -/
theorem W7_eq_W4 (r : Ref sig .tc) (h5 : r ∉ hostOps3_1_W) (h6 : r ∉ hostOps3_2_W) (h7 : r ∉ hostOps3_3_W) :
    W7 m ρ c (Proc.devRef .tc r) = W4 m ρ c (Proc.devRef .tc r) :=
  (W7_of m ρ c r h7).trans ((W6_of m ρ c r h6).trans (W5_of m ρ c r h5))

/-- A buffer no item up to region 3's entry writes holds there what it held at launch. -/
theorem W8_eq_W0 (r : Ref sig .tc) (h1 : r ∉ ([main_v0] : List (Ref sig .tc))) (h2 : r ∉ ([main_v1] : List (Ref sig .tc)))
    (h3 : r ∉ ([main_v2] : List (Ref sig .tc))) (h4 : r ∉ hostOps3_W) (h5 : r ∉ hostOps3_1_W) (h6 : r ∉ hostOps3_2_W)
    (h7 : r ∉ hostOps3_3_W) (h8 : r ∉ hostOps3_4_W) : W8 m ρ c (Proc.devRef .tc r) = W0 m ρ c (Proc.devRef .tc r) :=
  (W8_of m ρ c r h8).trans ((W7_eq_W4 m ρ c r h5 h6 h7).trans ((W4_of m ρ c r h4).trans (W3_eq_W0 m ρ c r h1 h2 h3)))

theorem W7_v3 : W7 m ρ c (Proc.devRef .tc main_v3) = W4 m ρ c (Proc.devRef .tc main_v3) :=
  W7_eq_W4 m ρ c main_v3 (by decide) (by decide) (by decide)
theorem W7_v5 : W7 m ρ c (Proc.devRef .tc main_v5) = W4 m ρ c (Proc.devRef .tc main_v5) :=
  W7_eq_W4 m ρ c main_v5 (by decide) (by decide) (by decide)
theorem W7_v6 : W7 m ρ c (Proc.devRef .tc main_v6) = W4 m ρ c (Proc.devRef .tc main_v6) :=
  W7_eq_W4 m ρ c main_v6 (by decide) (by decide) (by decide)
theorem W7_v16 : W7 m ρ c (Proc.devRef .tc main_v16) = W6 m ρ c (Proc.devRef .tc main_v16) :=
  W7_of m ρ c main_v16 (by decide)
theorem W6_v13 : W6 m ρ c (Proc.devRef .tc main_v13) = W4 m ρ c (Proc.devRef .tc main_v13) :=
  (W6_of m ρ c main_v13 (by decide)).trans (W5_of m ρ c main_v13 (by decide))
theorem W9_v5 : W9 m ρ c (Proc.devRef .tc main_v5) = W4 m ρ c (Proc.devRef .tc main_v5) :=
  (W9_of m ρ c main_v5 (by decide)).trans ((W8_of m ρ c main_v5 (by decide)).trans (W7_v5 m ρ c))
theorem W9_v6 : W9 m ρ c (Proc.devRef .tc main_v6) = W4 m ρ c (Proc.devRef .tc main_v6) :=
  (W9_of m ρ c main_v6 (by decide)).trans ((W8_of m ρ c main_v6 (by decide)).trans (W7_v6 m ρ c))
theorem W9_v16 : W9 m ρ c (Proc.devRef .tc main_v16) = W6 m ρ c (Proc.devRef .tc main_v16) :=
  (W9_of m ρ c main_v16 (by decide)).trans ((W8_of m ρ c main_v16 (by decide)).trans (W7_v16 m ρ c))
theorem W9_v19 : W9 m ρ c (Proc.devRef .tc main_v19) = W8 m ρ c (Proc.devRef .tc main_v19) :=
  W9_of m ρ c main_v19 (by decide)

/-- The aggregation round at equal operands. -/
theorem agg_congr {h h' : (⟨S131072x512, .f32⟩ : BufTy).Contents (Elt F)} {nout nout' nin nin' : (⟨S131072, .f32⟩ : BufTy).Contents (Elt F)}
    {s s' d d' : (⟨S262144, .i32⟩ : BufTy).Contents (Elt F)} (eh : h = h') (eo : nout = nout') (ei : nin = nin') (es : s = s') (ed : d = d') :
    Cert.HostSpec.agg h nout nin s d = Cert.HostSpec.agg h' nout' nin' s' d' := by
  subst eh eo ei es ed; rfl

/-! ## The host values -/

/-- The stacked features: the three regions' outputs, one above the other. -/
theorem read_v3 : W4 m ρ c (Proc.devRef .tc main_v3)
    = Cert.HostSpec.cat3 (W3 m ρ c (Proc.devRef .tc main_v0)) (W3 m ρ c (Proc.devRef .tc main_v1)) (W3 m ρ c (Proc.devRef .tc main_v2)) :=
  s3_v3 (W3 m ρ c)

/-- The source list with self-loops, from the launch contents of its argument. -/
theorem read_v5 : W4 m ρ c (Proc.devRef .tc main_v5) = Cert.HostSpec.withLoops (m ((c : Thread nD τ).loc main_arg12)) :=
  (s3_v5 (W3 m ρ c)).trans (congrArg Cert.HostSpec.withLoops
    ((W3_eq_W0 m ρ c main_arg12 (by decide) (by decide) (by decide)).trans rfl))

/-- The destination list with self-loops, from the launch contents of its argument. -/
theorem read_v6 : W4 m ρ c (Proc.devRef .tc main_v6) = Cert.HostSpec.withLoops (m ((c : Thread nD τ).loc main_arg13)) :=
  (s3_v6 (W3 m ρ c)).trans (congrArg Cert.HostSpec.withLoops
    ((W3_eq_W0 m ρ c main_arg13 (by decide) (by decide) (by decide)).trans rfl))

/-- The source-side normalisation: count in the first stretch, bound in the second, power in the third. -/
theorem read_v16 : W6 m ρ c (Proc.devRef .tc main_v16) = Cert.HostSpec.degNorm (W4 m ρ c (Proc.devRef .tc main_v5)) :=
  (s32_v16 (W5 m ρ c)).trans ((congrArg invSqrt ((s31_v14 (W4 m ρ c)).trans
    (congr (congrArg clipBelow (s3_cst_2 (W3 m ρ c))) (s3_v10 (W3 m ρ c))))).trans (degNorm_eq _).symm)

/-- The destination-side normalisation: count in the first stretch, bound in the fourth, power in the fifth. -/
theorem read_v19 : W8 m ρ c (Proc.devRef .tc main_v19) = Cert.HostSpec.degNorm (W4 m ρ c (Proc.devRef .tc main_v6)) :=
  (s34_v19 (W7 m ρ c)).trans ((congrArg invSqrt ((s33_v17 (W6 m ρ c)).trans
    (congr (congrArg clipBelow (s32_cst_4 (W5 m ρ c))) ((W6_v13 m ρ c).trans (s3_v13 (W3 m ρ c)))))).trans (degNorm_eq _).symm)

/-- The first aggregation round, on the stacked features. -/
theorem read_v35 : W8 m ρ c (Proc.devRef .tc main_v35)
    = Cert.HostSpec.agg (W4 m ρ c (Proc.devRef .tc main_v3)) (W6 m ρ c (Proc.devRef .tc main_v16)) (W8 m ρ c (Proc.devRef .tc main_v19))
        (W4 m ρ c (Proc.devRef .tc main_v5)) (W4 m ρ c (Proc.devRef .tc main_v6)) :=
  (s34_v35 (W7 m ρ c)).trans (agg_congr (W7_v3 m ρ c) (W7_v16 m ρ c) rfl (W7_v5 m ρ c) (W7_v6 m ρ c))

/-- The second aggregation round, on region 3's output. -/
theorem read_v52 : W10 m ρ c (Proc.devRef .tc main_v52)
    = Cert.HostSpec.agg (W9 m ρ c (Proc.devRef .tc main_v36)) (W6 m ρ c (Proc.devRef .tc main_v16)) (W8 m ρ c (Proc.devRef .tc main_v19))
        (W4 m ρ c (Proc.devRef .tc main_v5)) (W4 m ρ c (Proc.devRef .tc main_v6)) :=
  (s4_v52 (W9 m ρ c)).trans (agg_congr rfl (W9_v16 m ρ c) (W9_v19 m ρ c) (W9_v5 m ρ c) (W9_v6 m ρ c))

/-- The three results: region 4's output cut back into the three node types' rows. -/
theorem read_v54 : W12 m ρ c (Proc.devRef .tc main_v54) = Cert.HostSpec.slice0 (W11 m ρ c (Proc.devRef .tc main_v53)) :=
  s5_v54 (W11 m ρ c)
theorem read_v55 : W12 m ρ c (Proc.devRef .tc main_v55) = Cert.HostSpec.slice1 (W11 m ρ c (Proc.devRef .tc main_v53)) :=
  s5_v55 (W11 m ρ c)
theorem read_v56 : W12 m ρ c (Proc.devRef .tc main_v56) = Cert.HostSpec.slice2 (W11 m ρ c (Proc.devRef .tc main_v53)) :=
  s5_v56 (W11 m ρ c)

/-! ## The argument arrays where the regions read them -/

theorem W1_main_arg1 : W1 m ρ c (Proc.devRef .tc main_arg1) = m ((c : Thread nD τ).loc main_arg1) :=
  (W1_of m ρ c main_arg1 (by decide)).trans rfl
theorem W1_main_arg5 : W1 m ρ c (Proc.devRef .tc main_arg5) = m ((c : Thread nD τ).loc main_arg5) :=
  (W1_of m ρ c main_arg5 (by decide)).trans rfl
theorem W1_main_arg6 : W1 m ρ c (Proc.devRef .tc main_arg6) = m ((c : Thread nD τ).loc main_arg6) :=
  (W1_of m ρ c main_arg6 (by decide)).trans rfl
theorem W2_main_arg2 : W2 m ρ c (Proc.devRef .tc main_arg2) = m ((c : Thread nD τ).loc main_arg2) :=
  (W2_of m ρ c main_arg2 (by decide)).trans ((W1_of m ρ c main_arg2 (by decide)).trans rfl)
theorem W2_main_arg7 : W2 m ρ c (Proc.devRef .tc main_arg7) = m ((c : Thread nD τ).loc main_arg7) :=
  (W2_of m ρ c main_arg7 (by decide)).trans ((W1_of m ρ c main_arg7 (by decide)).trans rfl)
theorem W2_main_arg8 : W2 m ρ c (Proc.devRef .tc main_arg8) = m ((c : Thread nD τ).loc main_arg8) :=
  (W2_of m ρ c main_arg8 (by decide)).trans ((W1_of m ρ c main_arg8 (by decide)).trans rfl)
theorem W8_main_arg9 : W8 m ρ c (Proc.devRef .tc main_arg9) = m ((c : Thread nD τ).loc main_arg9) :=
  (W8_eq_W0 m ρ c main_arg9 (by decide) (by decide) (by decide) (by decide) (by decide) (by decide) (by decide) (by decide)).trans rfl
theorem W10_main_arg10 : W10 m ρ c (Proc.devRef .tc main_arg10) = m ((c : Thread nD τ).loc main_arg10) :=
  (W10_of m ρ c main_arg10 (by decide)).trans ((W9_of m ρ c main_arg10 (by decide)).trans
    ((W8_eq_W0 m ρ c main_arg10 (by decide) (by decide) (by decide) (by decide) (by decide) (by decide) (by decide) (by decide)).trans rfl))
theorem W10_main_arg11 : W10 m ρ c (Proc.devRef .tc main_arg11) = m ((c : Thread nD τ).loc main_arg11) :=
  (W10_of m ρ c main_arg11 (by decide)).trans ((W9_of m ρ c main_arg11 (by decide)).trans
    ((W8_eq_W0 m ρ c main_arg11 (by decide) (by decide) (by decide) (by decide) (by decide) (by decide) (by decide) (by decide)).trans rfl))

end Fold

end Cert.KernelIdeal.Hand

end
-- ==== Proof.LibDenseBlock.lean ====
/-
  A weight matrix times a block, read at an index.

  A `tpu.matmul` of a `[K, N]` left operand with an `[N, Q]` right operand, contracting the left's second axis with the
  right's first, into a zero accumulator: over the extended reals entry `(k, q)` of the result is the plain sum
  `Σ n, l (k, n) * r (n, q)`.
-/
import Idealize.ShloMosaic.Lib.ValueIdx
import Idealize.ShloMosaic.PureOps.Ideal.Laws

noncomputable section

namespace Idealize.ShloMosaic.DenseBlock

open Idealize.ShloMosaic Idealize.ShloMosaic.ValueIdx

/-- The dimension numbers of `[K, N] · [N, Q] → [K, Q]`. -/
abbrev mmDims (K N Q : Nat)
    (wf : DotDims.WF ⟨2, ![K, N]⟩ ⟨2, ![N, Q]⟩ ⟨2, ![K, Q]⟩ [1] [0] [0] [1] [] []) :
    DotDims ⟨2, ![K, N]⟩ ⟨2, ![N, Q]⟩ ⟨2, ![K, Q]⟩ where
  lhsContracting := [1]
  rhsContracting := [0]
  lhsNonContracting := [0]
  rhsNonContracting := [1]
  lhsBatch := []
  rhsBatch := []
  wf := wf

section
variable {K N Q : Nat} (wf : DotDims.WF ⟨2, ![K, N]⟩ ⟨2, ![N, Q]⟩ ⟨2, ![K, Q]⟩ [1] [0] [0] [1] [] [])

/-- The left operand's row is the result's row. -/
theorem lhs_row (j : (⟨2, ![K, Q]⟩ : Shape).Idx) (c : (mmDims K N Q wf).contr.Idx) :
    ((mmDims K N Q wf).lhsIdx j c (0 : Fin 2)).val = (j 0).val := by
  unfold DotDims.lhsIdx
  rw [dif_neg (show ¬ (0 : Fin 2) ∈ (mmDims K N Q wf).lhsBatch from List.not_mem_nil),
    dif_pos (show (0 : Fin 2) ∈ (mmDims K N Q wf).lhsNonContracting from List.mem_singleton.mpr rfl)]
  rfl

/-- The left operand's column is the contraction position. -/
theorem lhs_col (j : (⟨2, ![K, Q]⟩ : Shape).Idx) (c : (mmDims K N Q wf).contr.Idx) :
    ((mmDims K N Q wf).lhsIdx j c (1 : Fin 2)).val = (c ⟨0, Nat.one_pos⟩).val :=
  (mmDims K N Q wf).lhsIdx_val_of_single rfl j c

/-- The right operand's row is the contraction position. -/
theorem rhs_row (j : (⟨2, ![K, Q]⟩ : Shape).Idx) (c : (mmDims K N Q wf).contr.Idx) :
    ((mmDims K N Q wf).rhsIdx j c (0 : Fin 2)).val = (c ⟨0, Nat.one_pos⟩).val :=
  (mmDims K N Q wf).rhsIdx_val_of_single rfl j c

/-- The right operand's column is the result's column. -/
theorem rhs_col (j : (⟨2, ![K, Q]⟩ : Shape).Idx) (c : (mmDims K N Q wf).contr.Idx) :
    ((mmDims K N Q wf).rhsIdx j c (1 : Fin 2)).val = (j 1).val := by
  unfold DotDims.rhsIdx
  rw [dif_neg (show ¬ (1 : Fin 2) ∈ (mmDims K N Q wf).rhsBatch from List.not_mem_nil),
    dif_pos (show (1 : Fin 2) ∈ (mmDims K N Q wf).rhsNonContracting from List.mem_singleton.mpr rfl)]
  rfl

/-- Entry `(k, q)` of the product into a zero accumulator is `Σ n, l (k, n) * r (n, q)`. -/
theorem matmul_zero_apply {φ₁ φ₂ : FTy} (l : FVec Ideal ⟨2, ![K, N]⟩ φ₁) (r : FVec Ideal ⟨2, ![N, Q]⟩ φ₂)
    (k : Fin K) (q : Fin Q) :
    FloatOps.matmul (mmDims K N Q wf) none l r (constant ⟨2, ![K, Q]⟩ .f32 0x00000000#32) (ix2 k q)
      = ∑ n : Fin N, l (ix2 k n) * r (ix2 n q) := by
  rw [Ideal.matmul_constant_zero_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end

end Idealize.ShloMosaic.DenseBlock

end
-- ==== Proof.LibDenseLayer.lean ====
/-
  A dense layer inside a kernel, read at an index.

  A kernel computes a layer on a block of `K` rows as a product of the block `[K, N]` with the weights laid out
  `[N, Q]`, into a zero accumulator, plus the bias, one row `[1, Q]` laid along every row of the block; a clamp
  between two constants may follow.  Over the extended reals entry `(p, q)` of the result is
  `Σ n, X (p, n) * Wt (n, q) + bias (0, q)`, clamped.
-/
import proofs.«139939_j23055384445693_1_alg».proof.Proof.LibDenseBlock
import Idealize.ShloMosaic.Lib.ValueLayout

noncomputable section

namespace Idealize.ShloMosaic.DenseLayer

open Idealize.ShloMosaic Idealize.ShloMosaic.ValueIdx Idealize.ShloMosaic.DenseBlock

variable {K N Q : Nat} (wf : DotDims.WF ⟨2, ![K, N]⟩ ⟨2, ![N, Q]⟩ ⟨2, ![K, Q]⟩ [1] [0] [0] [1] [] [])

/-- Entry `(p, q)` of `X · Wt + bias`, the bias one row laid along every row. -/
theorem affine_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (p : Fin K) (q : Fin Q) :
    addf (matmul (mmDims K N Q wf) none X Wt (constant ⟨2, ![K, Q]⟩ .f32 0x00000000#32))
        (broadcastTo ⟨2, ![K, Q]⟩ bias hb) (ix2 p q)
      = (∑ n : Fin N, X (ix2 p n) * Wt (ix2 n q)) + bias (ix2 (0 : Fin 1) q) := by
  show FloatOps.matmul (mmDims K N Q wf) none X Wt (constant ⟨2, ![K, Q]⟩ .f32 0x00000000#32) (ix2 p q)
      + broadcastTo ⟨2, ![K, Q]⟩ bias hb (ix2 p q) = _
  rw [matmul_zero_apply wf X Wt p q, broadcastTo_1b_ab_apply bias hb p q]

/-- The same, clamped from below by the splat of `lo` and then from above by the splat of `hi`. -/
theorem affine_clamped_apply {φ₁ φ₂ : FTy} (X : FVec Ideal ⟨2, ![K, N]⟩ φ₁) (Wt : FVec Ideal ⟨2, ![N, Q]⟩ φ₂)
    (bias : FVec Ideal ⟨2, ![1, Q]⟩ .f32) (hb : (⟨2, ![1, Q]⟩ : Shape).Broadcasts ⟨2, ![K, Q]⟩) (lo hi : BitVec 32)
    (p : Fin K) (q : Fin Q) :
    minimumf (broadcast ⟨2, ![K, Q]⟩ (Scalar.ofBits (F := Ideal) .f32 hi))
        (maximumf (broadcast ⟨2, ![K, Q]⟩ (Scalar.ofBits (F := Ideal) .f32 lo))
          (addf (matmul (mmDims K N Q wf) none X Wt (constant ⟨2, ![K, Q]⟩ .f32 0x00000000#32))
            (broadcastTo ⟨2, ![K, Q]⟩ bias hb))) (ix2 p q)
      = min (Ideal.ofBits .f32 hi) (max (Ideal.ofBits .f32 lo)
          ((∑ n : Fin N, X (ix2 p n) * Wt (ix2 n q)) + bias (ix2 (0 : Fin 1) q))) := by
  show min (Ideal.ofBits .f32 hi) (max (Ideal.ofBits .f32 lo)
      (addf (matmul (mmDims K N Q wf) none X Wt (constant ⟨2, ![K, Q]⟩ .f32 0x00000000#32))
        (broadcastTo ⟨2, ![K, Q]⟩ bias hb) (ix2 p q))) = _
  rw [affine_apply wf X Wt bias hb p q]

end Idealize.ShloMosaic.DenseLayer

end
-- ==== Proof.Spec.lean ====
/-
  The pointwise notions the two programs are compared through, over the extended reals.

  * `dense A W b r q`: entry `(r, q)` of a dense layer, `Σ n, A (r, n) * W (n, q) + b q`.
  * `elu x`: the exponential linear unit with unit slope, `x` where `0 < x` and `exp x - 1` elsewhere, written with
    the comparison the programs use.  One program computes the second branch as `exp x - 1`; the other as
    `1 * expm1 x'` where `x'` is `x` with its positive entries replaced by zero; on the branch that is taken
    (`x` not positive) the two agree, since `expm1 x = exp x - 1` and `1 * y = y`.
-/
import Idealize.ShloMosaic.Lib.ValueIdx
import Idealize.ShloMosaic.PureOps.Ideal.Laws

noncomputable section

namespace Cert.Spec

open Idealize.ShloMosaic Idealize.ShloMosaic.ValueIdx

/-- Entry `(r, q)` of `A · W + b`, the bias one row. -/
def dense {M N Q : Nat} (A : (⟨2, ![M, N]⟩ : Shape).Idx → EReal) (W : (⟨2, ![N, Q]⟩ : Shape).Idx → EReal)
    (b : (⟨1, ![Q]⟩ : Shape).Idx → EReal) (r : Fin M) (q : Fin Q) : EReal :=
  (∑ n : Fin N, A (ix2 r n) * W (ix2 n q)) + b (ix1 q)

/-- The exponential linear unit as the kernel spells it: where `x` exceeds the zero word, `x`; elsewhere
    `exp x` less the word of one. -/
def eluK (x : EReal) : EReal :=
  Scalar.select (FloatOps.cmpf (F := Ideal) (φ := .f32) .ogt x (Ideal.ofBits .f32 0x00000000#32)) x
    (Ideal.exp x - Ideal.ofBits .f32 0x3F800000#32)

/-- The same as the reference spells it: the second branch is the word of one times `exp x' - 1`, `x'` being `x`
    with the positive entries replaced by the zero word. -/
def eluR (x : EReal) : EReal :=
  Scalar.select (FloatOps.cmpf (F := Ideal) (φ := .f32) .ogt x (Ideal.ofBits .f32 0x00000000#32)) x
    (Ideal.ofBits .f32 0x3F800000#32 *
      (Ideal.exp (Scalar.select (FloatOps.cmpf (F := Ideal) (φ := .f32) .ogt x (Ideal.ofBits .f32 0x00000000#32))
        (Ideal.ofBits .f32 0x00000000#32) x) - 1))

/-- The word `0x3F800000` is the number one. -/
theorem ofBits_one_f32 : Ideal.ofBits .f32 0x3F800000#32 = 1 := by
  simp [Ideal.ofBits, Ideal.ieee]
  rw [← EReal.coe_mul]
  norm_num

/-- The two spellings are one function. -/
theorem eluK_eq_eluR (x : EReal) : eluK x = eluR x := by
  unfold eluK eluR
  rcases BitVec.eq_zero_or_eq_one (FloatOps.cmpf (F := Ideal) (φ := .f32) .ogt x (Ideal.ofBits .f32 0x00000000#32)) with h | h
  · rw [h, select_zero, select_zero, select_zero, ofBits_one_f32, one_mul]
  · rw [h, select_one, select_one]

end Cert.Spec

end
-- ==== Proof.KI.Value0.lean ====
/-
  Region 0 read as a value: the array it leaves is, entry by entry, the dense layer of the three arrays it
  reads. Each grid point owns 1024 consecutive rows; the weight matrix and the bias row are the same block at every point.
-/
import proofs.«139939_j23055384445693_1_alg».proof.Proof.KI.Data
import proofs.«139939_j23055384445693_1_alg».proof.Proof.LibDenseLayer
import proofs.«139939_j23055384445693_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_0 : (![0, 0] : Fin 2 → Nat) = fun _ => 0 := funext fun a => by fin_cases a <;> rfl
theorem hz1_0 : (![0] : Fin 1 → Nat) = fun _ => 0 := funext fun a => by fin_cases a; rfl

/-- The affine part of the body's arithmetic at entry `(p, q)` of the block: row `p` of the row block against column
    `q` of the weights, plus the bias at `q` (rounding the operands to a narrower format is the identity over the
    extended reals). -/
theorem affine0_apply (x0 : Vec Ideal S1024x256 .f32) (x1 : Vec Ideal S256x512 .f32) (x2 : Vec Ideal S512 .f32)
    (p : Fin 1024) (q : Fin 512) :
    addf (matmul dot_S1024x256_S256x512_S1024x512_1_0_0_1_n_n none (truncf .bf16 x0 bitsLt_bf16_f32) (truncf .bf16 x1 bitsLt_bf16_f32)
        (constant (F := Ideal) S1024x512 .f32 0x00000000#32))
      (broadcastTo S1024x512 (shapeCast S1x512 x2 shapeCasts_S512_S1x512) broadcasts_S1x512_S1024x512) (ix2 p q)
      = dense x0 x1 x2 p q := by
  unfold dense
  refine (DenseLayer.affine_apply (K := 1024) (N := 256) (Q := 512) dot_S1024x256_S256x512_S1024x512_1_0_0_1_n_n.wf
    (truncf .bf16 x0 bitsLt_bf16_f32) (truncf .bf16 x1 bitsLt_bf16_f32) (shapeCast S1x512 x2 shapeCasts_S512_S1x512)
    broadcasts_S1x512_S1024x512 p q).trans ?_
  rw [shapeCast_a_1a_apply x2 shapeCasts_S512_S1x512 (0 : Fin 1) q]
  rfl

/-- The body's arithmetic at entry `(p, q)` of the block. -/
theorem pay0_apply (x0 : Vec Ideal S1024x256 .f32) (x1 : Vec Ideal S256x512 .f32) (x2 : Vec Ideal S512 .f32)
    (p : Fin 1024) (q : Fin 512) :
    k0_pay1 (F := Ideal) x0 x1 x2 (ix2 p q) = dense x0 x1 x2 p q := by
  exact affine0_apply x0 x1 x2 p q

/-- The array region 0 leaves, entry by entry. -/
def G0 (A : S65536x256.Idx → EReal) (W : S256x512.Idx → EReal) (b : S512.Idx → EReal) : S65536x512.Idx → EReal :=
  fun i => dense A W b (i 0) (i 1)

/-- The printed index maps over the grid: the row block and the output block are block `t` of their arrays along the
    rows, every other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- Entry `(p, n)` of the row block at point `t` is row `t * 1024 + p` of the array. -/
theorem read0_0 (c : Dev nD) (t : Fin cfg0.N) (p : Fin 1024) (n : Fin 256) (r : Fin 65536) (hr : r.val = t.val * 1024 + p.val) :
    iblk0 V c 0 t (ix2 p n) = V c main_arg0 (ix2 r n) := by
  show V c main_arg0 (((cfg0.win 0).blk t).view.emb (ix2 p n)) = V c main_arg0 (ix2 r n)
  refine congrArg _ (funext fun a => Fin.ext ?_)
  obtain ⟨e0, e1, -⟩ := idx_facts0 t
  match a with
  | ⟨0, _⟩ => show win0_0.index t (0 : Fin 2) * 1024 + 1 * p.val = r.val; omega
  | ⟨1, _⟩ => show win0_0.index t (1 : Fin 2) * 256 + 1 * n.val = n.val; omega

/-- The weight block at every point is the whole weight matrix. -/
theorem read0_1 (c : Dev nD) (t : Fin cfg0.N) (n : Fin 256) (q : Fin 512) :
    iblk0 V c 1 t (ix2 n q) = V c main_arg3 (ix2 n q) := by
  show V c main_arg3 (((cfg0.win 1).blk t).view.emb (ix2 n q)) = V c main_arg3 (ix2 n q)
  refine congrArg _ (funext fun a => Fin.ext ?_)
  obtain ⟨-, -, e2, e3, -⟩ := idx_facts0 t
  match a with
  | ⟨0, _⟩ => show win0_1.index t (0 : Fin 2) * 256 + 1 * n.val = n.val; omega
  | ⟨1, _⟩ => show win0_1.index t (1 : Fin 2) * 512 + 1 * q.val = q.val; omega

/-- The bias block at every point is the whole bias row. -/
theorem read0_2 (c : Dev nD) (t : Fin cfg0.N) (q : Fin 512) :
    iblk0 V c 2 t (ix1 q) = V c main_arg4 (ix1 q) := by
  show V c main_arg4 (((cfg0.win 2).blk t).view.emb (ix1 q)) = V c main_arg4 (ix1 q)
  refine congrArg _ (funext fun a => Fin.ext ?_)
  obtain ⟨-, -, -, -, e4, -⟩ := idx_facts0 t
  match a with
  | ⟨0, _⟩ => show win0_2.index t (0 : Fin 1) * 512 + 1 * q.val = q.val; omega

/-- What point `t` writes back is block `t` of `G0` of the arrays as the region finds them. -/
theorem flushed0_eq (c : Dev nD) (t : Fin cfg0.N) :
    (dat0 V c).flushed 3 t = ((cfg0.win 3).blk t).view.read (Elt Ideal) (G0 (V c main_arg0) (V c main_arg3) (V c main_arg4)) := by
  show (cfg0.win 3).cut (grid0.coords t) ((dat0 V c).after 3 t) = _
  rw [after0_3]
  unfold out0_3
  rw [View.canon_unit_zero hz2_0]
  simp only [View.ld_unit_zero (S := S1024x256) hz2_0, View.ld_unit_zero (S := S256x512) hz2_0, View.ld_unit_zero (S := S512) hz1_0]
  obtain ⟨-, -, -, -, -, e5, e6⟩ := idx_facts0 t
  funext j
  obtain ⟨p, q, rfl⟩ : ∃ (p : Fin 1024) (q : Fin 512), j = ix2 p q := ⟨j 0, j 1, eq_ix2 j⟩
  show k0_pay1 (F := Ideal) (iblk0 V c 0 t) (iblk0 V c 1 t) (iblk0 V c 2 t) (ix2 p q)
    = dense (V c main_arg0) (V c main_arg3) (V c main_arg4) ((((cfg0.win 3).blk t).view.emb (ix2 p q)) 0) ((((cfg0.win 3).blk t).view.emb (ix2 p q)) 1)
  have h0 : ((((cfg0.win 3).blk t).view.emb (ix2 p q)) 0 : Fin 65536).val = t.val * 1024 + p.val := by
    show win0_3.index t (0 : Fin 2) * 1024 + 1 * p.val = _; omega
  have h1 : ((((cfg0.win 3).blk t).view.emb (ix2 p q)) 1 : Fin 512) = q := Fin.ext (by
    show win0_3.index t (1 : Fin 2) * 512 + 1 * q.val = _; omega)
  refine (pay0_apply (iblk0 V c 0 t) (iblk0 V c 1 t) (iblk0 V c 2 t) p q).trans ?_
  rw [h1]
  unfold dense
  rw [read0_2 V c t q]
  refine congrArg (· + _) (Finset.sum_congr rfl fun n _ => ?_)
  rw [read0_0 V c t p n _ h0, read0_1 V c t n q]

/-- An index of the array is in point `t`'s block iff each coordinate is in the block's range on its axis. -/
theorem mem_blk0 (t : Fin cfg0.N) (i : S65536x512.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v0).slice (win0_3.rect t)).set ↔ _
  rw [View.set_slice_whole, Rect.mem_set_unit]
  exact Iff.rfl

/-- The row blocks tile the array: row `r` is in the block of point `r / 1024`. -/
theorem cover0 (i : S65536x512.Idx) :
    ∃ t : Fin cfg0.N, (cfg0.win 3).flush t = true ∧ i ∈ ((cfg0.win 3).blk t).view.set := by
  have hi0 : (i 0).val < 65536 := (i 0).isLt
  have hi1 : (i 1).val < 512 := (i 1).isLt
  have hN : cfg0.N = 64 := N_0
  have ht : (i 0).val / 1024 < cfg0.N := by rw [hN]; omega
  refine ⟨⟨(i 0).val / 1024, ht⟩, flush0_3 _, ?_⟩
  rw [mem_blk0]
  obtain ⟨-, -, -, -, -, e5, e6⟩ := idx_facts0 ⟨(i 0).val / 1024, ht⟩
  intro a
  match a with
  | ⟨0, _⟩ =>
    show win0_3.index ⟨(i 0).val / 1024, ht⟩ (0 : Fin 2) * 1024 ≤ (i 0).val ∧ (i 0).val < win0_3.index ⟨(i 0).val / 1024, ht⟩ (0 : Fin 2) * 1024 + 1024
    rw [e5]; show (i 0).val / 1024 * 1024 ≤ (i 0).val ∧ (i 0).val < (i 0).val / 1024 * 1024 + 1024; omega
  | ⟨1, _⟩ =>
    show win0_3.index ⟨(i 0).val / 1024, ht⟩ (1 : Fin 2) * 512 ≤ (i 1).val ∧ (i 1).val < win0_3.index ⟨(i 0).val / 1024, ht⟩ (1 : Fin 2) * 512 + 512
    rw [e6]; omega

/-- The array region 0 leaves is `G0` of the arrays it found. -/
theorem final0 (c : Dev nD) : (dat0 V c).arrAt 3 cfg0.N = G0 (V c main_arg0) (V c main_arg3) (V c main_arg4) :=
  (dat0 V c).arrAt_eq_of_cover 3 _ (fun t _ => flushed0_eq V c t) cover0

end Cert.KernelIdeal.HandValue

end
-- ==== Proof.KI.Value1.lean ====
/-
  Region 1 read as a value: the array it leaves is, entry by entry, the dense layer of the three arrays it
  reads. Each grid point owns 1024 consecutive rows; the weight matrix and the bias row are the same block at every point.
-/
import proofs.«139939_j23055384445693_1_alg».proof.Proof.KI.Data
import proofs.«139939_j23055384445693_1_alg».proof.Proof.LibDenseLayer
import proofs.«139939_j23055384445693_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_1 : (![0, 0] : Fin 2 → Nat) = fun _ => 0 := funext fun a => by fin_cases a <;> rfl
theorem hz1_1 : (![0] : Fin 1 → Nat) = fun _ => 0 := funext fun a => by fin_cases a; rfl

/-- The affine part of the body's arithmetic at entry `(p, q)` of the block: row `p` of the row block against column
    `q` of the weights, plus the bias at `q` (rounding the operands to a narrower format is the identity over the
    extended reals). -/
theorem affine1_apply (x0 : Vec Ideal S1024x512 .f32) (x1 : Vec Ideal S512x512 .f32) (x2 : Vec Ideal S512 .f32)
    (p : Fin 1024) (q : Fin 512) :
    addf (matmul dot_S1024x512_S512x512_S1024x512_1_0_0_1_n_n none (truncf .bf16 x0 bitsLt_bf16_f32) (truncf .bf16 x1 bitsLt_bf16_f32)
        (constant (F := Ideal) S1024x512 .f32 0x00000000#32))
      (broadcastTo S1024x512 (shapeCast S1x512 x2 shapeCasts_S512_S1x512) broadcasts_S1x512_S1024x512) (ix2 p q)
      = dense x0 x1 x2 p q := by
  unfold dense
  refine (DenseLayer.affine_apply (K := 1024) (N := 512) (Q := 512) dot_S1024x512_S512x512_S1024x512_1_0_0_1_n_n.wf
    (truncf .bf16 x0 bitsLt_bf16_f32) (truncf .bf16 x1 bitsLt_bf16_f32) (shapeCast S1x512 x2 shapeCasts_S512_S1x512)
    broadcasts_S1x512_S1024x512 p q).trans ?_
  rw [shapeCast_a_1a_apply x2 shapeCasts_S512_S1x512 (0 : Fin 1) q]
  rfl

/-- The body's arithmetic at entry `(p, q)` of the block. -/
theorem pay1_apply (x0 : Vec Ideal S1024x512 .f32) (x1 : Vec Ideal S512x512 .f32) (x2 : Vec Ideal S512 .f32)
    (p : Fin 1024) (q : Fin 512) :
    k1_pay1 (F := Ideal) x0 x1 x2 (ix2 p q) = dense x0 x1 x2 p q := by
  exact affine1_apply x0 x1 x2 p q

/-- The array region 1 leaves, entry by entry. -/
def G1 (A : S32768x512.Idx → EReal) (W : S512x512.Idx → EReal) (b : S512.Idx → EReal) : S32768x512.Idx → EReal :=
  fun i => dense A W b (i 0) (i 1)

/-- The printed index maps over the grid: the row block and the output block are block `t` of their arrays along the
    rows, every other block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0 ∧ win1_2.index t (0 : Fin 1) = 0
    ∧ win1_3.index t (0 : Fin 2) = t.val ∧ win1_3.index t (1 : Fin 2) = 0 :=
  (by decide +kernel : ∀ t : Fin grid1.N, _)

/-- Entry `(p, n)` of the row block at point `t` is row `t * 1024 + p` of the array. -/
theorem read1_0 (c : Dev nD) (t : Fin cfg1.N) (p : Fin 1024) (n : Fin 512) (r : Fin 32768) (hr : r.val = t.val * 1024 + p.val) :
    iblk1 V c 0 t (ix2 p n) = V c main_arg1 (ix2 r n) := by
  show V c main_arg1 (((cfg1.win 0).blk t).view.emb (ix2 p n)) = V c main_arg1 (ix2 r n)
  refine congrArg _ (funext fun a => Fin.ext ?_)
  obtain ⟨e0, e1, -⟩ := idx_facts1 t
  match a with
  | ⟨0, _⟩ => show win1_0.index t (0 : Fin 2) * 1024 + 1 * p.val = r.val; omega
  | ⟨1, _⟩ => show win1_0.index t (1 : Fin 2) * 512 + 1 * n.val = n.val; omega

/-- The weight block at every point is the whole weight matrix. -/
theorem read1_1 (c : Dev nD) (t : Fin cfg1.N) (n : Fin 512) (q : Fin 512) :
    iblk1 V c 1 t (ix2 n q) = V c main_arg5 (ix2 n q) := by
  show V c main_arg5 (((cfg1.win 1).blk t).view.emb (ix2 n q)) = V c main_arg5 (ix2 n q)
  refine congrArg _ (funext fun a => Fin.ext ?_)
  obtain ⟨-, -, e2, e3, -⟩ := idx_facts1 t
  match a with
  | ⟨0, _⟩ => show win1_1.index t (0 : Fin 2) * 512 + 1 * n.val = n.val; omega
  | ⟨1, _⟩ => show win1_1.index t (1 : Fin 2) * 512 + 1 * q.val = q.val; omega

/-- The bias block at every point is the whole bias row. -/
theorem read1_2 (c : Dev nD) (t : Fin cfg1.N) (q : Fin 512) :
    iblk1 V c 2 t (ix1 q) = V c main_arg6 (ix1 q) := by
  show V c main_arg6 (((cfg1.win 2).blk t).view.emb (ix1 q)) = V c main_arg6 (ix1 q)
  refine congrArg _ (funext fun a => Fin.ext ?_)
  obtain ⟨-, -, -, -, e4, -⟩ := idx_facts1 t
  match a with
  | ⟨0, _⟩ => show win1_2.index t (0 : Fin 1) * 512 + 1 * q.val = q.val; omega

/-- What point `t` writes back is block `t` of `G1` of the arrays as the region finds them. -/
theorem flushed1_eq (c : Dev nD) (t : Fin cfg1.N) :
    (dat1 V c).flushed 3 t = ((cfg1.win 3).blk t).view.read (Elt Ideal) (G1 (V c main_arg1) (V c main_arg5) (V c main_arg6)) := by
  show (cfg1.win 3).cut (grid1.coords t) ((dat1 V c).after 3 t) = _
  rw [after1_3]
  unfold out1_3
  rw [View.canon_unit_zero hz2_1]
  simp only [View.ld_unit_zero (S := S1024x512) hz2_1, View.ld_unit_zero (S := S512x512) hz2_1, View.ld_unit_zero (S := S512) hz1_1]
  obtain ⟨-, -, -, -, -, e5, e6⟩ := idx_facts1 t
  funext j
  obtain ⟨p, q, rfl⟩ : ∃ (p : Fin 1024) (q : Fin 512), j = ix2 p q := ⟨j 0, j 1, eq_ix2 j⟩
  show k1_pay1 (F := Ideal) (iblk1 V c 0 t) (iblk1 V c 1 t) (iblk1 V c 2 t) (ix2 p q)
    = dense (V c main_arg1) (V c main_arg5) (V c main_arg6) ((((cfg1.win 3).blk t).view.emb (ix2 p q)) 0) ((((cfg1.win 3).blk t).view.emb (ix2 p q)) 1)
  have h0 : ((((cfg1.win 3).blk t).view.emb (ix2 p q)) 0 : Fin 32768).val = t.val * 1024 + p.val := by
    show win1_3.index t (0 : Fin 2) * 1024 + 1 * p.val = _; omega
  have h1 : ((((cfg1.win 3).blk t).view.emb (ix2 p q)) 1 : Fin 512) = q := Fin.ext (by
    show win1_3.index t (1 : Fin 2) * 512 + 1 * q.val = _; omega)
  refine (pay1_apply (iblk1 V c 0 t) (iblk1 V c 1 t) (iblk1 V c 2 t) p q).trans ?_
  rw [h1]
  unfold dense
  rw [read1_2 V c t q]
  refine congrArg (· + _) (Finset.sum_congr rfl fun n _ => ?_)
  rw [read1_0 V c t p n _ h0, read1_1 V c t n q]

/-- An index of the array is in point `t`'s block iff each coordinate is in the block's range on its axis. -/
theorem mem_blk1 (t : Fin cfg1.N) (i : S32768x512.Idx) :
    i ∈ ((cfg1.win 3).blk t).view.set ↔ ∀ a : Fin 2, win1_3.index t a * S1024x512.size a ≤ (i a).val ∧ (i a).val < win1_3.index t a * S1024x512.size a + S1024x512.size a := by
  show i ∈ ((View.whole main_v1).slice (win1_3.rect t)).set ↔ _
  rw [View.set_slice_whole, Rect.mem_set_unit]
  exact Iff.rfl

/-- The row blocks tile the array: row `r` is in the block of point `r / 1024`. -/
theorem cover1 (i : S32768x512.Idx) :
    ∃ t : Fin cfg1.N, (cfg1.win 3).flush t = true ∧ i ∈ ((cfg1.win 3).blk t).view.set := by
  have hi0 : (i 0).val < 32768 := (i 0).isLt
  have hi1 : (i 1).val < 512 := (i 1).isLt
  have hN : cfg1.N = 32 := N_1
  have ht : (i 0).val / 1024 < cfg1.N := by rw [hN]; omega
  refine ⟨⟨(i 0).val / 1024, ht⟩, flush1_3 _, ?_⟩
  rw [mem_blk1]
  obtain ⟨-, -, -, -, -, e5, e6⟩ := idx_facts1 ⟨(i 0).val / 1024, ht⟩
  intro a
  match a with
  | ⟨0, _⟩ =>
    show win1_3.index ⟨(i 0).val / 1024, ht⟩ (0 : Fin 2) * 1024 ≤ (i 0).val ∧ (i 0).val < win1_3.index ⟨(i 0).val / 1024, ht⟩ (0 : Fin 2) * 1024 + 1024
    rw [e5]; show (i 0).val / 1024 * 1024 ≤ (i 0).val ∧ (i 0).val < (i 0).val / 1024 * 1024 + 1024; omega
  | ⟨1, _⟩ =>
    show win1_3.index ⟨(i 0).val / 1024, ht⟩ (1 : Fin 2) * 512 ≤ (i 1).val ∧ (i 1).val < win1_3.index ⟨(i 0).val / 1024, ht⟩ (1 : Fin 2) * 512 + 512
    rw [e6]; omega

/-- The array region 1 leaves is `G1` of the arrays it found. -/
theorem final1 (c : Dev nD) : (dat1 V c).arrAt 3 cfg1.N = G1 (V c main_arg1) (V c main_arg5) (V c main_arg6) :=
  (dat1 V c).arrAt_eq_of_cover 3 _ (fun t _ => flushed1_eq V c t) cover1

end Cert.KernelIdeal.HandValue

end
-- ==== Proof.KI.Value2.lean ====
/-
  Region 2 read as a value: the array it leaves is, entry by entry, the dense layer of the three arrays it
  reads. Each grid point owns 1024 consecutive rows; the weight matrix and the bias row are the same block at every point.
-/
import proofs.«139939_j23055384445693_1_alg».proof.Proof.KI.Data
import proofs.«139939_j23055384445693_1_alg».proof.Proof.LibDenseLayer
import proofs.«139939_j23055384445693_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_2 : (![0, 0] : Fin 2 → Nat) = fun _ => 0 := funext fun a => by fin_cases a <;> rfl
theorem hz1_2 : (![0] : Fin 1 → Nat) = fun _ => 0 := funext fun a => by fin_cases a; rfl

/-- The affine part of the body's arithmetic at entry `(p, q)` of the block: row `p` of the row block against column
    `q` of the weights, plus the bias at `q` (rounding the operands to a narrower format is the identity over the
    extended reals). -/
theorem affine2_apply (x0 : Vec Ideal S1024x1024 .f32) (x1 : Vec Ideal S1024x512 .f32) (x2 : Vec Ideal S512 .f32)
    (p : Fin 1024) (q : Fin 512) :
    addf (matmul dot_S1024x1024_S1024x512_S1024x512_1_0_0_1_n_n none (truncf .bf16 x0 bitsLt_bf16_f32) (truncf .bf16 x1 bitsLt_bf16_f32)
        (constant (F := Ideal) S1024x512 .f32 0x00000000#32))
      (broadcastTo S1024x512 (shapeCast S1x512 x2 shapeCasts_S512_S1x512) broadcasts_S1x512_S1024x512) (ix2 p q)
      = dense x0 x1 x2 p q := by
  unfold dense
  refine (DenseLayer.affine_apply (K := 1024) (N := 1024) (Q := 512) dot_S1024x1024_S1024x512_S1024x512_1_0_0_1_n_n.wf
    (truncf .bf16 x0 bitsLt_bf16_f32) (truncf .bf16 x1 bitsLt_bf16_f32) (shapeCast S1x512 x2 shapeCasts_S512_S1x512)
    broadcasts_S1x512_S1024x512 p q).trans ?_
  rw [shapeCast_a_1a_apply x2 shapeCasts_S512_S1x512 (0 : Fin 1) q]
  rfl

/-- The body's arithmetic at entry `(p, q)` of the block. -/
theorem pay2_apply (x0 : Vec Ideal S1024x1024 .f32) (x1 : Vec Ideal S1024x512 .f32) (x2 : Vec Ideal S512 .f32)
    (p : Fin 1024) (q : Fin 512) :
    k2_pay1 (F := Ideal) x0 x1 x2 (ix2 p q) = dense x0 x1 x2 p q := by
  exact affine2_apply x0 x1 x2 p q

/-- The array region 2 leaves, entry by entry. -/
def G2 (A : S32768x1024.Idx → EReal) (W : S1024x512.Idx → EReal) (b : S512.Idx → EReal) : S32768x512.Idx → EReal :=
  fun i => dense A W b (i 0) (i 1)

/-- The printed index maps over the grid: the row block and the output block are block `t` of their arrays along the
    rows, every other block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0 ∧ win2_2.index t (0 : Fin 1) = 0
    ∧ win2_3.index t (0 : Fin 2) = t.val ∧ win2_3.index t (1 : Fin 2) = 0 :=
  (by decide +kernel : ∀ t : Fin grid2.N, _)

/-- Entry `(p, n)` of the row block at point `t` is row `t * 1024 + p` of the array. -/
theorem read2_0 (c : Dev nD) (t : Fin cfg2.N) (p : Fin 1024) (n : Fin 1024) (r : Fin 32768) (hr : r.val = t.val * 1024 + p.val) :
    iblk2 V c 0 t (ix2 p n) = V c main_arg2 (ix2 r n) := by
  show V c main_arg2 (((cfg2.win 0).blk t).view.emb (ix2 p n)) = V c main_arg2 (ix2 r n)
  refine congrArg _ (funext fun a => Fin.ext ?_)
  obtain ⟨e0, e1, -⟩ := idx_facts2 t
  match a with
  | ⟨0, _⟩ => show win2_0.index t (0 : Fin 2) * 1024 + 1 * p.val = r.val; omega
  | ⟨1, _⟩ => show win2_0.index t (1 : Fin 2) * 1024 + 1 * n.val = n.val; omega

/-- The weight block at every point is the whole weight matrix. -/
theorem read2_1 (c : Dev nD) (t : Fin cfg2.N) (n : Fin 1024) (q : Fin 512) :
    iblk2 V c 1 t (ix2 n q) = V c main_arg7 (ix2 n q) := by
  show V c main_arg7 (((cfg2.win 1).blk t).view.emb (ix2 n q)) = V c main_arg7 (ix2 n q)
  refine congrArg _ (funext fun a => Fin.ext ?_)
  obtain ⟨-, -, e2, e3, -⟩ := idx_facts2 t
  match a with
  | ⟨0, _⟩ => show win2_1.index t (0 : Fin 2) * 1024 + 1 * n.val = n.val; omega
  | ⟨1, _⟩ => show win2_1.index t (1 : Fin 2) * 512 + 1 * q.val = q.val; omega

/-- The bias block at every point is the whole bias row. -/
theorem read2_2 (c : Dev nD) (t : Fin cfg2.N) (q : Fin 512) :
    iblk2 V c 2 t (ix1 q) = V c main_arg8 (ix1 q) := by
  show V c main_arg8 (((cfg2.win 2).blk t).view.emb (ix1 q)) = V c main_arg8 (ix1 q)
  refine congrArg _ (funext fun a => Fin.ext ?_)
  obtain ⟨-, -, -, -, e4, -⟩ := idx_facts2 t
  match a with
  | ⟨0, _⟩ => show win2_2.index t (0 : Fin 1) * 512 + 1 * q.val = q.val; omega

/-- What point `t` writes back is block `t` of `G2` of the arrays as the region finds them. -/
theorem flushed2_eq (c : Dev nD) (t : Fin cfg2.N) :
    (dat2 V c).flushed 3 t = ((cfg2.win 3).blk t).view.read (Elt Ideal) (G2 (V c main_arg2) (V c main_arg7) (V c main_arg8)) := by
  show (cfg2.win 3).cut (grid2.coords t) ((dat2 V c).after 3 t) = _
  rw [after2_3]
  unfold out2_3
  rw [View.canon_unit_zero hz2_2]
  simp only [View.ld_unit_zero (S := S1024x1024) hz2_2, View.ld_unit_zero (S := S1024x512) hz2_2, View.ld_unit_zero (S := S512) hz1_2]
  obtain ⟨-, -, -, -, -, e5, e6⟩ := idx_facts2 t
  funext j
  obtain ⟨p, q, rfl⟩ : ∃ (p : Fin 1024) (q : Fin 512), j = ix2 p q := ⟨j 0, j 1, eq_ix2 j⟩
  show k2_pay1 (F := Ideal) (iblk2 V c 0 t) (iblk2 V c 1 t) (iblk2 V c 2 t) (ix2 p q)
    = dense (V c main_arg2) (V c main_arg7) (V c main_arg8) ((((cfg2.win 3).blk t).view.emb (ix2 p q)) 0) ((((cfg2.win 3).blk t).view.emb (ix2 p q)) 1)
  have h0 : ((((cfg2.win 3).blk t).view.emb (ix2 p q)) 0 : Fin 32768).val = t.val * 1024 + p.val := by
    show win2_3.index t (0 : Fin 2) * 1024 + 1 * p.val = _; omega
  have h1 : ((((cfg2.win 3).blk t).view.emb (ix2 p q)) 1 : Fin 512) = q := Fin.ext (by
    show win2_3.index t (1 : Fin 2) * 512 + 1 * q.val = _; omega)
  refine (pay2_apply (iblk2 V c 0 t) (iblk2 V c 1 t) (iblk2 V c 2 t) p q).trans ?_
  rw [h1]
  unfold dense
  rw [read2_2 V c t q]
  refine congrArg (· + _) (Finset.sum_congr rfl fun n _ => ?_)
  rw [read2_0 V c t p n _ h0, read2_1 V c t n q]

/-- An index of the array is in point `t`'s block iff each coordinate is in the block's range on its axis. -/
theorem mem_blk2 (t : Fin cfg2.N) (i : S32768x512.Idx) :
    i ∈ ((cfg2.win 3).blk t).view.set ↔ ∀ a : Fin 2, win2_3.index t a * S1024x512.size a ≤ (i a).val ∧ (i a).val < win2_3.index t a * S1024x512.size a + S1024x512.size a := by
  show i ∈ ((View.whole main_v2).slice (win2_3.rect t)).set ↔ _
  rw [View.set_slice_whole, Rect.mem_set_unit]
  exact Iff.rfl

/-- The row blocks tile the array: row `r` is in the block of point `r / 1024`. -/
theorem cover2 (i : S32768x512.Idx) :
    ∃ t : Fin cfg2.N, (cfg2.win 3).flush t = true ∧ i ∈ ((cfg2.win 3).blk t).view.set := by
  have hi0 : (i 0).val < 32768 := (i 0).isLt
  have hi1 : (i 1).val < 512 := (i 1).isLt
  have hN : cfg2.N = 32 := N_2
  have ht : (i 0).val / 1024 < cfg2.N := by rw [hN]; omega
  refine ⟨⟨(i 0).val / 1024, ht⟩, flush2_3 _, ?_⟩
  rw [mem_blk2]
  obtain ⟨-, -, -, -, -, e5, e6⟩ := idx_facts2 ⟨(i 0).val / 1024, ht⟩
  intro a
  match a with
  | ⟨0, _⟩ =>
    show win2_3.index ⟨(i 0).val / 1024, ht⟩ (0 : Fin 2) * 1024 ≤ (i 0).val ∧ (i 0).val < win2_3.index ⟨(i 0).val / 1024, ht⟩ (0 : Fin 2) * 1024 + 1024
    rw [e5]; show (i 0).val / 1024 * 1024 ≤ (i 0).val ∧ (i 0).val < (i 0).val / 1024 * 1024 + 1024; omega
  | ⟨1, _⟩ =>
    show win2_3.index ⟨(i 0).val / 1024, ht⟩ (1 : Fin 2) * 512 ≤ (i 1).val ∧ (i 1).val < win2_3.index ⟨(i 0).val / 1024, ht⟩ (1 : Fin 2) * 512 + 512
    rw [e6]; omega

/-- The array region 2 leaves is `G2` of the arrays it found. -/
theorem final2 (c : Dev nD) : (dat2 V c).arrAt 3 cfg2.N = G2 (V c main_arg2) (V c main_arg7) (V c main_arg8) :=
  (dat2 V c).arrAt_eq_of_cover 3 _ (fun t _ => flushed2_eq V c t) cover2

end Cert.KernelIdeal.HandValue

end
-- ==== Proof.KI.Value3.lean ====
/-
  Region 3 read as a value: the array it leaves is, entry by entry, the exponential linear unit of the entry of the array
  it reads plus the bias at the entry's column. Each grid point owns 2048 consecutive rows; the bias row is the same
  block at every point.
-/
import proofs.«139939_j23055384445693_1_alg».proof.Proof.KI.Data
import proofs.«139939_j23055384445693_1_alg».proof.Proof.LibDenseLayer
import proofs.«139939_j23055384445693_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_3 : (![0, 0] : Fin 2 → Nat) = fun _ => 0 := funext fun a => by fin_cases a <;> rfl
theorem hz1_3 : (![0] : Fin 1 → Nat) = fun _ => 0 := funext fun a => by fin_cases a; rfl

/-- The sum the unit is applied to, at entry `(p, q)` of the block (a cast of the block to its own shape is the identity;
    the bias row is laid along every row). -/
theorem sum3_apply (x0 : Vec Ideal S2048x512 .f32) (x1 : Vec Ideal S512 .f32) (p : Fin 2048) (q : Fin 512) :
    addf (shapeCast S2048x512 x0 shapeCasts_S2048x512_S2048x512 : FVec Ideal S2048x512 .f32)
      (broadcastTo S2048x512 (shapeCast S1x512 x1 shapeCasts_S512_S1x512) broadcasts_S1x512_S2048x512) (ix2 p q)
      = x0 (ix2 p q) + x1 (ix1 q) := by
  show (shapeCast S2048x512 x0 shapeCasts_S2048x512_S2048x512 (ix2 p q) : EReal)
      + (broadcastTo S2048x512 (shapeCast S1x512 x1 shapeCasts_S512_S1x512) broadcasts_S1x512_S2048x512 (ix2 p q) : EReal) = _
  rw [shapeCast_self x0 shapeCasts_S2048x512_S2048x512,
    broadcastTo_1b_ab_apply (shapeCast S1x512 x1 shapeCasts_S512_S1x512) broadcasts_S1x512_S2048x512 p q,
    shapeCast_a_1a_apply x1 shapeCasts_S512_S1x512 (0 : Fin 1) q]

/-- The body's arithmetic at entry `(p, q)` of the block. -/
theorem pay3_apply (x0 : Vec Ideal S2048x512 .f32) (x1 : Vec Ideal S512 .f32) (p : Fin 2048) (q : Fin 512) :
    k3_pay1 (F := Ideal) x0 x1 (ix2 p q) = eluK (x0 (ix2 p q) + x1 (ix1 q)) := by
  refine Eq.trans (?_ : _ = eluK (addf (shapeCast S2048x512 x0 shapeCasts_S2048x512_S2048x512 : FVec Ideal S2048x512 .f32)
      (broadcastTo S2048x512 (shapeCast S1x512 x1 shapeCasts_S512_S1x512) broadcasts_S1x512_S2048x512) (ix2 p q)))
    (congrArg eluK (sum3_apply x0 x1 p q))
  rfl

/-- The array region 3 leaves, entry by entry. -/
def G3 (X : S131072x512.Idx → EReal) (b : S512.Idx → EReal) : S131072x512.Idx → EReal :=
  fun i => eluK (X i + b (ix1 (i 1)))

/-- The printed index maps over the grid: the input and the output block are block `t` of their arrays along the rows,
    every other block index is zero. -/
theorem idx_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

/-- The input block at point `t` is read where the output block is written. -/
theorem read3_0 (c : Dev nD) (t : Fin cfg3.N) (p : Fin 2048) (q : Fin 512) :
    iblk3 V c 0 t (ix2 p q) = V c main_v35 (((cfg3.win 2).blk t).view.emb (ix2 p q)) := by
  show V c main_v35 (((cfg3.win 0).blk t).view.emb (ix2 p q)) = V c main_v35 (((cfg3.win 2).blk t).view.emb (ix2 p q))
  refine congrArg _ (funext fun a => Fin.ext ?_)
  obtain ⟨e0, e1, -, e3, e4⟩ := idx_facts3 t
  match a with
  | ⟨0, _⟩ => show win3_0.index t (0 : Fin 2) * 2048 + 1 * p.val = win3_2.index t (0 : Fin 2) * 2048 + 1 * p.val; omega
  | ⟨1, _⟩ => show win3_0.index t (1 : Fin 2) * 512 + 1 * q.val = win3_2.index t (1 : Fin 2) * 512 + 1 * q.val; omega

/-- The bias block at every point is the whole bias row. -/
theorem read3_1 (c : Dev nD) (t : Fin cfg3.N) (q : Fin 512) :
    iblk3 V c 1 t (ix1 q) = V c main_arg9 (ix1 q) := by
  show V c main_arg9 (((cfg3.win 1).blk t).view.emb (ix1 q)) = V c main_arg9 (ix1 q)
  refine congrArg _ (funext fun a => Fin.ext ?_)
  obtain ⟨-, -, e2, -⟩ := idx_facts3 t
  match a with
  | ⟨0, _⟩ => show win3_1.index t (0 : Fin 1) * 512 + 1 * q.val = q.val; omega

/-- What point `t` writes back is block `t` of `G3` of the arrays as the region finds them. -/
theorem flushed3_eq (c : Dev nD) (t : Fin cfg3.N) :
    (dat3 V c).flushed 2 t = ((cfg3.win 2).blk t).view.read (Elt Ideal) (G3 (V c main_v35) (V c main_arg9)) := by
  show (cfg3.win 2).cut (grid3.coords t) ((dat3 V c).after 2 t) = _
  rw [after3_2]
  unfold out3_2
  rw [View.canon_unit_zero hz2_3]
  simp only [View.ld_unit_zero (S := S2048x512) hz2_3, View.ld_unit_zero (S := S512) hz1_3]
  obtain ⟨-, -, -, e3, e4⟩ := idx_facts3 t
  funext j
  obtain ⟨p, q, rfl⟩ : ∃ (p : Fin 2048) (q : Fin 512), j = ix2 p q := ⟨j 0, j 1, eq_ix2 j⟩
  show k3_pay1 (F := Ideal) (iblk3 V c 0 t) (iblk3 V c 1 t) (ix2 p q)
    = G3 (V c main_v35) (V c main_arg9) (((cfg3.win 2).blk t).view.emb (ix2 p q))
  have h1 : ((((cfg3.win 2).blk t).view.emb (ix2 p q)) 1 : Fin 512) = q := Fin.ext (by
    show win3_2.index t (1 : Fin 2) * 512 + 1 * q.val = _; omega)
  refine (pay3_apply (iblk3 V c 0 t) (iblk3 V c 1 t) p q).trans ?_
  simp only [G3]
  rw [h1, read3_0 V c t p q, read3_1 V c t q]

/-- An index of the array is in point `t`'s block iff each coordinate is in the block's range on its axis. -/
theorem mem_blk3 (t : Fin cfg3.N) (i : S131072x512.Idx) :
    i ∈ ((cfg3.win 2).blk t).view.set ↔ ∀ a : Fin 2, win3_2.index t a * S2048x512.size a ≤ (i a).val ∧ (i a).val < win3_2.index t a * S2048x512.size a + S2048x512.size a := by
  show i ∈ ((View.whole main_v36).slice (win3_2.rect t)).set ↔ _
  rw [View.set_slice_whole, Rect.mem_set_unit]
  exact Iff.rfl

/-- The row blocks tile the array: row `r` is in the block of point `r / 2048`. -/
theorem cover3 (i : S131072x512.Idx) :
    ∃ t : Fin cfg3.N, (cfg3.win 2).flush t = true ∧ i ∈ ((cfg3.win 2).blk t).view.set := by
  have hi0 : (i 0).val < 131072 := (i 0).isLt
  have hi1 : (i 1).val < 512 := (i 1).isLt
  have hN : cfg3.N = 64 := N_3
  have ht : (i 0).val / 2048 < cfg3.N := by rw [hN]; omega
  refine ⟨⟨(i 0).val / 2048, ht⟩, flush3_2 _, ?_⟩
  rw [mem_blk3]
  obtain ⟨-, -, -, e3, e4⟩ := idx_facts3 ⟨(i 0).val / 2048, ht⟩
  intro a
  match a with
  | ⟨0, _⟩ =>
    show win3_2.index ⟨(i 0).val / 2048, ht⟩ (0 : Fin 2) * 2048 ≤ (i 0).val ∧ (i 0).val < win3_2.index ⟨(i 0).val / 2048, ht⟩ (0 : Fin 2) * 2048 + 2048
    rw [e3]; show (i 0).val / 2048 * 2048 ≤ (i 0).val ∧ (i 0).val < (i 0).val / 2048 * 2048 + 2048; omega
  | ⟨1, _⟩ =>
    show win3_2.index ⟨(i 0).val / 2048, ht⟩ (1 : Fin 2) * 512 ≤ (i 1).val ∧ (i 1).val < win3_2.index ⟨(i 0).val / 2048, ht⟩ (1 : Fin 2) * 512 + 512
    rw [e4]; omega

/-- The array region 3 leaves is `G3` of the arrays it found. -/
theorem final3 (c : Dev nD) : (dat3 V c).arrAt 2 cfg3.N = G3 (V c main_v35) (V c main_arg9) :=
  (dat3 V c).arrAt_eq_of_cover 2 _ (fun t _ => flushed3_eq V c t) cover3

end Cert.KernelIdeal.HandValue

end
-- ==== Proof.KI.Value4.lean ====
/-
  Region 4 read as a value: the array it leaves is, entry by entry, the exponential linear unit of the dense layer of the three arrays it
  reads. Each grid point owns 1024 consecutive rows; the weight matrix and the bias row are the same block at every point.
-/
import proofs.«139939_j23055384445693_1_alg».proof.Proof.KI.Data
import proofs.«139939_j23055384445693_1_alg».proof.Proof.LibDenseLayer
import proofs.«139939_j23055384445693_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz2_4 : (![0, 0] : Fin 2 → Nat) = fun _ => 0 := funext fun a => by fin_cases a <;> rfl
theorem hz1_4 : (![0] : Fin 1 → Nat) = fun _ => 0 := funext fun a => by fin_cases a; rfl

/-- The affine part of the body's arithmetic at entry `(p, q)` of the block: row `p` of the row block against column
    `q` of the weights, plus the bias at `q` (rounding the operands to a narrower format is the identity over the
    extended reals, and so is a cast of the block to its own shape). -/
theorem affine4_apply (x0 : Vec Ideal S1024x512 .f32) (x1 : Vec Ideal S512x512 .f32) (x2 : Vec Ideal S512 .f32)
    (p : Fin 1024) (q : Fin 512) :
    addf (matmul dot_S1024x512_S512x512_S1024x512_1_0_0_1_n_n none (truncf .bf16 (shapeCast S1024x512 x0 shapeCasts_S1024x512_S1024x512) bitsLt_bf16_f32) (truncf .bf16 x1 bitsLt_bf16_f32)
        (constant (F := Ideal) S1024x512 .f32 0x00000000#32))
      (broadcastTo S1024x512 (shapeCast S1x512 x2 shapeCasts_S512_S1x512) broadcasts_S1x512_S1024x512) (ix2 p q)
      = dense x0 x1 x2 p q := by
  unfold dense
  refine (DenseLayer.affine_apply (K := 1024) (N := 512) (Q := 512) dot_S1024x512_S512x512_S1024x512_1_0_0_1_n_n.wf
    (truncf .bf16 (shapeCast S1024x512 x0 shapeCasts_S1024x512_S1024x512) bitsLt_bf16_f32) (truncf .bf16 x1 bitsLt_bf16_f32) (shapeCast S1x512 x2 shapeCasts_S512_S1x512)
    broadcasts_S1x512_S1024x512 p q).trans ?_
  rw [shapeCast_a_1a_apply x2 shapeCasts_S512_S1x512 (0 : Fin 1) q]
  rw [shapeCast_self x0 shapeCasts_S1024x512_S1024x512]
  rfl

/-- The body's arithmetic at entry `(p, q)` of the block. -/
theorem pay4_apply (x0 : Vec Ideal S1024x512 .f32) (x1 : Vec Ideal S512x512 .f32) (x2 : Vec Ideal S512 .f32)
    (p : Fin 1024) (q : Fin 512) :
    k4_pay1 (F := Ideal) x0 x1 x2 (ix2 p q) = eluK (dense x0 x1 x2 p q) := by
  refine Eq.trans (?_ : _ = eluK (addf (matmul dot_S1024x512_S512x512_S1024x512_1_0_0_1_n_n none (truncf .bf16 (shapeCast S1024x512 x0 shapeCasts_S1024x512_S1024x512) bitsLt_bf16_f32) (truncf .bf16 x1 bitsLt_bf16_f32)
        (constant (F := Ideal) S1024x512 .f32 0x00000000#32))
      (broadcastTo S1024x512 (shapeCast S1x512 x2 shapeCasts_S512_S1x512) broadcasts_S1x512_S1024x512) (ix2 p q)))
    (congrArg eluK (affine4_apply x0 x1 x2 p q))
  rfl

/-- The array region 4 leaves, entry by entry. -/
def G4 (A : S131072x512.Idx → EReal) (W : S512x512.Idx → EReal) (b : S512.Idx → EReal) : S131072x512.Idx → EReal :=
  fun i => eluK (dense A W b (i 0) (i 1))

/-- The printed index maps over the grid: the row block and the output block are block `t` of their arrays along the
    rows, every other block index is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0 ∧ win4_2.index t (0 : Fin 1) = 0
    ∧ win4_3.index t (0 : Fin 2) = t.val ∧ win4_3.index t (1 : Fin 2) = 0 :=
  (by decide +kernel : ∀ t : Fin grid4.N, _)

/-- Entry `(p, n)` of the row block at point `t` is row `t * 1024 + p` of the array. -/
theorem read4_0 (c : Dev nD) (t : Fin cfg4.N) (p : Fin 1024) (n : Fin 512) (r : Fin 131072) (hr : r.val = t.val * 1024 + p.val) :
    iblk4 V c 0 t (ix2 p n) = V c main_v52 (ix2 r n) := by
  show V c main_v52 (((cfg4.win 0).blk t).view.emb (ix2 p n)) = V c main_v52 (ix2 r n)
  refine congrArg _ (funext fun a => Fin.ext ?_)
  obtain ⟨e0, e1, -⟩ := idx_facts4 t
  match a with
  | ⟨0, _⟩ => show win4_0.index t (0 : Fin 2) * 1024 + 1 * p.val = r.val; omega
  | ⟨1, _⟩ => show win4_0.index t (1 : Fin 2) * 512 + 1 * n.val = n.val; omega

/-- The weight block at every point is the whole weight matrix. -/
theorem read4_1 (c : Dev nD) (t : Fin cfg4.N) (n : Fin 512) (q : Fin 512) :
    iblk4 V c 1 t (ix2 n q) = V c main_arg10 (ix2 n q) := by
  show V c main_arg10 (((cfg4.win 1).blk t).view.emb (ix2 n q)) = V c main_arg10 (ix2 n q)
  refine congrArg _ (funext fun a => Fin.ext ?_)
  obtain ⟨-, -, e2, e3, -⟩ := idx_facts4 t
  match a with
  | ⟨0, _⟩ => show win4_1.index t (0 : Fin 2) * 512 + 1 * n.val = n.val; omega
  | ⟨1, _⟩ => show win4_1.index t (1 : Fin 2) * 512 + 1 * q.val = q.val; omega

/-- The bias block at every point is the whole bias row. -/
theorem read4_2 (c : Dev nD) (t : Fin cfg4.N) (q : Fin 512) :
    iblk4 V c 2 t (ix1 q) = V c main_arg11 (ix1 q) := by
  show V c main_arg11 (((cfg4.win 2).blk t).view.emb (ix1 q)) = V c main_arg11 (ix1 q)
  refine congrArg _ (funext fun a => Fin.ext ?_)
  obtain ⟨-, -, -, -, e4, -⟩ := idx_facts4 t
  match a with
  | ⟨0, _⟩ => show win4_2.index t (0 : Fin 1) * 512 + 1 * q.val = q.val; omega

/-- What point `t` writes back is block `t` of `G4` of the arrays as the region finds them. -/
theorem flushed4_eq (c : Dev nD) (t : Fin cfg4.N) :
    (dat4 V c).flushed 3 t = ((cfg4.win 3).blk t).view.read (Elt Ideal) (G4 (V c main_v52) (V c main_arg10) (V c main_arg11)) := by
  show (cfg4.win 3).cut (grid4.coords t) ((dat4 V c).after 3 t) = _
  rw [after4_3]
  unfold out4_3
  rw [View.canon_unit_zero hz2_4]
  simp only [View.ld_unit_zero (S := S1024x512) hz2_4, View.ld_unit_zero (S := S512x512) hz2_4, View.ld_unit_zero (S := S512) hz1_4]
  obtain ⟨-, -, -, -, -, e5, e6⟩ := idx_facts4 t
  funext j
  obtain ⟨p, q, rfl⟩ : ∃ (p : Fin 1024) (q : Fin 512), j = ix2 p q := ⟨j 0, j 1, eq_ix2 j⟩
  show k4_pay1 (F := Ideal) (iblk4 V c 0 t) (iblk4 V c 1 t) (iblk4 V c 2 t) (ix2 p q)
    = eluK (dense (V c main_v52) (V c main_arg10) (V c main_arg11) ((((cfg4.win 3).blk t).view.emb (ix2 p q)) 0) ((((cfg4.win 3).blk t).view.emb (ix2 p q)) 1))
  have h0 : ((((cfg4.win 3).blk t).view.emb (ix2 p q)) 0 : Fin 131072).val = t.val * 1024 + p.val := by
    show win4_3.index t (0 : Fin 2) * 1024 + 1 * p.val = _; omega
  have h1 : ((((cfg4.win 3).blk t).view.emb (ix2 p q)) 1 : Fin 512) = q := Fin.ext (by
    show win4_3.index t (1 : Fin 2) * 512 + 1 * q.val = _; omega)
  refine (pay4_apply (iblk4 V c 0 t) (iblk4 V c 1 t) (iblk4 V c 2 t) p q).trans ?_
  rw [h1]
  refine congrArg eluK ?_
  unfold dense
  rw [read4_2 V c t q]
  refine congrArg (· + _) (Finset.sum_congr rfl fun n _ => ?_)
  rw [read4_0 V c t p n _ h0, read4_1 V c t n q]

/-- An index of the array is in point `t`'s block iff each coordinate is in the block's range on its axis. -/
theorem mem_blk4 (t : Fin cfg4.N) (i : S131072x512.Idx) :
    i ∈ ((cfg4.win 3).blk t).view.set ↔ ∀ a : Fin 2, win4_3.index t a * S1024x512.size a ≤ (i a).val ∧ (i a).val < win4_3.index t a * S1024x512.size a + S1024x512.size a := by
  show i ∈ ((View.whole main_v53).slice (win4_3.rect t)).set ↔ _
  rw [View.set_slice_whole, Rect.mem_set_unit]
  exact Iff.rfl

/-- The row blocks tile the array: row `r` is in the block of point `r / 1024`. -/
theorem cover4 (i : S131072x512.Idx) :
    ∃ t : Fin cfg4.N, (cfg4.win 3).flush t = true ∧ i ∈ ((cfg4.win 3).blk t).view.set := by
  have hi0 : (i 0).val < 131072 := (i 0).isLt
  have hi1 : (i 1).val < 512 := (i 1).isLt
  have hN : cfg4.N = 128 := N_4
  have ht : (i 0).val / 1024 < cfg4.N := by rw [hN]; omega
  refine ⟨⟨(i 0).val / 1024, ht⟩, flush4_3 _, ?_⟩
  rw [mem_blk4]
  obtain ⟨-, -, -, -, -, e5, e6⟩ := idx_facts4 ⟨(i 0).val / 1024, ht⟩
  intro a
  match a with
  | ⟨0, _⟩ =>
    show win4_3.index ⟨(i 0).val / 1024, ht⟩ (0 : Fin 2) * 1024 ≤ (i 0).val ∧ (i 0).val < win4_3.index ⟨(i 0).val / 1024, ht⟩ (0 : Fin 2) * 1024 + 1024
    rw [e5]; show (i 0).val / 1024 * 1024 ≤ (i 0).val ∧ (i 0).val < (i 0).val / 1024 * 1024 + 1024; omega
  | ⟨1, _⟩ =>
    show win4_3.index ⟨(i 0).val / 1024, ht⟩ (1 : Fin 2) * 512 ≤ (i 1).val ∧ (i 1).val < win4_3.index ⟨(i 0).val / 1024, ht⟩ (1 : Fin 2) * 512 + 512
    rw [e6]; omega

/-- The array region 4 leaves is `G4` of the arrays it found. -/
theorem final4 (c : Dev nD) : (dat4 V c).arrAt 3 cfg4.N = G4 (V c main_v52) (V c main_arg10) (V c main_arg11) :=
  (dat4 V c).arrAt_eq_of_cover 3 _ (fun t _ => flushed4_eq V c t) cover4

end Cert.KernelIdeal.HandValue

end
-- ==== Proof.Model.lean ====
/-
  The common value of the two programs, over the extended reals, as one function of the fourteen argument arrays.

  `feats`: the three per-type dense layers stacked.  `hidden`: one aggregation round over the graph with self-loops,
  a bias, the exponential linear unit.  `last`: a second aggregation round, a dense layer, the exponential linear unit.
  The three results are the row ranges of `last` belonging to the three node types.
-/
import proofs.«139939_j23055384445693_1_alg».proof.Proof.HostSpec
import proofs.«139939_j23055384445693_1_alg».proof.Proof.KI.Value0
import proofs.«139939_j23055384445693_1_alg».proof.Proof.KI.Value1
import proofs.«139939_j23055384445693_1_alg».proof.Proof.KI.Value2
import proofs.«139939_j23055384445693_1_alg».proof.Proof.KI.Value3
import proofs.«139939_j23055384445693_1_alg».proof.Proof.KI.Value4

noncomputable section

namespace Cert.Model

open Cert.KernelIdeal Cert.KernelIdeal.Gen Cert.KernelIdeal.HandValue Cert.HostSpec Idealize.ShloMosaic

/-- The node features after the per-type projections. -/
def feats (a0 : (⟨S65536x256, .f32⟩ : BufTy).Contents (Elt Ideal)) (a1 : (⟨S32768x512, .f32⟩ : BufTy).Contents (Elt Ideal)) (a2 : (⟨S32768x1024, .f32⟩ : BufTy).Contents (Elt Ideal))
    (a3 : (⟨S256x512, .f32⟩ : BufTy).Contents (Elt Ideal)) (a4 : (⟨S512, .f32⟩ : BufTy).Contents (Elt Ideal)) (a5 : (⟨S512x512, .f32⟩ : BufTy).Contents (Elt Ideal)) (a6 : (⟨S512, .f32⟩ : BufTy).Contents (Elt Ideal))
    (a7 : (⟨S1024x512, .f32⟩ : BufTy).Contents (Elt Ideal)) (a8 : (⟨S512, .f32⟩ : BufTy).Contents (Elt Ideal)) : (⟨S131072x512, .f32⟩ : BufTy).Contents (Elt Ideal) :=
  cat3 (F := Ideal) (G0 a0 a3 a4) (G1 a1 a5 a6) (G2 a2 a7 a8)

/-- One aggregation round with the normalisations of the graph with self-loops. -/
def round (h : (⟨S131072x512, .f32⟩ : BufTy).Contents (Elt Ideal)) (a12 a13 : (⟨S131072, .i32⟩ : BufTy).Contents (Elt Ideal)) : (⟨S131072x512, .f32⟩ : BufTy).Contents (Elt Ideal) :=
  agg (F := Ideal) h (degNorm (withLoops (F := Ideal) a12)) (degNorm (withLoops (F := Ideal) a13)) (withLoops (F := Ideal) a12) (withLoops (F := Ideal) a13)

/-- The first graph layer: aggregate, add the bias, apply the unit. -/
def hidden (h : (⟨S131072x512, .f32⟩ : BufTy).Contents (Elt Ideal)) (a9 : (⟨S512, .f32⟩ : BufTy).Contents (Elt Ideal)) (a12 a13 : (⟨S131072, .i32⟩ : BufTy).Contents (Elt Ideal)) : (⟨S131072x512, .f32⟩ : BufTy).Contents (Elt Ideal) :=
  G3 (round h a12 a13) a9

/-- The second graph layer: aggregate, apply the weights and the bias, apply the unit. -/
def last (h : (⟨S131072x512, .f32⟩ : BufTy).Contents (Elt Ideal)) (a10 : (⟨S512x512, .f32⟩ : BufTy).Contents (Elt Ideal)) (a11 : (⟨S512, .f32⟩ : BufTy).Contents (Elt Ideal)) (a12 a13 : (⟨S131072, .i32⟩ : BufTy).Contents (Elt Ideal)) : (⟨S131072x512, .f32⟩ : BufTy).Contents (Elt Ideal) :=
  G4 (round h a12 a13) a10 a11

end Cert.Model

end
-- ==== Proof.KI.Final.lean ====
/-
  The kernel program's three results over the extended reals, as the row ranges of the common value `Model.last` of its
  argument arrays: each region leaves its whole-array function of the arrays it found (the regions' value lemmas), each
  stretch of host steps is the shared step of the buffers before it, and a buffer no step writes is carried along unchanged.
-/
import proofs.«139939_j23055384445693_1_alg».proof.Proof.KI.Run
import proofs.«139939_j23055384445693_1_alg».proof.Proof.KI.HostRead
import proofs.«139939_j23055384445693_1_alg».proof.Proof.Model

noncomputable section

namespace Cert.KernelIdeal.Hand

open Cert.KernelIdeal Cert.KernelIdeal.Gen Cert.KernelIdeal.HandValue Cert.Spec
open Idealize.ShloMosaic Idealize.ShloMosaic.TcCoe Idealize.SL.Sem

variable (m : (ℓ : Loc nD τ sig) → Buf (Elt Ideal) ℓ) (ρ : Dev nD → PrngReg) (c : Dev nD)

/-- What regions 0, 1 and 2 leave. -/
theorem k_v0 : W1 m ρ c (Proc.devRef .tc main_v0) = G0 (m ((c : Thread nD τ).loc main_arg0)) (m ((c : Thread nD τ).loc main_arg3)) (m ((c : Thread nD τ).loc main_arg4)) :=
  (W1_arr m ρ c 3).trans (final0 (V0 m ρ) c)
theorem k_v1 : W2 m ρ c (Proc.devRef .tc main_v1) = G1 (m ((c : Thread nD τ).loc main_arg1)) (m ((c : Thread nD τ).loc main_arg5)) (m ((c : Thread nD τ).loc main_arg6)) := by
  refine (W2_arr m ρ c 3).trans ((final1 (V1 m ρ) c).trans ?_)
  show G1 (W1 m ρ c (Proc.devRef .tc main_arg1)) (W1 m ρ c (Proc.devRef .tc main_arg5)) (W1 m ρ c (Proc.devRef .tc main_arg6)) = _
  rw [W1_main_arg1, W1_main_arg5, W1_main_arg6]
theorem k_v2 : W3 m ρ c (Proc.devRef .tc main_v2) = G2 (m ((c : Thread nD τ).loc main_arg2)) (m ((c : Thread nD τ).loc main_arg7)) (m ((c : Thread nD τ).loc main_arg8)) := by
  refine (W3_arr m ρ c 3).trans ((final2 (V2 m ρ) c).trans ?_)
  show G2 (W2 m ρ c (Proc.devRef .tc main_arg2)) (W2 m ρ c (Proc.devRef .tc main_arg7)) (W2 m ρ c (Proc.devRef .tc main_arg8)) = _
  rw [W2_main_arg2, W2_main_arg7, W2_main_arg8]

/-- The stacked features. -/
theorem k_v3 : W4 m ρ c (Proc.devRef .tc main_v3) = (Cert.Model.feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [read_v3, W3_of m ρ c main_v0 (by decide), W2_of m ρ c main_v0 (by decide), k_v0,
    W3_of m ρ c main_v1 (by decide), k_v1, k_v2]
  rfl

/-- The first aggregation round. -/
theorem k_v35 : W8 m ρ c (Proc.devRef .tc main_v35) = Cert.Model.round (Cert.Model.feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg12)) (m ((c : Thread nD τ).loc main_arg13)) := by
  rw [read_v35, read_v16, read_v19, read_v5, read_v6, k_v3]
  rfl

/-- The first graph layer. -/
theorem k_v36 : W9 m ρ c (Proc.devRef .tc main_v36) = (Cert.Model.hidden (Cert.Model.feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg12)) (m ((c : Thread nD τ).loc main_arg13))) := by
  refine (W9_arr m ρ c 2).trans ((final3 (V8 m ρ) c).trans ?_)
  show G3 (W8 m ρ c (Proc.devRef .tc main_v35)) (W8 m ρ c (Proc.devRef .tc main_arg9)) = _
  rw [k_v35, W8_main_arg9]
  rfl

/-- The second aggregation round. -/
theorem k_v52 : W10 m ρ c (Proc.devRef .tc main_v52) = Cert.Model.round (Cert.Model.hidden (Cert.Model.feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg12)) (m ((c : Thread nD τ).loc main_arg13))) (m ((c : Thread nD τ).loc main_arg12)) (m ((c : Thread nD τ).loc main_arg13)) := by
  rw [read_v52, read_v16, read_v19, read_v5, read_v6, k_v36]
  rfl

/-- The second graph layer. -/
theorem k_v53 : W11 m ρ c (Proc.devRef .tc main_v53) = (Cert.Model.last (Cert.Model.hidden (Cert.Model.feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg12)) (m ((c : Thread nD τ).loc main_arg13))) (m ((c : Thread nD τ).loc main_arg10)) (m ((c : Thread nD τ).loc main_arg11)) (m ((c : Thread nD τ).loc main_arg12)) (m ((c : Thread nD τ).loc main_arg13))) := by
  refine (W11_arr m ρ c 3).trans ((final4 (V10 m ρ) c).trans ?_)
  show G4 (W10 m ρ c (Proc.devRef .tc main_v52)) (W10 m ρ c (Proc.devRef .tc main_arg10)) (W10 m ρ c (Proc.devRef .tc main_arg11)) = _
  rw [k_v52, W10_main_arg10, W10_main_arg11]
  rfl

/-- The common value of the argument arrays on core `c`, and its three row ranges: the certificate's three results. -/
def common : (⟨S131072x512, .f32⟩ : BufTy).Contents (Elt Ideal) := (Cert.Model.last (Cert.Model.hidden (Cert.Model.feats (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg9)) (m ((c : Thread nD τ).loc main_arg12)) (m ((c : Thread nD τ).loc main_arg13))) (m ((c : Thread nD τ).loc main_arg10)) (m ((c : Thread nD τ).loc main_arg11)) (m ((c : Thread nD τ).loc main_arg12)) (m ((c : Thread nD τ).loc main_arg13)))
def res0 : (⟨S65536x512, .f32⟩ : BufTy).Contents (Elt Ideal) := Cert.HostSpec.slice0 (common m c)
def res1 : (⟨S32768x512, .f32⟩ : BufTy).Contents (Elt Ideal) := Cert.HostSpec.slice1 (common m c)
def res2 : (⟨S32768x512, .f32⟩ : BufTy).Contents (Elt Ideal) := Cert.HostSpec.slice2 (common m c)

/-- The three results. -/
theorem k_v54 : W12 m ρ c (Proc.devRef .tc main_v54) = res0 m c := by rw [read_v54, k_v53]; rfl
theorem k_v55 : W12 m ρ c (Proc.devRef .tc main_v55) = res1 m c := by rw [read_v55, k_v53]; rfl
theorem k_v56 : W12 m ρ c (Proc.devRef .tc main_v56) = res2 m c := by rw [read_v56, k_v53]; rfl

end Cert.KernelIdeal.Hand

end
-- ==== Proof.RefRun.lean ====
/- The reference program's run as one straight line of host operations. Its @main calls outlined functions (a clip, an exponential
   linear unit that itself calls two selects); a call executes the callee's body on the operands, so the
   whole of @main is one straight line of host operations: the callee's operations stand at the call site,
   over the buffers of that call's record. The line is cut into fourteen consecutive stretches, each ending
   at a value the later reading of the run is stated at; @main's two printed windows are the concatenations
   of the first ten and of the last four. -/
import proofs.«139939_j23055384445693_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Stretch 1: the first projection and its bias. -/
abbrev G1 : List (HloOp τ sig (Elt F)) :=
  [ StableHlo.binary main_arg0 main_arg3 main_v0 ((fun l r => Host.dotGeneral dot_S65536x256_S256x512_S65536x512_1_0_0_1_n_n none l r) : (⟨S65536x256, .f32⟩ : BufTy).Contents (Elt F) → (⟨S256x512, .f32⟩ : BufTy).Contents (Elt F) → (⟨S65536x512, .f32⟩ : BufTy).Contents (Elt F)),
    StableHlo.unary main_arg4 main_v1 (broadcastInDim S1x512 ![1] bcast_S512_S1x512_1 : (⟨S512, .f32⟩ : BufTy).Contents (Elt F) → (⟨S1x512, .f32⟩ : BufTy).Contents (Elt F)),
    StableHlo.unary main_v1 main_v2 (broadcastInDim S65536x512 ![0, 1] bcast_S1x512_S65536x512_0_1 : (⟨S1x512, .f32⟩ : BufTy).Contents (Elt F) → (⟨S65536x512, .f32⟩ : BufTy).Contents (Elt F)),
    StableHlo.binary main_v0 main_v2 main_v3 (addf : (⟨S65536x512, .f32⟩ : BufTy).Contents (Elt F) → (⟨S65536x512, .f32⟩ : BufTy).Contents (Elt F) → (⟨S65536x512, .f32⟩ : BufTy).Contents (Elt F)) ]

/-- Stretch 2: the second projection and its bias. -/
abbrev G2 : List (HloOp τ sig (Elt F)) :=
  [ StableHlo.binary main_arg1 main_arg5 main_v4 ((fun l r => Host.dotGeneral dot_S32768x512_S512x512_S32768x512_1_0_0_1_n_n none l r) : (⟨S32768x512, .f32⟩ : BufTy).Contents (Elt F) → (⟨S512x512, .f32⟩ : BufTy).Contents (Elt F) → (⟨S32768x512, .f32⟩ : BufTy).Contents (Elt F)),
    StableHlo.unary main_arg6 main_v5 (broadcastInDim S1x512 ![1] bcast_S512_S1x512_1 : (⟨S512, .f32⟩ : BufTy).Contents (Elt F) → (⟨S1x512, .f32⟩ : BufTy).Contents (Elt F)),
    StableHlo.unary main_v5 main_v6 (broadcastInDim S32768x512 ![0, 1] bcast_S1x512_S32768x512_0_1 : (⟨S1x512, .f32⟩ : BufTy).Contents (Elt F) → (⟨S32768x512, .f32⟩ : BufTy).Contents (Elt F)),
    StableHlo.binary main_v4 main_v6 main_v7 (addf : (⟨S32768x512, .f32⟩ : BufTy).Contents (Elt F) → (⟨S32768x512, .f32⟩ : BufTy).Contents (Elt F) → (⟨S32768x512, .f32⟩ : BufTy).Contents (Elt F)) ]

/-- Stretch 3: the third projection and its bias. -/
abbrev G3 : List (HloOp τ sig (Elt F)) :=
  [ StableHlo.binary main_arg2 main_arg7 main_v8 ((fun l r => Host.dotGeneral dot_S32768x1024_S1024x512_S32768x512_1_0_0_1_n_n none l r) : (⟨S32768x1024, .f32⟩ : BufTy).Contents (Elt F) → (⟨S1024x512, .f32⟩ : BufTy).Contents (Elt F) → (⟨S32768x512, .f32⟩ : BufTy).Contents (Elt F)),
    StableHlo.unary main_arg8 main_v9 (broadcastInDim S1x512 ![1] bcast_S512_S1x512_1 : (⟨S512, .f32⟩ : BufTy).Contents (Elt F) → (⟨S1x512, .f32⟩ : BufTy).Contents (Elt F)),
    StableHlo.unary main_v9 main_v10 (broadcastInDim S32768x512 ![0, 1] bcast_S1x512_S32768x512_0_1 : (⟨S1x512, .f32⟩ : BufTy).Contents (Elt F) → (⟨S32768x512, .f32⟩ : BufTy).Contents (Elt F)),
    StableHlo.binary main_v8 main_v10 main_v11 (addf : (⟨S32768x512, .f32⟩ : BufTy).Contents (Elt F) → (⟨S32768x512, .f32⟩ : BufTy).Contents (Elt F) → (⟨S32768x512, .f32⟩ : BufTy).Contents (Elt F)) ]

/-- Stretch 4: the three projections stacked. -/
abbrev G4 : List (HloOp τ sig (Elt F)) :=
  [ StableHlo.nary ![main_v3, main_v7, main_v11] main_v12 (fun u => concatenate S131072x512 0 [⟨S65536x512, u 0⟩, ⟨S32768x512, u 1⟩, ⟨S32768x512, u 2⟩] concatenates_S65536x512_S32768x512_S32768x512_S131072x512_d0) ]

/-- Stretch 5: the two index vectors, each followed by the self-loop indices. -/
abbrev G5 : List (HloOp τ sig (Elt F)) :=
  [ StableHlo.nullary main_v13 (iotaInDim S131072 32 0),
    StableHlo.binary main_arg12 main_v13 main_v14 ((fun a b => concatenate S262144 0 [⟨S131072, a⟩, ⟨S131072, b⟩] concatenates_S131072_S131072_S262144_d0) : (⟨S131072, .i32⟩ : BufTy).Contents (Elt F) → (⟨S131072, .i32⟩ : BufTy).Contents (Elt F) → (⟨S262144, .i32⟩ : BufTy).Contents (Elt F)),
    StableHlo.binary main_arg13 main_v13 main_v15 ((fun a b => concatenate S262144 0 [⟨S131072, a⟩, ⟨S131072, b⟩] concatenates_S131072_S131072_S262144_d0) : (⟨S131072, .i32⟩ : BufTy).Contents (Elt F) → (⟨S131072, .i32⟩ : BufTy).Contents (Elt F) → (⟨S262144, .i32⟩ : BufTy).Contents (Elt F)) ]

/-- Stretch 6: the two degree normalisations: counts by scatter-add, clipped below at one, to the power minus one half. -/
abbrev G6 : List (HloOp τ sig (Elt F)) :=
  [ StableHlo.nullary main_cst (constant S_ .f32 0x3F800000#32),
    StableHlo.unary main_cst main_v16 (broadcastInDim S262144 ![] bcast_S_S262144 : (⟨S_, .f32⟩ : BufTy).Contents (Elt F) → (⟨S262144, .f32⟩ : BufTy).Contents (Elt F)),
    StableHlo.nullary main_cst_0 (constant S_ .f32 0x00000000#32),
    StableHlo.unary main_cst_0 main_v17 (broadcastInDim S131072 ![] bcast_S_S131072 : (⟨S_, .f32⟩ : BufTy).Contents (Elt F) → (⟨S131072, .f32⟩ : BufTy).Contents (Elt F)),
    StableHlo.unary main_v14 main_v18 (broadcastInDim S262144x1 ![0] bcast_S262144_S262144x1_0 : (⟨S262144, .i32⟩ : BufTy).Contents (Elt F) → (⟨S262144x1, .i32⟩ : BufTy).Contents (Elt F)),
    StableHlo.ternary main_v17 main_v18 main_v16 main_v19 ((fun x i u => Host.scatterAdd scatter_S131072_S262144x1_S262144_n_0_0_1 x i u) : (⟨S131072, .f32⟩ : BufTy).Contents (Elt F) → (⟨S262144x1, .i32⟩ : BufTy).Contents (Elt F) → (⟨S262144, .f32⟩ : BufTy).Contents (Elt F) → (⟨S131072, .f32⟩ : BufTy).Contents (Elt F)),
    StableHlo.nullary main_cst_1 (constant S_ .f32 0x00000000#32),
    StableHlo.unary main_cst_1 main_v20 (broadcastInDim S131072 ![] bcast_S_S131072 : (⟨S_, .f32⟩ : BufTy).Contents (Elt F) → (⟨S131072, .f32⟩ : BufTy).Contents (Elt F)),
    StableHlo.unary main_v15 main_v21 (broadcastInDim S262144x1 ![0] bcast_S262144_S262144x1_0 : (⟨S262144, .i32⟩ : BufTy).Contents (Elt F) → (⟨S262144x1, .i32⟩ : BufTy).Contents (Elt F)),
    StableHlo.ternary main_v20 main_v21 main_v16 main_v22 ((fun x i u => Host.scatterAdd scatter_S131072_S262144x1_S262144_n_0_0_1 x i u) : (⟨S131072, .f32⟩ : BufTy).Contents (Elt F) → (⟨S262144x1, .i32⟩ : BufTy).Contents (Elt F) → (⟨S262144, .f32⟩ : BufTy).Contents (Elt F) → (⟨S131072, .f32⟩ : BufTy).Contents (Elt F)),
    StableHlo.nullary main_cst_2 (constant S_ .f32 0x3F800000#32),
    StableHlo.TRef.unary (.of main_cst_2 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S131072, .f32⟩) (broadcastInDim S131072 ![] bcast_S_S131072),
    StableHlo.TRef.binary (.of main_call0_v1 : StableHlo.TRef sig ⟨S131072, .f32⟩) (.of main_v19 : StableHlo.TRef sig ⟨S131072, .f32⟩) (.of main_v23 : StableHlo.TRef sig ⟨S131072, .f32⟩) maximumf,
    StableHlo.nullary main_cst_3 (constant S_ .f32 0xBF000000#32),
    StableHlo.unary main_cst_3 main_v24 (broadcastInDim S131072 ![] bcast_S_S131072 : (⟨S_, .f32⟩ : BufTy).Contents (Elt F) → (⟨S131072, .f32⟩ : BufTy).Contents (Elt F)),
    StableHlo.binary main_v23 main_v24 main_v25 (Host.powf : (⟨S131072, .f32⟩ : BufTy).Contents (Elt F) → (⟨S131072, .f32⟩ : BufTy).Contents (Elt F) → (⟨S131072, .f32⟩ : BufTy).Contents (Elt F)),
    StableHlo.nullary main_cst_4 (constant S_ .f32 0x3F800000#32),
    StableHlo.TRef.unary (.of main_cst_4 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S131072, .f32⟩) (broadcastInDim S131072 ![] bcast_S_S131072),
    StableHlo.TRef.binary (.of main_call1_v1 : StableHlo.TRef sig ⟨S131072, .f32⟩) (.of main_v22 : StableHlo.TRef sig ⟨S131072, .f32⟩) (.of main_v26 : StableHlo.TRef sig ⟨S131072, .f32⟩) maximumf,
    StableHlo.nullary main_cst_5 (constant S_ .f32 0xBF000000#32),
    StableHlo.unary main_cst_5 main_v27 (broadcastInDim S131072 ![] bcast_S_S131072 : (⟨S_, .f32⟩ : BufTy).Contents (Elt F) → (⟨S131072, .f32⟩ : BufTy).Contents (Elt F)),
    StableHlo.binary main_v26 main_v27 main_v28 (Host.powf : (⟨S131072, .f32⟩ : BufTy).Contents (Elt F) → (⟨S131072, .f32⟩ : BufTy).Contents (Elt F) → (⟨S131072, .f32⟩ : BufTy).Contents (Elt F)) ]

/-- Stretch 7: the first propagation: scale, gather along the source indices, scatter-add at the destination indices, scale. -/
abbrev G7 : List (HloOp τ sig (Elt F)) :=
  [ StableHlo.unary main_v25 main_v29 (broadcastInDim S131072x1 ![0] bcast_S131072_S131072x1_0 : (⟨S131072, .f32⟩ : BufTy).Contents (Elt F) → (⟨S131072x1, .f32⟩ : BufTy).Contents (Elt F)),
    StableHlo.unary main_v29 main_v30 (broadcastInDim S131072x512 ![0, 1] bcast_S131072x1_S131072x512_0_1 : (⟨S131072x1, .f32⟩ : BufTy).Contents (Elt F) → (⟨S131072x512, .f32⟩ : BufTy).Contents (Elt F)),
    StableHlo.binary main_v12 main_v30 main_v31 (mulf : (⟨S131072x512, .f32⟩ : BufTy).Contents (Elt F) → (⟨S131072x512, .f32⟩ : BufTy).Contents (Elt F) → (⟨S131072x512, .f32⟩ : BufTy).Contents (Elt F)),
    StableHlo.nullary main_c (constantI S_ 32 0#32),
    StableHlo.unary main_c main_v32 (broadcastInDim S262144 ![] bcast_S_S262144 : (⟨S_, .i32⟩ : BufTy).Contents (Elt F) → (⟨S262144, .i32⟩ : BufTy).Contents (Elt F)),
    StableHlo.binary main_v14 main_v32 main_v33 (cmpi .slt : (⟨S262144, .i32⟩ : BufTy).Contents (Elt F) → (⟨S262144, .i32⟩ : BufTy).Contents (Elt F) → (⟨S262144, .i1⟩ : BufTy).Contents (Elt F)),
    StableHlo.nullary main_c_6 (constantI S_ 32 131072#32),
    StableHlo.unary main_c_6 main_v34 (broadcastInDim S262144 ![] bcast_S_S262144 : (⟨S_, .i32⟩ : BufTy).Contents (Elt F) → (⟨S262144, .i32⟩ : BufTy).Contents (Elt F)),
    StableHlo.binary main_v14 main_v34 main_v35 (addi : (⟨S262144, .i32⟩ : BufTy).Contents (Elt F) → (⟨S262144, .i32⟩ : BufTy).Contents (Elt F) → (⟨S262144, .i32⟩ : BufTy).Contents (Elt F)),
    StableHlo.ternary main_v33 main_v35 main_v14 main_v36 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v36 main_v37 (broadcastInDim S262144x1 ![0] bcast_S262144_S262144x1_0 : (⟨S262144, .i32⟩ : BufTy).Contents (Elt F) → (⟨S262144x1, .i32⟩ : BufTy).Contents (Elt F)),
    StableHlo.binary main_v31 main_v37 main_v38 ((fun x i => Host.gather gather_S131072x512_S262144x1_S262144x512_1_0_n_n_0_1_1512 x i) : (⟨S131072x512, .f32⟩ : BufTy).Contents (Elt F) → (⟨S262144x1, .i32⟩ : BufTy).Contents (Elt F) → (⟨S262144x512, .f32⟩ : BufTy).Contents (Elt F)),
    StableHlo.nullary main_cst_7 (constant S_ .f32 0x00000000#32),
    StableHlo.unary main_cst_7 main_v39 (broadcastInDim S131072x512 ![] bcast_S_S131072x512 : (⟨S_, .f32⟩ : BufTy).Contents (Elt F) → (⟨S131072x512, .f32⟩ : BufTy).Contents (Elt F)),
    StableHlo.unary main_v15 main_v40 (broadcastInDim S262144x1 ![0] bcast_S262144_S262144x1_0 : (⟨S262144, .i32⟩ : BufTy).Contents (Elt F) → (⟨S262144x1, .i32⟩ : BufTy).Contents (Elt F)),
    StableHlo.ternary main_v39 main_v40 main_v38 main_v41 ((fun x i u => Host.scatterAdd scatter_S131072x512_S262144x1_S262144x512_1_0_0_1 x i u) : (⟨S131072x512, .f32⟩ : BufTy).Contents (Elt F) → (⟨S262144x1, .i32⟩ : BufTy).Contents (Elt F) → (⟨S262144x512, .f32⟩ : BufTy).Contents (Elt F) → (⟨S131072x512, .f32⟩ : BufTy).Contents (Elt F)),
    StableHlo.unary main_v28 main_v42 (broadcastInDim S131072x1 ![0] bcast_S131072_S131072x1_0 : (⟨S131072, .f32⟩ : BufTy).Contents (Elt F) → (⟨S131072x1, .f32⟩ : BufTy).Contents (Elt F)),
    StableHlo.unary main_v42 main_v43 (broadcastInDim S131072x512 ![0, 1] bcast_S131072x1_S131072x512_0_1 : (⟨S131072x1, .f32⟩ : BufTy).Contents (Elt F) → (⟨S131072x512, .f32⟩ : BufTy).Contents (Elt F)),
    StableHlo.binary main_v41 main_v43 main_v44 (mulf : (⟨S131072x512, .f32⟩ : BufTy).Contents (Elt F) → (⟨S131072x512, .f32⟩ : BufTy).Contents (Elt F) → (⟨S131072x512, .f32⟩ : BufTy).Contents (Elt F)) ]

/-- Stretch 8: the first propagation's bias. -/
abbrev G8 : List (HloOp τ sig (Elt F)) :=
  [ StableHlo.unary main_arg9 main_v45 (broadcastInDim S1x512 ![1] bcast_S512_S1x512_1 : (⟨S512, .f32⟩ : BufTy).Contents (Elt F) → (⟨S1x512, .f32⟩ : BufTy).Contents (Elt F)),
    StableHlo.unary main_v45 main_v46 (broadcastInDim S131072x512 ![0, 1] bcast_S1x512_S131072x512_0_1 : (⟨S1x512, .f32⟩ : BufTy).Contents (Elt F) → (⟨S131072x512, .f32⟩ : BufTy).Contents (Elt F)),
    StableHlo.binary main_v44 main_v46 main_v47 (addf : (⟨S131072x512, .f32⟩ : BufTy).Contents (Elt F) → (⟨S131072x512, .f32⟩ : BufTy).Contents (Elt F) → (⟨S131072x512, .f32⟩ : BufTy).Contents (Elt F)) ]

/-- Stretch 9: the first exponential linear unit, its operations in the callee's order. -/
abbrev G9 : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S131072x512, .f32⟩) (broadcastInDim S131072x512 ![] bcast_S_S131072x512),
    StableHlo.TRef.binary (.of main_v47 : StableHlo.TRef sig ⟨S131072x512, .f32⟩) (.of main_call2_v0 : StableHlo.TRef sig ⟨S131072x512, .f32⟩) (.of main_call2_v1 : StableHlo.TRef sig ⟨S131072x512, .i1⟩) (cmpf .ogt),
    StableHlo.TRef.nullary (.of main_call2_cst_0 : StableHlo.TRef sig ⟨S_, .f32⟩) (constant S_ .f32 0x00000000#32),
    StableHlo.TRef.unary (.of main_call2_cst_0 : StableHlo.TRef sig ⟨S_, .f32⟩) (.of main_call2_v2 : StableHlo.TRef sig ⟨S131072x512, .f32⟩) (broadcastInDim S131072x512 ![] bcast_S_S131072x512),
    StableHlo.TRef.binary (.of main_v47 : StableHlo.TRef sig ⟨S131072x512, .f32⟩) (.of main_call2_v2 : StableHlo.TRef sig ⟨S131072x512, .f32⟩) (.of main_call2_v3 : StableHlo.TRef sig ⟨S131072x512, .i1⟩) (cmpf .ogt),
    StableHlo.TRef.nullary (.of main_call2_cst_1 : StableHlo.TRef sig ⟨S_, .f32⟩) (constant S_ .f32 0x00000000#32),
    StableHlo.TRef.unary (.of main_call2_cst_1 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S131072x512, .f32⟩) (broadcastInDim S131072x512 ![] bcast_S_S131072x512),
    StableHlo.TRef.ternary (.of main_call2_v3 : StableHlo.TRef sig ⟨S131072x512, .i1⟩) (.of main_call2_call0_v1 : StableHlo.TRef sig ⟨S131072x512, .f32⟩) (.of main_v47 : StableHlo.TRef sig ⟨S131072x512, .f32⟩) (.of main_call2_v4 : StableHlo.TRef sig ⟨S131072x512, .f32⟩) select,
    StableHlo.TRef.unary (.of main_call2_v4 : StableHlo.TRef sig ⟨S131072x512, .f32⟩) (.of main_call2_v5 : StableHlo.TRef sig ⟨S131072x512, .f32⟩) Host.expm1,
    StableHlo.TRef.nullary (.of main_call2_cst_2 : StableHlo.TRef sig ⟨S_, .f32⟩) (constant S_ .f32 0x3F800000#32),
    StableHlo.TRef.unary (.of main_call2_cst_2 : StableHlo.TRef sig ⟨S_, .f32⟩) (.of main_call2_v6 : StableHlo.TRef sig ⟨S131072x512, .f32⟩) (broadcastInDim S131072x512 ![] bcast_S_S131072x512),
    StableHlo.TRef.binary (.of main_call2_v6 : StableHlo.TRef sig ⟨S131072x512, .f32⟩) (.of main_call2_v5 : StableHlo.TRef sig ⟨S131072x512, .f32⟩) (.of main_call2_v7 : StableHlo.TRef sig ⟨S131072x512, .f32⟩) mulf,
    StableHlo.TRef.ternary (.of main_call2_v1 : StableHlo.TRef sig ⟨S131072x512, .i1⟩) (.of main_v47 : StableHlo.TRef sig ⟨S131072x512, .f32⟩) (.of main_call2_v7 : StableHlo.TRef sig ⟨S131072x512, .f32⟩) (.of main_v48 : StableHlo.TRef sig ⟨S131072x512, .f32⟩) select ]

/-- Stretch 10: the source scaling's first broadcast for the second propagation. -/
abbrev G10 : List (HloOp τ sig (Elt F)) :=
  [ StableHlo.unary main_v25 main_v49 (broadcastInDim S131072x1 ![0] bcast_S131072_S131072x1_0 : (⟨S131072, .f32⟩ : BufTy).Contents (Elt F) → (⟨S131072x1, .f32⟩ : BufTy).Contents (Elt F)) ]

/-- Stretch 11: the second propagation. -/
abbrev G11 : List (HloOp τ sig (Elt F)) :=
  [ StableHlo.unary main_v49 main_v50 (broadcastInDim S131072x512 ![0, 1] bcast_S131072x1_S131072x512_0_1 : (⟨S131072x1, .f32⟩ : BufTy).Contents (Elt F) → (⟨S131072x512, .f32⟩ : BufTy).Contents (Elt F)),
    StableHlo.binary main_v48 main_v50 main_v51 (mulf : (⟨S131072x512, .f32⟩ : BufTy).Contents (Elt F) → (⟨S131072x512, .f32⟩ : BufTy).Contents (Elt F) → (⟨S131072x512, .f32⟩ : BufTy).Contents (Elt F)),
    StableHlo.nullary main_c_8 (constantI S_ 32 0#32),
    StableHlo.unary main_c_8 main_v52 (broadcastInDim S262144 ![] bcast_S_S262144 : (⟨S_, .i32⟩ : BufTy).Contents (Elt F) → (⟨S262144, .i32⟩ : BufTy).Contents (Elt F)),
    StableHlo.binary main_v14 main_v52 main_v53 (cmpi .slt : (⟨S262144, .i32⟩ : BufTy).Contents (Elt F) → (⟨S262144, .i32⟩ : BufTy).Contents (Elt F) → (⟨S262144, .i1⟩ : BufTy).Contents (Elt F)),
    StableHlo.nullary main_c_9 (constantI S_ 32 131072#32),
    StableHlo.unary main_c_9 main_v54 (broadcastInDim S262144 ![] bcast_S_S262144 : (⟨S_, .i32⟩ : BufTy).Contents (Elt F) → (⟨S262144, .i32⟩ : BufTy).Contents (Elt F)),
    StableHlo.binary main_v14 main_v54 main_v55 (addi : (⟨S262144, .i32⟩ : BufTy).Contents (Elt F) → (⟨S262144, .i32⟩ : BufTy).Contents (Elt F) → (⟨S262144, .i32⟩ : BufTy).Contents (Elt F)),
    StableHlo.ternary main_v53 main_v55 main_v14 main_v56 (select : (⟨S262144, .i1⟩ : BufTy).Contents (Elt F) → (⟨S262144, .i32⟩ : BufTy).Contents (Elt F) → (⟨S262144, .i32⟩ : BufTy).Contents (Elt F) → (⟨S262144, .i32⟩ : BufTy).Contents (Elt F)),
    StableHlo.unary main_v56 main_v57 (broadcastInDim S262144x1 ![0] bcast_S262144_S262144x1_0 : (⟨S262144, .i32⟩ : BufTy).Contents (Elt F) → (⟨S262144x1, .i32⟩ : BufTy).Contents (Elt F)),
    StableHlo.binary main_v51 main_v57 main_v58 ((fun x i => Host.gather gather_S131072x512_S262144x1_S262144x512_1_0_n_n_0_1_1512 x i) : (⟨S131072x512, .f32⟩ : BufTy).Contents (Elt F) → (⟨S262144x1, .i32⟩ : BufTy).Contents (Elt F) → (⟨S262144x512, .f32⟩ : BufTy).Contents (Elt F)),
    StableHlo.nullary main_cst_10 (constant S_ .f32 0x00000000#32),
    StableHlo.unary main_cst_10 main_v59 (broadcastInDim S131072x512 ![] bcast_S_S131072x512 : (⟨S_, .f32⟩ : BufTy).Contents (Elt F) → (⟨S131072x512, .f32⟩ : BufTy).Contents (Elt F)),
    StableHlo.unary main_v15 main_v60 (broadcastInDim S262144x1 ![0] bcast_S262144_S262144x1_0 : (⟨S262144, .i32⟩ : BufTy).Contents (Elt F) → (⟨S262144x1, .i32⟩ : BufTy).Contents (Elt F)),
    StableHlo.ternary main_v59 main_v60 main_v58 main_v61 ((fun x i u => Host.scatterAdd scatter_S131072x512_S262144x1_S262144x512_1_0_0_1 x i u) : (⟨S131072x512, .f32⟩ : BufTy).Contents (Elt F) → (⟨S262144x1, .i32⟩ : BufTy).Contents (Elt F) → (⟨S262144x512, .f32⟩ : BufTy).Contents (Elt F) → (⟨S131072x512, .f32⟩ : BufTy).Contents (Elt F)),
    StableHlo.unary main_v28 main_v62 (broadcastInDim S131072x1 ![0] bcast_S131072_S131072x1_0 : (⟨S131072, .f32⟩ : BufTy).Contents (Elt F) → (⟨S131072x1, .f32⟩ : BufTy).Contents (Elt F)),
    StableHlo.unary main_v62 main_v63 (broadcastInDim S131072x512 ![0, 1] bcast_S131072x1_S131072x512_0_1 : (⟨S131072x1, .f32⟩ : BufTy).Contents (Elt F) → (⟨S131072x512, .f32⟩ : BufTy).Contents (Elt F)),
    StableHlo.binary main_v61 main_v63 main_v64 (mulf : (⟨S131072x512, .f32⟩ : BufTy).Contents (Elt F) → (⟨S131072x512, .f32⟩ : BufTy).Contents (Elt F) → (⟨S131072x512, .f32⟩ : BufTy).Contents (Elt F)) ]

/-- Stretch 12: the output projection and its bias. -/
abbrev G12 : List (HloOp τ sig (Elt F)) :=
  [ StableHlo.binary main_v64 main_arg10 main_v65 ((fun l r => Host.dotGeneral dot_S131072x512_S512x512_S131072x512_1_0_0_1_n_n none l r) : (⟨S131072x512, .f32⟩ : BufTy).Contents (Elt F) → (⟨S512x512, .f32⟩ : BufTy).Contents (Elt F) → (⟨S131072x512, .f32⟩ : BufTy).Contents (Elt F)),
    StableHlo.unary main_arg11 main_v66 (broadcastInDim S1x512 ![1] bcast_S512_S1x512_1 : (⟨S512, .f32⟩ : BufTy).Contents (Elt F) → (⟨S1x512, .f32⟩ : BufTy).Contents (Elt F)),
    StableHlo.unary main_v66 main_v67 (broadcastInDim S131072x512 ![0, 1] bcast_S1x512_S131072x512_0_1 : (⟨S1x512, .f32⟩ : BufTy).Contents (Elt F) → (⟨S131072x512, .f32⟩ : BufTy).Contents (Elt F)),
    StableHlo.binary main_v65 main_v67 main_v68 (addf : (⟨S131072x512, .f32⟩ : BufTy).Contents (Elt F) → (⟨S131072x512, .f32⟩ : BufTy).Contents (Elt F) → (⟨S131072x512, .f32⟩ : BufTy).Contents (Elt F)) ]

/-- Stretch 13: the second exponential linear unit. -/
abbrev G13 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S131072x512, .f32⟩) (broadcastInDim S131072x512 ![] bcast_S_S131072x512),
    StableHlo.TRef.binary (.of main_v68 : StableHlo.TRef sig ⟨S131072x512, .f32⟩) (.of main_call3_v0 : StableHlo.TRef sig ⟨S131072x512, .f32⟩) (.of main_call3_v1 : StableHlo.TRef sig ⟨S131072x512, .i1⟩) (cmpf .ogt),
    StableHlo.TRef.nullary (.of main_call3_cst_0 : StableHlo.TRef sig ⟨S_, .f32⟩) (constant S_ .f32 0x00000000#32),
    StableHlo.TRef.unary (.of main_call3_cst_0 : StableHlo.TRef sig ⟨S_, .f32⟩) (.of main_call3_v2 : StableHlo.TRef sig ⟨S131072x512, .f32⟩) (broadcastInDim S131072x512 ![] bcast_S_S131072x512),
    StableHlo.TRef.binary (.of main_v68 : StableHlo.TRef sig ⟨S131072x512, .f32⟩) (.of main_call3_v2 : StableHlo.TRef sig ⟨S131072x512, .f32⟩) (.of main_call3_v3 : StableHlo.TRef sig ⟨S131072x512, .i1⟩) (cmpf .ogt),
    StableHlo.TRef.nullary (.of main_call3_cst_1 : StableHlo.TRef sig ⟨S_, .f32⟩) (constant S_ .f32 0x00000000#32),
    StableHlo.TRef.unary (.of main_call3_cst_1 : StableHlo.TRef sig ⟨S_, .f32⟩) (.of main_call3_call0_v0 : StableHlo.TRef sig ⟨S_, .f32⟩) id,
    StableHlo.TRef.unary (.of main_call3_call0_v0 : StableHlo.TRef sig ⟨S_, .f32⟩) (.of main_call3_call0_v1 : StableHlo.TRef sig ⟨S131072x512, .f32⟩) (broadcastInDim S131072x512 ![] bcast_S_S131072x512),
    StableHlo.TRef.ternary (.of main_call3_v3 : StableHlo.TRef sig ⟨S131072x512, .i1⟩) (.of main_call3_call0_v1 : StableHlo.TRef sig ⟨S131072x512, .f32⟩) (.of main_v68 : StableHlo.TRef sig ⟨S131072x512, .f32⟩) (.of main_call3_v4 : StableHlo.TRef sig ⟨S131072x512, .f32⟩) select,
    StableHlo.TRef.unary (.of main_call3_v4 : StableHlo.TRef sig ⟨S131072x512, .f32⟩) (.of main_call3_v5 : StableHlo.TRef sig ⟨S131072x512, .f32⟩) Host.expm1,
    StableHlo.TRef.nullary (.of main_call3_cst_2 : StableHlo.TRef sig ⟨S_, .f32⟩) (constant S_ .f32 0x3F800000#32),
    StableHlo.TRef.unary (.of main_call3_cst_2 : StableHlo.TRef sig ⟨S_, .f32⟩) (.of main_call3_v6 : StableHlo.TRef sig ⟨S131072x512, .f32⟩) (broadcastInDim S131072x512 ![] bcast_S_S131072x512),
    StableHlo.TRef.binary (.of main_call3_v6 : StableHlo.TRef sig ⟨S131072x512, .f32⟩) (.of main_call3_v5 : StableHlo.TRef sig ⟨S131072x512, .f32⟩) (.of main_call3_v7 : StableHlo.TRef sig ⟨S131072x512, .f32⟩) mulf,
    StableHlo.TRef.ternary (.of main_call3_v1 : StableHlo.TRef sig ⟨S131072x512, .i1⟩) (.of main_v68 : StableHlo.TRef sig ⟨S131072x512, .f32⟩) (.of main_call3_v7 : StableHlo.TRef sig ⟨S131072x512, .f32⟩) (.of main_v69 : StableHlo.TRef sig ⟨S131072x512, .f32⟩) select ]

/-- Stretch 14: the three slices returned. -/
abbrev G14 : List (HloOp τ sig (Elt F)) :=
  [ StableHlo.unary main_v69 main_v70 ((extractStridedSlice S65536x512 ![0, 0] · slices_S131072x512_S65536x512_0_0) : (⟨S131072x512, .f32⟩ : BufTy).Contents (Elt F) → (⟨S65536x512, .f32⟩ : BufTy).Contents (Elt F)),
    StableHlo.unary main_v69 main_v71 ((extractStridedSlice S32768x512 ![65536, 0] · slices_S131072x512_S32768x512_65536_0) : (⟨S131072x512, .f32⟩ : BufTy).Contents (Elt F) → (⟨S32768x512, .f32⟩ : BufTy).Contents (Elt F)),
    StableHlo.unary main_v69 main_v72 ((extractStridedSlice S32768x512 ![98304, 0] · slices_S131072x512_S32768x512_98304_0) : (⟨S131072x512, .f32⟩ : BufTy).Contents (Elt F) → (⟨S32768x512, .f32⟩ : BufTy).Contents (Elt F)) ]

/-- The operations of @main's first window. -/
abbrev opsA : List (HloOp τ sig (Elt F)) :=
  G1 ++ (G2 ++ (G3 ++ (G4 ++ (G5 ++ (G6 ++ (G7 ++ (G8 ++ (G9 ++ G10))))))))

/-- The operations of @main's second window. -/
abbrev opsB : List (HloOp τ sig (Elt F)) :=
  G11 ++ (G12 ++ (G13 ++ G14))

/-- @main's host operations in program order, each callee's operations at its call site. -/
abbrev ops : List (HloOp τ sig (Elt F)) := opsA ++ opsB

set_option maxRecDepth 8192 in
set_option maxHeartbeats 4000000 in
/-- The first window is its straight line: the callees' definitions unfolded at their calls, both sides are one
    chain of host steps once sequencing is reassociated. -/
theorem main_part0_eq (c : Dev nD) : main_part0 (F := F) c = seq opsA := by
  simp only [main_part0, fn_clip.body, fn_where.body, fn_where_0.body, fn_elu.body, bind_assoc, pure_bind]
  rfl

set_option maxRecDepth 8192 in
set_option maxHeartbeats 4000000 in
/-- The second window likewise. -/
theorem main_part1_eq (c : Dev nD) : main_part1 (F := F) c = seq opsB := by
  simp only [main_part1, fn_clip.body, fn_where.body, fn_where_0.body, fn_elu.body, bind_assoc, pure_bind]
  rfl

/-- @main runs its two windows in order: the two lines one after the other are their concatenation. -/
theorem main_eq (c : Dev nD) : main (F := F) c = StableHlo.seq ops := by
  rw [show (ops : List (HloOp τ sig (Elt F))) = opsA ++ opsB from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem G1_sub : (G1 : List (HloOp τ sig (Elt F))).Forall fun op => op.bufs ⊆ StableHlo.tcRefs τ sig :=
  ⟨binary_bufs_sub .., unary_bufs_sub .., unary_bufs_sub .., binary_bufs_sub ..⟩
theorem G2_sub : (G2 : List (HloOp τ sig (Elt F))).Forall fun op => op.bufs ⊆ StableHlo.tcRefs τ sig :=
  ⟨binary_bufs_sub .., unary_bufs_sub .., unary_bufs_sub .., binary_bufs_sub ..⟩
theorem G3_sub : (G3 : List (HloOp τ sig (Elt F))).Forall fun op => op.bufs ⊆ StableHlo.tcRefs τ sig :=
  ⟨binary_bufs_sub .., unary_bufs_sub .., unary_bufs_sub .., binary_bufs_sub ..⟩
theorem G4_sub : (G4 : List (HloOp τ sig (Elt F))).Forall fun op => op.bufs ⊆ StableHlo.tcRefs τ sig :=
  (nary_bufs_sub ..)
theorem G5_sub : (G5 : List (HloOp τ sig (Elt F))).Forall fun op => op.bufs ⊆ StableHlo.tcRefs τ sig :=
  ⟨nullary_bufs_sub .., binary_bufs_sub .., binary_bufs_sub ..⟩
theorem G6_sub : (G6 : List (HloOp τ sig (Elt F))).Forall fun op => op.bufs ⊆ StableHlo.tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., binary_bufs_sub .., nullary_bufs_sub .., unary_bufs_sub .., binary_bufs_sub .., nullary_bufs_sub .., unary_bufs_sub .., unary_bufs_sub .., binary_bufs_sub .., nullary_bufs_sub .., unary_bufs_sub .., binary_bufs_sub ..⟩
theorem G7_sub : (G7 : List (HloOp τ sig (Elt F))).Forall fun op => op.bufs ⊆ StableHlo.tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩
theorem G8_sub : (G8 : List (HloOp τ sig (Elt F))).Forall fun op => op.bufs ⊆ StableHlo.tcRefs τ sig :=
  ⟨unary_bufs_sub .., unary_bufs_sub .., binary_bufs_sub ..⟩
theorem G9_sub : (G9 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem G10_sub : (G10 : List (HloOp τ sig (Elt F))).Forall fun op => op.bufs ⊆ StableHlo.tcRefs τ sig :=
  (unary_bufs_sub ..)
theorem G11_sub : (G11 : List (HloOp τ sig (Elt F))).Forall fun op => op.bufs ⊆ StableHlo.tcRefs τ sig :=
  ⟨unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub ..⟩
theorem G12_sub : (G12 : List (HloOp τ sig (Elt F))).Forall fun op => op.bufs ⊆ StableHlo.tcRefs τ sig :=
  ⟨binary_bufs_sub .., unary_bufs_sub .., unary_bufs_sub .., binary_bufs_sub ..⟩
theorem G13_sub : (G13 : List (HloOp τ sig (Elt F))).Forall fun op => op.bufs ⊆ StableHlo.tcRefs τ sig :=
  ⟨nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub ..⟩
theorem G14_sub : (G14 : List (HloOp τ sig (Elt F))).Forall fun op => op.bufs ⊆ StableHlo.tcRefs τ sig :=
  ⟨unary_bufs_sub .., unary_bufs_sub .., unary_bufs_sub ..⟩

/-- Every operation of the line touches TensorCore buffers only: stretch by stretch. -/
theorem ops_sub : (ops : List (HloOp τ sig (Elt F))).Forall fun op => op.bufs ⊆ StableHlo.tcRefs τ sig :=
  List.forall_iff_forall_mem.mpr fun op h => by
    simp only [ops, opsA, opsB, List.mem_append, or_assoc] at h
    rcases h with h | h | h | h | h | h | h | h | h | h | h | h | h | h
    exacts [List.forall_iff_forall_mem.mp G1_sub op h, List.forall_iff_forall_mem.mp G2_sub op h, List.forall_iff_forall_mem.mp G3_sub op h, List.forall_iff_forall_mem.mp G4_sub op h, List.forall_iff_forall_mem.mp G5_sub op h, List.forall_iff_forall_mem.mp G6_sub op h, List.forall_iff_forall_mem.mp G7_sub op h, List.forall_iff_forall_mem.mp G8_sub op h, List.forall_iff_forall_mem.mp G9_sub op h, List.forall_iff_forall_mem.mp G10_sub op h, List.forall_iff_forall_mem.mp G11_sub op h, List.forall_iff_forall_mem.mp G12_sub op h, List.forall_iff_forall_mem.mp G13_sub op h, List.forall_iff_forall_mem.mp G14_sub op h]

/-- At the compiled mesh, for any float values, from any memory with zero counters: every weakly fair execution of
    @main on the TensorCores terminates, and every final state has each TensorCore buffer at the operations' fold
    over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = StableHlo.after ops (StableHlo.launchContents m d) (Proc.devRef .tc b) :=
  run_seq scopedRefs_eq scopedSems_eq defs main (fun _ => ops) main_eq (fun _ => ops_sub) m ρ

end Cert.ReferenceIdeal.Hand

end
-- ==== Proof.RefRead.lean ====
/- The reference run read back in stages. The operation line of the run is cut into fourteen stretches; the contents
   after the first k of them are named, a buffer no later stretch writes keeps its contents to the end, and each
   stage value is the composition of its own stretch's operations over the values the stretch reads: earlier
   stage values, or the arguments, which nothing writes. -/
import proofs.«139939_j23055384445693_1_alg».proof.Proof.RefRun
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The contents after each stretch -/

/-- The buffer contents after the first 1 stretch, from contents `V`. -/
def val1 (V : Valuation τ sig (Elt F)) : Valuation τ sig (Elt F) := after G1 (V)
/-- The buffer contents after the first 2 stretches, from contents `V`. -/
def val2 (V : Valuation τ sig (Elt F)) : Valuation τ sig (Elt F) := after G2 (val1 V)
/-- The buffer contents after the first 3 stretches, from contents `V`. -/
def val3 (V : Valuation τ sig (Elt F)) : Valuation τ sig (Elt F) := after G3 (val2 V)
/-- The buffer contents after the first 4 stretches, from contents `V`. -/
def val4 (V : Valuation τ sig (Elt F)) : Valuation τ sig (Elt F) := after G4 (val3 V)
/-- The buffer contents after the first 5 stretches, from contents `V`. -/
def val5 (V : Valuation τ sig (Elt F)) : Valuation τ sig (Elt F) := after G5 (val4 V)
/-- The buffer contents after the first 6 stretches, from contents `V`. -/
def val6 (V : Valuation τ sig (Elt F)) : Valuation τ sig (Elt F) := after G6 (val5 V)
/-- The buffer contents after the first 7 stretches, from contents `V`. -/
def val7 (V : Valuation τ sig (Elt F)) : Valuation τ sig (Elt F) := after G7 (val6 V)
/-- The buffer contents after the first 8 stretches, from contents `V`. -/
def val8 (V : Valuation τ sig (Elt F)) : Valuation τ sig (Elt F) := after G8 (val7 V)
/-- The buffer contents after the first 9 stretches, from contents `V`. -/
def val9 (V : Valuation τ sig (Elt F)) : Valuation τ sig (Elt F) := after G9 (val8 V)
/-- The buffer contents after the first 10 stretches, from contents `V`. -/
def val10 (V : Valuation τ sig (Elt F)) : Valuation τ sig (Elt F) := after G10 (val9 V)
/-- The buffer contents after the first 11 stretches, from contents `V`. -/
def val11 (V : Valuation τ sig (Elt F)) : Valuation τ sig (Elt F) := after G11 (val10 V)
/-- The buffer contents after the first 12 stretches, from contents `V`. -/
def val12 (V : Valuation τ sig (Elt F)) : Valuation τ sig (Elt F) := after G12 (val11 V)
/-- The buffer contents after the first 13 stretches, from contents `V`. -/
def val13 (V : Valuation τ sig (Elt F)) : Valuation τ sig (Elt F) := after G13 (val12 V)
/-- The buffer contents after the first 14 stretches, from contents `V`. -/
def val14 (V : Valuation τ sig (Elt F)) : Valuation τ sig (Elt F) := after G14 (val13 V)

/-- The whole line's fold is the last of them. -/
theorem after_ops (V : Valuation τ sig (Elt F)) : after ops V = val14 V := by
  simp only [ops, opsA, opsB, StableHlo.after_append]
  rfl

/-! ## What each stretch writes, and that it leaves the rest -/

abbrev G1_W : List (Ref sig .tc) := [main_v0, main_v1, main_v2, main_v3]
theorem G1_writes : (G1 : List (HloOp τ sig (Elt F))).Forall fun op => op.writes ⊆ (G1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val1_keep (V : Valuation τ sig (Elt F)) (r : Ref sig .tc) (h : r ∉ G1_W) :
    val1 V (Proc.devRef .tc r) = V (Proc.devRef .tc r) :=
  after_of_writes_sub G1 _ G1_writes h

abbrev G2_W : List (Ref sig .tc) := [main_v4, main_v5, main_v6, main_v7]
theorem G2_writes : (G2 : List (HloOp τ sig (Elt F))).Forall fun op => op.writes ⊆ (G2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val2_keep (V : Valuation τ sig (Elt F)) (r : Ref sig .tc) (h : r ∉ G2_W) :
    val2 V (Proc.devRef .tc r) = val1 V (Proc.devRef .tc r) :=
  after_of_writes_sub G2 _ G2_writes h

abbrev G3_W : List (Ref sig .tc) := [main_v8, main_v9, main_v10, main_v11]
theorem G3_writes : (G3 : List (HloOp τ sig (Elt F))).Forall fun op => op.writes ⊆ (G3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val3_keep (V : Valuation τ sig (Elt F)) (r : Ref sig .tc) (h : r ∉ G3_W) :
    val3 V (Proc.devRef .tc r) = val2 V (Proc.devRef .tc r) :=
  after_of_writes_sub G3 _ G3_writes h

abbrev G4_W : List (Ref sig .tc) := [main_v12]
theorem G4_writes : (G4 : List (HloOp τ sig (Elt F))).Forall fun op => op.writes ⊆ (G4_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem val4_keep (V : Valuation τ sig (Elt F)) (r : Ref sig .tc) (h : r ∉ G4_W) :
    val4 V (Proc.devRef .tc r) = val3 V (Proc.devRef .tc r) :=
  after_of_writes_sub G4 _ G4_writes h

abbrev G5_W : List (Ref sig .tc) := [main_v13, main_v14, main_v15]
theorem G5_writes : (G5 : List (HloOp τ sig (Elt F))).Forall fun op => op.writes ⊆ (G5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val5_keep (V : Valuation τ sig (Elt F)) (r : Ref sig .tc) (h : r ∉ G5_W) :
    val5 V (Proc.devRef .tc r) = val4 V (Proc.devRef .tc r) :=
  after_of_writes_sub G5 _ G5_writes h

abbrev G6_W : List (Ref sig .tc) := [main_cst, main_v16, main_cst_0, main_v17, main_v18, main_v19, main_cst_1, main_v20, main_v21, main_v22, main_cst_2, main_call0_v0, main_call0_v1, main_v23, main_cst_3, main_v24, main_v25, main_cst_4, main_call1_v0, main_call1_v1, main_v26, main_cst_5, main_v27, main_v28]
theorem G6_writes : (G6 : List (HloOp τ sig (Elt F))).Forall fun op => op.writes ⊆ (G6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val6_keep (V : Valuation τ sig (Elt F)) (r : Ref sig .tc) (h : r ∉ G6_W) :
    val6 V (Proc.devRef .tc r) = val5 V (Proc.devRef .tc r) :=
  after_of_writes_sub G6 _ G6_writes h

abbrev G7_W : List (Ref sig .tc) := [main_v29, main_v30, main_v31, main_c, main_v32, main_v33, main_c_6, main_v34, main_v35, main_v36, main_v37, main_v38, main_cst_7, main_v39, main_v40, main_v41, main_v42, main_v43, main_v44]
theorem G7_writes : (G7 : List (HloOp τ sig (Elt F))).Forall fun op => op.writes ⊆ (G7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val7_keep (V : Valuation τ sig (Elt F)) (r : Ref sig .tc) (h : r ∉ G7_W) :
    val7 V (Proc.devRef .tc r) = val6 V (Proc.devRef .tc r) :=
  after_of_writes_sub G7 _ G7_writes h

abbrev G8_W : List (Ref sig .tc) := [main_v45, main_v46, main_v47]
theorem G8_writes : (G8 : List (HloOp τ sig (Elt F))).Forall fun op => op.writes ⊆ (G8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val8_keep (V : Valuation τ sig (Elt F)) (r : Ref sig .tc) (h : r ∉ G8_W) :
    val8 V (Proc.devRef .tc r) = val7 V (Proc.devRef .tc r) :=
  after_of_writes_sub G8 _ G8_writes h

abbrev G9_W : List (Ref sig .tc) := [main_call2_cst, main_call2_v0, main_call2_v1, main_call2_cst_0, main_call2_v2, main_call2_v3, main_call2_cst_1, main_call2_call0_v0, main_call2_call0_v1, main_call2_v4, main_call2_v5, main_call2_cst_2, main_call2_v6, main_call2_v7, main_v48]
theorem G9_writes : (G9 : List (HloOp τ sig (Elt F))).Forall fun op => op.writes ⊆ (G9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val9_keep (V : Valuation τ sig (Elt F)) (r : Ref sig .tc) (h : r ∉ G9_W) :
    val9 V (Proc.devRef .tc r) = val8 V (Proc.devRef .tc r) :=
  after_of_writes_sub G9 _ G9_writes h

abbrev G10_W : List (Ref sig .tc) := [main_v49]
theorem G10_writes : (G10 : List (HloOp τ sig (Elt F))).Forall fun op => op.writes ⊆ (G10_W.map (Proc.devRef (τ := τ) .tc)).toFinset := by
  simp only [List.Forall]; exact (by simp only [nullary_writes, unary_writes, binary_writes, ternary_writes, quaternary_writes, reshape_writes, binaryIndexed_writes, nary_writes, unaryIndexed_writes, Finset.singleton_subset_iff, List.mem_toFinset]; exact List.mem_map_of_mem (by decide))
theorem val10_keep (V : Valuation τ sig (Elt F)) (r : Ref sig .tc) (h : r ∉ G10_W) :
    val10 V (Proc.devRef .tc r) = val9 V (Proc.devRef .tc r) :=
  after_of_writes_sub G10 _ G10_writes h

abbrev G11_W : List (Ref sig .tc) := [main_v50, main_v51, main_c_8, main_v52, main_v53, main_c_9, main_v54, main_v55, main_v56, main_v57, main_v58, main_cst_10, main_v59, main_v60, main_v61, main_v62, main_v63, main_v64]
theorem G11_writes : (G11 : List (HloOp τ sig (Elt F))).Forall fun op => op.writes ⊆ (G11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val11_keep (V : Valuation τ sig (Elt F)) (r : Ref sig .tc) (h : r ∉ G11_W) :
    val11 V (Proc.devRef .tc r) = val10 V (Proc.devRef .tc r) :=
  after_of_writes_sub G11 _ G11_writes h

abbrev G12_W : List (Ref sig .tc) := [main_v65, main_v66, main_v67, main_v68]
theorem G12_writes : (G12 : List (HloOp τ sig (Elt F))).Forall fun op => op.writes ⊆ (G12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val12_keep (V : Valuation τ sig (Elt F)) (r : Ref sig .tc) (h : r ∉ G12_W) :
    val12 V (Proc.devRef .tc r) = val11 V (Proc.devRef .tc r) :=
  after_of_writes_sub G12 _ G12_writes h

abbrev G13_W : List (Ref sig .tc) := [main_call3_cst, main_call3_v0, main_call3_v1, main_call3_cst_0, main_call3_v2, main_call3_v3, main_call3_cst_1, main_call3_call0_v0, main_call3_call0_v1, main_call3_v4, main_call3_v5, main_call3_cst_2, main_call3_v6, main_call3_v7, main_v69]
theorem G13_writes : (G13 : List (HloOp τ sig (Elt F))).Forall fun op => op.writes ⊆ (G13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val13_keep (V : Valuation τ sig (Elt F)) (r : Ref sig .tc) (h : r ∉ G13_W) :
    val13 V (Proc.devRef .tc r) = val12 V (Proc.devRef .tc r) :=
  after_of_writes_sub G13 _ G13_writes h

abbrev G14_W : List (Ref sig .tc) := [main_v70, main_v71, main_v72]
theorem G14_writes : (G14 : List (HloOp τ sig (Elt F))).Forall fun op => op.writes ⊆ (G14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem val14_keep (V : Valuation τ sig (Elt F)) (r : Ref sig .tc) (h : r ∉ G14_W) :
    val14 V (Proc.devRef .tc r) = val13 V (Proc.devRef .tc r) :=
  after_of_writes_sub G14 _ G14_writes h

/-! ## A stage value, or an argument, read at a later point of the line -/

theorem val1_main_arg1 (V : Valuation τ sig (Elt F)) : val1 V (Proc.devRef .tc main_arg1) = V (Proc.devRef .tc main_arg1) :=
  (val1_keep V main_arg1 (by decide))
theorem val1_main_arg5 (V : Valuation τ sig (Elt F)) : val1 V (Proc.devRef .tc main_arg5) = V (Proc.devRef .tc main_arg5) :=
  (val1_keep V main_arg5 (by decide))
theorem val1_main_arg6 (V : Valuation τ sig (Elt F)) : val1 V (Proc.devRef .tc main_arg6) = V (Proc.devRef .tc main_arg6) :=
  (val1_keep V main_arg6 (by decide))
theorem val2_main_arg2 (V : Valuation τ sig (Elt F)) : val2 V (Proc.devRef .tc main_arg2) = V (Proc.devRef .tc main_arg2) :=
  (val2_keep V main_arg2 (by decide)).trans ((val1_keep V main_arg2 (by decide)))
theorem val2_main_arg7 (V : Valuation τ sig (Elt F)) : val2 V (Proc.devRef .tc main_arg7) = V (Proc.devRef .tc main_arg7) :=
  (val2_keep V main_arg7 (by decide)).trans ((val1_keep V main_arg7 (by decide)))
theorem val2_main_arg8 (V : Valuation τ sig (Elt F)) : val2 V (Proc.devRef .tc main_arg8) = V (Proc.devRef .tc main_arg8) :=
  (val2_keep V main_arg8 (by decide)).trans ((val1_keep V main_arg8 (by decide)))
theorem val4_main_arg12 (V : Valuation τ sig (Elt F)) : val4 V (Proc.devRef .tc main_arg12) = V (Proc.devRef .tc main_arg12) :=
  (val4_keep V main_arg12 (by decide)).trans ((val3_keep V main_arg12 (by decide)).trans ((val2_keep V main_arg12 (by decide)).trans ((val1_keep V main_arg12 (by decide)))))
theorem val4_main_arg13 (V : Valuation τ sig (Elt F)) : val4 V (Proc.devRef .tc main_arg13) = V (Proc.devRef .tc main_arg13) :=
  (val4_keep V main_arg13 (by decide)).trans ((val3_keep V main_arg13 (by decide)).trans ((val2_keep V main_arg13 (by decide)).trans ((val1_keep V main_arg13 (by decide)))))
theorem val7_main_arg9 (V : Valuation τ sig (Elt F)) : val7 V (Proc.devRef .tc main_arg9) = V (Proc.devRef .tc main_arg9) :=
  (val7_keep V main_arg9 (by decide)).trans ((val6_keep V main_arg9 (by decide)).trans ((val5_keep V main_arg9 (by decide)).trans ((val4_keep V main_arg9 (by decide)).trans ((val3_keep V main_arg9 (by decide)).trans ((val2_keep V main_arg9 (by decide)).trans ((val1_keep V main_arg9 (by decide))))))))
theorem val11_main_arg10 (V : Valuation τ sig (Elt F)) : val11 V (Proc.devRef .tc main_arg10) = V (Proc.devRef .tc main_arg10) :=
  (val11_keep V main_arg10 (by decide)).trans ((val10_keep V main_arg10 (by decide)).trans ((val9_keep V main_arg10 (by decide)).trans ((val8_keep V main_arg10 (by decide)).trans ((val7_keep V main_arg10 (by decide)).trans ((val6_keep V main_arg10 (by decide)).trans ((val5_keep V main_arg10 (by decide)).trans ((val4_keep V main_arg10 (by decide)).trans ((val3_keep V main_arg10 (by decide)).trans ((val2_keep V main_arg10 (by decide)).trans ((val1_keep V main_arg10 (by decide))))))))))))
theorem val11_main_arg11 (V : Valuation τ sig (Elt F)) : val11 V (Proc.devRef .tc main_arg11) = V (Proc.devRef .tc main_arg11) :=
  (val11_keep V main_arg11 (by decide)).trans ((val10_keep V main_arg11 (by decide)).trans ((val9_keep V main_arg11 (by decide)).trans ((val8_keep V main_arg11 (by decide)).trans ((val7_keep V main_arg11 (by decide)).trans ((val6_keep V main_arg11 (by decide)).trans ((val5_keep V main_arg11 (by decide)).trans ((val4_keep V main_arg11 (by decide)).trans ((val3_keep V main_arg11 (by decide)).trans ((val2_keep V main_arg11 (by decide)).trans ((val1_keep V main_arg11 (by decide))))))))))))

theorem down_main_v3_1 (V : Valuation τ sig (Elt F)) : after ops V (Proc.devRef .tc main_v3) = val1 V (Proc.devRef .tc main_v3) := by
  rw [after_ops]
  exact (val14_keep V main_v3 (by decide)).trans ((val13_keep V main_v3 (by decide)).trans ((val12_keep V main_v3 (by decide)).trans ((val11_keep V main_v3 (by decide)).trans ((val10_keep V main_v3 (by decide)).trans ((val9_keep V main_v3 (by decide)).trans ((val8_keep V main_v3 (by decide)).trans ((val7_keep V main_v3 (by decide)).trans ((val6_keep V main_v3 (by decide)).trans ((val5_keep V main_v3 (by decide)).trans ((val4_keep V main_v3 (by decide)).trans ((val3_keep V main_v3 (by decide)).trans ((val2_keep V main_v3 (by decide))))))))))))))
theorem down_main_v7_2 (V : Valuation τ sig (Elt F)) : after ops V (Proc.devRef .tc main_v7) = val2 V (Proc.devRef .tc main_v7) := by
  rw [after_ops]
  exact (val14_keep V main_v7 (by decide)).trans ((val13_keep V main_v7 (by decide)).trans ((val12_keep V main_v7 (by decide)).trans ((val11_keep V main_v7 (by decide)).trans ((val10_keep V main_v7 (by decide)).trans ((val9_keep V main_v7 (by decide)).trans ((val8_keep V main_v7 (by decide)).trans ((val7_keep V main_v7 (by decide)).trans ((val6_keep V main_v7 (by decide)).trans ((val5_keep V main_v7 (by decide)).trans ((val4_keep V main_v7 (by decide)).trans ((val3_keep V main_v7 (by decide)))))))))))))
theorem down_main_v11_3 (V : Valuation τ sig (Elt F)) : after ops V (Proc.devRef .tc main_v11) = val3 V (Proc.devRef .tc main_v11) := by
  rw [after_ops]
  exact (val14_keep V main_v11 (by decide)).trans ((val13_keep V main_v11 (by decide)).trans ((val12_keep V main_v11 (by decide)).trans ((val11_keep V main_v11 (by decide)).trans ((val10_keep V main_v11 (by decide)).trans ((val9_keep V main_v11 (by decide)).trans ((val8_keep V main_v11 (by decide)).trans ((val7_keep V main_v11 (by decide)).trans ((val6_keep V main_v11 (by decide)).trans ((val5_keep V main_v11 (by decide)).trans ((val4_keep V main_v11 (by decide))))))))))))
theorem down_main_v12_4 (V : Valuation τ sig (Elt F)) : after ops V (Proc.devRef .tc main_v12) = val4 V (Proc.devRef .tc main_v12) := by
  rw [after_ops]
  exact (val14_keep V main_v12 (by decide)).trans ((val13_keep V main_v12 (by decide)).trans ((val12_keep V main_v12 (by decide)).trans ((val11_keep V main_v12 (by decide)).trans ((val10_keep V main_v12 (by decide)).trans ((val9_keep V main_v12 (by decide)).trans ((val8_keep V main_v12 (by decide)).trans ((val7_keep V main_v12 (by decide)).trans ((val6_keep V main_v12 (by decide)).trans ((val5_keep V main_v12 (by decide)))))))))))
theorem down_main_v3_3 (V : Valuation τ sig (Elt F)) : after ops V (Proc.devRef .tc main_v3) = val3 V (Proc.devRef .tc main_v3) := by
  rw [after_ops]
  exact (val14_keep V main_v3 (by decide)).trans ((val13_keep V main_v3 (by decide)).trans ((val12_keep V main_v3 (by decide)).trans ((val11_keep V main_v3 (by decide)).trans ((val10_keep V main_v3 (by decide)).trans ((val9_keep V main_v3 (by decide)).trans ((val8_keep V main_v3 (by decide)).trans ((val7_keep V main_v3 (by decide)).trans ((val6_keep V main_v3 (by decide)).trans ((val5_keep V main_v3 (by decide)).trans ((val4_keep V main_v3 (by decide))))))))))))
theorem down_main_v7_3 (V : Valuation τ sig (Elt F)) : after ops V (Proc.devRef .tc main_v7) = val3 V (Proc.devRef .tc main_v7) := by
  rw [after_ops]
  exact (val14_keep V main_v7 (by decide)).trans ((val13_keep V main_v7 (by decide)).trans ((val12_keep V main_v7 (by decide)).trans ((val11_keep V main_v7 (by decide)).trans ((val10_keep V main_v7 (by decide)).trans ((val9_keep V main_v7 (by decide)).trans ((val8_keep V main_v7 (by decide)).trans ((val7_keep V main_v7 (by decide)).trans ((val6_keep V main_v7 (by decide)).trans ((val5_keep V main_v7 (by decide)).trans ((val4_keep V main_v7 (by decide))))))))))))
theorem down_main_v14_5 (V : Valuation τ sig (Elt F)) : after ops V (Proc.devRef .tc main_v14) = val5 V (Proc.devRef .tc main_v14) := by
  rw [after_ops]
  exact (val14_keep V main_v14 (by decide)).trans ((val13_keep V main_v14 (by decide)).trans ((val12_keep V main_v14 (by decide)).trans ((val11_keep V main_v14 (by decide)).trans ((val10_keep V main_v14 (by decide)).trans ((val9_keep V main_v14 (by decide)).trans ((val8_keep V main_v14 (by decide)).trans ((val7_keep V main_v14 (by decide)).trans ((val6_keep V main_v14 (by decide))))))))))
theorem down_main_v15_5 (V : Valuation τ sig (Elt F)) : after ops V (Proc.devRef .tc main_v15) = val5 V (Proc.devRef .tc main_v15) := by
  rw [after_ops]
  exact (val14_keep V main_v15 (by decide)).trans ((val13_keep V main_v15 (by decide)).trans ((val12_keep V main_v15 (by decide)).trans ((val11_keep V main_v15 (by decide)).trans ((val10_keep V main_v15 (by decide)).trans ((val9_keep V main_v15 (by decide)).trans ((val8_keep V main_v15 (by decide)).trans ((val7_keep V main_v15 (by decide)).trans ((val6_keep V main_v15 (by decide))))))))))
theorem down_main_v25_6 (V : Valuation τ sig (Elt F)) : after ops V (Proc.devRef .tc main_v25) = val6 V (Proc.devRef .tc main_v25) := by
  rw [after_ops]
  exact (val14_keep V main_v25 (by decide)).trans ((val13_keep V main_v25 (by decide)).trans ((val12_keep V main_v25 (by decide)).trans ((val11_keep V main_v25 (by decide)).trans ((val10_keep V main_v25 (by decide)).trans ((val9_keep V main_v25 (by decide)).trans ((val8_keep V main_v25 (by decide)).trans ((val7_keep V main_v25 (by decide)))))))))
theorem down_main_v28_6 (V : Valuation τ sig (Elt F)) : after ops V (Proc.devRef .tc main_v28) = val6 V (Proc.devRef .tc main_v28) := by
  rw [after_ops]
  exact (val14_keep V main_v28 (by decide)).trans ((val13_keep V main_v28 (by decide)).trans ((val12_keep V main_v28 (by decide)).trans ((val11_keep V main_v28 (by decide)).trans ((val10_keep V main_v28 (by decide)).trans ((val9_keep V main_v28 (by decide)).trans ((val8_keep V main_v28 (by decide)).trans ((val7_keep V main_v28 (by decide)))))))))
theorem down_main_v44_7 (V : Valuation τ sig (Elt F)) : after ops V (Proc.devRef .tc main_v44) = val7 V (Proc.devRef .tc main_v44) := by
  rw [after_ops]
  exact (val14_keep V main_v44 (by decide)).trans ((val13_keep V main_v44 (by decide)).trans ((val12_keep V main_v44 (by decide)).trans ((val11_keep V main_v44 (by decide)).trans ((val10_keep V main_v44 (by decide)).trans ((val9_keep V main_v44 (by decide)).trans ((val8_keep V main_v44 (by decide))))))))
theorem down_main_v15_6 (V : Valuation τ sig (Elt F)) : after ops V (Proc.devRef .tc main_v15) = val6 V (Proc.devRef .tc main_v15) := by
  rw [after_ops]
  exact (val14_keep V main_v15 (by decide)).trans ((val13_keep V main_v15 (by decide)).trans ((val12_keep V main_v15 (by decide)).trans ((val11_keep V main_v15 (by decide)).trans ((val10_keep V main_v15 (by decide)).trans ((val9_keep V main_v15 (by decide)).trans ((val8_keep V main_v15 (by decide)).trans ((val7_keep V main_v15 (by decide)))))))))
theorem down_main_v12_6 (V : Valuation τ sig (Elt F)) : after ops V (Proc.devRef .tc main_v12) = val6 V (Proc.devRef .tc main_v12) := by
  rw [after_ops]
  exact (val14_keep V main_v12 (by decide)).trans ((val13_keep V main_v12 (by decide)).trans ((val12_keep V main_v12 (by decide)).trans ((val11_keep V main_v12 (by decide)).trans ((val10_keep V main_v12 (by decide)).trans ((val9_keep V main_v12 (by decide)).trans ((val8_keep V main_v12 (by decide)).trans ((val7_keep V main_v12 (by decide)))))))))
theorem down_main_v14_6 (V : Valuation τ sig (Elt F)) : after ops V (Proc.devRef .tc main_v14) = val6 V (Proc.devRef .tc main_v14) := by
  rw [after_ops]
  exact (val14_keep V main_v14 (by decide)).trans ((val13_keep V main_v14 (by decide)).trans ((val12_keep V main_v14 (by decide)).trans ((val11_keep V main_v14 (by decide)).trans ((val10_keep V main_v14 (by decide)).trans ((val9_keep V main_v14 (by decide)).trans ((val8_keep V main_v14 (by decide)).trans ((val7_keep V main_v14 (by decide)))))))))
theorem down_main_v47_8 (V : Valuation τ sig (Elt F)) : after ops V (Proc.devRef .tc main_v47) = val8 V (Proc.devRef .tc main_v47) := by
  rw [after_ops]
  exact (val14_keep V main_v47 (by decide)).trans ((val13_keep V main_v47 (by decide)).trans ((val12_keep V main_v47 (by decide)).trans ((val11_keep V main_v47 (by decide)).trans ((val10_keep V main_v47 (by decide)).trans ((val9_keep V main_v47 (by decide)))))))
theorem down_main_v48_9 (V : Valuation τ sig (Elt F)) : after ops V (Proc.devRef .tc main_v48) = val9 V (Proc.devRef .tc main_v48) := by
  rw [after_ops]
  exact (val14_keep V main_v48 (by decide)).trans ((val13_keep V main_v48 (by decide)).trans ((val12_keep V main_v48 (by decide)).trans ((val11_keep V main_v48 (by decide)).trans ((val10_keep V main_v48 (by decide))))))
theorem down_main_v64_11 (V : Valuation τ sig (Elt F)) : after ops V (Proc.devRef .tc main_v64) = val11 V (Proc.devRef .tc main_v64) := by
  rw [after_ops]
  exact (val14_keep V main_v64 (by decide)).trans ((val13_keep V main_v64 (by decide)).trans ((val12_keep V main_v64 (by decide))))
theorem down_main_v15_9 (V : Valuation τ sig (Elt F)) : after ops V (Proc.devRef .tc main_v15) = val9 V (Proc.devRef .tc main_v15) := by
  rw [after_ops]
  exact (val14_keep V main_v15 (by decide)).trans ((val13_keep V main_v15 (by decide)).trans ((val12_keep V main_v15 (by decide)).trans ((val11_keep V main_v15 (by decide)).trans ((val10_keep V main_v15 (by decide))))))
theorem down_main_v25_9 (V : Valuation τ sig (Elt F)) : after ops V (Proc.devRef .tc main_v25) = val9 V (Proc.devRef .tc main_v25) := by
  rw [after_ops]
  exact (val14_keep V main_v25 (by decide)).trans ((val13_keep V main_v25 (by decide)).trans ((val12_keep V main_v25 (by decide)).trans ((val11_keep V main_v25 (by decide)).trans ((val10_keep V main_v25 (by decide))))))
theorem down_main_v14_9 (V : Valuation τ sig (Elt F)) : after ops V (Proc.devRef .tc main_v14) = val9 V (Proc.devRef .tc main_v14) := by
  rw [after_ops]
  exact (val14_keep V main_v14 (by decide)).trans ((val13_keep V main_v14 (by decide)).trans ((val12_keep V main_v14 (by decide)).trans ((val11_keep V main_v14 (by decide)).trans ((val10_keep V main_v14 (by decide))))))
theorem down_main_v28_9 (V : Valuation τ sig (Elt F)) : after ops V (Proc.devRef .tc main_v28) = val9 V (Proc.devRef .tc main_v28) := by
  rw [after_ops]
  exact (val14_keep V main_v28 (by decide)).trans ((val13_keep V main_v28 (by decide)).trans ((val12_keep V main_v28 (by decide)).trans ((val11_keep V main_v28 (by decide)).trans ((val10_keep V main_v28 (by decide))))))
theorem down_main_v68_12 (V : Valuation τ sig (Elt F)) : after ops V (Proc.devRef .tc main_v68) = val12 V (Proc.devRef .tc main_v68) := by
  rw [after_ops]
  exact (val14_keep V main_v68 (by decide)).trans ((val13_keep V main_v68 (by decide)))
theorem down_main_v69_13 (V : Valuation τ sig (Elt F)) : after ops V (Proc.devRef .tc main_v69) = val13 V (Proc.devRef .tc main_v69) := by
  rw [after_ops]
  exact (val14_keep V main_v69 (by decide))
theorem down_main_v70_14 (V : Valuation τ sig (Elt F)) : after ops V (Proc.devRef .tc main_v70) = val14 V (Proc.devRef .tc main_v70) := by
  rw [after_ops]
theorem down_main_v71_14 (V : Valuation τ sig (Elt F)) : after ops V (Proc.devRef .tc main_v71) = val14 V (Proc.devRef .tc main_v71) := by
  rw [after_ops]
theorem down_main_v72_14 (V : Valuation τ sig (Elt F)) : after ops V (Proc.devRef .tc main_v72) = val14 V (Proc.devRef .tc main_v72) := by
  rw [after_ops]
theorem down_main_arg0_0 (V : Valuation τ sig (Elt F)) : after ops V (Proc.devRef .tc main_arg0) = V (Proc.devRef .tc main_arg0) := by
  rw [after_ops]
  exact (val14_keep V main_arg0 (by decide)).trans ((val13_keep V main_arg0 (by decide)).trans ((val12_keep V main_arg0 (by decide)).trans ((val11_keep V main_arg0 (by decide)).trans ((val10_keep V main_arg0 (by decide)).trans ((val9_keep V main_arg0 (by decide)).trans ((val8_keep V main_arg0 (by decide)).trans ((val7_keep V main_arg0 (by decide)).trans ((val6_keep V main_arg0 (by decide)).trans ((val5_keep V main_arg0 (by decide)).trans ((val4_keep V main_arg0 (by decide)).trans ((val3_keep V main_arg0 (by decide)).trans ((val2_keep V main_arg0 (by decide)).trans ((val1_keep V main_arg0 (by decide)))))))))))))))
theorem down_main_arg1_0 (V : Valuation τ sig (Elt F)) : after ops V (Proc.devRef .tc main_arg1) = V (Proc.devRef .tc main_arg1) := by
  rw [after_ops]
  exact (val14_keep V main_arg1 (by decide)).trans ((val13_keep V main_arg1 (by decide)).trans ((val12_keep V main_arg1 (by decide)).trans ((val11_keep V main_arg1 (by decide)).trans ((val10_keep V main_arg1 (by decide)).trans ((val9_keep V main_arg1 (by decide)).trans ((val8_keep V main_arg1 (by decide)).trans ((val7_keep V main_arg1 (by decide)).trans ((val6_keep V main_arg1 (by decide)).trans ((val5_keep V main_arg1 (by decide)).trans ((val4_keep V main_arg1 (by decide)).trans ((val3_keep V main_arg1 (by decide)).trans ((val2_keep V main_arg1 (by decide)).trans ((val1_keep V main_arg1 (by decide)))))))))))))))
theorem down_main_arg2_0 (V : Valuation τ sig (Elt F)) : after ops V (Proc.devRef .tc main_arg2) = V (Proc.devRef .tc main_arg2) := by
  rw [after_ops]
  exact (val14_keep V main_arg2 (by decide)).trans ((val13_keep V main_arg2 (by decide)).trans ((val12_keep V main_arg2 (by decide)).trans ((val11_keep V main_arg2 (by decide)).trans ((val10_keep V main_arg2 (by decide)).trans ((val9_keep V main_arg2 (by decide)).trans ((val8_keep V main_arg2 (by decide)).trans ((val7_keep V main_arg2 (by decide)).trans ((val6_keep V main_arg2 (by decide)).trans ((val5_keep V main_arg2 (by decide)).trans ((val4_keep V main_arg2 (by decide)).trans ((val3_keep V main_arg2 (by decide)).trans ((val2_keep V main_arg2 (by decide)).trans ((val1_keep V main_arg2 (by decide)))))))))))))))
theorem down_main_arg3_0 (V : Valuation τ sig (Elt F)) : after ops V (Proc.devRef .tc main_arg3) = V (Proc.devRef .tc main_arg3) := by
  rw [after_ops]
  exact (val14_keep V main_arg3 (by decide)).trans ((val13_keep V main_arg3 (by decide)).trans ((val12_keep V main_arg3 (by decide)).trans ((val11_keep V main_arg3 (by decide)).trans ((val10_keep V main_arg3 (by decide)).trans ((val9_keep V main_arg3 (by decide)).trans ((val8_keep V main_arg3 (by decide)).trans ((val7_keep V main_arg3 (by decide)).trans ((val6_keep V main_arg3 (by decide)).trans ((val5_keep V main_arg3 (by decide)).trans ((val4_keep V main_arg3 (by decide)).trans ((val3_keep V main_arg3 (by decide)).trans ((val2_keep V main_arg3 (by decide)).trans ((val1_keep V main_arg3 (by decide)))))))))))))))
theorem down_main_arg4_0 (V : Valuation τ sig (Elt F)) : after ops V (Proc.devRef .tc main_arg4) = V (Proc.devRef .tc main_arg4) := by
  rw [after_ops]
  exact (val14_keep V main_arg4 (by decide)).trans ((val13_keep V main_arg4 (by decide)).trans ((val12_keep V main_arg4 (by decide)).trans ((val11_keep V main_arg4 (by decide)).trans ((val10_keep V main_arg4 (by decide)).trans ((val9_keep V main_arg4 (by decide)).trans ((val8_keep V main_arg4 (by decide)).trans ((val7_keep V main_arg4 (by decide)).trans ((val6_keep V main_arg4 (by decide)).trans ((val5_keep V main_arg4 (by decide)).trans ((val4_keep V main_arg4 (by decide)).trans ((val3_keep V main_arg4 (by decide)).trans ((val2_keep V main_arg4 (by decide)).trans ((val1_keep V main_arg4 (by decide)))))))))))))))
theorem down_main_arg5_0 (V : Valuation τ sig (Elt F)) : after ops V (Proc.devRef .tc main_arg5) = V (Proc.devRef .tc main_arg5) := by
  rw [after_ops]
  exact (val14_keep V main_arg5 (by decide)).trans ((val13_keep V main_arg5 (by decide)).trans ((val12_keep V main_arg5 (by decide)).trans ((val11_keep V main_arg5 (by decide)).trans ((val10_keep V main_arg5 (by decide)).trans ((val9_keep V main_arg5 (by decide)).trans ((val8_keep V main_arg5 (by decide)).trans ((val7_keep V main_arg5 (by decide)).trans ((val6_keep V main_arg5 (by decide)).trans ((val5_keep V main_arg5 (by decide)).trans ((val4_keep V main_arg5 (by decide)).trans ((val3_keep V main_arg5 (by decide)).trans ((val2_keep V main_arg5 (by decide)).trans ((val1_keep V main_arg5 (by decide)))))))))))))))
theorem down_main_arg6_0 (V : Valuation τ sig (Elt F)) : after ops V (Proc.devRef .tc main_arg6) = V (Proc.devRef .tc main_arg6) := by
  rw [after_ops]
  exact (val14_keep V main_arg6 (by decide)).trans ((val13_keep V main_arg6 (by decide)).trans ((val12_keep V main_arg6 (by decide)).trans ((val11_keep V main_arg6 (by decide)).trans ((val10_keep V main_arg6 (by decide)).trans ((val9_keep V main_arg6 (by decide)).trans ((val8_keep V main_arg6 (by decide)).trans ((val7_keep V main_arg6 (by decide)).trans ((val6_keep V main_arg6 (by decide)).trans ((val5_keep V main_arg6 (by decide)).trans ((val4_keep V main_arg6 (by decide)).trans ((val3_keep V main_arg6 (by decide)).trans ((val2_keep V main_arg6 (by decide)).trans ((val1_keep V main_arg6 (by decide)))))))))))))))
theorem down_main_arg7_0 (V : Valuation τ sig (Elt F)) : after ops V (Proc.devRef .tc main_arg7) = V (Proc.devRef .tc main_arg7) := by
  rw [after_ops]
  exact (val14_keep V main_arg7 (by decide)).trans ((val13_keep V main_arg7 (by decide)).trans ((val12_keep V main_arg7 (by decide)).trans ((val11_keep V main_arg7 (by decide)).trans ((val10_keep V main_arg7 (by decide)).trans ((val9_keep V main_arg7 (by decide)).trans ((val8_keep V main_arg7 (by decide)).trans ((val7_keep V main_arg7 (by decide)).trans ((val6_keep V main_arg7 (by decide)).trans ((val5_keep V main_arg7 (by decide)).trans ((val4_keep V main_arg7 (by decide)).trans ((val3_keep V main_arg7 (by decide)).trans ((val2_keep V main_arg7 (by decide)).trans ((val1_keep V main_arg7 (by decide)))))))))))))))
theorem down_main_arg8_0 (V : Valuation τ sig (Elt F)) : after ops V (Proc.devRef .tc main_arg8) = V (Proc.devRef .tc main_arg8) := by
  rw [after_ops]
  exact (val14_keep V main_arg8 (by decide)).trans ((val13_keep V main_arg8 (by decide)).trans ((val12_keep V main_arg8 (by decide)).trans ((val11_keep V main_arg8 (by decide)).trans ((val10_keep V main_arg8 (by decide)).trans ((val9_keep V main_arg8 (by decide)).trans ((val8_keep V main_arg8 (by decide)).trans ((val7_keep V main_arg8 (by decide)).trans ((val6_keep V main_arg8 (by decide)).trans ((val5_keep V main_arg8 (by decide)).trans ((val4_keep V main_arg8 (by decide)).trans ((val3_keep V main_arg8 (by decide)).trans ((val2_keep V main_arg8 (by decide)).trans ((val1_keep V main_arg8 (by decide)))))))))))))))
theorem down_main_arg9_0 (V : Valuation τ sig (Elt F)) : after ops V (Proc.devRef .tc main_arg9) = V (Proc.devRef .tc main_arg9) := by
  rw [after_ops]
  exact (val14_keep V main_arg9 (by decide)).trans ((val13_keep V main_arg9 (by decide)).trans ((val12_keep V main_arg9 (by decide)).trans ((val11_keep V main_arg9 (by decide)).trans ((val10_keep V main_arg9 (by decide)).trans ((val9_keep V main_arg9 (by decide)).trans ((val8_keep V main_arg9 (by decide)).trans ((val7_keep V main_arg9 (by decide)).trans ((val6_keep V main_arg9 (by decide)).trans ((val5_keep V main_arg9 (by decide)).trans ((val4_keep V main_arg9 (by decide)).trans ((val3_keep V main_arg9 (by decide)).trans ((val2_keep V main_arg9 (by decide)).trans ((val1_keep V main_arg9 (by decide)))))))))))))))
theorem down_main_arg10_0 (V : Valuation τ sig (Elt F)) : after ops V (Proc.devRef .tc main_arg10) = V (Proc.devRef .tc main_arg10) := by
  rw [after_ops]
  exact (val14_keep V main_arg10 (by decide)).trans ((val13_keep V main_arg10 (by decide)).trans ((val12_keep V main_arg10 (by decide)).trans ((val11_keep V main_arg10 (by decide)).trans ((val10_keep V main_arg10 (by decide)).trans ((val9_keep V main_arg10 (by decide)).trans ((val8_keep V main_arg10 (by decide)).trans ((val7_keep V main_arg10 (by decide)).trans ((val6_keep V main_arg10 (by decide)).trans ((val5_keep V main_arg10 (by decide)).trans ((val4_keep V main_arg10 (by decide)).trans ((val3_keep V main_arg10 (by decide)).trans ((val2_keep V main_arg10 (by decide)).trans ((val1_keep V main_arg10 (by decide)))))))))))))))
theorem down_main_arg11_0 (V : Valuation τ sig (Elt F)) : after ops V (Proc.devRef .tc main_arg11) = V (Proc.devRef .tc main_arg11) := by
  rw [after_ops]
  exact (val14_keep V main_arg11 (by decide)).trans ((val13_keep V main_arg11 (by decide)).trans ((val12_keep V main_arg11 (by decide)).trans ((val11_keep V main_arg11 (by decide)).trans ((val10_keep V main_arg11 (by decide)).trans ((val9_keep V main_arg11 (by decide)).trans ((val8_keep V main_arg11 (by decide)).trans ((val7_keep V main_arg11 (by decide)).trans ((val6_keep V main_arg11 (by decide)).trans ((val5_keep V main_arg11 (by decide)).trans ((val4_keep V main_arg11 (by decide)).trans ((val3_keep V main_arg11 (by decide)).trans ((val2_keep V main_arg11 (by decide)).trans ((val1_keep V main_arg11 (by decide)))))))))))))))
theorem down_main_arg12_0 (V : Valuation τ sig (Elt F)) : after ops V (Proc.devRef .tc main_arg12) = V (Proc.devRef .tc main_arg12) := by
  rw [after_ops]
  exact (val14_keep V main_arg12 (by decide)).trans ((val13_keep V main_arg12 (by decide)).trans ((val12_keep V main_arg12 (by decide)).trans ((val11_keep V main_arg12 (by decide)).trans ((val10_keep V main_arg12 (by decide)).trans ((val9_keep V main_arg12 (by decide)).trans ((val8_keep V main_arg12 (by decide)).trans ((val7_keep V main_arg12 (by decide)).trans ((val6_keep V main_arg12 (by decide)).trans ((val5_keep V main_arg12 (by decide)).trans ((val4_keep V main_arg12 (by decide)).trans ((val3_keep V main_arg12 (by decide)).trans ((val2_keep V main_arg12 (by decide)).trans ((val1_keep V main_arg12 (by decide)))))))))))))))
theorem down_main_arg13_0 (V : Valuation τ sig (Elt F)) : after ops V (Proc.devRef .tc main_arg13) = V (Proc.devRef .tc main_arg13) := by
  rw [after_ops]
  exact (val14_keep V main_arg13 (by decide)).trans ((val13_keep V main_arg13 (by decide)).trans ((val12_keep V main_arg13 (by decide)).trans ((val11_keep V main_arg13 (by decide)).trans ((val10_keep V main_arg13 (by decide)).trans ((val9_keep V main_arg13 (by decide)).trans ((val8_keep V main_arg13 (by decide)).trans ((val7_keep V main_arg13 (by decide)).trans ((val6_keep V main_arg13 (by decide)).trans ((val5_keep V main_arg13 (by decide)).trans ((val4_keep V main_arg13 (by decide)).trans ((val3_keep V main_arg13 (by decide)).trans ((val2_keep V main_arg13 (by decide)).trans ((val1_keep V main_arg13 (by decide)))))))))))))))

/-! ## Each stretch's stage values over the contents it starts from -/

theorem seg_v3 (W : Valuation τ sig (Elt F)) :
    after G1 (W) (Proc.devRef .tc main_v3)
      = (addf (Host.dotGeneral dot_S65536x256_S256x512_S65536x512_1_0_0_1_n_n none (W (Proc.devRef .tc main_arg0) : (⟨S65536x256, .f32⟩ : BufTy).Contents (Elt F)) (W (Proc.devRef .tc main_arg3) : (⟨S256x512, .f32⟩ : BufTy).Contents (Elt F)) : (⟨S65536x512, .f32⟩ : BufTy).Contents (Elt F)) (broadcastInDim S65536x512 ![0, 1] bcast_S1x512_S65536x512_0_1 (broadcastInDim S1x512 ![1] bcast_S512_S1x512_1 (W (Proc.devRef .tc main_arg4) : (⟨S512, .f32⟩ : BufTy).Contents (Elt F)) : (⟨S1x512, .f32⟩ : BufTy).Contents (Elt F)) : (⟨S65536x512, .f32⟩ : BufTy).Contents (Elt F)) : (⟨S65536x512, .f32⟩ : BufTy).Contents (Elt F)) := by
  simp only [G1]
  after_results_simp
  all_goals rfl

theorem seg_v7 (W : Valuation τ sig (Elt F)) :
    after G2 (W) (Proc.devRef .tc main_v7)
      = (addf (Host.dotGeneral dot_S32768x512_S512x512_S32768x512_1_0_0_1_n_n none (W (Proc.devRef .tc main_arg1) : (⟨S32768x512, .f32⟩ : BufTy).Contents (Elt F)) (W (Proc.devRef .tc main_arg5) : (⟨S512x512, .f32⟩ : BufTy).Contents (Elt F)) : (⟨S32768x512, .f32⟩ : BufTy).Contents (Elt F)) (broadcastInDim S32768x512 ![0, 1] bcast_S1x512_S32768x512_0_1 (broadcastInDim S1x512 ![1] bcast_S512_S1x512_1 (W (Proc.devRef .tc main_arg6) : (⟨S512, .f32⟩ : BufTy).Contents (Elt F)) : (⟨S1x512, .f32⟩ : BufTy).Contents (Elt F)) : (⟨S32768x512, .f32⟩ : BufTy).Contents (Elt F)) : (⟨S32768x512, .f32⟩ : BufTy).Contents (Elt F)) := by
  simp only [G2]
  after_results_simp
  all_goals rfl

theorem seg_v11 (W : Valuation τ sig (Elt F)) :
    after G3 (W) (Proc.devRef .tc main_v11)
      = (addf (Host.dotGeneral dot_S32768x1024_S1024x512_S32768x512_1_0_0_1_n_n none (W (Proc.devRef .tc main_arg2) : (⟨S32768x1024, .f32⟩ : BufTy).Contents (Elt F)) (W (Proc.devRef .tc main_arg7) : (⟨S1024x512, .f32⟩ : BufTy).Contents (Elt F)) : (⟨S32768x512, .f32⟩ : BufTy).Contents (Elt F)) (broadcastInDim S32768x512 ![0, 1] bcast_S1x512_S32768x512_0_1 (broadcastInDim S1x512 ![1] bcast_S512_S1x512_1 (W (Proc.devRef .tc main_arg8) : (⟨S512, .f32⟩ : BufTy).Contents (Elt F)) : (⟨S1x512, .f32⟩ : BufTy).Contents (Elt F)) : (⟨S32768x512, .f32⟩ : BufTy).Contents (Elt F)) : (⟨S32768x512, .f32⟩ : BufTy).Contents (Elt F)) := by
  simp only [G3]
  after_results_simp
  all_goals rfl

theorem seg_v12 (W : Valuation τ sig (Elt F)) :
    after G4 (W) (Proc.devRef .tc main_v12)
      = (concatenate S131072x512 0 [⟨S65536x512, (W (Proc.devRef .tc main_v3) : (⟨S65536x512, .f32⟩ : BufTy).Contents (Elt F))⟩, ⟨S32768x512, (W (Proc.devRef .tc main_v7) : (⟨S32768x512, .f32⟩ : BufTy).Contents (Elt F))⟩, ⟨S32768x512, (W (Proc.devRef .tc main_v11) : (⟨S32768x512, .f32⟩ : BufTy).Contents (Elt F))⟩] concatenates_S65536x512_S32768x512_S32768x512_S131072x512_d0 : (⟨S131072x512, .f32⟩ : BufTy).Contents (Elt F)) := by
  simp only [G4]
  after_results_simp
  all_goals rfl

theorem seg_v14 (W : Valuation τ sig (Elt F)) :
    after G5 (W) (Proc.devRef .tc main_v14)
      = (concatenate S262144 0 [⟨S131072, (W (Proc.devRef .tc main_arg12) : (⟨S131072, .i32⟩ : BufTy).Contents (Elt F))⟩, ⟨S131072, (iotaInDim S131072 32 0 : (⟨S131072, .i32⟩ : BufTy).Contents (Elt F))⟩] concatenates_S131072_S131072_S262144_d0 : (⟨S262144, .i32⟩ : BufTy).Contents (Elt F)) := by
  simp only [G5]
  after_results_simp
  all_goals rfl

theorem seg_v15 (W : Valuation τ sig (Elt F)) :
    after G5 (W) (Proc.devRef .tc main_v15)
      = (concatenate S262144 0 [⟨S131072, (W (Proc.devRef .tc main_arg13) : (⟨S131072, .i32⟩ : BufTy).Contents (Elt F))⟩, ⟨S131072, (iotaInDim S131072 32 0 : (⟨S131072, .i32⟩ : BufTy).Contents (Elt F))⟩] concatenates_S131072_S131072_S262144_d0 : (⟨S262144, .i32⟩ : BufTy).Contents (Elt F)) := by
  simp only [G5]
  after_results_simp
  all_goals rfl

set_option maxRecDepth 8192 in
set_option maxHeartbeats 2000000 in
theorem seg_v25 (W : Valuation τ sig (Elt F)) :
    after G6 (W) (Proc.devRef .tc main_v25)
      = (Host.powf (maximumf (broadcastInDim S131072 ![] bcast_S_S131072 (id (constant S_ .f32 0x3F800000#32 : (⟨S_, .f32⟩ : BufTy).Contents (Elt F)) : (⟨S_, .f32⟩ : BufTy).Contents (Elt F)) : (⟨S131072, .f32⟩ : BufTy).Contents (Elt F)) (Host.scatterAdd scatter_S131072_S262144x1_S262144_n_0_0_1 (broadcastInDim S131072 ![] bcast_S_S131072 (constant S_ .f32 0x00000000#32 : (⟨S_, .f32⟩ : BufTy).Contents (Elt F)) : (⟨S131072, .f32⟩ : BufTy).Contents (Elt F)) (broadcastInDim S262144x1 ![0] bcast_S262144_S262144x1_0 (W (Proc.devRef .tc main_v14) : (⟨S262144, .i32⟩ : BufTy).Contents (Elt F)) : (⟨S262144x1, .i32⟩ : BufTy).Contents (Elt F)) (broadcastInDim S262144 ![] bcast_S_S262144 (constant S_ .f32 0x3F800000#32 : (⟨S_, .f32⟩ : BufTy).Contents (Elt F)) : (⟨S262144, .f32⟩ : BufTy).Contents (Elt F)) : (⟨S131072, .f32⟩ : BufTy).Contents (Elt F)) : (⟨S131072, .f32⟩ : BufTy).Contents (Elt F)) (broadcastInDim S131072 ![] bcast_S_S131072 (constant S_ .f32 0xBF000000#32 : (⟨S_, .f32⟩ : BufTy).Contents (Elt F)) : (⟨S131072, .f32⟩ : BufTy).Contents (Elt F)) : (⟨S131072, .f32⟩ : BufTy).Contents (Elt F)) := by
  simp only [G6]
  after_results_simp
  all_goals rfl

set_option maxRecDepth 8192 in
set_option maxHeartbeats 2000000 in
theorem seg_v28 (W : Valuation τ sig (Elt F)) :
    after G6 (W) (Proc.devRef .tc main_v28)
      = (Host.powf (maximumf (broadcastInDim S131072 ![] bcast_S_S131072 (id (constant S_ .f32 0x3F800000#32 : (⟨S_, .f32⟩ : BufTy).Contents (Elt F)) : (⟨S_, .f32⟩ : BufTy).Contents (Elt F)) : (⟨S131072, .f32⟩ : BufTy).Contents (Elt F)) (Host.scatterAdd scatter_S131072_S262144x1_S262144_n_0_0_1 (broadcastInDim S131072 ![] bcast_S_S131072 (constant S_ .f32 0x00000000#32 : (⟨S_, .f32⟩ : BufTy).Contents (Elt F)) : (⟨S131072, .f32⟩ : BufTy).Contents (Elt F)) (broadcastInDim S262144x1 ![0] bcast_S262144_S262144x1_0 (W (Proc.devRef .tc main_v15) : (⟨S262144, .i32⟩ : BufTy).Contents (Elt F)) : (⟨S262144x1, .i32⟩ : BufTy).Contents (Elt F)) (broadcastInDim S262144 ![] bcast_S_S262144 (constant S_ .f32 0x3F800000#32 : (⟨S_, .f32⟩ : BufTy).Contents (Elt F)) : (⟨S262144, .f32⟩ : BufTy).Contents (Elt F)) : (⟨S131072, .f32⟩ : BufTy).Contents (Elt F)) : (⟨S131072, .f32⟩ : BufTy).Contents (Elt F)) (broadcastInDim S131072 ![] bcast_S_S131072 (constant S_ .f32 0xBF000000#32 : (⟨S_, .f32⟩ : BufTy).Contents (Elt F)) : (⟨S131072, .f32⟩ : BufTy).Contents (Elt F)) : (⟨S131072, .f32⟩ : BufTy).Contents (Elt F)) := by
  simp only [G6]
  after_results_simp
  all_goals rfl

set_option maxRecDepth 8192 in
set_option maxHeartbeats 2000000 in
theorem seg_v44 (W : Valuation τ sig (Elt F)) :
    after G7 (W) (Proc.devRef .tc main_v44)
      = (mulf (Host.scatterAdd scatter_S131072x512_S262144x1_S262144x512_1_0_0_1 (broadcastInDim S131072x512 ![] bcast_S_S131072x512 (constant S_ .f32 0x00000000#32 : (⟨S_, .f32⟩ : BufTy).Contents (Elt F)) : (⟨S131072x512, .f32⟩ : BufTy).Contents (Elt F)) (broadcastInDim S262144x1 ![0] bcast_S262144_S262144x1_0 (W (Proc.devRef .tc main_v15) : (⟨S262144, .i32⟩ : BufTy).Contents (Elt F)) : (⟨S262144x1, .i32⟩ : BufTy).Contents (Elt F)) (Host.gather gather_S131072x512_S262144x1_S262144x512_1_0_n_n_0_1_1512 (mulf (W (Proc.devRef .tc main_v12) : (⟨S131072x512, .f32⟩ : BufTy).Contents (Elt F)) (broadcastInDim S131072x512 ![0, 1] bcast_S131072x1_S131072x512_0_1 (broadcastInDim S131072x1 ![0] bcast_S131072_S131072x1_0 (W (Proc.devRef .tc main_v25) : (⟨S131072, .f32⟩ : BufTy).Contents (Elt F)) : (⟨S131072x1, .f32⟩ : BufTy).Contents (Elt F)) : (⟨S131072x512, .f32⟩ : BufTy).Contents (Elt F)) : (⟨S131072x512, .f32⟩ : BufTy).Contents (Elt F)) (broadcastInDim S262144x1 ![0] bcast_S262144_S262144x1_0 (select (cmpi .slt (W (Proc.devRef .tc main_v14) : (⟨S262144, .i32⟩ : BufTy).Contents (Elt F)) (broadcastInDim S262144 ![] bcast_S_S262144 (constantI S_ 32 0#32 : (⟨S_, .i32⟩ : BufTy).Contents (Elt F)) : (⟨S262144, .i32⟩ : BufTy).Contents (Elt F)) : (⟨S262144, .i1⟩ : BufTy).Contents (Elt F)) (addi (W (Proc.devRef .tc main_v14) : (⟨S262144, .i32⟩ : BufTy).Contents (Elt F)) (broadcastInDim S262144 ![] bcast_S_S262144 (constantI S_ 32 131072#32 : (⟨S_, .i32⟩ : BufTy).Contents (Elt F)) : (⟨S262144, .i32⟩ : BufTy).Contents (Elt F)) : (⟨S262144, .i32⟩ : BufTy).Contents (Elt F)) (W (Proc.devRef .tc main_v14) : (⟨S262144, .i32⟩ : BufTy).Contents (Elt F)) : (⟨S262144, .i32⟩ : BufTy).Contents (Elt F)) : (⟨S262144x1, .i32⟩ : BufTy).Contents (Elt F)) : (⟨S262144x512, .f32⟩ : BufTy).Contents (Elt F)) : (⟨S131072x512, .f32⟩ : BufTy).Contents (Elt F)) (broadcastInDim S131072x512 ![0, 1] bcast_S131072x1_S131072x512_0_1 (broadcastInDim S131072x1 ![0] bcast_S131072_S131072x1_0 (W (Proc.devRef .tc main_v28) : (⟨S131072, .f32⟩ : BufTy).Contents (Elt F)) : (⟨S131072x1, .f32⟩ : BufTy).Contents (Elt F)) : (⟨S131072x512, .f32⟩ : BufTy).Contents (Elt F)) : (⟨S131072x512, .f32⟩ : BufTy).Contents (Elt F)) := by
  simp only [G7]
  after_results_simp
  all_goals rfl

theorem seg_v47 (W : Valuation τ sig (Elt F)) :
    after G8 (W) (Proc.devRef .tc main_v47)
      = (addf (W (Proc.devRef .tc main_v44) : (⟨S131072x512, .f32⟩ : BufTy).Contents (Elt F)) (broadcastInDim S131072x512 ![0, 1] bcast_S1x512_S131072x512_0_1 (broadcastInDim S1x512 ![1] bcast_S512_S1x512_1 (W (Proc.devRef .tc main_arg9) : (⟨S512, .f32⟩ : BufTy).Contents (Elt F)) : (⟨S1x512, .f32⟩ : BufTy).Contents (Elt F)) : (⟨S131072x512, .f32⟩ : BufTy).Contents (Elt F)) : (⟨S131072x512, .f32⟩ : BufTy).Contents (Elt F)) := by
  simp only [G8]
  after_results_simp
  all_goals rfl

set_option maxRecDepth 8192 in
set_option maxHeartbeats 2000000 in
theorem seg_v48 (W : Valuation τ sig (Elt F)) :
    after G9 (W) (Proc.devRef .tc main_v48)
      = (select (cmpf .ogt (W (Proc.devRef .tc main_v47) : (⟨S131072x512, .f32⟩ : BufTy).Contents (Elt F)) (broadcastInDim S131072x512 ![] bcast_S_S131072x512 (constant S_ .f32 0x00000000#32 : (⟨S_, .f32⟩ : BufTy).Contents (Elt F)) : (⟨S131072x512, .f32⟩ : BufTy).Contents (Elt F)) : (⟨S131072x512, .i1⟩ : BufTy).Contents (Elt F)) (W (Proc.devRef .tc main_v47) : (⟨S131072x512, .f32⟩ : BufTy).Contents (Elt F)) (mulf (broadcastInDim S131072x512 ![] bcast_S_S131072x512 (constant S_ .f32 0x3F800000#32 : (⟨S_, .f32⟩ : BufTy).Contents (Elt F)) : (⟨S131072x512, .f32⟩ : BufTy).Contents (Elt F)) (Host.expm1 (select (cmpf .ogt (W (Proc.devRef .tc main_v47) : (⟨S131072x512, .f32⟩ : BufTy).Contents (Elt F)) (broadcastInDim S131072x512 ![] bcast_S_S131072x512 (constant S_ .f32 0x00000000#32 : (⟨S_, .f32⟩ : BufTy).Contents (Elt F)) : (⟨S131072x512, .f32⟩ : BufTy).Contents (Elt F)) : (⟨S131072x512, .i1⟩ : BufTy).Contents (Elt F)) (broadcastInDim S131072x512 ![] bcast_S_S131072x512 (id (constant S_ .f32 0x00000000#32 : (⟨S_, .f32⟩ : BufTy).Contents (Elt F)) : (⟨S_, .f32⟩ : BufTy).Contents (Elt F)) : (⟨S131072x512, .f32⟩ : BufTy).Contents (Elt F)) (W (Proc.devRef .tc main_v47) : (⟨S131072x512, .f32⟩ : BufTy).Contents (Elt F)) : (⟨S131072x512, .f32⟩ : BufTy).Contents (Elt F)) : (⟨S131072x512, .f32⟩ : BufTy).Contents (Elt F)) : (⟨S131072x512, .f32⟩ : BufTy).Contents (Elt F)) : (⟨S131072x512, .f32⟩ : BufTy).Contents (Elt F)) := by
  simp only [G9]
  after_results_simp
  all_goals rfl

set_option maxRecDepth 8192 in
set_option maxHeartbeats 2000000 in
theorem seg_v64 (W : Valuation τ sig (Elt F)) :
    after G11 (after G10 (W)) (Proc.devRef .tc main_v64)
      = (mulf (Host.scatterAdd scatter_S131072x512_S262144x1_S262144x512_1_0_0_1 (broadcastInDim S131072x512 ![] bcast_S_S131072x512 (constant S_ .f32 0x00000000#32 : (⟨S_, .f32⟩ : BufTy).Contents (Elt F)) : (⟨S131072x512, .f32⟩ : BufTy).Contents (Elt F)) (broadcastInDim S262144x1 ![0] bcast_S262144_S262144x1_0 (W (Proc.devRef .tc main_v15) : (⟨S262144, .i32⟩ : BufTy).Contents (Elt F)) : (⟨S262144x1, .i32⟩ : BufTy).Contents (Elt F)) (Host.gather gather_S131072x512_S262144x1_S262144x512_1_0_n_n_0_1_1512 (mulf (W (Proc.devRef .tc main_v48) : (⟨S131072x512, .f32⟩ : BufTy).Contents (Elt F)) (broadcastInDim S131072x512 ![0, 1] bcast_S131072x1_S131072x512_0_1 (broadcastInDim S131072x1 ![0] bcast_S131072_S131072x1_0 (W (Proc.devRef .tc main_v25) : (⟨S131072, .f32⟩ : BufTy).Contents (Elt F)) : (⟨S131072x1, .f32⟩ : BufTy).Contents (Elt F)) : (⟨S131072x512, .f32⟩ : BufTy).Contents (Elt F)) : (⟨S131072x512, .f32⟩ : BufTy).Contents (Elt F)) (broadcastInDim S262144x1 ![0] bcast_S262144_S262144x1_0 (select (cmpi .slt (W (Proc.devRef .tc main_v14) : (⟨S262144, .i32⟩ : BufTy).Contents (Elt F)) (broadcastInDim S262144 ![] bcast_S_S262144 (constantI S_ 32 0#32 : (⟨S_, .i32⟩ : BufTy).Contents (Elt F)) : (⟨S262144, .i32⟩ : BufTy).Contents (Elt F)) : (⟨S262144, .i1⟩ : BufTy).Contents (Elt F)) (addi (W (Proc.devRef .tc main_v14) : (⟨S262144, .i32⟩ : BufTy).Contents (Elt F)) (broadcastInDim S262144 ![] bcast_S_S262144 (constantI S_ 32 131072#32 : (⟨S_, .i32⟩ : BufTy).Contents (Elt F)) : (⟨S262144, .i32⟩ : BufTy).Contents (Elt F)) : (⟨S262144, .i32⟩ : BufTy).Contents (Elt F)) (W (Proc.devRef .tc main_v14) : (⟨S262144, .i32⟩ : BufTy).Contents (Elt F)) : (⟨S262144, .i32⟩ : BufTy).Contents (Elt F)) : (⟨S262144x1, .i32⟩ : BufTy).Contents (Elt F)) : (⟨S262144x512, .f32⟩ : BufTy).Contents (Elt F)) : (⟨S131072x512, .f32⟩ : BufTy).Contents (Elt F)) (broadcastInDim S131072x512 ![0, 1] bcast_S131072x1_S131072x512_0_1 (broadcastInDim S131072x1 ![0] bcast_S131072_S131072x1_0 (W (Proc.devRef .tc main_v28) : (⟨S131072, .f32⟩ : BufTy).Contents (Elt F)) : (⟨S131072x1, .f32⟩ : BufTy).Contents (Elt F)) : (⟨S131072x512, .f32⟩ : BufTy).Contents (Elt F)) : (⟨S131072x512, .f32⟩ : BufTy).Contents (Elt F)) := by
  simp only [G10, G11]
  after_results_simp
  all_goals rfl

theorem seg_v68 (W : Valuation τ sig (Elt F)) :
    after G12 (W) (Proc.devRef .tc main_v68)
      = (addf (Host.dotGeneral dot_S131072x512_S512x512_S131072x512_1_0_0_1_n_n none (W (Proc.devRef .tc main_v64) : (⟨S131072x512, .f32⟩ : BufTy).Contents (Elt F)) (W (Proc.devRef .tc main_arg10) : (⟨S512x512, .f32⟩ : BufTy).Contents (Elt F)) : (⟨S131072x512, .f32⟩ : BufTy).Contents (Elt F)) (broadcastInDim S131072x512 ![0, 1] bcast_S1x512_S131072x512_0_1 (broadcastInDim S1x512 ![1] bcast_S512_S1x512_1 (W (Proc.devRef .tc main_arg11) : (⟨S512, .f32⟩ : BufTy).Contents (Elt F)) : (⟨S1x512, .f32⟩ : BufTy).Contents (Elt F)) : (⟨S131072x512, .f32⟩ : BufTy).Contents (Elt F)) : (⟨S131072x512, .f32⟩ : BufTy).Contents (Elt F)) := by
  simp only [G12]
  after_results_simp
  all_goals rfl

set_option maxRecDepth 8192 in
set_option maxHeartbeats 2000000 in
theorem seg_v69 (W : Valuation τ sig (Elt F)) :
    after G13 (W) (Proc.devRef .tc main_v69)
      = (select (cmpf .ogt (W (Proc.devRef .tc main_v68) : (⟨S131072x512, .f32⟩ : BufTy).Contents (Elt F)) (broadcastInDim S131072x512 ![] bcast_S_S131072x512 (constant S_ .f32 0x00000000#32 : (⟨S_, .f32⟩ : BufTy).Contents (Elt F)) : (⟨S131072x512, .f32⟩ : BufTy).Contents (Elt F)) : (⟨S131072x512, .i1⟩ : BufTy).Contents (Elt F)) (W (Proc.devRef .tc main_v68) : (⟨S131072x512, .f32⟩ : BufTy).Contents (Elt F)) (mulf (broadcastInDim S131072x512 ![] bcast_S_S131072x512 (constant S_ .f32 0x3F800000#32 : (⟨S_, .f32⟩ : BufTy).Contents (Elt F)) : (⟨S131072x512, .f32⟩ : BufTy).Contents (Elt F)) (Host.expm1 (select (cmpf .ogt (W (Proc.devRef .tc main_v68) : (⟨S131072x512, .f32⟩ : BufTy).Contents (Elt F)) (broadcastInDim S131072x512 ![] bcast_S_S131072x512 (constant S_ .f32 0x00000000#32 : (⟨S_, .f32⟩ : BufTy).Contents (Elt F)) : (⟨S131072x512, .f32⟩ : BufTy).Contents (Elt F)) : (⟨S131072x512, .i1⟩ : BufTy).Contents (Elt F)) (broadcastInDim S131072x512 ![] bcast_S_S131072x512 (id (constant S_ .f32 0x00000000#32 : (⟨S_, .f32⟩ : BufTy).Contents (Elt F)) : (⟨S_, .f32⟩ : BufTy).Contents (Elt F)) : (⟨S131072x512, .f32⟩ : BufTy).Contents (Elt F)) (W (Proc.devRef .tc main_v68) : (⟨S131072x512, .f32⟩ : BufTy).Contents (Elt F)) : (⟨S131072x512, .f32⟩ : BufTy).Contents (Elt F)) : (⟨S131072x512, .f32⟩ : BufTy).Contents (Elt F)) : (⟨S131072x512, .f32⟩ : BufTy).Contents (Elt F)) : (⟨S131072x512, .f32⟩ : BufTy).Contents (Elt F)) := by
  simp only [G13]
  after_results_simp
  all_goals rfl

theorem seg_v70 (W : Valuation τ sig (Elt F)) :
    after G14 (W) (Proc.devRef .tc main_v70)
      = (extractStridedSlice S65536x512 ![0, 0] (W (Proc.devRef .tc main_v69) : (⟨S131072x512, .f32⟩ : BufTy).Contents (Elt F)) slices_S131072x512_S65536x512_0_0 : (⟨S65536x512, .f32⟩ : BufTy).Contents (Elt F)) := by
  simp only [G14]
  after_results_simp
  all_goals rfl

theorem seg_v71 (W : Valuation τ sig (Elt F)) :
    after G14 (W) (Proc.devRef .tc main_v71)
      = (extractStridedSlice S32768x512 ![65536, 0] (W (Proc.devRef .tc main_v69) : (⟨S131072x512, .f32⟩ : BufTy).Contents (Elt F)) slices_S131072x512_S32768x512_65536_0 : (⟨S32768x512, .f32⟩ : BufTy).Contents (Elt F)) := by
  simp only [G14]
  after_results_simp
  all_goals rfl

theorem seg_v72 (W : Valuation τ sig (Elt F)) :
    after G14 (W) (Proc.devRef .tc main_v72)
      = (extractStridedSlice S32768x512 ![98304, 0] (W (Proc.devRef .tc main_v69) : (⟨S131072x512, .f32⟩ : BufTy).Contents (Elt F)) slices_S131072x512_S32768x512_98304_0 : (⟨S32768x512, .f32⟩ : BufTy).Contents (Elt F)) := by
  simp only [G14]
  after_results_simp
  all_goals rfl

/-! ## The stage values of the whole line -/

/-- Nothing writes an argument. -/
theorem arg0_eq (V : Valuation τ sig (Elt F)) : after ops V (Proc.devRef .tc main_arg0) = V (Proc.devRef .tc main_arg0) := down_main_arg0_0 V
/-- Nothing writes an argument. -/
theorem arg1_eq (V : Valuation τ sig (Elt F)) : after ops V (Proc.devRef .tc main_arg1) = V (Proc.devRef .tc main_arg1) := down_main_arg1_0 V
/-- Nothing writes an argument. -/
theorem arg2_eq (V : Valuation τ sig (Elt F)) : after ops V (Proc.devRef .tc main_arg2) = V (Proc.devRef .tc main_arg2) := down_main_arg2_0 V
/-- Nothing writes an argument. -/
theorem arg3_eq (V : Valuation τ sig (Elt F)) : after ops V (Proc.devRef .tc main_arg3) = V (Proc.devRef .tc main_arg3) := down_main_arg3_0 V
/-- Nothing writes an argument. -/
theorem arg4_eq (V : Valuation τ sig (Elt F)) : after ops V (Proc.devRef .tc main_arg4) = V (Proc.devRef .tc main_arg4) := down_main_arg4_0 V
/-- Nothing writes an argument. -/
theorem arg5_eq (V : Valuation τ sig (Elt F)) : after ops V (Proc.devRef .tc main_arg5) = V (Proc.devRef .tc main_arg5) := down_main_arg5_0 V
/-- Nothing writes an argument. -/
theorem arg6_eq (V : Valuation τ sig (Elt F)) : after ops V (Proc.devRef .tc main_arg6) = V (Proc.devRef .tc main_arg6) := down_main_arg6_0 V
/-- Nothing writes an argument. -/
theorem arg7_eq (V : Valuation τ sig (Elt F)) : after ops V (Proc.devRef .tc main_arg7) = V (Proc.devRef .tc main_arg7) := down_main_arg7_0 V
/-- Nothing writes an argument. -/
theorem arg8_eq (V : Valuation τ sig (Elt F)) : after ops V (Proc.devRef .tc main_arg8) = V (Proc.devRef .tc main_arg8) := down_main_arg8_0 V
/-- Nothing writes an argument. -/
theorem arg9_eq (V : Valuation τ sig (Elt F)) : after ops V (Proc.devRef .tc main_arg9) = V (Proc.devRef .tc main_arg9) := down_main_arg9_0 V
/-- Nothing writes an argument. -/
theorem arg10_eq (V : Valuation τ sig (Elt F)) : after ops V (Proc.devRef .tc main_arg10) = V (Proc.devRef .tc main_arg10) := down_main_arg10_0 V
/-- Nothing writes an argument. -/
theorem arg11_eq (V : Valuation τ sig (Elt F)) : after ops V (Proc.devRef .tc main_arg11) = V (Proc.devRef .tc main_arg11) := down_main_arg11_0 V
/-- Nothing writes an argument. -/
theorem arg12_eq (V : Valuation τ sig (Elt F)) : after ops V (Proc.devRef .tc main_arg12) = V (Proc.devRef .tc main_arg12) := down_main_arg12_0 V
/-- Nothing writes an argument. -/
theorem arg13_eq (V : Valuation τ sig (Elt F)) : after ops V (Proc.devRef .tc main_arg13) = V (Proc.devRef .tc main_arg13) := down_main_arg13_0 V

theorem v3_eq (V : Valuation τ sig (Elt F)) :
    after ops V (Proc.devRef .tc main_v3)
      = (addf (Host.dotGeneral dot_S65536x256_S256x512_S65536x512_1_0_0_1_n_n none (V (Proc.devRef .tc main_arg0) : (⟨S65536x256, .f32⟩ : BufTy).Contents (Elt F)) (V (Proc.devRef .tc main_arg3) : (⟨S256x512, .f32⟩ : BufTy).Contents (Elt F)) : (⟨S65536x512, .f32⟩ : BufTy).Contents (Elt F)) (broadcastInDim S65536x512 ![0, 1] bcast_S1x512_S65536x512_0_1 (broadcastInDim S1x512 ![1] bcast_S512_S1x512_1 (V (Proc.devRef .tc main_arg4) : (⟨S512, .f32⟩ : BufTy).Contents (Elt F)) : (⟨S1x512, .f32⟩ : BufTy).Contents (Elt F)) : (⟨S65536x512, .f32⟩ : BufTy).Contents (Elt F)) : (⟨S65536x512, .f32⟩ : BufTy).Contents (Elt F)) := by
  have h := seg_v3 (V)
  exact (down_main_v3_1 V).trans h

theorem v7_eq (V : Valuation τ sig (Elt F)) :
    after ops V (Proc.devRef .tc main_v7)
      = (addf (Host.dotGeneral dot_S32768x512_S512x512_S32768x512_1_0_0_1_n_n none (V (Proc.devRef .tc main_arg1) : (⟨S32768x512, .f32⟩ : BufTy).Contents (Elt F)) (V (Proc.devRef .tc main_arg5) : (⟨S512x512, .f32⟩ : BufTy).Contents (Elt F)) : (⟨S32768x512, .f32⟩ : BufTy).Contents (Elt F)) (broadcastInDim S32768x512 ![0, 1] bcast_S1x512_S32768x512_0_1 (broadcastInDim S1x512 ![1] bcast_S512_S1x512_1 (V (Proc.devRef .tc main_arg6) : (⟨S512, .f32⟩ : BufTy).Contents (Elt F)) : (⟨S1x512, .f32⟩ : BufTy).Contents (Elt F)) : (⟨S32768x512, .f32⟩ : BufTy).Contents (Elt F)) : (⟨S32768x512, .f32⟩ : BufTy).Contents (Elt F)) := by
  have h := seg_v7 (val1 V)
  rw [val1_main_arg1 V, val1_main_arg5 V, val1_main_arg6 V] at h
  exact (down_main_v7_2 V).trans h

theorem v11_eq (V : Valuation τ sig (Elt F)) :
    after ops V (Proc.devRef .tc main_v11)
      = (addf (Host.dotGeneral dot_S32768x1024_S1024x512_S32768x512_1_0_0_1_n_n none (V (Proc.devRef .tc main_arg2) : (⟨S32768x1024, .f32⟩ : BufTy).Contents (Elt F)) (V (Proc.devRef .tc main_arg7) : (⟨S1024x512, .f32⟩ : BufTy).Contents (Elt F)) : (⟨S32768x512, .f32⟩ : BufTy).Contents (Elt F)) (broadcastInDim S32768x512 ![0, 1] bcast_S1x512_S32768x512_0_1 (broadcastInDim S1x512 ![1] bcast_S512_S1x512_1 (V (Proc.devRef .tc main_arg8) : (⟨S512, .f32⟩ : BufTy).Contents (Elt F)) : (⟨S1x512, .f32⟩ : BufTy).Contents (Elt F)) : (⟨S32768x512, .f32⟩ : BufTy).Contents (Elt F)) : (⟨S32768x512, .f32⟩ : BufTy).Contents (Elt F)) := by
  have h := seg_v11 (val2 V)
  rw [val2_main_arg2 V, val2_main_arg7 V, val2_main_arg8 V] at h
  exact (down_main_v11_3 V).trans h

theorem v12_eq (V : Valuation τ sig (Elt F)) :
    after ops V (Proc.devRef .tc main_v12)
      = (concatenate S131072x512 0 [⟨S65536x512, (after ops V (Proc.devRef .tc main_v3) : (⟨S65536x512, .f32⟩ : BufTy).Contents (Elt F))⟩, ⟨S32768x512, (after ops V (Proc.devRef .tc main_v7) : (⟨S32768x512, .f32⟩ : BufTy).Contents (Elt F))⟩, ⟨S32768x512, (after ops V (Proc.devRef .tc main_v11) : (⟨S32768x512, .f32⟩ : BufTy).Contents (Elt F))⟩] concatenates_S65536x512_S32768x512_S32768x512_S131072x512_d0 : (⟨S131072x512, .f32⟩ : BufTy).Contents (Elt F)) := by
  have h := seg_v12 (val3 V)
  rw [← down_main_v3_3 V, ← down_main_v7_3 V, ← down_main_v11_3 V] at h
  exact (down_main_v12_4 V).trans h

theorem v14_eq (V : Valuation τ sig (Elt F)) :
    after ops V (Proc.devRef .tc main_v14)
      = (concatenate S262144 0 [⟨S131072, (V (Proc.devRef .tc main_arg12) : (⟨S131072, .i32⟩ : BufTy).Contents (Elt F))⟩, ⟨S131072, (iotaInDim S131072 32 0 : (⟨S131072, .i32⟩ : BufTy).Contents (Elt F))⟩] concatenates_S131072_S131072_S262144_d0 : (⟨S262144, .i32⟩ : BufTy).Contents (Elt F)) := by
  have h := seg_v14 (val4 V)
  rw [val4_main_arg12 V] at h
  exact (down_main_v14_5 V).trans h

theorem v15_eq (V : Valuation τ sig (Elt F)) :
    after ops V (Proc.devRef .tc main_v15)
      = (concatenate S262144 0 [⟨S131072, (V (Proc.devRef .tc main_arg13) : (⟨S131072, .i32⟩ : BufTy).Contents (Elt F))⟩, ⟨S131072, (iotaInDim S131072 32 0 : (⟨S131072, .i32⟩ : BufTy).Contents (Elt F))⟩] concatenates_S131072_S131072_S262144_d0 : (⟨S262144, .i32⟩ : BufTy).Contents (Elt F)) := by
  have h := seg_v15 (val4 V)
  rw [val4_main_arg13 V] at h
  exact (down_main_v15_5 V).trans h

theorem v25_eq (V : Valuation τ sig (Elt F)) :
    after ops V (Proc.devRef .tc main_v25)
      = (Host.powf (maximumf (broadcastInDim S131072 ![] bcast_S_S131072 (id (constant S_ .f32 0x3F800000#32 : (⟨S_, .f32⟩ : BufTy).Contents (Elt F)) : (⟨S_, .f32⟩ : BufTy).Contents (Elt F)) : (⟨S131072, .f32⟩ : BufTy).Contents (Elt F)) (Host.scatterAdd scatter_S131072_S262144x1_S262144_n_0_0_1 (broadcastInDim S131072 ![] bcast_S_S131072 (constant S_ .f32 0x00000000#32 : (⟨S_, .f32⟩ : BufTy).Contents (Elt F)) : (⟨S131072, .f32⟩ : BufTy).Contents (Elt F)) (broadcastInDim S262144x1 ![0] bcast_S262144_S262144x1_0 (after ops V (Proc.devRef .tc main_v14) : (⟨S262144, .i32⟩ : BufTy).Contents (Elt F)) : (⟨S262144x1, .i32⟩ : BufTy).Contents (Elt F)) (broadcastInDim S262144 ![] bcast_S_S262144 (constant S_ .f32 0x3F800000#32 : (⟨S_, .f32⟩ : BufTy).Contents (Elt F)) : (⟨S262144, .f32⟩ : BufTy).Contents (Elt F)) : (⟨S131072, .f32⟩ : BufTy).Contents (Elt F)) : (⟨S131072, .f32⟩ : BufTy).Contents (Elt F)) (broadcastInDim S131072 ![] bcast_S_S131072 (constant S_ .f32 0xBF000000#32 : (⟨S_, .f32⟩ : BufTy).Contents (Elt F)) : (⟨S131072, .f32⟩ : BufTy).Contents (Elt F)) : (⟨S131072, .f32⟩ : BufTy).Contents (Elt F)) := by
  have h := seg_v25 (val5 V)
  rw [← down_main_v14_5 V] at h
  exact (down_main_v25_6 V).trans h

theorem v28_eq (V : Valuation τ sig (Elt F)) :
    after ops V (Proc.devRef .tc main_v28)
      = (Host.powf (maximumf (broadcastInDim S131072 ![] bcast_S_S131072 (id (constant S_ .f32 0x3F800000#32 : (⟨S_, .f32⟩ : BufTy).Contents (Elt F)) : (⟨S_, .f32⟩ : BufTy).Contents (Elt F)) : (⟨S131072, .f32⟩ : BufTy).Contents (Elt F)) (Host.scatterAdd scatter_S131072_S262144x1_S262144_n_0_0_1 (broadcastInDim S131072 ![] bcast_S_S131072 (constant S_ .f32 0x00000000#32 : (⟨S_, .f32⟩ : BufTy).Contents (Elt F)) : (⟨S131072, .f32⟩ : BufTy).Contents (Elt F)) (broadcastInDim S262144x1 ![0] bcast_S262144_S262144x1_0 (after ops V (Proc.devRef .tc main_v15) : (⟨S262144, .i32⟩ : BufTy).Contents (Elt F)) : (⟨S262144x1, .i32⟩ : BufTy).Contents (Elt F)) (broadcastInDim S262144 ![] bcast_S_S262144 (constant S_ .f32 0x3F800000#32 : (⟨S_, .f32⟩ : BufTy).Contents (Elt F)) : (⟨S262144, .f32⟩ : BufTy).Contents (Elt F)) : (⟨S131072, .f32⟩ : BufTy).Contents (Elt F)) : (⟨S131072, .f32⟩ : BufTy).Contents (Elt F)) (broadcastInDim S131072 ![] bcast_S_S131072 (constant S_ .f32 0xBF000000#32 : (⟨S_, .f32⟩ : BufTy).Contents (Elt F)) : (⟨S131072, .f32⟩ : BufTy).Contents (Elt F)) : (⟨S131072, .f32⟩ : BufTy).Contents (Elt F)) := by
  have h := seg_v28 (val5 V)
  rw [← down_main_v15_5 V] at h
  exact (down_main_v28_6 V).trans h

theorem v44_eq (V : Valuation τ sig (Elt F)) :
    after ops V (Proc.devRef .tc main_v44)
      = (mulf (Host.scatterAdd scatter_S131072x512_S262144x1_S262144x512_1_0_0_1 (broadcastInDim S131072x512 ![] bcast_S_S131072x512 (constant S_ .f32 0x00000000#32 : (⟨S_, .f32⟩ : BufTy).Contents (Elt F)) : (⟨S131072x512, .f32⟩ : BufTy).Contents (Elt F)) (broadcastInDim S262144x1 ![0] bcast_S262144_S262144x1_0 (after ops V (Proc.devRef .tc main_v15) : (⟨S262144, .i32⟩ : BufTy).Contents (Elt F)) : (⟨S262144x1, .i32⟩ : BufTy).Contents (Elt F)) (Host.gather gather_S131072x512_S262144x1_S262144x512_1_0_n_n_0_1_1512 (mulf (after ops V (Proc.devRef .tc main_v12) : (⟨S131072x512, .f32⟩ : BufTy).Contents (Elt F)) (broadcastInDim S131072x512 ![0, 1] bcast_S131072x1_S131072x512_0_1 (broadcastInDim S131072x1 ![0] bcast_S131072_S131072x1_0 (after ops V (Proc.devRef .tc main_v25) : (⟨S131072, .f32⟩ : BufTy).Contents (Elt F)) : (⟨S131072x1, .f32⟩ : BufTy).Contents (Elt F)) : (⟨S131072x512, .f32⟩ : BufTy).Contents (Elt F)) : (⟨S131072x512, .f32⟩ : BufTy).Contents (Elt F)) (broadcastInDim S262144x1 ![0] bcast_S262144_S262144x1_0 (select (cmpi .slt (after ops V (Proc.devRef .tc main_v14) : (⟨S262144, .i32⟩ : BufTy).Contents (Elt F)) (broadcastInDim S262144 ![] bcast_S_S262144 (constantI S_ 32 0#32 : (⟨S_, .i32⟩ : BufTy).Contents (Elt F)) : (⟨S262144, .i32⟩ : BufTy).Contents (Elt F)) : (⟨S262144, .i1⟩ : BufTy).Contents (Elt F)) (addi (after ops V (Proc.devRef .tc main_v14) : (⟨S262144, .i32⟩ : BufTy).Contents (Elt F)) (broadcastInDim S262144 ![] bcast_S_S262144 (constantI S_ 32 131072#32 : (⟨S_, .i32⟩ : BufTy).Contents (Elt F)) : (⟨S262144, .i32⟩ : BufTy).Contents (Elt F)) : (⟨S262144, .i32⟩ : BufTy).Contents (Elt F)) (after ops V (Proc.devRef .tc main_v14) : (⟨S262144, .i32⟩ : BufTy).Contents (Elt F)) : (⟨S262144, .i32⟩ : BufTy).Contents (Elt F)) : (⟨S262144x1, .i32⟩ : BufTy).Contents (Elt F)) : (⟨S262144x512, .f32⟩ : BufTy).Contents (Elt F)) : (⟨S131072x512, .f32⟩ : BufTy).Contents (Elt F)) (broadcastInDim S131072x512 ![0, 1] bcast_S131072x1_S131072x512_0_1 (broadcastInDim S131072x1 ![0] bcast_S131072_S131072x1_0 (after ops V (Proc.devRef .tc main_v28) : (⟨S131072, .f32⟩ : BufTy).Contents (Elt F)) : (⟨S131072x1, .f32⟩ : BufTy).Contents (Elt F)) : (⟨S131072x512, .f32⟩ : BufTy).Contents (Elt F)) : (⟨S131072x512, .f32⟩ : BufTy).Contents (Elt F)) := by
  have h := seg_v44 (val6 V)
  rw [← down_main_v15_6 V, ← down_main_v12_6 V, ← down_main_v25_6 V, ← down_main_v14_6 V, ← down_main_v28_6 V] at h
  exact (down_main_v44_7 V).trans h

theorem v47_eq (V : Valuation τ sig (Elt F)) :
    after ops V (Proc.devRef .tc main_v47)
      = (addf (after ops V (Proc.devRef .tc main_v44) : (⟨S131072x512, .f32⟩ : BufTy).Contents (Elt F)) (broadcastInDim S131072x512 ![0, 1] bcast_S1x512_S131072x512_0_1 (broadcastInDim S1x512 ![1] bcast_S512_S1x512_1 (V (Proc.devRef .tc main_arg9) : (⟨S512, .f32⟩ : BufTy).Contents (Elt F)) : (⟨S1x512, .f32⟩ : BufTy).Contents (Elt F)) : (⟨S131072x512, .f32⟩ : BufTy).Contents (Elt F)) : (⟨S131072x512, .f32⟩ : BufTy).Contents (Elt F)) := by
  have h := seg_v47 (val7 V)
  rw [← down_main_v44_7 V, val7_main_arg9 V] at h
  exact (down_main_v47_8 V).trans h

theorem v48_eq (V : Valuation τ sig (Elt F)) :
    after ops V (Proc.devRef .tc main_v48)
      = (select (cmpf .ogt (after ops V (Proc.devRef .tc main_v47) : (⟨S131072x512, .f32⟩ : BufTy).Contents (Elt F)) (broadcastInDim S131072x512 ![] bcast_S_S131072x512 (constant S_ .f32 0x00000000#32 : (⟨S_, .f32⟩ : BufTy).Contents (Elt F)) : (⟨S131072x512, .f32⟩ : BufTy).Contents (Elt F)) : (⟨S131072x512, .i1⟩ : BufTy).Contents (Elt F)) (after ops V (Proc.devRef .tc main_v47) : (⟨S131072x512, .f32⟩ : BufTy).Contents (Elt F)) (mulf (broadcastInDim S131072x512 ![] bcast_S_S131072x512 (constant S_ .f32 0x3F800000#32 : (⟨S_, .f32⟩ : BufTy).Contents (Elt F)) : (⟨S131072x512, .f32⟩ : BufTy).Contents (Elt F)) (Host.expm1 (select (cmpf .ogt (after ops V (Proc.devRef .tc main_v47) : (⟨S131072x512, .f32⟩ : BufTy).Contents (Elt F)) (broadcastInDim S131072x512 ![] bcast_S_S131072x512 (constant S_ .f32 0x00000000#32 : (⟨S_, .f32⟩ : BufTy).Contents (Elt F)) : (⟨S131072x512, .f32⟩ : BufTy).Contents (Elt F)) : (⟨S131072x512, .i1⟩ : BufTy).Contents (Elt F)) (broadcastInDim S131072x512 ![] bcast_S_S131072x512 (id (constant S_ .f32 0x00000000#32 : (⟨S_, .f32⟩ : BufTy).Contents (Elt F)) : (⟨S_, .f32⟩ : BufTy).Contents (Elt F)) : (⟨S131072x512, .f32⟩ : BufTy).Contents (Elt F)) (after ops V (Proc.devRef .tc main_v47) : (⟨S131072x512, .f32⟩ : BufTy).Contents (Elt F)) : (⟨S131072x512, .f32⟩ : BufTy).Contents (Elt F)) : (⟨S131072x512, .f32⟩ : BufTy).Contents (Elt F)) : (⟨S131072x512, .f32⟩ : BufTy).Contents (Elt F)) : (⟨S131072x512, .f32⟩ : BufTy).Contents (Elt F)) := by
  have h := seg_v48 (val8 V)
  rw [← down_main_v47_8 V] at h
  exact (down_main_v48_9 V).trans h

theorem v64_eq (V : Valuation τ sig (Elt F)) :
    after ops V (Proc.devRef .tc main_v64)
      = (mulf (Host.scatterAdd scatter_S131072x512_S262144x1_S262144x512_1_0_0_1 (broadcastInDim S131072x512 ![] bcast_S_S131072x512 (constant S_ .f32 0x00000000#32 : (⟨S_, .f32⟩ : BufTy).Contents (Elt F)) : (⟨S131072x512, .f32⟩ : BufTy).Contents (Elt F)) (broadcastInDim S262144x1 ![0] bcast_S262144_S262144x1_0 (after ops V (Proc.devRef .tc main_v15) : (⟨S262144, .i32⟩ : BufTy).Contents (Elt F)) : (⟨S262144x1, .i32⟩ : BufTy).Contents (Elt F)) (Host.gather gather_S131072x512_S262144x1_S262144x512_1_0_n_n_0_1_1512 (mulf (after ops V (Proc.devRef .tc main_v48) : (⟨S131072x512, .f32⟩ : BufTy).Contents (Elt F)) (broadcastInDim S131072x512 ![0, 1] bcast_S131072x1_S131072x512_0_1 (broadcastInDim S131072x1 ![0] bcast_S131072_S131072x1_0 (after ops V (Proc.devRef .tc main_v25) : (⟨S131072, .f32⟩ : BufTy).Contents (Elt F)) : (⟨S131072x1, .f32⟩ : BufTy).Contents (Elt F)) : (⟨S131072x512, .f32⟩ : BufTy).Contents (Elt F)) : (⟨S131072x512, .f32⟩ : BufTy).Contents (Elt F)) (broadcastInDim S262144x1 ![0] bcast_S262144_S262144x1_0 (select (cmpi .slt (after ops V (Proc.devRef .tc main_v14) : (⟨S262144, .i32⟩ : BufTy).Contents (Elt F)) (broadcastInDim S262144 ![] bcast_S_S262144 (constantI S_ 32 0#32 : (⟨S_, .i32⟩ : BufTy).Contents (Elt F)) : (⟨S262144, .i32⟩ : BufTy).Contents (Elt F)) : (⟨S262144, .i1⟩ : BufTy).Contents (Elt F)) (addi (after ops V (Proc.devRef .tc main_v14) : (⟨S262144, .i32⟩ : BufTy).Contents (Elt F)) (broadcastInDim S262144 ![] bcast_S_S262144 (constantI S_ 32 131072#32 : (⟨S_, .i32⟩ : BufTy).Contents (Elt F)) : (⟨S262144, .i32⟩ : BufTy).Contents (Elt F)) : (⟨S262144, .i32⟩ : BufTy).Contents (Elt F)) (after ops V (Proc.devRef .tc main_v14) : (⟨S262144, .i32⟩ : BufTy).Contents (Elt F)) : (⟨S262144, .i32⟩ : BufTy).Contents (Elt F)) : (⟨S262144x1, .i32⟩ : BufTy).Contents (Elt F)) : (⟨S262144x512, .f32⟩ : BufTy).Contents (Elt F)) : (⟨S131072x512, .f32⟩ : BufTy).Contents (Elt F)) (broadcastInDim S131072x512 ![0, 1] bcast_S131072x1_S131072x512_0_1 (broadcastInDim S131072x1 ![0] bcast_S131072_S131072x1_0 (after ops V (Proc.devRef .tc main_v28) : (⟨S131072, .f32⟩ : BufTy).Contents (Elt F)) : (⟨S131072x1, .f32⟩ : BufTy).Contents (Elt F)) : (⟨S131072x512, .f32⟩ : BufTy).Contents (Elt F)) : (⟨S131072x512, .f32⟩ : BufTy).Contents (Elt F)) := by
  have h := seg_v64 (val9 V)
  rw [← down_main_v15_9 V, ← down_main_v48_9 V, ← down_main_v25_9 V, ← down_main_v14_9 V, ← down_main_v28_9 V] at h
  exact (down_main_v64_11 V).trans h

theorem v68_eq (V : Valuation τ sig (Elt F)) :
    after ops V (Proc.devRef .tc main_v68)
      = (addf (Host.dotGeneral dot_S131072x512_S512x512_S131072x512_1_0_0_1_n_n none (after ops V (Proc.devRef .tc main_v64) : (⟨S131072x512, .f32⟩ : BufTy).Contents (Elt F)) (V (Proc.devRef .tc main_arg10) : (⟨S512x512, .f32⟩ : BufTy).Contents (Elt F)) : (⟨S131072x512, .f32⟩ : BufTy).Contents (Elt F)) (broadcastInDim S131072x512 ![0, 1] bcast_S1x512_S131072x512_0_1 (broadcastInDim S1x512 ![1] bcast_S512_S1x512_1 (V (Proc.devRef .tc main_arg11) : (⟨S512, .f32⟩ : BufTy).Contents (Elt F)) : (⟨S1x512, .f32⟩ : BufTy).Contents (Elt F)) : (⟨S131072x512, .f32⟩ : BufTy).Contents (Elt F)) : (⟨S131072x512, .f32⟩ : BufTy).Contents (Elt F)) := by
  have h := seg_v68 (val11 V)
  rw [← down_main_v64_11 V, val11_main_arg10 V, val11_main_arg11 V] at h
  exact (down_main_v68_12 V).trans h

theorem v69_eq (V : Valuation τ sig (Elt F)) :
    after ops V (Proc.devRef .tc main_v69)
      = (select (cmpf .ogt (after ops V (Proc.devRef .tc main_v68) : (⟨S131072x512, .f32⟩ : BufTy).Contents (Elt F)) (broadcastInDim S131072x512 ![] bcast_S_S131072x512 (constant S_ .f32 0x00000000#32 : (⟨S_, .f32⟩ : BufTy).Contents (Elt F)) : (⟨S131072x512, .f32⟩ : BufTy).Contents (Elt F)) : (⟨S131072x512, .i1⟩ : BufTy).Contents (Elt F)) (after ops V (Proc.devRef .tc main_v68) : (⟨S131072x512, .f32⟩ : BufTy).Contents (Elt F)) (mulf (broadcastInDim S131072x512 ![] bcast_S_S131072x512 (constant S_ .f32 0x3F800000#32 : (⟨S_, .f32⟩ : BufTy).Contents (Elt F)) : (⟨S131072x512, .f32⟩ : BufTy).Contents (Elt F)) (Host.expm1 (select (cmpf .ogt (after ops V (Proc.devRef .tc main_v68) : (⟨S131072x512, .f32⟩ : BufTy).Contents (Elt F)) (broadcastInDim S131072x512 ![] bcast_S_S131072x512 (constant S_ .f32 0x00000000#32 : (⟨S_, .f32⟩ : BufTy).Contents (Elt F)) : (⟨S131072x512, .f32⟩ : BufTy).Contents (Elt F)) : (⟨S131072x512, .i1⟩ : BufTy).Contents (Elt F)) (broadcastInDim S131072x512 ![] bcast_S_S131072x512 (id (constant S_ .f32 0x00000000#32 : (⟨S_, .f32⟩ : BufTy).Contents (Elt F)) : (⟨S_, .f32⟩ : BufTy).Contents (Elt F)) : (⟨S131072x512, .f32⟩ : BufTy).Contents (Elt F)) (after ops V (Proc.devRef .tc main_v68) : (⟨S131072x512, .f32⟩ : BufTy).Contents (Elt F)) : (⟨S131072x512, .f32⟩ : BufTy).Contents (Elt F)) : (⟨S131072x512, .f32⟩ : BufTy).Contents (Elt F)) : (⟨S131072x512, .f32⟩ : BufTy).Contents (Elt F)) : (⟨S131072x512, .f32⟩ : BufTy).Contents (Elt F)) := by
  have h := seg_v69 (val12 V)
  rw [← down_main_v68_12 V] at h
  exact (down_main_v69_13 V).trans h

theorem v70_eq (V : Valuation τ sig (Elt F)) :
    after ops V (Proc.devRef .tc main_v70)
      = (extractStridedSlice S65536x512 ![0, 0] (after ops V (Proc.devRef .tc main_v69) : (⟨S131072x512, .f32⟩ : BufTy).Contents (Elt F)) slices_S131072x512_S65536x512_0_0 : (⟨S65536x512, .f32⟩ : BufTy).Contents (Elt F)) := by
  have h := seg_v70 (val13 V)
  rw [← down_main_v69_13 V] at h
  exact (down_main_v70_14 V).trans h

theorem v71_eq (V : Valuation τ sig (Elt F)) :
    after ops V (Proc.devRef .tc main_v71)
      = (extractStridedSlice S32768x512 ![65536, 0] (after ops V (Proc.devRef .tc main_v69) : (⟨S131072x512, .f32⟩ : BufTy).Contents (Elt F)) slices_S131072x512_S32768x512_65536_0 : (⟨S32768x512, .f32⟩ : BufTy).Contents (Elt F)) := by
  have h := seg_v71 (val13 V)
  rw [← down_main_v69_13 V] at h
  exact (down_main_v71_14 V).trans h

theorem v72_eq (V : Valuation τ sig (Elt F)) :
    after ops V (Proc.devRef .tc main_v72)
      = (extractStridedSlice S32768x512 ![98304, 0] (after ops V (Proc.devRef .tc main_v69) : (⟨S131072x512, .f32⟩ : BufTy).Contents (Elt F)) slices_S131072x512_S32768x512_98304_0 : (⟨S32768x512, .f32⟩ : BufTy).Contents (Elt F)) := by
  have h := seg_v72 (val13 V)
  rw [← down_main_v69_13 V] at h
  exact (down_main_v72_14 V).trans h

end Cert.ReferenceIdeal.Hand

end
-- ==== Proof.RefSpec.lean ====
/- The reference run's stage values through the host steps the two programs share (concatenation of the three blocks,
   an endpoint list with its self-loops, the degree normalisation, one round of normalised aggregation, the three
   slices): each stage value of the run is that step applied to the earlier stage values. The step functions are
   spelt over the other program's shape abbreviations, dimension records and side-condition proofs; the shapes are
   the same literals, the records have the same fields, and the proofs are proofs, so the two spellings of a step
   are one term. -/
import proofs.«139939_j23055384445693_1_alg».proof.Proof.RefRead
import proofs.«139939_j23055384445693_1_alg».proof.Proof.HostSpec

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

theorem v12_spec (V : Valuation τ sig (Elt F)) :
    after ops V (Proc.devRef .tc main_v12)
      = Cert.HostSpec.cat3 (after ops V (Proc.devRef .tc main_v3)) (after ops V (Proc.devRef .tc main_v7)) (after ops V (Proc.devRef .tc main_v11)) :=
  (v12_eq V).trans rfl

theorem v14_spec (V : Valuation τ sig (Elt F)) :
    after ops V (Proc.devRef .tc main_v14) = Cert.HostSpec.withLoops (V (Proc.devRef .tc main_arg12)) :=
  (v14_eq V).trans rfl

theorem v15_spec (V : Valuation τ sig (Elt F)) :
    after ops V (Proc.devRef .tc main_v15) = Cert.HostSpec.withLoops (V (Proc.devRef .tc main_arg13)) :=
  (v15_eq V).trans rfl

theorem v25_spec (V : Valuation τ sig (Elt F)) :
    after ops V (Proc.devRef .tc main_v25) = Cert.HostSpec.degNorm (after ops V (Proc.devRef .tc main_v14)) :=
  (v25_eq V).trans rfl

theorem v28_spec (V : Valuation τ sig (Elt F)) :
    after ops V (Proc.devRef .tc main_v28) = Cert.HostSpec.degNorm (after ops V (Proc.devRef .tc main_v15)) :=
  (v28_eq V).trans rfl

theorem v44_spec (V : Valuation τ sig (Elt F)) :
    after ops V (Proc.devRef .tc main_v44)
      = Cert.HostSpec.agg (after ops V (Proc.devRef .tc main_v12)) (after ops V (Proc.devRef .tc main_v25)) (after ops V (Proc.devRef .tc main_v28))
          (after ops V (Proc.devRef .tc main_v14)) (after ops V (Proc.devRef .tc main_v15)) :=
  (v44_eq V).trans rfl

theorem v64_spec (V : Valuation τ sig (Elt F)) :
    after ops V (Proc.devRef .tc main_v64)
      = Cert.HostSpec.agg (after ops V (Proc.devRef .tc main_v48)) (after ops V (Proc.devRef .tc main_v25)) (after ops V (Proc.devRef .tc main_v28))
          (after ops V (Proc.devRef .tc main_v14)) (after ops V (Proc.devRef .tc main_v15)) :=
  (v64_eq V).trans rfl

theorem v70_spec (V : Valuation τ sig (Elt F)) :
    after ops V (Proc.devRef .tc main_v70) = Cert.HostSpec.slice0 (after ops V (Proc.devRef .tc main_v69)) :=
  (v70_eq V).trans rfl

theorem v71_spec (V : Valuation τ sig (Elt F)) :
    after ops V (Proc.devRef .tc main_v71) = Cert.HostSpec.slice1 (after ops V (Proc.devRef .tc main_v69)) :=
  (v71_eq V).trans rfl

theorem v72_spec (V : Valuation τ sig (Elt F)) :
    after ops V (Proc.devRef .tc main_v72) = Cert.HostSpec.slice2 (after ops V (Proc.devRef .tc main_v69)) :=
  (v72_eq V).trans rfl

end Cert.ReferenceIdeal.Hand

end
-- ==== Proof.LibDenseHost.lean ====
/-
  The host's matrix product, read at an index.

  A `dot_general` of a `[K, N]` left operand with an `[N, Q]` right operand, contracting the left's second axis with
  the right's first: over the extended reals entry `(k, q)` of the result is the plain sum `Σ n, l (k, n) * r (n, q)`,
  whatever the schedule — the same sum a matrix unit accumulates into zero, so a product computed block of rows by
  block of rows and a product computed whole agree entry by entry.
-/
import proofs.«139939_j23055384445693_1_alg».proof.Proof.LibDenseBlock

noncomputable section

namespace Idealize.ShloMosaic.DenseBlock

open Idealize.ShloMosaic Idealize.ShloMosaic.ValueIdx

variable {K N Q : Nat} (wf : DotDims.WF ⟨2, ![K, N]⟩ ⟨2, ![N, Q]⟩ ⟨2, ![K, Q]⟩ [1] [0] [0] [1] [] [])

/-- Entry `(k, q)` of the host's product is `Σ n, l (k, n) * r (n, q)`. -/
theorem dotGeneral_apply_ix2 {φ₁ φ₂ : FTy} (sched : HostSchedule) (l : FVec Ideal ⟨2, ![K, N]⟩ φ₁)
    (r : FVec Ideal ⟨2, ![N, Q]⟩ φ₂) (k : Fin K) (q : Fin Q) :
    FloatOps.dotGeneral (mmDims K N Q wf) none sched l r (ix2 k q) = ∑ n : Fin N, l (ix2 k n) * r (ix2 n q) := by
  rw [Ideal.dotGeneral_apply, ← Equiv.sum_comp (contrEquiv1 (mmDims K N Q wf) N rfl rfl).symm]
  refine Finset.sum_congr rfl fun n _ => ?_
  have hn := contrEquiv1_symm_val (mmDims K N Q wf) N rfl rfl n
  have el : (mmDims K N Q wf).lhsIdx (ix2 k q) ((contrEquiv1 (mmDims K N Q wf) N rfl rfl).symm n) = ix2 k n :=
    funext fun a => Fin.ext (by
      match a with
      | ⟨0, _⟩ => exact lhs_row wf _ _
      | ⟨1, _⟩ => exact (lhs_col wf _ _).trans hn)
  have er : (mmDims K N Q wf).rhsIdx (ix2 k q) ((contrEquiv1 (mmDims K N Q wf) N rfl rfl).symm n) = ix2 n q :=
    funext fun a => Fin.ext (by
      match a with
      | ⟨0, _⟩ => exact (rhs_row wf _ _).trans hn
      | ⟨1, _⟩ => exact rhs_col wf _ _)
  rw [el, er]

end Idealize.ShloMosaic.DenseBlock

end
-- ==== Proof.LibBiasRows.lean ====
/-
  A bias row laid along every row, as a host program spells it.

  A vector `[Q]` is first stood up as one row `[1, Q]` (its axis sent to the second axis) and that row is then repeated
  along `M` rows (both axes kept): entry `(r, q)` of the result is entry `q` of the vector.
-/
import Idealize.ShloMosaic.Lib.ValueIdx
import Idealize.ShloMosaic.Lib.Pipeline.Value

noncomputable section

namespace Idealize.ShloMosaic.BiasRows

open Idealize.ShloMosaic Idealize.ShloMosaic.ValueIdx

/-- Entry `(r, q)` of a vector broadcast to one row and then to `M` rows is the vector's entry `q`. -/
theorem biasRows_apply {α : Type} {M Q : Nat} (b : (⟨1, ![Q]⟩ : Shape).Idx → α)
    (h1 : (⟨1, ![Q]⟩ : Shape).BroadcastsInDim ⟨2, ![1, Q]⟩ ![1])
    (h2 : (⟨2, ![1, Q]⟩ : Shape).BroadcastsInDim ⟨2, ![M, Q]⟩ ![0, 1]) (r : Fin M) (q : Fin Q) :
    broadcastInDim ⟨2, ![M, Q]⟩ ![0, 1] h2 (broadcastInDim ⟨2, ![1, Q]⟩ ![1] h1 b) (ix2 r q) = b (ix1 q) := by
  rw [broadcastInDim_apply ![0, 1] h2 _ (ix2 r q) (ix2 (0 : Fin 1) q) (fun a => by
    match a with
    | ⟨0, _⟩ => rfl
    | ⟨1, _⟩ =>
      show q.val = if Q = 1 then 0 else q.val
      split
      · have := q.isLt; omega
      · rfl)]
  exact broadcastInDim_apply ![1] h1 b (ix2 (0 : Fin 1) q) (ix1 q) (fun a => by
    match a with
    | ⟨0, _⟩ =>
      show q.val = if Q = 1 then 0 else q.val
      split
      · have := q.isLt; omega
      · rfl)

end Idealize.ShloMosaic.BiasRows

end
-- ==== Proof.RefValue.lean ====
/-
  The reference's layers read as values over the extended reals: a host matrix product plus a bias row laid along every
  row is, entry by entry, the dense layer `Σ n, A (r, n) * W (n, q) + b q`; and the reference's exponential linear unit
  (positive entries kept; elsewhere one times `expm1` of the entry, the positive entries having been replaced by zero first)
  is, entry by entry, `eluR`.
-/
import proofs.«139939_j23055384445693_1_alg».proof.ReferenceIdeal
import proofs.«139939_j23055384445693_1_alg».proof.Proof.Gen.ReferenceIdeal
import proofs.«139939_j23055384445693_1_alg».proof.Proof.LibDenseHost
import proofs.«139939_j23055384445693_1_alg».proof.Proof.LibBiasRows
import proofs.«139939_j23055384445693_1_alg».proof.Proof.Spec

noncomputable section

namespace Cert.ReferenceIdeal.HandValue

open Cert.ReferenceIdeal Cert.ReferenceIdeal.Gen Cert.Spec
open Idealize.ShloMosaic Idealize.ShloMosaic.ValueIdx

/-- The first node type's projection. -/
theorem refDense0 (A : FVec Ideal S65536x256 .f32) (W : FVec Ideal S256x512 .f32) (b : FVec Ideal S512 .f32) :
    addf (Host.dotGeneral dot_S65536x256_S256x512_S65536x512_1_0_0_1_n_n none A W)
      (broadcastInDim S65536x512 ![0, 1] bcast_S1x512_S65536x512_0_1 (broadcastInDim S1x512 ![1] bcast_S512_S1x512_1 b))
    = fun i => dense A W b (i 0) (i 1) := by
  funext i
  obtain ⟨r, q, rfl⟩ : ∃ (r : Fin 65536) (q : Fin 512), i = ix2 r q := ⟨i 0, i 1, eq_ix2 i⟩
  have h1 := DenseBlock.dotGeneral_apply_ix2 (K := 65536) (N := 256) (Q := 512)
    dot_S65536x256_S256x512_S65536x512_1_0_0_1_n_n.wf HostSchedule.single A W r q
  have h2 := BiasRows.biasRows_apply (M := 65536) b bcast_S512_S1x512_1 bcast_S1x512_S65536x512_0_1 r q
  show FloatOps.dotGeneral (DenseBlock.mmDims 65536 256 512 dot_S65536x256_S256x512_S65536x512_1_0_0_1_n_n.wf) none .single A W (ix2 r q)
      + broadcastInDim S65536x512 ![0, 1] bcast_S1x512_S65536x512_0_1 (broadcastInDim S1x512 ![1] bcast_S512_S1x512_1 b) (ix2 r q)
    = dense A W b r q
  unfold dense
  exact congr (congrArg HAdd.hAdd h1) h2

/-- The second node type's projection. -/
theorem refDense1 (A : FVec Ideal S32768x512 .f32) (W : FVec Ideal S512x512 .f32) (b : FVec Ideal S512 .f32) :
    addf (Host.dotGeneral dot_S32768x512_S512x512_S32768x512_1_0_0_1_n_n none A W)
      (broadcastInDim S32768x512 ![0, 1] bcast_S1x512_S32768x512_0_1 (broadcastInDim S1x512 ![1] bcast_S512_S1x512_1 b))
    = fun i => dense A W b (i 0) (i 1) := by
  funext i
  obtain ⟨r, q, rfl⟩ : ∃ (r : Fin 32768) (q : Fin 512), i = ix2 r q := ⟨i 0, i 1, eq_ix2 i⟩
  have h1 := DenseBlock.dotGeneral_apply_ix2 (K := 32768) (N := 512) (Q := 512)
    dot_S32768x512_S512x512_S32768x512_1_0_0_1_n_n.wf HostSchedule.single A W r q
  have h2 := BiasRows.biasRows_apply (M := 32768) b bcast_S512_S1x512_1 bcast_S1x512_S32768x512_0_1 r q
  show FloatOps.dotGeneral (DenseBlock.mmDims 32768 512 512 dot_S32768x512_S512x512_S32768x512_1_0_0_1_n_n.wf) none .single A W (ix2 r q)
      + broadcastInDim S32768x512 ![0, 1] bcast_S1x512_S32768x512_0_1 (broadcastInDim S1x512 ![1] bcast_S512_S1x512_1 b) (ix2 r q)
    = dense A W b r q
  unfold dense
  exact congr (congrArg HAdd.hAdd h1) h2

/-- The third node type's projection. -/
theorem refDense2 (A : FVec Ideal S32768x1024 .f32) (W : FVec Ideal S1024x512 .f32) (b : FVec Ideal S512 .f32) :
    addf (Host.dotGeneral dot_S32768x1024_S1024x512_S32768x512_1_0_0_1_n_n none A W)
      (broadcastInDim S32768x512 ![0, 1] bcast_S1x512_S32768x512_0_1 (broadcastInDim S1x512 ![1] bcast_S512_S1x512_1 b))
    = fun i => dense A W b (i 0) (i 1) := by
  funext i
  obtain ⟨r, q, rfl⟩ : ∃ (r : Fin 32768) (q : Fin 512), i = ix2 r q := ⟨i 0, i 1, eq_ix2 i⟩
  have h1 := DenseBlock.dotGeneral_apply_ix2 (K := 32768) (N := 1024) (Q := 512)
    dot_S32768x1024_S1024x512_S32768x512_1_0_0_1_n_n.wf HostSchedule.single A W r q
  have h2 := BiasRows.biasRows_apply (M := 32768) b bcast_S512_S1x512_1 bcast_S1x512_S32768x512_0_1 r q
  show FloatOps.dotGeneral (DenseBlock.mmDims 32768 1024 512 dot_S32768x1024_S1024x512_S32768x512_1_0_0_1_n_n.wf) none .single A W (ix2 r q)
      + broadcastInDim S32768x512 ![0, 1] bcast_S1x512_S32768x512_0_1 (broadcastInDim S1x512 ![1] bcast_S512_S1x512_1 b) (ix2 r q)
    = dense A W b r q
  unfold dense
  exact congr (congrArg HAdd.hAdd h1) h2

/-- The second graph layer's weights and bias applied to the aggregated features. -/
theorem refDense4 (A : FVec Ideal S131072x512 .f32) (W : FVec Ideal S512x512 .f32) (b : FVec Ideal S512 .f32) :
    addf (Host.dotGeneral dot_S131072x512_S512x512_S131072x512_1_0_0_1_n_n none A W)
      (broadcastInDim S131072x512 ![0, 1] bcast_S1x512_S131072x512_0_1 (broadcastInDim S1x512 ![1] bcast_S512_S1x512_1 b))
    = fun i => dense A W b (i 0) (i 1) := by
  funext i
  obtain ⟨r, q, rfl⟩ : ∃ (r : Fin 131072) (q : Fin 512), i = ix2 r q := ⟨i 0, i 1, eq_ix2 i⟩
  have h1 := DenseBlock.dotGeneral_apply_ix2 (K := 131072) (N := 512) (Q := 512)
    dot_S131072x512_S512x512_S131072x512_1_0_0_1_n_n.wf HostSchedule.single A W r q
  have h2 := BiasRows.biasRows_apply (M := 131072) b bcast_S512_S1x512_1 bcast_S1x512_S131072x512_0_1 r q
  show FloatOps.dotGeneral (DenseBlock.mmDims 131072 512 512 dot_S131072x512_S512x512_S131072x512_1_0_0_1_n_n.wf) none .single A W (ix2 r q)
      + broadcastInDim S131072x512 ![0, 1] bcast_S1x512_S131072x512_0_1 (broadcastInDim S1x512 ![1] bcast_S512_S1x512_1 b) (ix2 r q)
    = dense A W b r q
  unfold dense
  exact congr (congrArg HAdd.hAdd h1) h2

/-- The reference's exponential linear unit, entry by entry. -/
theorem refElu (x : FVec Ideal S131072x512 .f32) :
    select (cmpf .ogt x (broadcastInDim S131072x512 ![] bcast_S_S131072x512 (constant S_ .f32 0x00000000#32))) x (mulf (broadcastInDim S131072x512 ![] bcast_S_S131072x512 (constant S_ .f32 0x3F800000#32)) (Host.expm1 (select (cmpf .ogt x (broadcastInDim S131072x512 ![] bcast_S_S131072x512 (constant S_ .f32 0x00000000#32))) (broadcastInDim S131072x512 ![] bcast_S_S131072x512 (id (constant S_ .f32 0x00000000#32))) x)))
    = fun i => eluR (x i) := by
  funext i
  rfl

/-- A bias row added to every row, entry by entry. -/
theorem refBias (X : FVec Ideal S131072x512 .f32) (b : FVec Ideal S512 .f32) :
    addf X (broadcastInDim S131072x512 ![0, 1] bcast_S1x512_S131072x512_0_1 (broadcastInDim S1x512 ![1] bcast_S512_S1x512_1 b))
    = fun i => X i + b (ix1 (i 1)) := by
  funext i
  obtain ⟨r, q, rfl⟩ : ∃ (r : Fin 131072) (q : Fin 512), i = ix2 r q := ⟨i 0, i 1, eq_ix2 i⟩
  have h2 := BiasRows.biasRows_apply (M := 131072) b bcast_S512_S1x512_1 bcast_S1x512_S131072x512_0_1 r q
  show X (ix2 r q) + broadcastInDim S131072x512 ![0, 1] bcast_S1x512_S131072x512_0_1 (broadcastInDim S1x512 ![1] bcast_S512_S1x512_1 b) (ix2 r q)
    = X (ix2 r q) + b (ix1 q)
  rw [h2]

end Cert.ReferenceIdeal.HandValue

end
-- ==== Proof.RefFinal.lean ====
/-
  The reference's three results over the extended reals, as the row ranges of the common value `Model.last` of its
  argument arrays: its projections are the dense layers entry by entry, its host steps are the shared ones, and its
  exponential linear unit agrees entry by entry with the kernel's spelling.
-/
import proofs.«139939_j23055384445693_1_alg».proof.Proof.RefSpec
import proofs.«139939_j23055384445693_1_alg».proof.Proof.RefValue
import proofs.«139939_j23055384445693_1_alg».proof.Proof.Model

noncomputable section

namespace Cert.ReferenceIdeal.Hand

open Cert.ReferenceIdeal Cert.ReferenceIdeal.Gen Cert.ReferenceIdeal.HandValue Cert.Spec
open Idealize.ShloMosaic Idealize.ShloMosaic.TcCoe Idealize.ShloMosaic.ValueIdx Idealize.SL.Sem

variable (V : Valuation τ sig (Elt Ideal))

/-- The three projections, stacked, are the common features. -/
theorem v12_model : StableHlo.after ops V (Proc.devRef .tc main_v12) = (Cert.Model.feats (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) := by
  rw [v12_spec, v3_eq, v7_eq, v11_eq, refDense0, refDense1, refDense2]
  rfl

/-- The two endpoint lists with self-loops. -/
theorem v14_model : StableHlo.after ops V (Proc.devRef .tc main_v14) = Cert.HostSpec.withLoops (V (Proc.devRef .tc main_arg12)) := v14_spec V
theorem v15_model : StableHlo.after ops V (Proc.devRef .tc main_v15) = Cert.HostSpec.withLoops (V (Proc.devRef .tc main_arg13)) := v15_spec V

/-- The two degree normalisations. -/
theorem v25_model : StableHlo.after ops V (Proc.devRef .tc main_v25) = Cert.HostSpec.degNorm (Cert.HostSpec.withLoops (V (Proc.devRef .tc main_arg12))) := by
  rw [v25_spec, v14_model]
theorem v28_model : StableHlo.after ops V (Proc.devRef .tc main_v28) = Cert.HostSpec.degNorm (Cert.HostSpec.withLoops (V (Proc.devRef .tc main_arg13))) := by
  rw [v28_spec, v15_model]

/-- The first aggregation round. -/
theorem v44_model : StableHlo.after ops V (Proc.devRef .tc main_v44) = Cert.Model.round (Cert.Model.feats (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg12)) (V (Proc.devRef .tc main_arg13)) := by
  rw [v44_spec, v12_model, v25_model, v28_model, v14_model, v15_model]
  rfl

/-- The first graph layer. -/
theorem v48_model : StableHlo.after ops V (Proc.devRef .tc main_v48) = (Cert.Model.hidden (Cert.Model.feats (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg12)) (V (Proc.devRef .tc main_arg13))) := by
  rw [v48_eq, v47_eq, v44_model, refBias, refElu]
  funext i
  exact (eluK_eq_eluR _).symm

/-- The second aggregation round. -/
theorem v64_model : StableHlo.after ops V (Proc.devRef .tc main_v64) = Cert.Model.round (Cert.Model.hidden (Cert.Model.feats (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg12)) (V (Proc.devRef .tc main_arg13))) (V (Proc.devRef .tc main_arg12)) (V (Proc.devRef .tc main_arg13)) := by
  rw [v64_spec, v48_model, v25_model, v28_model, v14_model, v15_model]
  rfl

/-- The second graph layer. -/
theorem v69_model : StableHlo.after ops V (Proc.devRef .tc main_v69) = (Cert.Model.last (Cert.Model.hidden (Cert.Model.feats (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg12)) (V (Proc.devRef .tc main_arg13))) (V (Proc.devRef .tc main_arg10)) (V (Proc.devRef .tc main_arg11)) (V (Proc.devRef .tc main_arg12)) (V (Proc.devRef .tc main_arg13))) := by
  rw [v69_eq, v68_eq, v64_model, refDense4, refElu]
  funext i
  exact (eluK_eq_eluR _).symm

/-- The three results. -/
theorem v70_model : StableHlo.after ops V (Proc.devRef .tc main_v70) = Cert.HostSpec.slice0 (Cert.Model.last (Cert.Model.hidden (Cert.Model.feats (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg12)) (V (Proc.devRef .tc main_arg13))) (V (Proc.devRef .tc main_arg10)) (V (Proc.devRef .tc main_arg11)) (V (Proc.devRef .tc main_arg12)) (V (Proc.devRef .tc main_arg13))) := by rw [v70_spec, v69_model]
theorem v71_model : StableHlo.after ops V (Proc.devRef .tc main_v71) = Cert.HostSpec.slice1 (Cert.Model.last (Cert.Model.hidden (Cert.Model.feats (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg12)) (V (Proc.devRef .tc main_arg13))) (V (Proc.devRef .tc main_arg10)) (V (Proc.devRef .tc main_arg11)) (V (Proc.devRef .tc main_arg12)) (V (Proc.devRef .tc main_arg13))) := by rw [v71_spec, v69_model]
theorem v72_model : StableHlo.after ops V (Proc.devRef .tc main_v72) = Cert.HostSpec.slice2 (Cert.Model.last (Cert.Model.hidden (Cert.Model.feats (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8))) (V (Proc.devRef .tc main_arg9)) (V (Proc.devRef .tc main_arg12)) (V (Proc.devRef .tc main_arg13))) (V (Proc.devRef .tc main_arg10)) (V (Proc.devRef .tc main_arg11)) (V (Proc.devRef .tc main_arg12)) (V (Proc.devRef .tc main_arg13))) := by rw [v72_spec, v69_model]

end Cert.ReferenceIdeal.Hand

end
-- ==== Proof.Bridge.lean ====
/-
  From memories agreeing on the fourteen argument arrays, the reference's three results are the kernel program's: both are
  the row ranges of the common value of the argument arrays, so it is enough to replace the reference's argument arrays by
  the kernel program's, one array at a time.
-/
import proofs.«139939_j23055384445693_1_alg».proof.Proof.KI.Final
import proofs.«139939_j23055384445693_1_alg».proof.Proof.RefFinal

noncomputable section

namespace Cert.Bridge

open Idealize.ShloMosaic Idealize.ShloMosaic.TcCoe Idealize.SL.Sem

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- The reference's common value, from memories agreeing on the arguments, is the kernel program's. -/
theorem ref_common
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    StableHlo.after Cert.ReferenceIdeal.Hand.ops (StableHlo.launchContents m' c) (Proc.devRef .tc Cert.ReferenceIdeal.main_v69)
      = Cert.KernelIdeal.Hand.common m c := by
  have h0 : StableHlo.launchContents m' c (Proc.devRef .tc Cert.ReferenceIdeal.main_arg0) = m ((c : Thread Cert.KernelIdeal.nD Cert.KernelIdeal.τ).loc Cert.KernelIdeal.main_arg0) := e0
  have h1 : StableHlo.launchContents m' c (Proc.devRef .tc Cert.ReferenceIdeal.main_arg1) = m ((c : Thread Cert.KernelIdeal.nD Cert.KernelIdeal.τ).loc Cert.KernelIdeal.main_arg1) := e1
  have h2 : StableHlo.launchContents m' c (Proc.devRef .tc Cert.ReferenceIdeal.main_arg2) = m ((c : Thread Cert.KernelIdeal.nD Cert.KernelIdeal.τ).loc Cert.KernelIdeal.main_arg2) := e2
  have h3 : StableHlo.launchContents m' c (Proc.devRef .tc Cert.ReferenceIdeal.main_arg3) = m ((c : Thread Cert.KernelIdeal.nD Cert.KernelIdeal.τ).loc Cert.KernelIdeal.main_arg3) := e3
  have h4 : StableHlo.launchContents m' c (Proc.devRef .tc Cert.ReferenceIdeal.main_arg4) = m ((c : Thread Cert.KernelIdeal.nD Cert.KernelIdeal.τ).loc Cert.KernelIdeal.main_arg4) := e4
  have h5 : StableHlo.launchContents m' c (Proc.devRef .tc Cert.ReferenceIdeal.main_arg5) = m ((c : Thread Cert.KernelIdeal.nD Cert.KernelIdeal.τ).loc Cert.KernelIdeal.main_arg5) := e5
  have h6 : StableHlo.launchContents m' c (Proc.devRef .tc Cert.ReferenceIdeal.main_arg6) = m ((c : Thread Cert.KernelIdeal.nD Cert.KernelIdeal.τ).loc Cert.KernelIdeal.main_arg6) := e6
  have h7 : StableHlo.launchContents m' c (Proc.devRef .tc Cert.ReferenceIdeal.main_arg7) = m ((c : Thread Cert.KernelIdeal.nD Cert.KernelIdeal.τ).loc Cert.KernelIdeal.main_arg7) := e7
  have h8 : StableHlo.launchContents m' c (Proc.devRef .tc Cert.ReferenceIdeal.main_arg8) = m ((c : Thread Cert.KernelIdeal.nD Cert.KernelIdeal.τ).loc Cert.KernelIdeal.main_arg8) := e8
  have h9 : StableHlo.launchContents m' c (Proc.devRef .tc Cert.ReferenceIdeal.main_arg9) = m ((c : Thread Cert.KernelIdeal.nD Cert.KernelIdeal.τ).loc Cert.KernelIdeal.main_arg9) := e9
  have h10 : StableHlo.launchContents m' c (Proc.devRef .tc Cert.ReferenceIdeal.main_arg10) = m ((c : Thread Cert.KernelIdeal.nD Cert.KernelIdeal.τ).loc Cert.KernelIdeal.main_arg10) := e10
  have h11 : StableHlo.launchContents m' c (Proc.devRef .tc Cert.ReferenceIdeal.main_arg11) = m ((c : Thread Cert.KernelIdeal.nD Cert.KernelIdeal.τ).loc Cert.KernelIdeal.main_arg11) := e11
  have h12 : StableHlo.launchContents m' c (Proc.devRef .tc Cert.ReferenceIdeal.main_arg12) = m ((c : Thread Cert.KernelIdeal.nD Cert.KernelIdeal.τ).loc Cert.KernelIdeal.main_arg12) := e12
  have h13 : StableHlo.launchContents m' c (Proc.devRef .tc Cert.ReferenceIdeal.main_arg13) = m ((c : Thread Cert.KernelIdeal.nD Cert.KernelIdeal.τ).loc Cert.KernelIdeal.main_arg13) := e13
  rw [Cert.ReferenceIdeal.Hand.v69_model, h0, h1, h2, h3, h4, h5, h6, h7, h8, h9, h10, h11, h12, h13]
  rfl

end Cert.Bridge

end
-- ==== Proof.lean ====
/-
  The certificate of the heterogeneous graph network kernel against its reference.

  The kernel program runs three per-type dense layers in tiled matrix-unit kernels, stacks them, and then twice aggregates
  over the graph with self-loops (normalise by the source degree, gather along the edges, sum into the destination
  rows, normalise by the destination degree); after the first aggregation a tiled pointwise kernel adds a bias and
  applies the exponential linear unit, after the second a tiled matrix-unit kernel applies a dense layer and the unit.
  The reference does the same with host matrix products and the library's unit.

  Over the extended reals both programs end with the same three arrays, the row ranges of `Model.last`:
  * a matrix-unit product into a zero accumulator and a host matrix product are the same plain sums entry by entry, a
    rounding of the operands to a narrower format being the identity (the regions' value lemmas and `RefValue`);
  * the row blocks of each kernel tile its output array, so the array a region leaves is one function of the arrays it
    found (`KI/Value0 … Value4`);
  * the host steps between the kernels are the reference's own steps (`HostSpec`), applied to equal operands;
  * the two spellings of the exponential linear unit, `exp x - 1` and `1 * expm1 x'` with the positive entries of `x'`
    zeroed, agree on the branch that is taken (`Spec.eluK_eq_eluR`).
  No step needs the inputs to be finite: only sums are regrouped, never distributed.
  The three frames are the runs with the results dropped.
-/
import proofs.«139939_j23055384445693_1_alg».proof.Defs
import proofs.«139939_j23055384445693_1_alg».proof.Proof.Gen.Kernel
import proofs.«139939_j23055384445693_1_alg».proof.Proof.Gen.KernelIdeal
import proofs.«139939_j23055384445693_1_alg».proof.Proof.Gen.ReferenceIdeal
import proofs.«139939_j23055384445693_1_alg».proof.Proof.Gen.Pre_finite_inputs
import proofs.«139939_j23055384445693_1_alg».proof.Proof.K.Run
import proofs.«139939_j23055384445693_1_alg».proof.Proof.KI.Run
import proofs.«139939_j23055384445693_1_alg».proof.Proof.KI.Final
import proofs.«139939_j23055384445693_1_alg».proof.Proof.RefFinal
import proofs.«139939_j23055384445693_1_alg».proof.Proof.Bridge
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Hand.frame m ρ

theorem frame_ki : @Cert.frame_KernelIdeal Cert.KernelIdeal.Gen.facts Cert.Pre_finite_inputs.Gen.facts :=
  fun m ρ _ => Cert.KernelIdeal.Hand.frame m ρ

/-- The reference's run with the results dropped: no host step writes an argument. -/
theorem frame_ri : @Cert.frame_ReferenceIdeal Cert.ReferenceIdeal.Gen.facts Cert.Pre_finite_inputs.Gen.facts :=
  fun m ρ _ => (θ_run Cert.ReferenceIdeal.defs _ _).mono (fun r h c =>
    ⟨(h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _),
      (h c Cert.ReferenceIdeal.main_arg8).trans (Cert.ReferenceIdeal.Hand.arg8_eq _),
      (h c Cert.ReferenceIdeal.main_arg9).trans (Cert.ReferenceIdeal.Hand.arg9_eq _),
      (h c Cert.ReferenceIdeal.main_arg10).trans (Cert.ReferenceIdeal.Hand.arg10_eq _),
      (h c Cert.ReferenceIdeal.main_arg11).trans (Cert.ReferenceIdeal.Hand.arg11_eq _),
      (h c Cert.ReferenceIdeal.main_arg12).trans (Cert.ReferenceIdeal.Hand.arg12_eq _),
      (h c Cert.ReferenceIdeal.main_arg13).trans (Cert.ReferenceIdeal.Hand.arg13_eq _)⟩)
    (Cert.ReferenceIdeal.Hand.run_all (F := Ideal) m ρ)

theorem preserves : Cert.preserves_Kernel_KernelIdeal := trivial

/-- Both programs end, from memories agreeing on the arguments, with the three row ranges of the common value. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Hand.res0 m c, fun c => Cert.KernelIdeal.Hand.res1 m c,
    fun c => Cert.KernelIdeal.Hand.res2 m c, ?_, ?_⟩
  · refine (θ_run Cert.KernelIdeal.defs _ _).mono (fun r h c => ?_) (Cert.KernelIdeal.Hand.run_all (F := Ideal) m ρ)
    exact ⟨(h c _ (Cert.KernelIdeal.Hand.mem_uc Cert.KernelIdeal.main_v54 (by decide))).trans (Cert.KernelIdeal.Hand.k_v54 m ρ c),
      (h c _ (Cert.KernelIdeal.Hand.mem_uc Cert.KernelIdeal.main_v55 (by decide))).trans (Cert.KernelIdeal.Hand.k_v55 m ρ c),
      (h c _ (Cert.KernelIdeal.Hand.mem_uc Cert.KernelIdeal.main_v56 (by decide))).trans (Cert.KernelIdeal.Hand.k_v56 m ρ c),
      (h c _ (Cert.KernelIdeal.Hand.mem_uc Cert.KernelIdeal.main_arg0 (by decide))).trans (Cert.KernelIdeal.Hand.W12_main_arg0 m ρ c),
      (h c _ (Cert.KernelIdeal.Hand.mem_uc Cert.KernelIdeal.main_arg1 (by decide))).trans (Cert.KernelIdeal.Hand.W12_main_arg1 m ρ c),
      (h c _ (Cert.KernelIdeal.Hand.mem_uc Cert.KernelIdeal.main_arg2 (by decide))).trans (Cert.KernelIdeal.Hand.W12_main_arg2 m ρ c),
      (h c _ (Cert.KernelIdeal.Hand.mem_uc Cert.KernelIdeal.main_arg3 (by decide))).trans (Cert.KernelIdeal.Hand.W12_main_arg3 m ρ c),
      (h c _ (Cert.KernelIdeal.Hand.mem_uc Cert.KernelIdeal.main_arg4 (by decide))).trans (Cert.KernelIdeal.Hand.W12_main_arg4 m ρ c),
      (h c _ (Cert.KernelIdeal.Hand.mem_uc Cert.KernelIdeal.main_arg5 (by decide))).trans (Cert.KernelIdeal.Hand.W12_main_arg5 m ρ c),
      (h c _ (Cert.KernelIdeal.Hand.mem_uc Cert.KernelIdeal.main_arg6 (by decide))).trans (Cert.KernelIdeal.Hand.W12_main_arg6 m ρ c),
      (h c _ (Cert.KernelIdeal.Hand.mem_uc Cert.KernelIdeal.main_arg7 (by decide))).trans (Cert.KernelIdeal.Hand.W12_main_arg7 m ρ c),
      (h c _ (Cert.KernelIdeal.Hand.mem_uc Cert.KernelIdeal.main_arg8 (by decide))).trans (Cert.KernelIdeal.Hand.W12_main_arg8 m ρ c),
      (h c _ (Cert.KernelIdeal.Hand.mem_uc Cert.KernelIdeal.main_arg9 (by decide))).trans (Cert.KernelIdeal.Hand.W12_main_arg9 m ρ c),
      (h c _ (Cert.KernelIdeal.Hand.mem_uc Cert.KernelIdeal.main_arg10 (by decide))).trans (Cert.KernelIdeal.Hand.W12_main_arg10 m ρ c),
      (h c _ (Cert.KernelIdeal.Hand.mem_uc Cert.KernelIdeal.main_arg11 (by decide))).trans (Cert.KernelIdeal.Hand.W12_main_arg11 m ρ c),
      (h c _ (Cert.KernelIdeal.Hand.mem_uc Cert.KernelIdeal.main_arg12 (by decide))).trans (Cert.KernelIdeal.Hand.W12_main_arg12 m ρ c),
      (h c _ (Cert.KernelIdeal.Hand.mem_uc Cert.KernelIdeal.main_arg13 (by decide))).trans (Cert.KernelIdeal.Hand.W12_main_arg13 m ρ c)⟩
  · refine (θ_run Cert.ReferenceIdeal.defs _ _).mono (fun r h c => ?_) (Cert.ReferenceIdeal.Hand.run_all (F := Ideal) m' ρ')
    obtain ⟨e0, e1, e2, e3, e4, e5, e6, e7, e8, e9, e10, e11, e12, e13⟩ := hagree c
    have hc := Cert.Bridge.ref_common m m' c e0 e1 e2 e3 e4 e5 e6 e7 e8 e9 e10 e11 e12 e13
    exact ⟨(h c Cert.ReferenceIdeal.main_v70).trans ((Cert.ReferenceIdeal.Hand.v70_spec _).trans (congrArg Cert.HostSpec.slice0 hc)),
      (h c Cert.ReferenceIdeal.main_v71).trans ((Cert.ReferenceIdeal.Hand.v71_spec _).trans (congrArg Cert.HostSpec.slice1 hc)),
      (h c Cert.ReferenceIdeal.main_v72).trans ((Cert.ReferenceIdeal.Hand.v72_spec _).trans (congrArg Cert.HostSpec.slice2 hc)),
      (h c Cert.ReferenceIdeal.main_arg0).trans (Cert.ReferenceIdeal.Hand.arg0_eq _),
      (h c Cert.ReferenceIdeal.main_arg1).trans (Cert.ReferenceIdeal.Hand.arg1_eq _),
      (h c Cert.ReferenceIdeal.main_arg2).trans (Cert.ReferenceIdeal.Hand.arg2_eq _),
      (h c Cert.ReferenceIdeal.main_arg3).trans (Cert.ReferenceIdeal.Hand.arg3_eq _),
      (h c Cert.ReferenceIdeal.main_arg4).trans (Cert.ReferenceIdeal.Hand.arg4_eq _),
      (h c Cert.ReferenceIdeal.main_arg5).trans (Cert.ReferenceIdeal.Hand.arg5_eq _),
      (h c Cert.ReferenceIdeal.main_arg6).trans (Cert.ReferenceIdeal.Hand.arg6_eq _),
      (h c Cert.ReferenceIdeal.main_arg7).trans (Cert.ReferenceIdeal.Hand.arg7_eq _),
      (h c Cert.ReferenceIdeal.main_arg8).trans (Cert.ReferenceIdeal.Hand.arg8_eq _),
      (h c Cert.ReferenceIdeal.main_arg9).trans (Cert.ReferenceIdeal.Hand.arg9_eq _),
      (h c Cert.ReferenceIdeal.main_arg10).trans (Cert.ReferenceIdeal.Hand.arg10_eq _),
      (h c Cert.ReferenceIdeal.main_arg11).trans (Cert.ReferenceIdeal.Hand.arg11_eq _),
      (h c Cert.ReferenceIdeal.main_arg12).trans (Cert.ReferenceIdeal.Hand.arg12_eq _),
      (h c Cert.ReferenceIdeal.main_arg13).trans (Cert.ReferenceIdeal.Hand.arg13_eq _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
